-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v243)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v243) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v291) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x1 : Shape := ⟨2, ![800000, 1]⟩
abbrev S4x128x128 : Shape := ⟨3, ![4, 128, 128]⟩
abbrev S4x128 : Shape := ⟨2, ![4, 128]⟩
abbrev S4 : Shape := ⟨1, ![4]⟩
abbrev S4x1x128 : Shape := ⟨3, ![4, 1, 128]⟩
abbrev S3x128x128 : Shape := ⟨3, ![3, 128, 128]⟩
abbrev S3x128 : Shape := ⟨2, ![3, 128]⟩
abbrev S128 : Shape := ⟨1, ![128]⟩
abbrev S2x800000 : Shape := ⟨2, ![2, 800000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S4 : S_.BroadcastsInDim S4 (![] : Fin 0 → Fin S4.rank)
  reducesTo_S4_S_d0 : S4.ReducesTo [0] S_
  bcast_S_S4x1x128 : S_.BroadcastsInDim S4x1x128 (![] : Fin 0 → Fin S4x1x128.rank)
  reducesTo_S4x1x128_S_d0_1_2 : S4x1x128.ReducesTo [0, 1, 2] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S3x128x128 .f32) (main_arg12 : FVec F S3x128 .f32) (main_arg13 : FVec F S128 .f32) (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  let main_v54 : FVec F S3x128x128 .f32 := Host.absf main_arg11
  let main_cst_20 : FVec F S_ .f32 := constant S_ .f32 0x7F800000#32
  let main_v55 : FVec F S3x128x128 .f32 := broadcastInDim S3x128x128 ![] bcast_S_S3x128x128 main_cst_20
  let main_v56 : IVec S3x128x128 1 := cmpf .olt main_v54 main_v55
  let main_c_21 : IVec S_ 1 := constantI S_ 1 1#1
  let main_v57 : IVec S_ 1 := (fun x v => Host.reduce IntOp.andi x v reducesTo_S3x128x128_S_d0_1_2 h_S_) main_v56 main_c_21
  let main_v58 : IVec S_ 1 := andi main_v53 main_v57
  let main_v59 : FVec F S3x128 .f32 := Host.absf main_arg12
  let main_cst_22 : FVec F S_ .f32 := constant S_ .f32 0x7F800000#32
  let main_v60 : FVec F S3x128 .f32 := broadcastInDim S3x128 ![] bcast_S_S3x128 main_cst_22
  let main_v61 : IVec S3x128 1 := cmpf .olt main_v59 main_v60
  let main_c_23 : IVec S_ 1 := constantI S_ 1 1#1
  let main_v62 : IVec S_ 1 := (fun x v => Host.reduce IntOp.andi x v reducesTo_S3x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg7 : FVec F S4x1x128 .f32) (main_arg8 : FVec F S4x128 .f32) (main_arg9 : FVec F S3x128x128 .f32) (main_arg10 : FVec F S3x128 .f32) (main_arg11 : FVec F S3x128x128 .f32) (main_arg12 : FVec F S3x128 .f32) (main_arg13 : FVec F S128 .f32) (main_v33 : IVec S_ 1) : IVec S_ 1 :=
  let main_v34 : FVec F S4x1x128 .f32 := Host.absf main_arg7
  let main_cst_12 : FVec F S_ .f32 := constant S_ .f32 0x7F800000#32
  let main_v35 : FVec F S4x1x128 .f32 := broadcastInDim S4x1x128 ![] bcast_S_S4x1x128 main_cst_12
  let main_v36 : IVec S4x1x128 1 := cmpf .olt main_v34 main_v35
  let main_c_13 : IVec S_ 1 := constantI S_ 1 1#1
  let main_v37 : IVec S_ 1 := (fun x v => Host.reduce IntOp.andi x v reducesTo_S4x1x128_S_d0_1_2 h_S_) main_v36 main_c_13
  let main_v38 : IVec S_ 1 := andi main_v33 main_v37
  let main_v39 : FVec F S4x128 .f32 := Host.absf main_arg8
  let main_cst_14 : FVec F S_ .f32 := constant S_ .f32 0x7F800000#32
  let main_v40 : FVec F S4x128 .f32 := broadcastInDim S4x128 ![] bcast_S_S4x128 main_cst_14
  let main_v41 : IVec S4x128 1 := cmpf .olt main_v39 main_v40
  let main_c_15 : IVec S_ 1 := constantI S_ 1 1#1
  let main_v42 : IVec S_ 1 := (fun x v => Host.reduce IntOp.andi x v reducesTo_S4x128_S_d0_1 h_S_) main_v41 main_c_15
  let main_v43 : IVec S_ 1 := andi main_v38 main_v42
  let main_v44 : FVec F S3x128x128 .f32 := Host.absf main_arg9
  let main_cst_16 : FVec F S_ .f32 := constant S_ .f32 0x7F800000#32
  let main_v45 : FVec F S3x128x128 .f32 := broadcastInDim S3x128x128 ![] bcast_S_S3x128x128 main_cst_16
  let main_v46 : IVec S3x128x128 1 := cmpf .olt main_v44 main_v45
  let main_c_17 : IVec S_ 1 := constantI S_ 1 1#1
  let main_v47 : IVec S_ 1 := (fun x v => Host.reduce IntOp.andi x v reducesTo_S3x128x128_S_d0_1_2 h_S_) main_v46 main_c_17
  let main_v48 : IVec S_ 1 := andi main_v43 main_v47
  let main_v49 : FVec F S3x128 .f32 := Host.absf main_arg10
  let main_cst_18 : FVec F S_ .f32 := constant S_ .f32 0x7F800000#32
  let main_v50 : FVec F S3x128 .f32 := broadcastInDim S3x128 ![] bcast_S_S3x128 main_cst_18
  fn_part3 (F := F) main_arg11 main_arg12 main_arg13 main_v48 main_v49 main_v50

def fn_part1 {F : FTy → Type} [FloatOps F] (main_arg4 : FVec F S4x128x128 .f32) (main_arg5 : FVec F S4x128 .f32) (main_arg6 : FVec F S4 .f32) (main_arg7 : FVec F S4x1x128 .f32) (main_arg8 : FVec F S4x128 .f32) (main_arg9 : FVec F S3x128x128 .f32) (main_arg10 : FVec F S3x128 .f32) (main_arg11 : FVec F S3x128x128 .f32) (main_arg12 : FVec F S3x128 .f32) (main_arg13 : FVec F S128 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128x128 .f32 := Host.absf main_arg4
  let main_cst_6 : FVec F S_ .f32 := constant S_ .f32 0x7F800000#32
  let main_v20 : FVec F S4x128x128 .f32 := broadcastInDim S4x128x128 ![] bcast_S_S4x128x128 main_cst_6
  let main_v21 : IVec S4x128x128 1 := cmpf .olt main_v19 main_v20
  let main_c_7 : IVec S_ 1 := constantI S_ 1 1#1
  let main_v22 : IVec S_ 1 := (fun x v => Host.reduce IntOp.andi x v reducesTo_S4x128x128_S_d0_1_2 h_S_) main_v21 main_c_7
  let main_v23 : IVec S_ 1 := andi main_v18 main_v22
  let main_v24 : FVec F S4x128 .f32 := Host.absf main_arg5
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S50000x128 .f32) (main_arg1 : FVec F S800000x1 .f32) (main_arg2 : FVec F S4x128x128 .f32) (main_arg3 : FVec F S4x128 .f32) (main_arg4 : FVec F S4x128x128 .f32) (main_arg5 : FVec F S4x128 .f32) (main_arg6 : FVec F S4 .f32) (main_arg7 : FVec F S4x1x128 .f32) (main_arg8 : FVec F S4x128 .f32) (main_arg9 : FVec F S3x128x128 .f32) (main_arg10 : FVec F S3x128 .f32) (main_arg11 : FVec F S3x128x128 .f32) (main_arg12 : FVec F S3x128 .f32) (main_arg13 : FVec F S128 .f32) (main_arg14 : IVec S2x800000 32) (main_arg15 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x1 .f32 := Host.absf main_arg1
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S4x128x128 .f32 := Host.absf main_arg2
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S4x128 .f32 := Host.absf main_arg3
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg4 main_arg5 main_arg6 main_arg7 main_arg8 main_arg9 main_arg10 main_arg11 main_arg12 main_arg13 main_v13 main_v16
-- ==== Kernel.lean ====
abbrev S50000x128 : Shape := ⟨2, ![50000, 128]⟩
abbrev S800000x1 : Shape := ⟨2, ![800000, 1]⟩
abbrev S4x128x128 : Shape := ⟨3, ![4, 128, 128]⟩
abbrev S4x128 : Shape := ⟨2, ![4, 128]⟩
abbrev S4 : Shape := ⟨1, ![4]⟩
abbrev S4x1x128 : Shape := ⟨3, ![4, 1, 128]⟩
abbrev S3x128x128 : Shape := ⟨3, ![3, 128, 128]⟩
abbrev S3x128 : Shape := ⟨2, ![3, 128]⟩
abbrev S128 : Shape := ⟨1, ![128]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S50000x1 : Shape := ⟨2, ![50000, 1]⟩
abbrev S1x128 : Shape := ⟨2, ![1, 128]⟩
abbrev S64x128 : Shape := ⟨2, ![64, 128]⟩
abbrev S800000x128 : Shape := ⟨2, ![800000, 128]⟩
abbrev S1x1x128 : Shape := ⟨3, ![1, 1, 128]⟩
abbrev S10000x128 : Shape := ⟨2, ![10000, 128]⟩
abbrev S10000x1 : Shape := ⟨2, ![10000, 1]⟩
abbrev S1 : Shape := ⟨1, ![1]⟩
abbrev S1x128x128 : Shape := ⟨3, ![1, 128, 128]⟩
abbrev S128x128 : Shape := ⟨2, ![128, 128]⟩
abbrev S1x1 : Shape := ⟨2, ![1, 1]⟩
abbrev S5000x128 : Shape := ⟨2, ![5000, 128]⟩
abbrev S50000x512 : Shape := ⟨2, ![50000, 512]⟩

abbrev nBuf : Space → Nat
  | .hbm => 302
  | .vmem => 76
  | .smem => 0
  | _ => 0

abbrev hbmTy0_0 (i : Nat) : BufTy := match i % 128 with
  | 0 => ⟨S50000x128, .f32⟩
  | 1 => ⟨S800000x1, .f32⟩
  | 2 => ⟨S4x128x128, .f32⟩
  | 3 => ⟨S4x128, .f32⟩
  | 4 => ⟨S4x128x128, .f32⟩
  | 5 => ⟨S4x128, .f32⟩
  | 6 => ⟨S4, .f32⟩
  | 7 => ⟨S4x1x128, .f32⟩
  | 8 => ⟨S4x128, .f32⟩
  | 9 => ⟨S3x128x128, .f32⟩
  | 10 => ⟨S3x128, .f32⟩
  | 11 => ⟨S3x128x128, .f32⟩
  | 12 => ⟨S3x128, .f32⟩
  | 13 => ⟨S128, .f32⟩
  | 14 => ⟨S2x800000, .i32⟩
  | 15 => ⟨S50000, .i32⟩
  | 16 => ⟨S1x800000, .i32⟩
  | 17 => ⟨S800000, .i32⟩
  | 18 => ⟨S1x800000, .i32⟩
  | 19 => ⟨S800000, .i32⟩
  | 20 => ⟨S_, .f32⟩
  | 21 => ⟨S800000, .f32⟩
  | 22 => ⟨S_, .f32⟩
  | 23 => ⟨S50000, .f32⟩
  | 24 => ⟨S800000x1, .i32⟩
  | 25 => ⟨S50000, .f32⟩
  | 26 => ⟨S_, .f32⟩
  | 27 => ⟨S50000, .f32⟩
  | 28 => ⟨S50000, .f32⟩
  | 29 => ⟨S50000x1, .f32⟩
  | 30 => ⟨S1x128, .f32⟩
  | 31 => ⟨S64x128, .f32⟩
  | 32 => ⟨S_, .i32⟩
  | 33 => ⟨S50000, .i32⟩
  | 34 => ⟨S50000, .i1⟩
  | 35 => ⟨S_, .i32⟩
  | 36 => ⟨S50000, .i32⟩
  | 37 => ⟨S50000, .i32⟩
  | 38 => ⟨S50000, .i32⟩
  | 39 => ⟨S50000x1, .i32⟩
  | 40 => ⟨S50000x128, .f32⟩
  | 41 => ⟨S50000x128, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x128, .f32⟩
  | 51 => ⟨S1x1x128, .f32⟩
  | 52 => ⟨S1x128, .f32⟩
  | 53 => ⟨S1x128, .f32⟩
  | 54 => ⟨S128, .f32⟩
  | 55 => ⟨S1x128, .f32⟩
  | 56 => ⟨S800000x128, .f32⟩
  | 57 => ⟨S_, .f32⟩
  | 58 => ⟨S50000x128, .f32⟩
  | 59 => ⟨S800000x1, .i32⟩
  | 60 => ⟨S50000x128, .f32⟩
  | 61 => ⟨S50000x128, .f32⟩
  | 62 => ⟨S50000x128, .f32⟩
  | 63 => ⟨S1, .f32⟩
  | 64 => ⟨S_, .f32⟩
  | 65 => ⟨S_, .f32⟩
  | 66 => ⟨S_, .f32⟩
  | 67 => ⟨S1x128x128, .f32⟩
  | 68 => ⟨S128x128, .f32⟩
  | 69 => ⟨S1x128, .f32⟩
  | 70 => ⟨S128, .f32⟩
  | 71 => ⟨S1x128x128, .f32⟩
  | 72 => ⟨S128x128, .f32⟩
  | 73 => ⟨S1x128, .f32⟩
  | 74 => ⟨S128, .f32⟩
  | 75 => ⟨S1x128, .f32⟩
  | 76 => ⟨S1x128, .f32⟩
  | 77 => ⟨S1x1, .f32⟩
  | 78 => ⟨S50000x128, .f32⟩
  | 79 => ⟨S_, .f32⟩
  | 80 => ⟨S64x128, .f32⟩
  | 81 => ⟨S50000x1, .i32⟩
  | 82 => ⟨S64x128, .f32⟩
  | 83 => ⟨S64x128, .f32⟩
  | 84 => ⟨S1x128x128, .f32⟩
  | 85 => ⟨S128x128, .f32⟩
  | 86 => ⟨S1x128, .f32⟩
  | 87 => ⟨S128, .f32⟩
  | 88 => ⟨S1x128x128, .f32⟩
  | 89 => ⟨S128x128, .f32⟩
  | 90 => ⟨S1x128, .f32⟩
  | 91 => ⟨S128, .f32⟩
  | 92 => ⟨S64x128, .f32⟩
  | 93 => ⟨S1x128, .f32⟩
  | 94 => ⟨S64x128, .f32⟩
  | 95 => ⟨S64x128, .f32⟩
  | 96 => ⟨S_, .f32⟩
  | 97 => ⟨S64x128, .f32⟩
  | 98 => ⟨S64x128, .f32⟩
  | 99 => ⟨S64x128, .f32⟩
  | 100 => ⟨S1x128, .f32⟩
  | 101 => ⟨S64x128, .f32⟩
  | 102 => ⟨S64x128, .f32⟩
  | 103 => ⟨S_, .f32⟩
  | 104 => ⟨S64x128, .f32⟩
  | 105 => ⟨S64x128, .f32⟩
  | 106 => ⟨S_, .i32⟩
  | 107 => ⟨S50000, .i32⟩
  | 108 => ⟨S50000, .i1⟩
  | 109 => ⟨S_, .i32⟩
  | 110 => ⟨S50000, .i32⟩
  | 111 => ⟨S50000, .i32⟩
  | 112 => ⟨S50000, .i32⟩
  | 113 => ⟨S50000x1, .i32⟩
  | 114 => ⟨S50000x128, .f32⟩
  | 115 => ⟨S50000x128, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000x128, .f32⟩
  | 125 => ⟨S1x1x128, .f32⟩
  | 126 => ⟨S1x128, .f32⟩
  | 127 => ⟨S1x128, .f32⟩
  | _ => ⟨S50000x128, .f32⟩

abbrev hbmTy0_1 (i : Nat) : BufTy := match i % 128 with
  | 0 => ⟨S128, .f32⟩
  | 1 => ⟨S1x128, .f32⟩
  | 2 => ⟨S800000x128, .f32⟩
  | 3 => ⟨S_, .f32⟩
  | 4 => ⟨S50000x128, .f32⟩
  | 5 => ⟨S800000x1, .i32⟩
  | 6 => ⟨S50000x128, .f32⟩
  | 7 => ⟨S50000x128, .f32⟩
  | 8 => ⟨S50000x128, .f32⟩
  | 9 => ⟨S1, .f32⟩
  | 10 => ⟨S_, .f32⟩
  | 11 => ⟨S_, .f32⟩
  | 12 => ⟨S_, .f32⟩
  | 13 => ⟨S1x128x128, .f32⟩
  | 14 => ⟨S128x128, .f32⟩
  | 15 => ⟨S1x128, .f32⟩
  | 16 => ⟨S128, .f32⟩
  | 17 => ⟨S1x128x128, .f32⟩
  | 18 => ⟨S128x128, .f32⟩
  | 19 => ⟨S1x128, .f32⟩
  | 20 => ⟨S128, .f32⟩
  | 21 => ⟨S1x128, .f32⟩
  | 22 => ⟨S1x128, .f32⟩
  | 23 => ⟨S1x1, .f32⟩
  | 24 => ⟨S50000x128, .f32⟩
  | 25 => ⟨S_, .f32⟩
  | 26 => ⟨S64x128, .f32⟩
  | 27 => ⟨S50000x1, .i32⟩
  | 28 => ⟨S64x128, .f32⟩
  | 29 => ⟨S64x128, .f32⟩
  | 30 => ⟨S1x128x128, .f32⟩
  | 31 => ⟨S128x128, .f32⟩
  | 32 => ⟨S1x128, .f32⟩
  | 33 => ⟨S128, .f32⟩
  | 34 => ⟨S1x128x128, .f32⟩
  | 35 => ⟨S128x128, .f32⟩
  | 36 => ⟨S1x128, .f32⟩
  | 37 => ⟨S128, .f32⟩
  | 38 => ⟨S64x128, .f32⟩
  | 39 => ⟨S1x128, .f32⟩
  | 40 => ⟨S64x128, .f32⟩
  | 41 => ⟨S64x128, .f32⟩
  | 42 => ⟨S_, .f32⟩
  | 43 => ⟨S64x128, .f32⟩
  | 44 => ⟨S64x128, .f32⟩
  | 45 => ⟨S64x128, .f32⟩
  | 46 => ⟨S1x128, .f32⟩
  | 47 => ⟨S64x128, .f32⟩
  | 48 => ⟨S64x128, .f32⟩
  | 49 => ⟨S_, .f32⟩
  | 50 => ⟨S64x128, .f32⟩
  | 51 => ⟨S64x128, .f32⟩
  | 52 => ⟨S_, .i32⟩
  | 53 => ⟨S50000, .i32⟩
  | 54 => ⟨S50000, .i1⟩
  | 55 => ⟨S_, .i32⟩
  | 56 => ⟨S50000, .i32⟩
  | 57 => ⟨S50000, .i32⟩
  | 58 => ⟨S50000, .i32⟩
  | 59 => ⟨S50000x1, .i32⟩
  | 60 => ⟨S50000x128, .f32⟩
  | 61 => ⟨S50000x128, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x128, .f32⟩
  | 71 => ⟨S1x1x128, .f32⟩
  | 72 => ⟨S1x128, .f32⟩
  | 73 => ⟨S1x128, .f32⟩
  | 74 => ⟨S128, .f32⟩
  | 75 => ⟨S1x128, .f32⟩
  | 76 => ⟨S800000x128, .f32⟩
  | 77 => ⟨S_, .f32⟩
  | 78 => ⟨S50000x128, .f32⟩
  | 79 => ⟨S800000x1, .i32⟩
  | 80 => ⟨S50000x128, .f32⟩
  | 81 => ⟨S50000x128, .f32⟩
  | 82 => ⟨S50000x128, .f32⟩
  | 83 => ⟨S1, .f32⟩
  | 84 => ⟨S_, .f32⟩
  | 85 => ⟨S_, .f32⟩
  | 86 => ⟨S_, .f32⟩
  | 87 => ⟨S1x128x128, .f32⟩
  | 88 => ⟨S128x128, .f32⟩
  | 89 => ⟨S1x128, .f32⟩
  | 90 => ⟨S128, .f32⟩
  | 91 => ⟨S1x128x128, .f32⟩
  | 92 => ⟨S128x128, .f32⟩
  | 93 => ⟨S1x128, .f32⟩
  | 94 => ⟨S128, .f32⟩
  | 95 => ⟨S1x128, .f32⟩
  | 96 => ⟨S1x128, .f32⟩
  | 97 => ⟨S1x1, .f32⟩
  | 98 => ⟨S50000x128, .f32⟩
  | 99 => ⟨S_, .f32⟩
  | 100 => ⟨S64x128, .f32⟩
  | 101 => ⟨S50000x1, .i32⟩
  | 102 => ⟨S64x128, .f32⟩
  | 103 => ⟨S64x128, .f32⟩
  | 104 => ⟨S1x128x128, .f32⟩
  | 105 => ⟨S128x128, .f32⟩
  | 106 => ⟨S1x128, .f32⟩
  | 107 => ⟨S128, .f32⟩
  | 108 => ⟨S1x128x128, .f32⟩
  | 109 => ⟨S128x128, .f32⟩
  | 110 => ⟨S1x128, .f32⟩
  | 111 => ⟨S128, .f32⟩
  | 112 => ⟨S64x128, .f32⟩
  | 113 => ⟨S1x128, .f32⟩
  | 114 => ⟨S64x128, .f32⟩
  | 115 => ⟨S64x128, .f32⟩
  | 116 => ⟨S_, .f32⟩
  | 117 => ⟨S64x128, .f32⟩
  | 118 => ⟨S64x128, .f32⟩
  | 119 => ⟨S64x128, .f32⟩
  | 120 => ⟨S1x128, .f32⟩
  | 121 => ⟨S64x128, .f32⟩
  | 122 => ⟨S64x128, .f32⟩
  | 123 => ⟨S_, .f32⟩
  | 124 => ⟨S64x128, .f32⟩
  | 125 => ⟨S64x128, .f32⟩
  | 126 => ⟨S_, .i32⟩
  | 127 => ⟨S50000, .i32⟩
  | _ => ⟨S50000x128, .f32⟩

abbrev hbmTy0_2 (i : Nat) : BufTy := match i % 128 with
  | 0 => ⟨S50000, .i1⟩
  | 1 => ⟨S_, .i32⟩
  | 2 => ⟨S50000, .i32⟩
  | 3 => ⟨S50000, .i32⟩
  | 4 => ⟨S50000, .i32⟩
  | 5 => ⟨S50000x1, .i32⟩
  | 6 => ⟨S50000x128, .f32⟩
  | 7 => ⟨S50000x128, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x128, .f32⟩
  | 17 => ⟨S1x1x128, .f32⟩
  | 18 => ⟨S1x128, .f32⟩
  | 19 => ⟨S1x128, .f32⟩
  | 20 => ⟨S128, .f32⟩
  | 21 => ⟨S1x128, .f32⟩
  | 22 => ⟨S800000x128, .f32⟩
  | 23 => ⟨S_, .f32⟩
  | 24 => ⟨S50000x128, .f32⟩
  | 25 => ⟨S800000x1, .i32⟩
  | 26 => ⟨S50000x128, .f32⟩
  | 27 => ⟨S50000x128, .f32⟩
  | 28 => ⟨S50000x128, .f32⟩
  | 29 => ⟨S1, .f32⟩
  | 30 => ⟨S_, .f32⟩
  | 31 => ⟨S_, .f32⟩
  | 32 => ⟨S_, .f32⟩
  | 33 => ⟨S1x128x128, .f32⟩
  | 34 => ⟨S128x128, .f32⟩
  | 35 => ⟨S1x128, .f32⟩
  | 36 => ⟨S128, .f32⟩
  | 37 => ⟨S1x128x128, .f32⟩
  | 38 => ⟨S128x128, .f32⟩
  | 39 => ⟨S1x128, .f32⟩
  | 40 => ⟨S128, .f32⟩
  | 41 => ⟨S1x128, .f32⟩
  | 42 => ⟨S1x128, .f32⟩
  | 43 => ⟨S1x1, .f32⟩
  | 44 => ⟨S50000x128, .f32⟩
  | 45 => ⟨S50000x512, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S1x128, .f32⟩
  | .local _ .vmem, ⟨5, _⟩ => ⟨S1x128, .f32⟩
  | .local _ .vmem, ⟨6, _⟩ => ⟨S10000x128, .f32⟩
  | .local _ .vmem, ⟨7, _⟩ => ⟨S10000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S1x1, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S10000x128, .f32⟩
  | .local _ .vmem, ⟨20, _⟩ => ⟨S10000x128, .f32⟩
  | .local _ .vmem, ⟨21, _⟩ => ⟨S10000x1, .f32⟩
  | .local _ .vmem, ⟨22, _⟩ => ⟨S10000x1, .f32⟩
  | .local _ .vmem, ⟨23, _⟩ => ⟨S1x128, .f32⟩
  | .local _ .vmem, ⟨24, _⟩ => ⟨S1x128, .f32⟩
  | .local _ .vmem, ⟨25, _⟩ => ⟨S10000x128, .f32⟩
  | .local _ .vmem, ⟨26, _⟩ => ⟨S10000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S1x1, .f32⟩
  | .local _ .vmem, ⟨32, _⟩ => ⟨S128x128, .f32⟩
  | .local _ .vmem, ⟨33, _⟩ => ⟨S1x128, .f32⟩
  | .local _ .vmem, ⟨34, _⟩ => ⟨S128x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S10000x128, .f32⟩
  | .local _ .vmem, ⟨39, _⟩ => ⟨S10000x128, .f32⟩
  | .local _ .vmem, ⟨40, _⟩ => ⟨S10000x1, .f32⟩
  | .local _ .vmem, ⟨41, _⟩ => ⟨S10000x1, .f32⟩
  | .local _ .vmem, ⟨42, _⟩ => ⟨S1x128, .f32⟩
  | .local _ .vmem, ⟨43, _⟩ => ⟨S1x128, .f32⟩
  | .local _ .vmem, ⟨44, _⟩ => ⟨S10000x128, .f32⟩
  | .local _ .vmem, ⟨45, _⟩ => ⟨S10000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S1x1, .f32⟩
  | .local _ .vmem, ⟨51, _⟩ => ⟨S128x128, .f32⟩
  | .local _ .vmem, ⟨52, _⟩ => ⟨S1x128, .f32⟩
  | .local _ .vmem, ⟨53, _⟩ => ⟨S128x128, .f32⟩
  | .local _ .vmem, ⟨54, _⟩ => ⟨S1x128, .f32⟩
  | .local _ .vmem, ⟨55, _⟩ => ⟨S5000x128, .f32⟩
  | .local _ .vmem, ⟨56, _⟩ => ⟨S5000x128, .f32⟩
  | .local _ .vmem, ⟨57, _⟩ => ⟨S10000x128, .f32⟩
  | .local _ .vmem, ⟨58, _⟩ => ⟨S10000x128, .f32⟩
  | .local _ .vmem, ⟨59, _⟩ => ⟨S10000x1, .f32⟩
  | .local _ .vmem, ⟨60, _⟩ => ⟨S10000x1, .f32⟩
  | .local _ .vmem, ⟨61, _⟩ => ⟨S1x128, .f32⟩
  | .local _ .vmem, ⟨62, _⟩ => ⟨S1x128, .f32⟩
  | .local _ .vmem, ⟨63, _⟩ => ⟨S10000x128, .f32⟩
  | .local _ .vmem, ⟨64, _⟩ => ⟨S10000x128, .f32⟩
  | .local _ .vmem, ⟨65, _⟩ => ⟨S5000x128, .f32⟩
  | .local _ .vmem, ⟨66, _⟩ => ⟨S5000x128, .f32⟩
  | .local _ .vmem, ⟨67, _⟩ => ⟨S5000x128, .f32⟩
  | .local _ .vmem, ⟨68, _⟩ => ⟨S5000x128, .f32⟩
  | .local _ .vmem, ⟨69, _⟩ => ⟨S1x1, .f32⟩
  | .local _ .vmem, ⟨70, _⟩ => ⟨S128x128, .f32⟩
  | .local _ .vmem, ⟨71, _⟩ => ⟨S1x128, .f32⟩
  | .local _ .vmem, ⟨72, _⟩ => ⟨S128x128, .f32⟩
  | .local _ .vmem, ⟨73, _⟩ => ⟨S1x128, .f32⟩
  | .local _ .vmem, ⟨74, _⟩ => ⟨S5000x128, .f32⟩
  | .local _ .vmem, ⟨75, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_3 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_5 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_6 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_7 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_call0_cst : Ref sig .tc := ⟨.hbm, 96, rfl⟩
abbrev main_call0_v0 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_call1_cst : Ref sig .tc := ⟨.hbm, 103, rfl⟩
abbrev main_call1_v0 : Ref sig .tc := ⟨.hbm, 104, rfl⟩
abbrev main_v75 : Ref sig .tc := ⟨.hbm, 105, rfl⟩
abbrev main_c_8 : Ref sig .tc := ⟨.hbm, 106, rfl⟩
abbrev main_v76 : Ref sig .tc := ⟨.hbm, 107, rfl⟩
abbrev main_v77 : Ref sig .tc := ⟨.hbm, 108, rfl⟩
abbrev main_c_9 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_c_10 : Ref sig .tc := ⟨.hbm, 116, rfl⟩
abbrev main_v84 : Ref sig .tc := ⟨.hbm, 117, rfl⟩
abbrev main_v85 : Ref sig .tc := ⟨.hbm, 118, rfl⟩
abbrev main_c_11 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_12 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_13 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_cst_14 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_call2_cst : Ref sig .tc := ⟨.hbm, 170, rfl⟩
abbrev main_call2_v0 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_call3_cst : Ref sig .tc := ⟨.hbm, 177, rfl⟩
abbrev main_call3_v0 : Ref sig .tc := ⟨.hbm, 178, rfl⟩
abbrev main_v138 : Ref sig .tc := ⟨.hbm, 179, rfl⟩
abbrev main_c_15 : Ref sig .tc := ⟨.hbm, 180, rfl⟩
abbrev main_v139 : Ref sig .tc := ⟨.hbm, 181, rfl⟩
abbrev main_v140 : Ref sig .tc := ⟨.hbm, 182, rfl⟩
abbrev main_c_16 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_c_17 : Ref sig .tc := ⟨.hbm, 190, rfl⟩
abbrev main_v147 : Ref sig .tc := ⟨.hbm, 191, rfl⟩
abbrev main_v148 : Ref sig .tc := ⟨.hbm, 192, rfl⟩
abbrev main_c_18 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_cst_19 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_cst_20 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_cst_21 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_call4_cst : Ref sig .tc := ⟨.hbm, 244, rfl⟩
abbrev main_call4_v0 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_call5_cst : Ref sig .tc := ⟨.hbm, 251, rfl⟩
abbrev main_call5_v0 : Ref sig .tc := ⟨.hbm, 252, rfl⟩
abbrev main_v201 : Ref sig .tc := ⟨.hbm, 253, rfl⟩
abbrev main_c_22 : Ref sig .tc := ⟨.hbm, 254, rfl⟩
abbrev main_v202 : Ref sig .tc := ⟨.hbm, 255, rfl⟩
abbrev main_v203 : Ref sig .tc := ⟨.hbm, 256, rfl⟩
abbrev main_c_23 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_c_24 : Ref sig .tc := ⟨.hbm, 264, rfl⟩
abbrev main_v210 : Ref sig .tc := ⟨.hbm, 265, rfl⟩
abbrev main_v211 : Ref sig .tc := ⟨.hbm, 266, rfl⟩
abbrev main_c_25 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_cst_26 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_v229 : Ref sig .tc := ⟨.hbm, 286, rfl⟩
abbrev main_cst_27 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩
abbrev main_v235 : Ref sig .tc := ⟨.hbm, 293, rfl⟩
abbrev main_v236 : Ref sig .tc := ⟨.hbm, 294, rfl⟩
abbrev main_v237 : Ref sig .tc := ⟨.hbm, 295, rfl⟩
abbrev main_v238 : Ref sig .tc := ⟨.hbm, 296, rfl⟩
abbrev main_v239 : Ref sig .tc := ⟨.hbm, 297, rfl⟩
abbrev main_v240 : Ref sig .tc := ⟨.hbm, 298, rfl⟩
abbrev main_v241 : Ref sig .tc := ⟨.hbm, 299, rfl⟩
abbrev main_v242 : Ref sig .tc := ⟨.hbm, 300, rfl⟩
abbrev main_v243 : Ref sig .tc := ⟨.hbm, 301, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg4_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg7_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg4_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg5_0 : Ref sig .tc := ⟨.vmem, 53, rfl⟩
abbrev cc5_stg6_0 : Ref sig .tc := ⟨.vmem, 54, rfl⟩
abbrev cc5_stg7_0 : Ref sig .tc := ⟨.vmem, 55, rfl⟩
abbrev cc5_stg7_1 : Ref sig .tc := ⟨.vmem, 56, rfl⟩
abbrev cc6_stg0_0 : Ref sig .tc := ⟨.vmem, 57, rfl⟩
abbrev cc6_stg0_1 : Ref sig .tc := ⟨.vmem, 58, rfl⟩
abbrev cc6_stg1_0 : Ref sig .tc := ⟨.vmem, 59, rfl⟩
abbrev cc6_stg1_1 : Ref sig .tc := ⟨.vmem, 60, rfl⟩
abbrev cc6_stg2_0 : Ref sig .tc := ⟨.vmem, 61, rfl⟩
abbrev cc6_stg3_0 : Ref sig .tc := ⟨.vmem, 62, rfl⟩
abbrev cc6_stg4_0 : Ref sig .tc := ⟨.vmem, 63, rfl⟩
abbrev cc6_stg4_1 : Ref sig .tc := ⟨.vmem, 64, rfl⟩
abbrev cc7_stg0_0 : Ref sig .tc := ⟨.vmem, 65, rfl⟩
abbrev cc7_stg0_1 : Ref sig .tc := ⟨.vmem, 66, rfl⟩
abbrev cc7_stg1_0 : Ref sig .tc := ⟨.vmem, 67, rfl⟩
abbrev cc7_stg1_1 : Ref sig .tc := ⟨.vmem, 68, rfl⟩
abbrev cc7_stg2_0 : Ref sig .tc := ⟨.vmem, 69, rfl⟩
abbrev cc7_stg3_0 : Ref sig .tc := ⟨.vmem, 70, rfl⟩
abbrev cc7_stg4_0 : Ref sig .tc := ⟨.vmem, 71, rfl⟩
abbrev cc7_stg5_0 : Ref sig .tc := ⟨.vmem, 72, rfl⟩
abbrev cc7_stg6_0 : Ref sig .tc := ⟨.vmem, 73, rfl⟩
abbrev cc7_stg7_0 : Ref sig .tc := ⟨.vmem, 74, rfl⟩
abbrev cc7_stg7_1 : Ref sig .tc := ⟨.vmem, 75, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem4_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem7_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem4_1 : DmaSem sig := 45
abbrev cc5_sem0_0 : DmaSem sig := 46
abbrev cc5_sem0_1 : DmaSem sig := 47
abbrev cc5_sem1_0 : DmaSem sig := 48
abbrev cc5_sem1_1 : DmaSem sig := 49
abbrev cc5_sem2_0 : DmaSem sig := 50
abbrev cc5_sem3_0 : DmaSem sig := 51
abbrev cc5_sem4_0 : DmaSem sig := 52
abbrev cc5_sem5_0 : DmaSem sig := 53
abbrev cc5_sem6_0 : DmaSem sig := 54
abbrev cc5_sem7_0 : DmaSem sig := 55
abbrev cc5_sem7_1 : DmaSem sig := 56
abbrev cc6_sem0_0 : DmaSem sig := 57
abbrev cc6_sem0_1 : DmaSem sig := 58
abbrev cc6_sem1_0 : DmaSem sig := 59
abbrev cc6_sem1_1 : DmaSem sig := 60
abbrev cc6_sem2_0 : DmaSem sig := 61
abbrev cc6_sem3_0 : DmaSem sig := 62
abbrev cc6_sem4_0 : DmaSem sig := 63
abbrev cc6_sem4_1 : DmaSem sig := 64
abbrev cc7_sem0_0 : DmaSem sig := 65
abbrev cc7_sem0_1 : DmaSem sig := 66
abbrev cc7_sem1_0 : DmaSem sig := 67
abbrev cc7_sem1_1 : DmaSem sig := 68
abbrev cc7_sem2_0 : DmaSem sig := 69
abbrev cc7_sem3_0 : DmaSem sig := 70
abbrev cc7_sem4_0 : DmaSem sig := 71
abbrev cc7_sem5_0 : DmaSem sig := 72
abbrev cc7_sem6_0 : DmaSem sig := 73
abbrev cc7_sem7_0 : DmaSem sig := 74
abbrev cc7_sem7_1 : DmaSem sig := 75

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![80], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S10000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![80], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S10000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S5000x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  slices_S4x1x128_S1x1x128_0_0_0 : S4x1x128.Slices ![0, 0, 0] S1x1x128
  shapeCasts_S1x1x128_S1x128 : S1x1x128.ShapeCasts S1x128
  slices_S4x128_S1x128_0_0 : S4x128.Slices ![0, 0] S1x128
  shapeCasts_S1x128_S128 : S1x128.ShapeCasts S128
  shapeCasts_S128_S1x128 : S128.ShapeCasts S1x128
  inb_S10000x1_S10000x1_0_0 : ∀ a, (![0, 0] : Fin 2 → Nat) a + S10000x1.size a ≤ S10000x1.size a
  h_S10000x1 : 0 < S10000x1.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S10000x1_S10000x128 : S10000x1.Broadcasts S10000x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S4_S1_0 : S4.Slices ![0] S1
  shapeCasts_S1_S_ : S1.ShapeCasts S_
  slices_S4x128x128_S1x128x128_0_0_0 : S4x128x128.Slices ![0, 0, 0] S1x128x128
  shapeCasts_S1x128x128_S128x128 : S1x128x128.ShapeCasts S128x128
  shapeCasts_S_S1x1 : S_.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  bcast_S_S64x128 : S_.BroadcastsInDim S64x128 (![] : Fin 0 → Fin S64x128.rank)
  slices_S3x128x128_S1x128x128_0_0_0 : S3x128x128.Slices ![0, 0, 0] S1x128x128
  slices_S3x128_S1x128_0_0 : S3x128.Slices ![0, 0] S1x128
  slices_S4x1x128_S1x1x128_1_0_0 : S4x1x128.Slices ![1, 0, 0] S1x1x128
  slices_S4x128_S1x128_1_0 : S4x128.Slices ![1, 0] S1x128
  slices_S4_S1_1 : S4.Slices ![1] S1
  slices_S4x128x128_S1x128x128_1_0_0 : S4x128x128.Slices ![1, 0, 0] S1x128x128
  slices_S3x128x128_S1x128x128_1_0_0 : S3x128x128.Slices ![1, 0, 0] S1x128x128
  slices_S3x128_S1x128_1_0 : S3x128.Slices ![1, 0] S1x128
  slices_S4x1x128_S1x1x128_2_0_0 : S4x1x128.Slices ![2, 0, 0] S1x1x128
  slices_S4x128_S1x128_2_0 : S4x128.Slices ![2, 0] S1x128
  slices_S4_S1_2 : S4.Slices ![2] S1
  slices_S4x128x128_S1x128x128_2_0_0 : S4x128x128.Slices ![2, 0, 0] S1x128x128
  slices_S3x128x128_S1x128x128_2_0_0 : S3x128x128.Slices ![2, 0, 0] S1x128x128
  slices_S3x128_S1x128_2_0 : S3x128.Slices ![2, 0] S1x128
  slices_S4x1x128_S1x1x128_3_0_0 : S4x1x128.Slices ![3, 0, 0] S1x1x128
  slices_S4x128_S1x128_3_0 : S4x128.Slices ![3, 0] S1x128
  slices_S4_S1_3 : S4.Slices ![3] S1
  slices_S4x128x128_S1x128x128_3_0_0 : S4x128x128.Slices ![3, 0, 0] S1x128x128
  concatenates_S50000x128_S50000x128_S50000x128_S50000x128_S50000x512_d1 : Shape.Concatenates [S50000x128, S50000x128, S50000x128, S50000x128] S50000x512 1
  scatter_S50000_S800000x1_S800000_n_0_0_1_wf : ScatterDims.WF S50000 S800000x1 S800000 [] [0] [0] 1
  gather_S64x128_S50000x1_S50000x128_1_0_n_n_0_1_1128_wf : GatherDims.WF S64x128 S50000x1 S50000x128 [1] [0] [] [0] [] 1 ![1, 128]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S64x128_S50000x1_S50000x128_1_0_0_1_wf : ScatterDims.WF S64x128 S50000x1 S50000x128 [1] [0] [0] 1
  dot_S64x128_S128x128_S64x128_1_0_0_1_n_n_wf : DotDims.WF S64x128 S128x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S800000x128.size a
  hwx0_0 : ∀ i : grid0.Coords, EltTy.bits .f32 = 32 ∨ (Rect.block (s := S800000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S800000x1.size a
  hwx0_1 : ∀ i : grid0.Coords, EltTy.bits .f32 = 32 ∨ (Rect.block (s := S800000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S800000x128.size a
  hwx0_4 : ∀ i : grid0.Coords, EltTy.bits .f32 = 32 ∨ (Rect.block (s := S800000x128) S10000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S800000x128.size a
  hwx2_0 : ∀ i : grid2.Coords, EltTy.bits .f32 = 32 ∨ (Rect.block (s := S800000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S800000x1.size a
  hwx2_1 : ∀ i : grid2.Coords, EltTy.bits .f32 = 32 ∨ (Rect.block (s := S800000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x128.size a ≤ S800000x128.size a
  hwx2_4 : ∀ i : grid2.Coords, EltTy.bits .f32 = 32 ∨ (Rect.block (s := S800000x128) S10000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S50000x128.size a
  hwx3_7 : ∀ i : grid3.Coords, EltTy.bits .f32 = 32 ∨ (Rect.block (s := S50000x128) S5000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S800000x128.size a
  hwx4_0 : ∀ i : grid4.Coords, EltTy.bits .f32 = 32 ∨ (Rect.block (s := S800000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S800000x1.size a
  hwx4_1 : ∀ i : grid4.Coords, EltTy.bits .f32 = 32 ∨ (Rect.block (s := S800000x1) S10000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x128.size a ≤ S800000x128.size a
  hwx4_4 : ∀ i : grid4.Coords, EltTy.bits .f32 = 32 ∨ (Rect.block (s := S800000x128) S10000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x128.size a ≤ S50000x128.size a
  hwx5_7 : ∀ i : grid5.Coords, EltTy.bits .f32 = 32 ∨ (Rect.block (s := S50000x128) S5000x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S800000x128.size a
  hwx6_0 : ∀ i : grid6.Coords, EltTy.bits .f32 = 32 ∨ (Rect.block (s := S800000x128) S10000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x1.size a ≤ S800000x1.size a
  hwx6_1 : ∀ i : grid6.Coords, EltTy.bits .f32 = 32 ∨ (Rect.block (s := S800000x1) S10000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S10000x128.size a ≤ S800000x128.size a
  hwx6_4 : ∀ i : grid6.Coords, EltTy.bits .f32 = 32 ∨ (Rect.block (s := S800000x128) S10000x128.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S50000x128.size a
  hwx7_1 : ∀ i : grid7.Coords, EltTy.bits .f32 = 32 ∨ (Rect.block (s := S50000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x1.size a ≤ S1x1.size a
  hwx7_2 : ∀ i : grid7.Coords, EltTy.bits .f32 = 32 ∨ (Rect.block (s := S1x1) S1x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128x128.size a ≤ S128x128.size a
  hwx7_5 : ∀ i : grid7.Coords, EltTy.bits .f32 = 32 ∨ (Rect.block (s := S128x128) S128x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S5000x128.size a ≤ S50000x128.size a
  hwx7_7 : ∀ i : grid7.Coords, EltTy.bits .f32 = 32 ∨ (Rect.block (s := S50000x128) S5000x128.size (cc7_transform_7 i) (hinb7_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S64x128_S50000x1_S50000x128_1_0_n_n_0_1_1128 : GatherDims S64x128 S50000x1 S50000x128 where
  offsetDims := [1]
  collapsedSliceDims := [0]
  operandBatchingDims := []
  startIndicesBatchingDims := []
  startIndexMap := [0]
  indexVectorDim := 1
  sliceSizes := ![1, 128]
  wf := gather_S64x128_S50000x1_S50000x128_1_0_n_n_0_1_1128_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

abbrev win0_0 : Pipeline.Window sig grid0 :=
  Pipeline.Window.ofSpec (Memref.whole main_v27) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v53) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v90) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v92) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v95) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v96) S10000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v83) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v101) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v115) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v106) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v113) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v110) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v114) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v116) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v153) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg1) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v155) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v158) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v159) S10000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v146) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v164) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v178) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v169) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v176) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v173) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v177) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v179) S5000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v216) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg1) S10000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v218) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v221) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v222) S10000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v209) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v227) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v241) S1x1.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v232) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v239) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v236) S128x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v240) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v242) S5000x128.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

class Facts : Prop extends Facts₀ where

variable [Facts]
-- ==== ReferenceIdeal.lean ====
abbrev S50000x128 : Shape := ⟨2, ![50000, 128]⟩
abbrev S800000x1 : Shape := ⟨2, ![800000, 1]⟩
abbrev S4x128x128 : Shape := ⟨3, ![4, 128, 128]⟩
abbrev S4x128 : Shape := ⟨2, ![4, 128]⟩
abbrev S4 : Shape := ⟨1, ![4]⟩
abbrev S4x1x128 : Shape := ⟨3, ![4, 1, 128]⟩
abbrev S3x128x128 : Shape := ⟨3, ![3, 128, 128]⟩
abbrev S3x128 : Shape := ⟨2, ![3, 128]⟩
abbrev S128 : Shape := ⟨1, ![128]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S50000x1 : Shape := ⟨2, ![50000, 1]⟩
abbrev S1x128 : Shape := ⟨2, ![1, 128]⟩
abbrev S64x128 : Shape := ⟨2, ![64, 128]⟩
abbrev S1x1x128 : Shape := ⟨3, ![1, 1, 128]⟩
abbrev S800000x128 : Shape := ⟨2, ![800000, 128]⟩
abbrev S1 : Shape := ⟨1, ![1]⟩
abbrev S1x128x128 : Shape := ⟨3, ![1, 128, 128]⟩
abbrev S128x128 : Shape := ⟨2, ![128, 128]⟩
abbrev S50000x512 : Shape := ⟨2, ![50000, 512]⟩

abbrev nBuf : Space → Nat
  | .hbm => 366
  | .vmem => 0
  | .smem => 0
  | _ => 0

abbrev hbmTy0_0 (i : Nat) : BufTy := match i % 128 with
  | 0 => ⟨S50000x128, .f32⟩
  | 1 => ⟨S800000x1, .f32⟩
  | 2 => ⟨S4x128x128, .f32⟩
  | 3 => ⟨S4x128, .f32⟩
  | 4 => ⟨S4x128x128, .f32⟩
  | 5 => ⟨S4x128, .f32⟩
  | 6 => ⟨S4, .f32⟩
  | 7 => ⟨S4x1x128, .f32⟩
  | 8 => ⟨S4x128, .f32⟩
  | 9 => ⟨S3x128x128, .f32⟩
  | 10 => ⟨S3x128, .f32⟩
  | 11 => ⟨S3x128x128, .f32⟩
  | 12 => ⟨S3x128, .f32⟩
  | 13 => ⟨S128, .f32⟩
  | 14 => ⟨S2x800000, .i32⟩
  | 15 => ⟨S50000, .i32⟩
  | 16 => ⟨S1x800000, .i32⟩
  | 17 => ⟨S800000, .i32⟩
  | 18 => ⟨S1x800000, .i32⟩
  | 19 => ⟨S800000, .i32⟩
  | 20 => ⟨S_, .f32⟩
  | 21 => ⟨S800000, .f32⟩
  | 22 => ⟨S_, .f32⟩
  | 23 => ⟨S50000, .f32⟩
  | 24 => ⟨S800000x1, .i32⟩
  | 25 => ⟨S50000, .f32⟩
  | 26 => ⟨S_, .f32⟩
  | 27 => ⟨S50000, .f32⟩
  | 28 => ⟨S50000, .f32⟩
  | 29 => ⟨S50000x1, .f32⟩
  | 30 => ⟨S1x128, .f32⟩
  | 31 => ⟨S64x128, .f32⟩
  | 32 => ⟨S_, .i32⟩
  | 33 => ⟨S50000, .i32⟩
  | 34 => ⟨S50000, .i1⟩
  | 35 => ⟨S_, .i32⟩
  | 36 => ⟨S50000, .i32⟩
  | 37 => ⟨S50000, .i32⟩
  | 38 => ⟨S50000, .i32⟩
  | 39 => ⟨S50000x1, .i32⟩
  | 40 => ⟨S50000x128, .f32⟩
  | 41 => ⟨S50000x128, .f32⟩
  | 42 => ⟨S1x1x128, .f32⟩
  | 43 => ⟨S1x128, .f32⟩
  | 44 => ⟨S800000x128, .f32⟩
  | 45 => ⟨S1x128, .f32⟩
  | 46 => ⟨S128, .f32⟩
  | 47 => ⟨S1x128, .f32⟩
  | 48 => ⟨S800000x128, .f32⟩
  | 49 => ⟨S800000x128, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S800000x128, .f32⟩
  | 60 => ⟨S_, .f32⟩
  | 61 => ⟨S800000x128, .f32⟩
  | 62 => ⟨S800000x128, .f32⟩
  | 63 => ⟨S_, .f32⟩
  | 64 => ⟨S50000x128, .f32⟩
  | 65 => ⟨S800000x1, .i32⟩
  | 66 => ⟨S50000x128, .f32⟩
  | 67 => ⟨S50000x128, .f32⟩
  | 68 => ⟨S50000x128, .f32⟩
  | 69 => ⟨S1, .f32⟩
  | 70 => ⟨S_, .f32⟩
  | 71 => ⟨S_, .f32⟩
  | 72 => ⟨S_, .f32⟩
  | 73 => ⟨S50000x128, .f32⟩
  | 74 => ⟨S50000x128, .f32⟩
  | 75 => ⟨S50000x128, .f32⟩
  | 76 => ⟨S1x128x128, .f32⟩
  | 77 => ⟨S128x128, .f32⟩
  | 78 => ⟨S50000x128, .f32⟩
  | 79 => ⟨S1x128, .f32⟩
  | 80 => ⟨S128, .f32⟩
  | 81 => ⟨S1x128, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S1x128x128, .f32⟩
  | 88 => ⟨S128x128, .f32⟩
  | 89 => ⟨S50000x128, .f32⟩
  | 90 => ⟨S1x128, .f32⟩
  | 91 => ⟨S128, .f32⟩
  | 92 => ⟨S1x128, .f32⟩
  | 93 => ⟨S50000x128, .f32⟩
  | 94 => ⟨S50000x128, .f32⟩
  | 95 => ⟨S_, .f32⟩
  | 96 => ⟨S64x128, .f32⟩
  | 97 => ⟨S50000x1, .i32⟩
  | 98 => ⟨S64x128, .f32⟩
  | 99 => ⟨S64x128, .f32⟩
  | 100 => ⟨S1x128x128, .f32⟩
  | 101 => ⟨S128x128, .f32⟩
  | 102 => ⟨S64x128, .f32⟩
  | 103 => ⟨S1x128, .f32⟩
  | 104 => ⟨S128, .f32⟩
  | 105 => ⟨S1x128, .f32⟩
  | 106 => ⟨S64x128, .f32⟩
  | 107 => ⟨S64x128, .f32⟩
  | 108 => ⟨S_, .f32⟩
  | 109 => ⟨S64x128, .f32⟩
  | 110 => ⟨S64x128, .f32⟩
  | 111 => ⟨S1x128x128, .f32⟩
  | 112 => ⟨S128x128, .f32⟩
  | 113 => ⟨S64x128, .f32⟩
  | 114 => ⟨S1x128, .f32⟩
  | 115 => ⟨S128, .f32⟩
  | 116 => ⟨S1x128, .f32⟩
  | 117 => ⟨S64x128, .f32⟩
  | 118 => ⟨S64x128, .f32⟩
  | 119 => ⟨S_, .f32⟩
  | 120 => ⟨S64x128, .f32⟩
  | 121 => ⟨S64x128, .f32⟩
  | 122 => ⟨S_, .i32⟩
  | 123 => ⟨S50000, .i32⟩
  | 124 => ⟨S50000, .i1⟩
  | 125 => ⟨S_, .i32⟩
  | 126 => ⟨S50000, .i32⟩
  | 127 => ⟨S50000, .i32⟩
  | _ => ⟨S50000x128, .f32⟩

abbrev hbmTy0_1 (i : Nat) : BufTy := match i % 128 with
  | 0 => ⟨S50000, .i32⟩
  | 1 => ⟨S50000x1, .i32⟩
  | 2 => ⟨S50000x128, .f32⟩
  | 3 => ⟨S50000x128, .f32⟩
  | 4 => ⟨S1x1x128, .f32⟩
  | 5 => ⟨S1x128, .f32⟩
  | 6 => ⟨S800000x128, .f32⟩
  | 7 => ⟨S1x128, .f32⟩
  | 8 => ⟨S128, .f32⟩
  | 9 => ⟨S1x128, .f32⟩
  | 10 => ⟨S800000x128, .f32⟩
  | 11 => ⟨S800000x128, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x128, .f32⟩
  | 21 => ⟨S800000x128, .f32⟩
  | 22 => ⟨S_, .f32⟩
  | 23 => ⟨S800000x128, .f32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S50000x128, .f32⟩
  | 30 => ⟨S50000x128, .f32⟩
  | 31 => ⟨S1, .f32⟩
  | 32 => ⟨S_, .f32⟩
  | 33 => ⟨S_, .f32⟩
  | 34 => ⟨S_, .f32⟩
  | 35 => ⟨S50000x128, .f32⟩
  | 36 => ⟨S50000x128, .f32⟩
  | 37 => ⟨S50000x128, .f32⟩
  | 38 => ⟨S1x128x128, .f32⟩
  | 39 => ⟨S128x128, .f32⟩
  | 40 => ⟨S50000x128, .f32⟩
  | 41 => ⟨S1x128, .f32⟩
  | 42 => ⟨S128, .f32⟩
  | 43 => ⟨S1x128, .f32⟩
  | 44 => ⟨S50000x128, .f32⟩
  | 45 => ⟨S50000x128, .f32⟩
  | 46 => ⟨S_, .f32⟩
  | 47 => ⟨S50000x128, .f32⟩
  | 48 => ⟨S50000x128, .f32⟩
  | 49 => ⟨S1x128x128, .f32⟩
  | 50 => ⟨S128x128, .f32⟩
  | 51 => ⟨S50000x128, .f32⟩
  | 52 => ⟨S1x128, .f32⟩
  | 53 => ⟨S128, .f32⟩
  | 54 => ⟨S1x128, .f32⟩
  | 55 => ⟨S50000x128, .f32⟩
  | 56 => ⟨S50000x128, .f32⟩
  | 57 => ⟨S_, .f32⟩
  | 58 => ⟨S64x128, .f32⟩
  | 59 => ⟨S50000x1, .i32⟩
  | 60 => ⟨S64x128, .f32⟩
  | 61 => ⟨S64x128, .f32⟩
  | 62 => ⟨S1x128x128, .f32⟩
  | 63 => ⟨S128x128, .f32⟩
  | 64 => ⟨S64x128, .f32⟩
  | 65 => ⟨S1x128, .f32⟩
  | 66 => ⟨S128, .f32⟩
  | 67 => ⟨S1x128, .f32⟩
  | 68 => ⟨S64x128, .f32⟩
  | 69 => ⟨S64x128, .f32⟩
  | 70 => ⟨S_, .f32⟩
  | 71 => ⟨S64x128, .f32⟩
  | 72 => ⟨S64x128, .f32⟩
  | 73 => ⟨S1x128x128, .f32⟩
  | 74 => ⟨S128x128, .f32⟩
  | 75 => ⟨S64x128, .f32⟩
  | 76 => ⟨S1x128, .f32⟩
  | 77 => ⟨S128, .f32⟩
  | 78 => ⟨S1x128, .f32⟩
  | 79 => ⟨S64x128, .f32⟩
  | 80 => ⟨S64x128, .f32⟩
  | 81 => ⟨S_, .f32⟩
  | 82 => ⟨S64x128, .f32⟩
  | 83 => ⟨S64x128, .f32⟩
  | 84 => ⟨S_, .i32⟩
  | 85 => ⟨S50000, .i32⟩
  | 86 => ⟨S50000, .i1⟩
  | 87 => ⟨S_, .i32⟩
  | 88 => ⟨S50000, .i32⟩
  | 89 => ⟨S50000, .i32⟩
  | 90 => ⟨S50000, .i32⟩
  | 91 => ⟨S50000x1, .i32⟩
  | 92 => ⟨S50000x128, .f32⟩
  | 93 => ⟨S50000x128, .f32⟩
  | 94 => ⟨S1x1x128, .f32⟩
  | 95 => ⟨S1x128, .f32⟩
  | 96 => ⟨S800000x128, .f32⟩
  | 97 => ⟨S1x128, .f32⟩
  | 98 => ⟨S128, .f32⟩
  | 99 => ⟨S1x128, .f32⟩
  | 100 => ⟨S800000x128, .f32⟩
  | 101 => ⟨S800000x128, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x128, .f32⟩
  | 111 => ⟨S800000x128, .f32⟩
  | 112 => ⟨S_, .f32⟩
  | 113 => ⟨S800000x128, .f32⟩
  | 114 => ⟨S800000x128, .f32⟩
  | 115 => ⟨S_, .f32⟩
  | 116 => ⟨S50000x128, .f32⟩
  | 117 => ⟨S800000x1, .i32⟩
  | 118 => ⟨S50000x128, .f32⟩
  | 119 => ⟨S50000x128, .f32⟩
  | 120 => ⟨S50000x128, .f32⟩
  | 121 => ⟨S1, .f32⟩
  | 122 => ⟨S_, .f32⟩
  | 123 => ⟨S_, .f32⟩
  | 124 => ⟨S_, .f32⟩
  | 125 => ⟨S50000x128, .f32⟩
  | 126 => ⟨S50000x128, .f32⟩
  | 127 => ⟨S50000x128, .f32⟩
  | _ => ⟨S50000x128, .f32⟩

abbrev hbmTy0_2 (i : Nat) : BufTy := match i % 128 with
  | 0 => ⟨S1x128x128, .f32⟩
  | 1 => ⟨S128x128, .f32⟩
  | 2 => ⟨S50000x128, .f32⟩
  | 3 => ⟨S1x128, .f32⟩
  | 4 => ⟨S128, .f32⟩
  | 5 => ⟨S1x128, .f32⟩
  | 6 => ⟨S50000x128, .f32⟩
  | 7 => ⟨S50000x128, .f32⟩
  | 8 => ⟨S_, .f32⟩
  | 9 => ⟨S50000x128, .f32⟩
  | 10 => ⟨S50000x128, .f32⟩
  | 11 => ⟨S1x128x128, .f32⟩
  | 12 => ⟨S128x128, .f32⟩
  | 13 => ⟨S50000x128, .f32⟩
  | 14 => ⟨S1x128, .f32⟩
  | 15 => ⟨S128, .f32⟩
  | 16 => ⟨S1x128, .f32⟩
  | 17 => ⟨S50000x128, .f32⟩
  | 18 => ⟨S50000x128, .f32⟩
  | 19 => ⟨S_, .f32⟩
  | 20 => ⟨S64x128, .f32⟩
  | 21 => ⟨S50000x1, .i32⟩
  | 22 => ⟨S64x128, .f32⟩
  | 23 => ⟨S64x128, .f32⟩
  | 24 => ⟨S1x128x128, .f32⟩
  | 25 => ⟨S128x128, .f32⟩
  | 26 => ⟨S64x128, .f32⟩
  | 27 => ⟨S1x128, .f32⟩
  | 28 => ⟨S128, .f32⟩
  | 29 => ⟨S1x128, .f32⟩
  | 30 => ⟨S64x128, .f32⟩
  | 31 => ⟨S64x128, .f32⟩
  | 32 => ⟨S_, .f32⟩
  | 33 => ⟨S64x128, .f32⟩
  | 34 => ⟨S64x128, .f32⟩
  | 35 => ⟨S1x128x128, .f32⟩
  | 36 => ⟨S128x128, .f32⟩
  | 37 => ⟨S64x128, .f32⟩
  | 38 => ⟨S1x128, .f32⟩
  | 39 => ⟨S128, .f32⟩
  | 40 => ⟨S1x128, .f32⟩
  | 41 => ⟨S64x128, .f32⟩
  | 42 => ⟨S64x128, .f32⟩
  | 43 => ⟨S_, .f32⟩
  | 44 => ⟨S64x128, .f32⟩
  | 45 => ⟨S64x128, .f32⟩
  | 46 => ⟨S_, .i32⟩
  | 47 => ⟨S50000, .i32⟩
  | 48 => ⟨S50000, .i1⟩
  | 49 => ⟨S_, .i32⟩
  | 50 => ⟨S50000, .i32⟩
  | 51 => ⟨S50000, .i32⟩
  | 52 => ⟨S50000, .i32⟩
  | 53 => ⟨S50000x1, .i32⟩
  | 54 => ⟨S50000x128, .f32⟩
  | 55 => ⟨S50000x128, .f32⟩
  | 56 => ⟨S1x1x128, .f32⟩
  | 57 => ⟨S1x128, .f32⟩
  | 58 => ⟨S800000x128, .f32⟩
  | 59 => ⟨S1x128, .f32⟩
  | 60 => ⟨S128, .f32⟩
  | 61 => ⟨S1x128, .f32⟩
  | 62 => ⟨S800000x128, .f32⟩
  | 63 => ⟨S800000x128, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x128, .f32⟩
  | 73 => ⟨S800000x128, .f32⟩
  | 74 => ⟨S_, .f32⟩
  | 75 => ⟨S800000x128, .f32⟩
  | 76 => ⟨S800000x128, .f32⟩
  | 77 => ⟨S_, .f32⟩
  | 78 => ⟨S50000x128, .f32⟩
  | 79 => ⟨S800000x1, .i32⟩
  | 80 => ⟨S50000x128, .f32⟩
  | 81 => ⟨S50000x128, .f32⟩
  | 82 => ⟨S50000x128, .f32⟩
  | 83 => ⟨S1, .f32⟩
  | 84 => ⟨S_, .f32⟩
  | 85 => ⟨S_, .f32⟩
  | 86 => ⟨S_, .f32⟩
  | 87 => ⟨S50000x128, .f32⟩
  | 88 => ⟨S50000x128, .f32⟩
  | 89 => ⟨S50000x128, .f32⟩
  | 90 => ⟨S1x128x128, .f32⟩
  | 91 => ⟨S128x128, .f32⟩
  | 92 => ⟨S50000x128, .f32⟩
  | 93 => ⟨S1x128, .f32⟩
  | 94 => ⟨S128, .f32⟩
  | 95 => ⟨S1x128, .f32⟩
  | 96 => ⟨S50000x128, .f32⟩
  | 97 => ⟨S50000x128, .f32⟩
  | 98 => ⟨S_, .f32⟩
  | 99 => ⟨S50000x128, .f32⟩
  | 100 => ⟨S50000x128, .f32⟩
  | 101 => ⟨S1x128x128, .f32⟩
  | 102 => ⟨S128x128, .f32⟩
  | 103 => ⟨S50000x128, .f32⟩
  | 104 => ⟨S1x128, .f32⟩
  | 105 => ⟨S128, .f32⟩
  | 106 => ⟨S1x128, .f32⟩
  | 107 => ⟨S50000x128, .f32⟩
  | 108 => ⟨S50000x128, .f32⟩
  | 109 => ⟨S50000x512, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_3 : Ref sig .tc := ⟨.hbm, 50, rfl⟩
abbrev main_v29 : Ref sig .tc := ⟨.hbm, 51, rfl⟩
abbrev main_v30 : Ref sig .tc := ⟨.hbm, 52, rfl⟩
abbrev main_c_4 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_call0_cst : Ref sig .tc := ⟨.hbm, 60, rfl⟩
abbrev main_call0_v0 : Ref sig .tc := ⟨.hbm, 61, rfl⟩
abbrev main_v37 : Ref sig .tc := ⟨.hbm, 62, rfl⟩
abbrev main_cst_5 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_call1_cst : Ref sig .tc := ⟨.hbm, 84, rfl⟩
abbrev main_call1_v0 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_7 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_call2_cst : Ref sig .tc := ⟨.hbm, 108, rfl⟩
abbrev main_call2_v0 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_call3_cst : Ref sig .tc := ⟨.hbm, 119, rfl⟩
abbrev main_call3_v0 : Ref sig .tc := ⟨.hbm, 120, rfl⟩
abbrev main_v87 : Ref sig .tc := ⟨.hbm, 121, rfl⟩
abbrev main_c_8 : Ref sig .tc := ⟨.hbm, 122, rfl⟩
abbrev main_v88 : Ref sig .tc := ⟨.hbm, 123, rfl⟩
abbrev main_v89 : Ref sig .tc := ⟨.hbm, 124, rfl⟩
abbrev main_c_9 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_c_10 : Ref sig .tc := ⟨.hbm, 140, rfl⟩
abbrev main_v104 : Ref sig .tc := ⟨.hbm, 141, rfl⟩
abbrev main_v105 : Ref sig .tc := ⟨.hbm, 142, rfl⟩
abbrev main_c_11 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_call4_cst : Ref sig .tc := ⟨.hbm, 150, rfl⟩
abbrev main_call4_v0 : Ref sig .tc := ⟨.hbm, 151, rfl⟩
abbrev main_v112 : Ref sig .tc := ⟨.hbm, 152, rfl⟩
abbrev main_cst_12 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_cst_13 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_call5_cst : Ref sig .tc := ⟨.hbm, 174, rfl⟩
abbrev main_call5_v0 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_cst_14 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_call6_cst : Ref sig .tc := ⟨.hbm, 198, rfl⟩
abbrev main_call6_v0 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_call7_cst : Ref sig .tc := ⟨.hbm, 209, rfl⟩
abbrev main_call7_v0 : Ref sig .tc := ⟨.hbm, 210, rfl⟩
abbrev main_v162 : Ref sig .tc := ⟨.hbm, 211, rfl⟩
abbrev main_c_15 : Ref sig .tc := ⟨.hbm, 212, rfl⟩
abbrev main_v163 : Ref sig .tc := ⟨.hbm, 213, rfl⟩
abbrev main_v164 : Ref sig .tc := ⟨.hbm, 214, rfl⟩
abbrev main_c_16 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_c_17 : Ref sig .tc := ⟨.hbm, 230, rfl⟩
abbrev main_v179 : Ref sig .tc := ⟨.hbm, 231, rfl⟩
abbrev main_v180 : Ref sig .tc := ⟨.hbm, 232, rfl⟩
abbrev main_c_18 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_call8_cst : Ref sig .tc := ⟨.hbm, 240, rfl⟩
abbrev main_call8_v0 : Ref sig .tc := ⟨.hbm, 241, rfl⟩
abbrev main_v187 : Ref sig .tc := ⟨.hbm, 242, rfl⟩
abbrev main_cst_19 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_cst_20 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_call9_cst : Ref sig .tc := ⟨.hbm, 264, rfl⟩
abbrev main_call9_v0 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_cst_21 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_call10_cst : Ref sig .tc := ⟨.hbm, 288, rfl⟩
abbrev main_call10_v0 : Ref sig .tc := ⟨.hbm, 289, rfl⟩
abbrev main_v228 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_v232 : Ref sig .tc := ⟨.hbm, 294, rfl⟩
abbrev main_v233 : Ref sig .tc := ⟨.hbm, 295, rfl⟩
abbrev main_v234 : Ref sig .tc := ⟨.hbm, 296, rfl⟩
abbrev main_v235 : Ref sig .tc := ⟨.hbm, 297, rfl⟩
abbrev main_v236 : Ref sig .tc := ⟨.hbm, 298, rfl⟩
abbrev main_call11_cst : Ref sig .tc := ⟨.hbm, 299, rfl⟩
abbrev main_call11_v0 : Ref sig .tc := ⟨.hbm, 300, rfl⟩
abbrev main_v237 : Ref sig .tc := ⟨.hbm, 301, rfl⟩
abbrev main_c_22 : Ref sig .tc := ⟨.hbm, 302, rfl⟩
abbrev main_v238 : Ref sig .tc := ⟨.hbm, 303, rfl⟩
abbrev main_v239 : Ref sig .tc := ⟨.hbm, 304, rfl⟩
abbrev main_c_23 : Ref sig .tc := ⟨.hbm, 305, rfl⟩
abbrev main_v240 : Ref sig .tc := ⟨.hbm, 306, rfl⟩
abbrev main_v241 : Ref sig .tc := ⟨.hbm, 307, rfl⟩
abbrev main_v242 : Ref sig .tc := ⟨.hbm, 308, rfl⟩
abbrev main_v243 : Ref sig .tc := ⟨.hbm, 309, rfl⟩
abbrev main_v244 : Ref sig .tc := ⟨.hbm, 310, rfl⟩
abbrev main_v245 : Ref sig .tc := ⟨.hbm, 311, rfl⟩
abbrev main_v246 : Ref sig .tc := ⟨.hbm, 312, rfl⟩
abbrev main_v247 : Ref sig .tc := ⟨.hbm, 313, rfl⟩
abbrev main_v248 : Ref sig .tc := ⟨.hbm, 314, rfl⟩
abbrev main_v249 : Ref sig .tc := ⟨.hbm, 315, rfl⟩
abbrev main_v250 : Ref sig .tc := ⟨.hbm, 316, rfl⟩
abbrev main_v251 : Ref sig .tc := ⟨.hbm, 317, rfl⟩
abbrev main_v252 : Ref sig .tc := ⟨.hbm, 318, rfl⟩
abbrev main_v253 : Ref sig .tc := ⟨.hbm, 319, rfl⟩
abbrev main_c_24 : Ref sig .tc := ⟨.hbm, 320, rfl⟩
abbrev main_v254 : Ref sig .tc := ⟨.hbm, 321, rfl⟩
abbrev main_v255 : Ref sig .tc := ⟨.hbm, 322, rfl⟩
abbrev main_c_25 : Ref sig .tc := ⟨.hbm, 323, rfl⟩
abbrev main_v256 : Ref sig .tc := ⟨.hbm, 324, rfl⟩
abbrev main_v257 : Ref sig .tc := ⟨.hbm, 325, rfl⟩
abbrev main_v258 : Ref sig .tc := ⟨.hbm, 326, rfl⟩
abbrev main_v259 : Ref sig .tc := ⟨.hbm, 327, rfl⟩
abbrev main_v260 : Ref sig .tc := ⟨.hbm, 328, rfl⟩
abbrev main_v261 : Ref sig .tc := ⟨.hbm, 329, rfl⟩
abbrev main_call12_cst : Ref sig .tc := ⟨.hbm, 330, rfl⟩
abbrev main_call12_v0 : Ref sig .tc := ⟨.hbm, 331, rfl⟩
abbrev main_v262 : Ref sig .tc := ⟨.hbm, 332, rfl⟩
abbrev main_cst_26 : Ref sig .tc := ⟨.hbm, 333, rfl⟩
abbrev main_v263 : Ref sig .tc := ⟨.hbm, 334, rfl⟩
abbrev main_v264 : Ref sig .tc := ⟨.hbm, 335, rfl⟩
abbrev main_v265 : Ref sig .tc := ⟨.hbm, 336, rfl⟩
abbrev main_v266 : Ref sig .tc := ⟨.hbm, 337, rfl⟩
abbrev main_v267 : Ref sig .tc := ⟨.hbm, 338, rfl⟩
abbrev main_v268 : Ref sig .tc := ⟨.hbm, 339, rfl⟩
abbrev main_v269 : Ref sig .tc := ⟨.hbm, 340, rfl⟩
abbrev main_cst_27 : Ref sig .tc := ⟨.hbm, 341, rfl⟩
abbrev main_v270 : Ref sig .tc := ⟨.hbm, 342, rfl⟩
abbrev main_v271 : Ref sig .tc := ⟨.hbm, 343, rfl⟩
abbrev main_v272 : Ref sig .tc := ⟨.hbm, 344, rfl⟩
abbrev main_v273 : Ref sig .tc := ⟨.hbm, 345, rfl⟩
abbrev main_v274 : Ref sig .tc := ⟨.hbm, 346, rfl⟩
abbrev main_v275 : Ref sig .tc := ⟨.hbm, 347, rfl⟩
abbrev main_v276 : Ref sig .tc := ⟨.hbm, 348, rfl⟩
abbrev main_v277 : Ref sig .tc := ⟨.hbm, 349, rfl⟩
abbrev main_v278 : Ref sig .tc := ⟨.hbm, 350, rfl⟩
abbrev main_v279 : Ref sig .tc := ⟨.hbm, 351, rfl⟩
abbrev main_v280 : Ref sig .tc := ⟨.hbm, 352, rfl⟩
abbrev main_v281 : Ref sig .tc := ⟨.hbm, 353, rfl⟩
abbrev main_call13_cst : Ref sig .tc := ⟨.hbm, 354, rfl⟩
abbrev main_call13_v0 : Ref sig .tc := ⟨.hbm, 355, rfl⟩
abbrev main_v282 : Ref sig .tc := ⟨.hbm, 356, rfl⟩
abbrev main_v283 : Ref sig .tc := ⟨.hbm, 357, rfl⟩
abbrev main_v284 : Ref sig .tc := ⟨.hbm, 358, rfl⟩
abbrev main_v285 : Ref sig .tc := ⟨.hbm, 359, rfl⟩
abbrev main_v286 : Ref sig .tc := ⟨.hbm, 360, rfl⟩
abbrev main_v287 : Ref sig .tc := ⟨.hbm, 361, rfl⟩
abbrev main_v288 : Ref sig .tc := ⟨.hbm, 362, rfl⟩
abbrev main_v289 : Ref sig .tc := ⟨.hbm, 363, rfl⟩
abbrev main_v290 : Ref sig .tc := ⟨.hbm, 364, rfl⟩
abbrev main_v291 : Ref sig .tc := ⟨.hbm, 365, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  slices_S4x1x128_S1x1x128_0_0_0 : S4x1x128.Slices ![0, 0, 0] S1x1x128
  shapeCasts_S1x1x128_S1x128 : S1x1x128.ShapeCasts S1x128
  slices_S4x128_S1x128_0_0 : S4x128.Slices ![0, 0] S1x128
  shapeCasts_S1x128_S128 : S1x128.ShapeCasts S128
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S4_S1_0 : S4.Slices ![0] S1
  shapeCasts_S1_S_ : S1.ShapeCasts S_
  slices_S4x128x128_S1x128x128_0_0_0 : S4x128x128.Slices ![0, 0, 0] S1x128x128
  shapeCasts_S1x128x128_S128x128 : S1x128x128.ShapeCasts S128x128
  bcast_S1x128_S50000x128_0_1 : S1x128.BroadcastsInDim S50000x128 (![0, 1] : Fin 2 → Fin S50000x128.rank)
  bcast_S_S64x128 : S_.BroadcastsInDim S64x128 (![] : Fin 0 → Fin S64x128.rank)
  slices_S3x128x128_S1x128x128_0_0_0 : S3x128x128.Slices ![0, 0, 0] S1x128x128
  slices_S3x128_S1x128_0_0 : S3x128.Slices ![0, 0] S1x128
  slices_S4x1x128_S1x1x128_1_0_0 : S4x1x128.Slices ![1, 0, 0] S1x1x128
  slices_S4x128_S1x128_1_0 : S4x128.Slices ![1, 0] S1x128
  slices_S4_S1_1 : S4.Slices ![1] S1
  slices_S4x128x128_S1x128x128_1_0_0 : S4x128x128.Slices ![1, 0, 0] S1x128x128
  slices_S3x128x128_S1x128x128_1_0_0 : S3x128x128.Slices ![1, 0, 0] S1x128x128
  slices_S3x128_S1x128_1_0 : S3x128.Slices ![1, 0] S1x128
  slices_S4x1x128_S1x1x128_2_0_0 : S4x1x128.Slices ![2, 0, 0] S1x1x128
  slices_S4x128_S1x128_2_0 : S4x128.Slices ![2, 0] S1x128
  slices_S4_S1_2 : S4.Slices ![2] S1
  slices_S4x128x128_S1x128x128_2_0_0 : S4x128x128.Slices ![2, 0, 0] S1x128x128
  slices_S3x128x128_S1x128x128_2_0_0 : S3x128x128.Slices ![2, 0, 0] S1x128x128
  slices_S3x128_S1x128_2_0 : S3x128.Slices ![2, 0] S1x128
  slices_S4x1x128_S1x1x128_3_0_0 : S4x1x128.Slices ![3, 0, 0] S1x1x128
  slices_S4x128_S1x128_3_0 : S4x128.Slices ![3, 0] S1x128
  slices_S4_S1_3 : S4.Slices ![3] S1
  slices_S4x128x128_S1x128x128_3_0_0 : S4x128x128.Slices ![3, 0, 0] S1x128x128
  concatenates_S50000x128_S50000x128_S50000x128_S50000x128_S50000x512_d1 : Shape.Concatenates [S50000x128, S50000x128, S50000x128, S50000x128] S50000x512 1
  scatter_S50000_S800000x1_S800000_n_0_0_1_wf : ScatterDims.WF S50000 S800000x1 S800000 [] [0] [0] 1
  gather_S64x128_S50000x1_S50000x128_1_0_n_n_0_1_1128_wf : GatherDims.WF S64x128 S50000x1 S50000x128 [1] [0] [] [0] [] 1 ![1, 128]
  dot_S800000x1_S1x128_S800000x128_1_0_0_1_n_n_wf : DotDims.WF S800000x1 S1x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  dot_S64x128_S128x128_S64x128_1_0_0_1_n_n_wf : DotDims.WF S64x128 S128x128 S64x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S64x128_S50000x1_S50000x128_1_0_n_n_0_1_1128 : GatherDims S64x128 S50000x1 S50000x128 where
  offsetDims := [1]
  collapsedSliceDims := [0]
  operandBatchingDims := []
  startIndicesBatchingDims := []
  startIndexMap := [0]
  indexVectorDim := 1
  sliceSizes := ![1, 128]
  wf := gather_S64x128_S50000x1_S50000x128_1_0_n_n_0_1_1128_wf
def dot_S800000x1_S1x128_S800000x128_1_0_0_1_n_n : DotDims S800000x1 S1x128 S800000x128 where
  lhsContracting := [1]
  rhsContracting := [0]
  lhsNonContracting := [0]
  rhsNonContracting := [1]
  lhsBatch := []
  rhsBatch := []
  wf := dot_S800000x1_S1x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

class Facts : Prop extends Facts₀ where

variable [Facts]
-- ==== Proof.K.Reg0.lean ====
/-
  Region 0 of the program: the edge-message kernel on its grid of 80 points. At point t the body reads a block of
  10000 gathered source rows (window 0), the matching 10000 edge attributes (window 1), and the layer's 1x128 scale and
  bias rows (windows 2 and 3, the same block at every point), and stores into the output block (window 4) the value
  max(hsrc + (attr * scale + bias), 0), entry by entry. Stated at a parameter V, the contents of the buffers when the
  region is entered: what each output block holds after the body, the body's triple, the proof data of the pipeline,
  and the body obligation at every point.
-/
import proofs.«109328_j13039520711153_1_alg».proof.Proof.Gen.Kernel.Launch
import proofs.«109328_j13039520711153_1_alg».proof.Proof.Gen.Kernel.Skeleton
import proofs.«109328_j13039520711153_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether or not it was fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether or not it was fetched there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether or not it was fetched there. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, whether or not it was fetched there. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole rectangles the body loads and stores through. -/
abbrev rE0 : Rect S10000x128 := Rect.unit (s := S10000x128) ![0, 0] S10000x128.size inb_S10000x128_S10000x128_0_0
abbrev rA0 : Rect S10000x1 := Rect.unit (s := S10000x1) ![0, 0] S10000x1.size inb_S10000x1_S10000x1_0_0
abbrev rR0 : Rect S1x128 := Rect.unit (s := S1x128) ![0, 0] S1x128.size inb_S1x128_S1x128_0_0

/-- The output block after the body, from the four input blocks: its one store, of the payload of the four loads. -/
def out0_4 (x0 : Vec F S10000x128 .f32) (x1 : Vec F S10000x1 .f32) (x2 : Vec F S1x128 .f32) (x3 : Vec F S1x128 .f32) : Vec F S10000x128 .f32 :=
  View.canon [⟨rE0, k0_pay1 (View.ld x1 rA0) (View.ld x2 rR0) (View.ld x3 rR0) (View.ld x0 rE0)⟩]

/-- The one store covers the block. -/
theorem cover0_4 (p0 : Vec F S10000x128 .f32) (y : S10000x128.Idx) :
    ∃ pc ∈ ([⟨rE0, p0⟩] : List (View.Piece (Elt F) S10000x128 .f32)), y ∈ pc.1.set :=
  View.cover_of_tiled [⟨rE0, p0⟩] S10000x128.size (by rfl) y

set_option maxHeartbeats 1000000 in
/-- The body on whole staging buffers, the inputs at contents x0..x3 and the output at anything, runs to the end with the
    inputs as they were and the output at out0_4 of the inputs. -/
theorem sound_kernel0 (c : Dev nD) (E : Set ℕ) (i : grid0.Coords)
    (arg1 : Memref sig .tc .vmem S10000x128 .f32) (harg1 : arg1.IsWhole) (arg2 : Memref sig .tc .vmem S10000x1 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S10000x128 .f32) (harg5 : arg5.IsWhole)
    (x0 : Vec F S10000x128 .f32) (x1 : Vec F S10000x1 .f32) (x2 : Vec F S1x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__edge_msg_kernel i arg1 harg1 arg2 harg2 arg3 harg3 arg4 harg4 arg5 harg5) K := by
  simp only [cc0__edge_msg_kernel_eq_skeleton]; unfold cc0__edge_msg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The proof data of this pipeline on core c: the arrays as the region finds them; after the body at point t each input's
    buffer at its block and the output's at out0_4 of the input blocks; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Reg1.lean ====
/-
  Region 1 of the program: the node kernel on its grid of 10 points. At point t the body reads a block of 5000 node rows
  (window 0) and the matching aggregated messages (window 1), and, the same block at every point, the 1x1 scale (window 2),
  the two 128x128 weight matrices (windows 3 and 5) and the two 1x128 bias rows (windows 4 and 6); it stores into the output
  block (window 7) the two-layer map  max((scale * h + agg) W1 + b1, 0) W2 + b2.  Stated at a parameter V, the contents of
  the buffers when the region is entered: what each output block holds after the body, the body's triple, the proof data
  of the pipeline, and the body obligation at every point.
-/
import proofs.«109328_j13039520711153_1_alg».proof.Proof.Gen.Kernel.Launch
import proofs.«109328_j13039520711153_1_alg».proof.Proof.Gen.Kernel.Skeleton
import proofs.«109328_j13039520711153_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether or not it was fetched there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether or not it was fetched there. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether or not it was fetched there. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, whether or not it was fetched there. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, whether or not it was fetched there. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, whether or not it was fetched there. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at every point, whether or not it was fetched there. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The whole rectangles the body loads and stores through. -/
abbrev rN1 : Rect S5000x128 := Rect.unit (s := S5000x128) ![0, 0] S5000x128.size inb_S5000x128_S5000x128_0_0
abbrev rS1 : Rect S1x1 := Rect.unit (s := S1x1) ![0, 0] S1x1.size inb_S1x1_S1x1_0_0
abbrev rW1 : Rect S128x128 := Rect.unit (s := S128x128) ![0, 0] S128x128.size inb_S128x128_S128x128_0_0
abbrev rR1 : Rect S1x128 := Rect.unit (s := S1x128) ![0, 0] S1x128.size inb_S1x128_S1x128_0_0

/-- The output block after the body, from the seven input blocks: its one store, of the payload of the seven loads. -/
def out1_7 (x0 : Vec F S5000x128 .f32) (x1 : Vec F S5000x128 .f32) (x2 : Vec F S1x1 .f32) (x3 : Vec F S128x128 .f32) (x4 : Vec F S1x128 .f32) (x5 : Vec F S128x128 .f32) (x6 : Vec F S1x128 .f32) : Vec F S5000x128 .f32 :=
  View.canon [⟨rN1, k1_pay1 (View.ld x2 rS1) (View.ld x0 rN1) (View.ld x1 rN1) (View.ld x3 rW1) (View.ld x5 rW1) (View.ld x4 rR1) (View.ld x6 rR1)⟩]

/-- The one store covers the block. -/
theorem cover1_7 (p0 : Vec F S5000x128 .f32) (y : S5000x128.Idx) :
    ∃ pc ∈ ([⟨rN1, p0⟩] : List (View.Piece (Elt F) S5000x128 .f32)), y ∈ pc.1.set :=
  View.cover_of_tiled [⟨rN1, p0⟩] S5000x128.size (by rfl) y

set_option maxHeartbeats 1000000 in
/-- The body on whole staging buffers, the inputs at contents x0..x6 and the output at anything, runs to the end with the
    inputs as they were and the output at out1_7 of the inputs. -/
theorem sound_kernel1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S1x1 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S5000x128 .f32) (harg8 : arg8.IsWhole)
    (x0 : Vec F S5000x128 .f32) (x1 : Vec F S5000x128 .f32) (x2 : Vec F S1x1 .f32) (x3 : Vec F S128x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__node_mlp_kernel i arg1 harg1 arg2 harg2 arg3 harg3 arg4 harg4 arg5 harg5 arg6 harg6 arg7 harg7 arg8 harg8) K := by
  simp only [cc1__node_mlp_kernel_eq_skeleton]; unfold cc1__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-- The proof data of this pipeline on core c: the arrays as the region finds them; after the body at point t each input's
    buffer at its block and the output's at out1_7 of the input blocks; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Reg2.lean ====
/-
  Region 2 of the program: the edge-message kernel on its grid of 80 points. At point t the body reads a block of
  10000 gathered source rows (window 0), the matching 10000 edge attributes (window 1), and the layer's 1x128 scale and
  bias rows (windows 2 and 3, the same block at every point), and stores into the output block (window 4) the value
  max(hsrc + (attr * scale + bias), 0), entry by entry. Stated at a parameter V, the contents of the buffers when the
  region is entered: what each output block holds after the body, the body's triple, the proof data of the pipeline,
  and the body obligation at every point.
-/
import proofs.«109328_j13039520711153_1_alg».proof.Proof.Gen.Kernel.Launch
import proofs.«109328_j13039520711153_1_alg».proof.Proof.Gen.Kernel.Skeleton
import proofs.«109328_j13039520711153_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether or not it was fetched there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether or not it was fetched there. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether or not it was fetched there. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, whether or not it was fetched there. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole rectangles the body loads and stores through. -/
abbrev rE2 : Rect S10000x128 := Rect.unit (s := S10000x128) ![0, 0] S10000x128.size inb_S10000x128_S10000x128_0_0
abbrev rA2 : Rect S10000x1 := Rect.unit (s := S10000x1) ![0, 0] S10000x1.size inb_S10000x1_S10000x1_0_0
abbrev rR2 : Rect S1x128 := Rect.unit (s := S1x128) ![0, 0] S1x128.size inb_S1x128_S1x128_0_0

/-- The output block after the body, from the four input blocks: its one store, of the payload of the four loads. -/
def out2_4 (x0 : Vec F S10000x128 .f32) (x1 : Vec F S10000x1 .f32) (x2 : Vec F S1x128 .f32) (x3 : Vec F S1x128 .f32) : Vec F S10000x128 .f32 :=
  View.canon [⟨rE2, k2_pay1 (View.ld x1 rA2) (View.ld x2 rR2) (View.ld x3 rR2) (View.ld x0 rE2)⟩]

/-- The one store covers the block. -/
theorem cover2_4 (p0 : Vec F S10000x128 .f32) (y : S10000x128.Idx) :
    ∃ pc ∈ ([⟨rE2, p0⟩] : List (View.Piece (Elt F) S10000x128 .f32)), y ∈ pc.1.set :=
  View.cover_of_tiled [⟨rE2, p0⟩] S10000x128.size (by rfl) y

set_option maxHeartbeats 1000000 in
/-- The body on whole staging buffers, the inputs at contents x0..x3 and the output at anything, runs to the end with the
    inputs as they were and the output at out2_4 of the inputs. -/
theorem sound_kernel2 (c : Dev nD) (E : Set ℕ) (i : grid2.Coords)
    (arg1 : Memref sig .tc .vmem S10000x128 .f32) (harg1 : arg1.IsWhole) (arg2 : Memref sig .tc .vmem S10000x1 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S10000x128 .f32) (harg5 : arg5.IsWhole)
    (x0 : Vec F S10000x128 .f32) (x1 : Vec F S10000x1 .f32) (x2 : Vec F S1x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__edge_msg_kernel i arg1 harg1 arg2 harg2 arg3 harg3 arg4 harg4 arg5 harg5) K := by
  simp only [cc2__edge_msg_kernel_eq_skeleton]; unfold cc2__edge_msg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The proof data of this pipeline on core c: the arrays as the region finds them; after the body at point t each input's
    buffer at its block and the output's at out2_4 of the input blocks; the class invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the triple applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Reg3.lean ====
/-
  Region 3 of the program: the node kernel on its grid of 10 points. At point t the body reads a block of 5000 node rows
  (window 0) and the matching aggregated messages (window 1), and, the same block at every point, the 1x1 scale (window 2),
  the two 128x128 weight matrices (windows 3 and 5) and the two 1x128 bias rows (windows 4 and 6); it stores into the output
  block (window 7) the two-layer map  max((scale * h + agg) W1 + b1, 0) W2 + b2.  Stated at a parameter V, the contents of
  the buffers when the region is entered: what each output block holds after the body, the body's triple, the proof data
  of the pipeline, and the body obligation at every point.
-/
import proofs.«109328_j13039520711153_1_alg».proof.Proof.Gen.Kernel.Launch
import proofs.«109328_j13039520711153_1_alg».proof.Proof.Gen.Kernel.Skeleton
import proofs.«109328_j13039520711153_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether or not it was fetched there. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, whether or not it was fetched there. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, whether or not it was fetched there. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, whether or not it was fetched there. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, whether or not it was fetched there. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's staging buffer holds its block at every point, whether or not it was fetched there. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's staging buffer holds its block at every point, whether or not it was fetched there. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- The whole rectangles the body loads and stores through. -/
abbrev rN3 : Rect S5000x128 := Rect.unit (s := S5000x128) ![0, 0] S5000x128.size inb_S5000x128_S5000x128_0_0
abbrev rS3 : Rect S1x1 := Rect.unit (s := S1x1) ![0, 0] S1x1.size inb_S1x1_S1x1_0_0
abbrev rW3 : Rect S128x128 := Rect.unit (s := S128x128) ![0, 0] S128x128.size inb_S128x128_S128x128_0_0
abbrev rR3 : Rect S1x128 := Rect.unit (s := S1x128) ![0, 0] S1x128.size inb_S1x128_S1x128_0_0

/-- The output block after the body, from the seven input blocks: its one store, of the payload of the seven loads. -/
def out3_7 (x0 : Vec F S5000x128 .f32) (x1 : Vec F S5000x128 .f32) (x2 : Vec F S1x1 .f32) (x3 : Vec F S128x128 .f32) (x4 : Vec F S1x128 .f32) (x5 : Vec F S128x128 .f32) (x6 : Vec F S1x128 .f32) : Vec F S5000x128 .f32 :=
  View.canon [⟨rN3, k3_pay1 (View.ld x2 rS3) (View.ld x0 rN3) (View.ld x1 rN3) (View.ld x3 rW3) (View.ld x5 rW3) (View.ld x4 rR3) (View.ld x6 rR3)⟩]

/-- The one store covers the block. -/
theorem cover3_7 (p0 : Vec F S5000x128 .f32) (y : S5000x128.Idx) :
    ∃ pc ∈ ([⟨rN3, p0⟩] : List (View.Piece (Elt F) S5000x128 .f32)), y ∈ pc.1.set :=
  View.cover_of_tiled [⟨rN3, p0⟩] S5000x128.size (by rfl) y

set_option maxHeartbeats 1000000 in
/-- The body on whole staging buffers, the inputs at contents x0..x6 and the output at anything, runs to the end with the
    inputs as they were and the output at out3_7 of the inputs. -/
theorem sound_kernel3 (c : Dev nD) (E : Set ℕ) (i : grid3.Coords)
    (arg1 : Memref sig .tc .vmem S5000x128 .f32) (harg1 : arg1.IsWhole) (arg2 : Memref sig .tc .vmem S5000x128 .f32) (harg2 : arg2.IsWhole)
    (arg3 : Memref sig .tc .vmem S1x1 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S5000x128 .f32) (harg8 : arg8.IsWhole)
    (x0 : Vec F S5000x128 .f32) (x1 : Vec F S5000x128 .f32) (x2 : Vec F S1x1 .f32) (x3 : Vec F S128x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3__node_mlp_kernel i arg1 harg1 arg2 harg2 arg3 harg3 arg4 harg4 arg5 harg5 arg6 harg6 arg7 harg7 arg8 harg8) K := by
  simp only [cc3__node_mlp_kernel_eq_skeleton]; unfold cc3__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-- The proof data of this pipeline on core c: the arrays as the region finds them; after the body at point t each input's
    buffer at its block and the output's at out3_7 of the input blocks; the class invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' buffers hold their blocks, so the triple applies; the invariant and what the core
    owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.K.Reg4.lean ====
/-
  Region 4 of the program: the edge-message kernel on its grid of 80 points. At point t the body reads a block of
  10000 gathered source rows (window 0), the matching 10000 edge attributes (window 1), and the layer's 1x128 scale and
  bias rows (windows 2 and 3, the same block at every point), and stores into the output block (window 4) the value
  max(hsrc + (attr * scale + bias), 0), entry by entry. Stated at a parameter V, the contents of the buffers when the
  region is entered: what each output block holds after the body, the body's triple, the proof data of the pipeline,
  and the body obligation at every point.
-/
import proofs.«109328_j13039520711153_1_alg».proof.Proof.Gen.Kernel.Launch
import proofs.«109328_j13039520711153_1_alg».proof.Proof.Gen.Kernel.Skeleton
import proofs.«109328_j13039520711153_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, whether or not it was fetched there. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, whether or not it was fetched there. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, whether or not it was fetched there. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, whether or not it was fetched there. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The whole rectangles the body loads and stores through. -/
abbrev rE4 : Rect S10000x128 := Rect.unit (s := S10000x128) ![0, 0] S10000x128.size inb_S10000x128_S10000x128_0_0
abbrev rA4 : Rect S10000x1 := Rect.unit (s := S10000x1) ![0, 0] S10000x1.size inb_S10000x1_S10000x1_0_0
abbrev rR4 : Rect S1x128 := Rect.unit (s := S1x128) ![0, 0] S1x128.size inb_S1x128_S1x128_0_0

/-- The output block after the body, from the four input blocks: its one store, of the payload of the four loads. -/
def out4_4 (x0 : Vec F S10000x128 .f32) (x1 : Vec F S10000x1 .f32) (x2 : Vec F S1x128 .f32) (x3 : Vec F S1x128 .f32) : Vec F S10000x128 .f32 :=
  View.canon [⟨rE4, k4_pay1 (View.ld x1 rA4) (View.ld x2 rR4) (View.ld x3 rR4) (View.ld x0 rE4)⟩]

/-- The one store covers the block. -/
theorem cover4_4 (p0 : Vec F S10000x128 .f32) (y : S10000x128.Idx) :
    ∃ pc ∈ ([⟨rE4, p0⟩] : List (View.Piece (Elt F) S10000x128 .f32)), y ∈ pc.1.set :=
  View.cover_of_tiled [⟨rE4, p0⟩] S10000x128.size (by rfl) y

set_option maxHeartbeats 1000000 in
/-- The body on whole staging buffers, the inputs at contents x0..x3 and the output at anything, runs to the end with the
    inputs as they were and the output at out4_4 of the inputs. -/
theorem sound_kernel4 (c : Dev nD) (E : Set ℕ) (i : grid4.Coords)
    (arg1 : Memref sig .tc .vmem S10000x128 .f32) (harg1 : arg1.IsWhole) (arg2 : Memref sig .tc .vmem S10000x1 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S10000x128 .f32) (harg5 : arg5.IsWhole)
    (x0 : Vec F S10000x128 .f32) (x1 : Vec F S10000x1 .f32) (x2 : Vec F S1x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__edge_msg_kernel i arg1 harg1 arg2 harg2 arg3 harg3 arg4 harg4 arg5 harg5) K := by
  simp only [cc4__edge_msg_kernel_eq_skeleton]; unfold cc4__edge_msg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-- The proof data of this pipeline on core c: the arrays as the region finds them; after the body at point t each input's
    buffer at its block and the output's at out4_4 of the input blocks; the class invariant; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' buffers hold their blocks, so the triple applies; the invariant and what the core
    owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.K.Reg5.lean ====
/-
  Region 5 of the program: the node kernel on its grid of 10 points. At point t the body reads a block of 5000 node rows
  (window 0) and the matching aggregated messages (window 1), and, the same block at every point, the 1x1 scale (window 2),
  the two 128x128 weight matrices (windows 3 and 5) and the two 1x128 bias rows (windows 4 and 6); it stores into the output
  block (window 7) the two-layer map  max((scale * h + agg) W1 + b1, 0) W2 + b2.  Stated at a parameter V, the contents of
  the buffers when the region is entered: what each output block holds after the body, the body's triple, the proof data
  of the pipeline, and the body obligation at every point.
-/
import proofs.«109328_j13039520711153_1_alg».proof.Proof.Gen.Kernel.Launch
import proofs.«109328_j13039520711153_1_alg».proof.Proof.Gen.Kernel.Skeleton
import proofs.«109328_j13039520711153_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, whether or not it was fetched there. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, whether or not it was fetched there. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, whether or not it was fetched there. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point, whether or not it was fetched there. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds its block at every point, whether or not it was fetched there. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's staging buffer holds its block at every point, whether or not it was fetched there. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's staging buffer holds its block at every point, whether or not it was fetched there. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-- The whole rectangles the body loads and stores through. -/
abbrev rN5 : Rect S5000x128 := Rect.unit (s := S5000x128) ![0, 0] S5000x128.size inb_S5000x128_S5000x128_0_0
abbrev rS5 : Rect S1x1 := Rect.unit (s := S1x1) ![0, 0] S1x1.size inb_S1x1_S1x1_0_0
abbrev rW5 : Rect S128x128 := Rect.unit (s := S128x128) ![0, 0] S128x128.size inb_S128x128_S128x128_0_0
abbrev rR5 : Rect S1x128 := Rect.unit (s := S1x128) ![0, 0] S1x128.size inb_S1x128_S1x128_0_0

/-- The output block after the body, from the seven input blocks: its one store, of the payload of the seven loads. -/
def out5_7 (x0 : Vec F S5000x128 .f32) (x1 : Vec F S5000x128 .f32) (x2 : Vec F S1x1 .f32) (x3 : Vec F S128x128 .f32) (x4 : Vec F S1x128 .f32) (x5 : Vec F S128x128 .f32) (x6 : Vec F S1x128 .f32) : Vec F S5000x128 .f32 :=
  View.canon [⟨rN5, k5_pay1 (View.ld x2 rS5) (View.ld x0 rN5) (View.ld x1 rN5) (View.ld x3 rW5) (View.ld x5 rW5) (View.ld x4 rR5) (View.ld x6 rR5)⟩]

/-- The one store covers the block. -/
theorem cover5_7 (p0 : Vec F S5000x128 .f32) (y : S5000x128.Idx) :
    ∃ pc ∈ ([⟨rN5, p0⟩] : List (View.Piece (Elt F) S5000x128 .f32)), y ∈ pc.1.set :=
  View.cover_of_tiled [⟨rN5, p0⟩] S5000x128.size (by rfl) y

set_option maxHeartbeats 1000000 in
/-- The body on whole staging buffers, the inputs at contents x0..x6 and the output at anything, runs to the end with the
    inputs as they were and the output at out5_7 of the inputs. -/
theorem sound_kernel5 (c : Dev nD) (E : Set ℕ) (i : grid5.Coords)
    (arg1 : Memref sig .tc .vmem S5000x128 .f32) (harg1 : arg1.IsWhole) (arg2 : Memref sig .tc .vmem S5000x128 .f32) (harg2 : arg2.IsWhole)
    (arg3 : Memref sig .tc .vmem S1x1 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S5000x128 .f32) (harg8 : arg8.IsWhole)
    (x0 : Vec F S5000x128 .f32) (x1 : Vec F S5000x128 .f32) (x2 : Vec F S1x1 .f32) (x3 : Vec F S128x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out5_7 x0 x1 x2 x3 x4 x5 x6)) -∗ K ⟨⟩))
      ⊢ wp frame (wpE (defs₀ (F := F)) Variants.none c none) E (cc5__node_mlp_kernel i arg1 harg1 arg2 harg2 arg3 harg3 arg4 harg4 arg5 harg5 arg6 harg6 arg7 harg7 arg8 harg8) K := by
  simp only [cc5__node_mlp_kernel_eq_skeleton]; unfold cc5__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_7 _)

/-- The proof data of this pipeline on core c: the arrays as the region finds them; after the body at point t each input's
    buffer at its block and the output's at out5_7 of the input blocks; the class invariant; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

/-- The body at any point: the inputs' buffers hold their blocks, so the triple applies; the invariant and what the core
    owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Fr

end
-- ==== Proof.K.Reg6.lean ====
/-
  Region 6 of the program: the edge-message kernel on its grid of 80 points. At point t the body reads a block of
  10000 gathered source rows (window 0), the matching 10000 edge attributes (window 1), and the layer's 1x128 scale and
  bias rows (windows 2 and 3, the same block at every point), and stores into the output block (window 4) the value
  max(hsrc + (attr * scale + bias), 0), entry by entry. Stated at a parameter V, the contents of the buffers when the
  region is entered: what each output block holds after the body, the body's triple, the proof data of the pipeline,
  and the body obligation at every point.
-/
import proofs.«109328_j13039520711153_1_alg».proof.Proof.Gen.Kernel.Launch
import proofs.«109328_j13039520711153_1_alg».proof.Proof.Gen.Kernel.Skeleton
import proofs.«109328_j13039520711153_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, whether or not it was fetched there. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every point, whether or not it was fetched there. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block at every point, whether or not it was fetched there. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's staging buffer holds its block at every point, whether or not it was fetched there. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- The whole rectangles the body loads and stores through. -/
abbrev rE6 : Rect S10000x128 := Rect.unit (s := S10000x128) ![0, 0] S10000x128.size inb_S10000x128_S10000x128_0_0
abbrev rA6 : Rect S10000x1 := Rect.unit (s := S10000x1) ![0, 0] S10000x1.size inb_S10000x1_S10000x1_0_0
abbrev rR6 : Rect S1x128 := Rect.unit (s := S1x128) ![0, 0] S1x128.size inb_S1x128_S1x128_0_0

/-- The output block after the body, from the four input blocks: its one store, of the payload of the four loads. -/
def out6_4 (x0 : Vec F S10000x128 .f32) (x1 : Vec F S10000x1 .f32) (x2 : Vec F S1x128 .f32) (x3 : Vec F S1x128 .f32) : Vec F S10000x128 .f32 :=
  View.canon [⟨rE6, k6_pay1 (View.ld x1 rA6) (View.ld x2 rR6) (View.ld x3 rR6) (View.ld x0 rE6)⟩]

/-- The one store covers the block. -/
theorem cover6_4 (p0 : Vec F S10000x128 .f32) (y : S10000x128.Idx) :
    ∃ pc ∈ ([⟨rE6, p0⟩] : List (View.Piece (Elt F) S10000x128 .f32)), y ∈ pc.1.set :=
  View.cover_of_tiled [⟨rE6, p0⟩] S10000x128.size (by rfl) y

set_option maxHeartbeats 1000000 in
/-- The body on whole staging buffers, the inputs at contents x0..x3 and the output at anything, runs to the end with the
    inputs as they were and the output at out6_4 of the inputs. -/
theorem sound_kernel6 (c : Dev nD) (E : Set ℕ) (i : grid6.Coords)
    (arg1 : Memref sig .tc .vmem S10000x128 .f32) (harg1 : arg1.IsWhole) (arg2 : Memref sig .tc .vmem S10000x1 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S10000x128 .f32) (harg5 : arg5.IsWhole)
    (x0 : Vec F S10000x128 .f32) (x1 : Vec F S10000x1 .f32) (x2 : Vec F S1x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out6_4 x0 x1 x2 x3)) -∗ K ⟨⟩))
      ⊢ wp frame (wpE (defs₀ (F := F)) Variants.none c none) E (cc6__edge_msg_kernel i arg1 harg1 arg2 harg2 arg3 harg3 arg4 harg4 arg5 harg5) K := by
  simp only [cc6__edge_msg_kernel_eq_skeleton]; unfold cc6__edge_msg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover6_4 _)

/-- The proof data of this pipeline on core c: the arrays as the region finds them; after the body at point t each input's
    buffer at its block and the output's at out6_4 of the input blocks; the class invariant; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out6_4 (iblk6 V c 0 t) (iblk6 V c 1 t) (iblk6 V c 2 t) (iblk6 V c 3 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-- What the body is called with at point t, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

/-- The body at any point: the inputs' buffers hold their blocks, so the triple applies; the invariant and what the core
    owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ _ _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Fr

end
-- ==== Proof.K.Reg7.lean ====
/-
  Region 7 of the program: the node kernel on its grid of 10 points. At point t the body reads a block of 5000 node rows
  (window 0) and the matching aggregated messages (window 1), and, the same block at every point, the 1x1 scale (window 2),
  the two 128x128 weight matrices (windows 3 and 5) and the two 1x128 bias rows (windows 4 and 6); it stores into the output
  block (window 7) the two-layer map  max((scale * h + agg) W1 + b1, 0) W2 + b2.  Stated at a parameter V, the contents of
  the buffers when the region is entered: what each output block holds after the body, the body's triple, the proof data
  of the pipeline, and the body obligation at every point.
-/
import proofs.«109328_j13039520711153_1_alg».proof.Proof.Gen.Kernel.Launch
import proofs.«109328_j13039520711153_1_alg».proof.Proof.Gen.Kernel.Skeleton
import proofs.«109328_j13039520711153_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every point, whether or not it was fetched there. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds its block at every point, whether or not it was fetched there. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer holds its block at every point, whether or not it was fetched there. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's staging buffer holds its block at every point, whether or not it was fetched there. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's staging buffer holds its block at every point, whether or not it was fetched there. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's staging buffer holds its block at every point, whether or not it was fetched there. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- Input window 6's staging buffer holds its block at every point, whether or not it was fetched there. -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-- The whole rectangles the body loads and stores through. -/
abbrev rN7 : Rect S5000x128 := Rect.unit (s := S5000x128) ![0, 0] S5000x128.size inb_S5000x128_S5000x128_0_0
abbrev rS7 : Rect S1x1 := Rect.unit (s := S1x1) ![0, 0] S1x1.size inb_S1x1_S1x1_0_0
abbrev rW7 : Rect S128x128 := Rect.unit (s := S128x128) ![0, 0] S128x128.size inb_S128x128_S128x128_0_0
abbrev rR7 : Rect S1x128 := Rect.unit (s := S1x128) ![0, 0] S1x128.size inb_S1x128_S1x128_0_0

/-- The output block after the body, from the seven input blocks: its one store, of the payload of the seven loads. -/
def out7_7 (x0 : Vec F S5000x128 .f32) (x1 : Vec F S5000x128 .f32) (x2 : Vec F S1x1 .f32) (x3 : Vec F S128x128 .f32) (x4 : Vec F S1x128 .f32) (x5 : Vec F S128x128 .f32) (x6 : Vec F S1x128 .f32) : Vec F S5000x128 .f32 :=
  View.canon [⟨rN7, k7_pay1 (View.ld x2 rS7) (View.ld x0 rN7) (View.ld x1 rN7) (View.ld x3 rW7) (View.ld x5 rW7) (View.ld x4 rR7) (View.ld x6 rR7)⟩]

/-- The one store covers the block. -/
theorem cover7_7 (p0 : Vec F S5000x128 .f32) (y : S5000x128.Idx) :
    ∃ pc ∈ ([⟨rN7, p0⟩] : List (View.Piece (Elt F) S5000x128 .f32)), y ∈ pc.1.set :=
  View.cover_of_tiled [⟨rN7, p0⟩] S5000x128.size (by rfl) y

set_option maxHeartbeats 1000000 in
/-- The body on whole staging buffers, the inputs at contents x0..x6 and the output at anything, runs to the end with the
    inputs as they were and the output at out7_7 of the inputs. -/
theorem sound_kernel7 (c : Dev nD) (E : Set ℕ) (i : grid7.Coords)
    (arg1 : Memref sig .tc .vmem S5000x128 .f32) (harg1 : arg1.IsWhole) (arg2 : Memref sig .tc .vmem S5000x128 .f32) (harg2 : arg2.IsWhole)
    (arg3 : Memref sig .tc .vmem S1x1 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S5000x128 .f32) (harg8 : arg8.IsWhole)
    (x0 : Vec F S5000x128 .f32) (x1 : Vec F S5000x128 .f32) (x2 : Vec F S1x1 .f32) (x3 : Vec F S128x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out7_7 x0 x1 x2 x3 x4 x5 x6)) -∗ K ⟨⟩))
      ⊢ wp frame (wpE (defs₀ (F := F)) Variants.none c none) E (cc7__node_mlp_kernel i arg1 harg1 arg2 harg2 arg3 harg3 arg4 harg4 arg5 harg5 arg6 harg6 arg7 harg7 arg8 harg8) K := by
  simp only [cc7__node_mlp_kernel_eq_skeleton]; unfold cc7__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7_7 _)

/-- The proof data of this pipeline on core c: the arrays as the region finds them; after the body at point t each input's
    buffer at its block and the output's at out7_7 of the input blocks; the class invariant; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => out7_7 (iblk7 V c 0 t) (iblk7 V c 1 t) (iblk7 V c 2 t) (iblk7 V c 3 t) (iblk7 V c 4 t) (iblk7 V c 5 t) (iblk7 V c 6 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = out7_7 (iblk7 V c 0 t) (iblk7 V c 1 t) (iblk7 V c 2 t) (iblk7 V c 3 t) (iblk7 V c 4 t) (iblk7 V c 5 t) (iblk7 V c 6 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d

/-- What the body is called with at point t, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t))

/-- The body at any point: the inputs' buffers hold their blocks, so the triple applies; the invariant and what the core
    owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel7 c Set.univ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Fr

end
-- ==== Proof.K.Chain.lean ====
/-
  The contents of the buffers at each of the 29 boundaries between the items of the program: its host stretches and its
  eight kernel regions, in order. A host stretch takes the contents to the fold of its operations over them; a region
  leaves each of its arrays at what the pipeline's write-backs leave there (an input array as it was, the output array at
  the blocks the body stored, point by point) and every other buffer as it was. From these: the proof data of every
  pipeline at its region's entry contents, and the fact that no item changes an argument array.
-/
import proofs.«109328_j13039520711153_1_alg».proof.Proof.K.Reg0
import proofs.«109328_j13039520711153_1_alg».proof.Proof.K.Reg1
import proofs.«109328_j13039520711153_1_alg».proof.Proof.K.Reg2
import proofs.«109328_j13039520711153_1_alg».proof.Proof.K.Reg3
import proofs.«109328_j13039520711153_1_alg».proof.Proof.K.Reg4
import proofs.«109328_j13039520711153_1_alg».proof.Proof.K.Reg5
import proofs.«109328_j13039520711153_1_alg».proof.Proof.K.Reg6
import proofs.«109328_j13039520711153_1_alg».proof.Proof.K.Reg7
import proofs.«109328_j13039520711153_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at each boundary (X J: before item J) -/

abbrev X0 : Dev nD → Valuation τ sig (Elt F) := fun c b => m (c, b)
abbrev X1 : Dev nD → Valuation τ sig (Elt F) := fun c => StableHlo.after hostOps0 (X0 m c)
abbrev XV1 : (c : Dev nD) → (b : Ref sig .tc) → Buf (Elt F) ((c : Thread nD τ).loc b) := fun c b => X1 m c b
/-- After region 0: its arrays at what the pipeline leaves, the rest as entered. -/
def X2 (c : Dev nD) : Valuation τ sig (Elt F) :=
  Pipeline.withArrays spec0 c (X1 m c) fun w => (dat0 (XV1 m) c).arrAt w cfg0.N
abbrev XV2 : (c : Dev nD) → (b : Ref sig .tc) → Buf (Elt F) ((c : Thread nD τ).loc b) := fun c b => X2 m c b
abbrev X3 : Dev nD → Valuation τ sig (Elt F) := fun c => StableHlo.after hostOps1 (X2 m c)
abbrev XV3 : (c : Dev nD) → (b : Ref sig .tc) → Buf (Elt F) ((c : Thread nD τ).loc b) := fun c b => X3 m c b
/-- After region 1. -/
def X4 (c : Dev nD) : Valuation τ sig (Elt F) :=
  Pipeline.withArrays spec1 c (X3 m c) fun w => (dat1 (XV3 m) c).arrAt w cfg1.N
abbrev XV4 : (c : Dev nD) → (b : Ref sig .tc) → Buf (Elt F) ((c : Thread nD τ).loc b) := fun c b => X4 m c b
abbrev X5 : Dev nD → Valuation τ sig (Elt F) := fun c => StableHlo.after hostOps2 (X4 m c)
abbrev X6 : Dev nD → Valuation τ sig (Elt F) := fun c => StableHlo.after hostOps2_1 (X5 m c)
abbrev X7 : Dev nD → Valuation τ sig (Elt F) := fun c => StableHlo.after hostOps2_2 (X6 m c)
abbrev X8 : Dev nD → Valuation τ sig (Elt F) := fun c => StableHlo.after hostOps2_3 (X7 m c)
abbrev X9 : Dev nD → Valuation τ sig (Elt F) := fun c => StableHlo.after hostOps2_4 (X8 m c)
abbrev XV9 : (c : Dev nD) → (b : Ref sig .tc) → Buf (Elt F) ((c : Thread nD τ).loc b) := fun c b => X9 m c b
/-- After region 2. -/
def X10 (c : Dev nD) : Valuation τ sig (Elt F) :=
  Pipeline.withArrays spec2 c (X9 m c) fun w => (dat2 (XV9 m) c).arrAt w cfg2.N
abbrev XV10 : (c : Dev nD) → (b : Ref sig .tc) → Buf (Elt F) ((c : Thread nD τ).loc b) := fun c b => X10 m c b
abbrev X11 : Dev nD → Valuation τ sig (Elt F) := fun c => StableHlo.after hostOps3 (X10 m c)
abbrev XV11 : (c : Dev nD) → (b : Ref sig .tc) → Buf (Elt F) ((c : Thread nD τ).loc b) := fun c b => X11 m c b
/-- After region 3. -/
def X12 (c : Dev nD) : Valuation τ sig (Elt F) :=
  Pipeline.withArrays spec3 c (X11 m c) fun w => (dat3 (XV11 m) c).arrAt w cfg3.N
abbrev XV12 : (c : Dev nD) → (b : Ref sig .tc) → Buf (Elt F) ((c : Thread nD τ).loc b) := fun c b => X12 m c b
abbrev X13 : Dev nD → Valuation τ sig (Elt F) := fun c => StableHlo.after hostOps4 (X12 m c)
abbrev X14 : Dev nD → Valuation τ sig (Elt F) := fun c => StableHlo.after hostOps4_1 (X13 m c)
abbrev X15 : Dev nD → Valuation τ sig (Elt F) := fun c => StableHlo.after hostOps4_2 (X14 m c)
abbrev X16 : Dev nD → Valuation τ sig (Elt F) := fun c => StableHlo.after hostOps4_3 (X15 m c)
abbrev X17 : Dev nD → Valuation τ sig (Elt F) := fun c => StableHlo.after hostOps4_4 (X16 m c)
abbrev XV17 : (c : Dev nD) → (b : Ref sig .tc) → Buf (Elt F) ((c : Thread nD τ).loc b) := fun c b => X17 m c b
/-- After region 4. -/
def X18 (c : Dev nD) : Valuation τ sig (Elt F) :=
  Pipeline.withArrays spec4 c (X17 m c) fun w => (dat4 (XV17 m) c).arrAt w cfg4.N
abbrev XV18 : (c : Dev nD) → (b : Ref sig .tc) → Buf (Elt F) ((c : Thread nD τ).loc b) := fun c b => X18 m c b
abbrev X19 : Dev nD → Valuation τ sig (Elt F) := fun c => StableHlo.after hostOps5 (X18 m c)
abbrev XV19 : (c : Dev nD) → (b : Ref sig .tc) → Buf (Elt F) ((c : Thread nD τ).loc b) := fun c b => X19 m c b
/-- After region 5. -/
def X20 (c : Dev nD) : Valuation τ sig (Elt F) :=
  Pipeline.withArrays spec5 c (X19 m c) fun w => (dat5 (XV19 m) c).arrAt w cfg5.N
abbrev XV20 : (c : Dev nD) → (b : Ref sig .tc) → Buf (Elt F) ((c : Thread nD τ).loc b) := fun c b => X20 m c b
abbrev X21 : Dev nD → Valuation τ sig (Elt F) := fun c => StableHlo.after hostOps6 (X20 m c)
abbrev X22 : Dev nD → Valuation τ sig (Elt F) := fun c => StableHlo.after hostOps6_1 (X21 m c)
abbrev X23 : Dev nD → Valuation τ sig (Elt F) := fun c => StableHlo.after hostOps6_2 (X22 m c)
abbrev X24 : Dev nD → Valuation τ sig (Elt F) := fun c => StableHlo.after hostOps6_3 (X23 m c)
abbrev X25 : Dev nD → Valuation τ sig (Elt F) := fun c => StableHlo.after hostOps6_4 (X24 m c)
abbrev XV25 : (c : Dev nD) → (b : Ref sig .tc) → Buf (Elt F) ((c : Thread nD τ).loc b) := fun c b => X25 m c b
/-- After region 6. -/
def X26 (c : Dev nD) : Valuation τ sig (Elt F) :=
  Pipeline.withArrays spec6 c (X25 m c) fun w => (dat6 (XV25 m) c).arrAt w cfg6.N
abbrev XV26 : (c : Dev nD) → (b : Ref sig .tc) → Buf (Elt F) ((c : Thread nD τ).loc b) := fun c b => X26 m c b
abbrev X27 : Dev nD → Valuation τ sig (Elt F) := fun c => StableHlo.after hostOps7 (X26 m c)
abbrev XV27 : (c : Dev nD) → (b : Ref sig .tc) → Buf (Elt F) ((c : Thread nD τ).loc b) := fun c b => X27 m c b
/-- After region 7. -/
def X28 (c : Dev nD) : Valuation τ sig (Elt F) :=
  Pipeline.withArrays spec7 c (X27 m c) fun w => (dat7 (XV27 m) c).arrAt w cfg7.N
abbrev XV28 : (c : Dev nD) → (b : Ref sig .tc) → Buf (Elt F) ((c : Thread nD τ).loc b) := fun c b => X28 m c b
abbrev X29 : Dev nD → Valuation τ sig (Elt F) := fun c => StableHlo.after hostOps8 (X28 m c)

/-! ## A region's exit contents: its arrays, and the rest -/

theorem X2_arr (c : Dev nD) (w : Fin cfg0.W) : X2 m c (Proc.devRef .tc (Pipeline.arrRef spec0 w)) = (dat0 (XV1 m) c).arrAt w cfg0.N := by
  unfold X2; exact Pipeline.withArrays_arr spec0 launch0.win.arr_inj c _ _ w
theorem X2_of_ne (c : Dev nD) (b : Ref sig .tc) (hb : ∀ w, Pipeline.arrRef spec0 w ≠ b) : X2 m c (Proc.devRef .tc b) = X1 m c (Proc.devRef .tc b) := by
  unfold X2; exact Pipeline.withArrays_of_ne spec0 c _ _ b hb
theorem hF0 (c : Dev nD) (w : Fin cfg0.W) : (dat0 (XV1 m) c).arrAt w cfg0.N = XV2 m c (Pipeline.arrRef spec0 w) := (X2_arr m c w).symm
theorem hrest0 (c : Dev nD) : ∀ b, b ∉ Finset.univ.image (Pipeline.arrRef spec0) → XV2 m c b = XV1 m c b :=
  fun b hb => X2_of_ne m c b fun w e => hb (Finset.mem_image.mpr ⟨w, Finset.mem_univ _, e⟩)

theorem X4_arr (c : Dev nD) (w : Fin cfg1.W) : X4 m c (Proc.devRef .tc (Pipeline.arrRef spec1 w)) = (dat1 (XV3 m) c).arrAt w cfg1.N := by
  unfold X4; exact Pipeline.withArrays_arr spec1 launch1.win.arr_inj c _ _ w
theorem X4_of_ne (c : Dev nD) (b : Ref sig .tc) (hb : ∀ w, Pipeline.arrRef spec1 w ≠ b) : X4 m c (Proc.devRef .tc b) = X3 m c (Proc.devRef .tc b) := by
  unfold X4; exact Pipeline.withArrays_of_ne spec1 c _ _ b hb
theorem hF1 (c : Dev nD) (w : Fin cfg1.W) : (dat1 (XV3 m) c).arrAt w cfg1.N = XV4 m c (Pipeline.arrRef spec1 w) := (X4_arr m c w).symm
theorem hrest1 (c : Dev nD) : ∀ b, b ∉ Finset.univ.image (Pipeline.arrRef spec1) → XV4 m c b = XV3 m c b :=
  fun b hb => X4_of_ne m c b fun w e => hb (Finset.mem_image.mpr ⟨w, Finset.mem_univ _, e⟩)

theorem X10_arr (c : Dev nD) (w : Fin cfg2.W) : X10 m c (Proc.devRef .tc (Pipeline.arrRef spec2 w)) = (dat2 (XV9 m) c).arrAt w cfg2.N := by
  unfold X10; exact Pipeline.withArrays_arr spec2 launch2.win.arr_inj c _ _ w
theorem X10_of_ne (c : Dev nD) (b : Ref sig .tc) (hb : ∀ w, Pipeline.arrRef spec2 w ≠ b) : X10 m c (Proc.devRef .tc b) = X9 m c (Proc.devRef .tc b) := by
  unfold X10; exact Pipeline.withArrays_of_ne spec2 c _ _ b hb
theorem hF2 (c : Dev nD) (w : Fin cfg2.W) : (dat2 (XV9 m) c).arrAt w cfg2.N = XV10 m c (Pipeline.arrRef spec2 w) := (X10_arr m c w).symm
theorem hrest2 (c : Dev nD) : ∀ b, b ∉ Finset.univ.image (Pipeline.arrRef spec2) → XV10 m c b = XV9 m c b :=
  fun b hb => X10_of_ne m c b fun w e => hb (Finset.mem_image.mpr ⟨w, Finset.mem_univ _, e⟩)

theorem X12_arr (c : Dev nD) (w : Fin cfg3.W) : X12 m c (Proc.devRef .tc (Pipeline.arrRef spec3 w)) = (dat3 (XV11 m) c).arrAt w cfg3.N := by
  unfold X12; exact Pipeline.withArrays_arr spec3 launch3.win.arr_inj c _ _ w
theorem X12_of_ne (c : Dev nD) (b : Ref sig .tc) (hb : ∀ w, Pipeline.arrRef spec3 w ≠ b) : X12 m c (Proc.devRef .tc b) = X11 m c (Proc.devRef .tc b) := by
  unfold X12; exact Pipeline.withArrays_of_ne spec3 c _ _ b hb
theorem hF3 (c : Dev nD) (w : Fin cfg3.W) : (dat3 (XV11 m) c).arrAt w cfg3.N = XV12 m c (Pipeline.arrRef spec3 w) := (X12_arr m c w).symm
theorem hrest3 (c : Dev nD) : ∀ b, b ∉ Finset.univ.image (Pipeline.arrRef spec3) → XV12 m c b = XV11 m c b :=
  fun b hb => X12_of_ne m c b fun w e => hb (Finset.mem_image.mpr ⟨w, Finset.mem_univ _, e⟩)

theorem X18_arr (c : Dev nD) (w : Fin cfg4.W) : X18 m c (Proc.devRef .tc (Pipeline.arrRef spec4 w)) = (dat4 (XV17 m) c).arrAt w cfg4.N := by
  unfold X18; exact Pipeline.withArrays_arr spec4 launch4.win.arr_inj c _ _ w
theorem X18_of_ne (c : Dev nD) (b : Ref sig .tc) (hb : ∀ w, Pipeline.arrRef spec4 w ≠ b) : X18 m c (Proc.devRef .tc b) = X17 m c (Proc.devRef .tc b) := by
  unfold X18; exact Pipeline.withArrays_of_ne spec4 c _ _ b hb
theorem hF4 (c : Dev nD) (w : Fin cfg4.W) : (dat4 (XV17 m) c).arrAt w cfg4.N = XV18 m c (Pipeline.arrRef spec4 w) := (X18_arr m c w).symm
theorem hrest4 (c : Dev nD) : ∀ b, b ∉ Finset.univ.image (Pipeline.arrRef spec4) → XV18 m c b = XV17 m c b :=
  fun b hb => X18_of_ne m c b fun w e => hb (Finset.mem_image.mpr ⟨w, Finset.mem_univ _, e⟩)

theorem X20_arr (c : Dev nD) (w : Fin cfg5.W) : X20 m c (Proc.devRef .tc (Pipeline.arrRef spec5 w)) = (dat5 (XV19 m) c).arrAt w cfg5.N := by
  unfold X20; exact Pipeline.withArrays_arr spec5 launch5.win.arr_inj c _ _ w
theorem X20_of_ne (c : Dev nD) (b : Ref sig .tc) (hb : ∀ w, Pipeline.arrRef spec5 w ≠ b) : X20 m c (Proc.devRef .tc b) = X19 m c (Proc.devRef .tc b) := by
  unfold X20; exact Pipeline.withArrays_of_ne spec5 c _ _ b hb
theorem hF5 (c : Dev nD) (w : Fin cfg5.W) : (dat5 (XV19 m) c).arrAt w cfg5.N = XV20 m c (Pipeline.arrRef spec5 w) := (X20_arr m c w).symm
theorem hrest5 (c : Dev nD) : ∀ b, b ∉ Finset.univ.image (Pipeline.arrRef spec5) → XV20 m c b = XV19 m c b :=
  fun b hb => X20_of_ne m c b fun w e => hb (Finset.mem_image.mpr ⟨w, Finset.mem_univ _, e⟩)

theorem X26_arr (c : Dev nD) (w : Fin cfg6.W) : X26 m c (Proc.devRef .tc (Pipeline.arrRef spec6 w)) = (dat6 (XV25 m) c).arrAt w cfg6.N := by
  unfold X26; exact Pipeline.withArrays_arr spec6 launch6.win.arr_inj c _ _ w
theorem X26_of_ne (c : Dev nD) (b : Ref sig .tc) (hb : ∀ w, Pipeline.arrRef spec6 w ≠ b) : X26 m c (Proc.devRef .tc b) = X25 m c (Proc.devRef .tc b) := by
  unfold X26; exact Pipeline.withArrays_of_ne spec6 c _ _ b hb
theorem hF6 (c : Dev nD) (w : Fin cfg6.W) : (dat6 (XV25 m) c).arrAt w cfg6.N = XV26 m c (Pipeline.arrRef spec6 w) := (X26_arr m c w).symm
theorem hrest6 (c : Dev nD) : ∀ b, b ∉ Finset.univ.image (Pipeline.arrRef spec6) → XV26 m c b = XV25 m c b :=
  fun b hb => X26_of_ne m c b fun w e => hb (Finset.mem_image.mpr ⟨w, Finset.mem_univ _, e⟩)

theorem X28_arr (c : Dev nD) (w : Fin cfg7.W) : X28 m c (Proc.devRef .tc (Pipeline.arrRef spec7 w)) = (dat7 (XV27 m) c).arrAt w cfg7.N := by
  unfold X28; exact Pipeline.withArrays_arr spec7 launch7.win.arr_inj c _ _ w
theorem X28_of_ne (c : Dev nD) (b : Ref sig .tc) (hb : ∀ w, Pipeline.arrRef spec7 w ≠ b) : X28 m c (Proc.devRef .tc b) = X27 m c (Proc.devRef .tc b) := by
  unfold X28; exact Pipeline.withArrays_of_ne spec7 c _ _ b hb
theorem hF7 (c : Dev nD) (w : Fin cfg7.W) : (dat7 (XV27 m) c).arrAt w cfg7.N = XV28 m c (Pipeline.arrRef spec7 w) := (X28_arr m c w).symm
theorem hrest7 (c : Dev nD) : ∀ b, b ∉ Finset.univ.image (Pipeline.arrRef spec7) → XV28 m c b = XV27 m c b :=
  fun b hb => X28_of_ne m c b fun w e => hb (Finset.mem_image.mpr ⟨w, Finset.mem_univ _, e⟩)

/-! ## A buffer that no host stretch writes and that is no region's array ends as launched -/

/-- A buffer that no host stretch writes and that every region leaves as it found it holds, at the end, what the
    launch found in it: the 29 items one after the other. -/
theorem X29_keep (c : Dev nD) (b : Ref sig .tc)
    (g1 : b ∉ (hostOps0_W : List (Ref sig .tc))) (g3 : b ∉ (hostOps1_W : List (Ref sig .tc))) (g5 : b ∉ (hostOps2_W : List (Ref sig .tc))) (g6 : b ∉ (hostOps2_1_W : List (Ref sig .tc))) (g7 : b ∉ (hostOps2_2_W : List (Ref sig .tc))) (g8 : b ∉ (hostOps2_3_W : List (Ref sig .tc))) (g9 : b ∉ (hostOps2_4_W : List (Ref sig .tc))) (g11 : b ∉ (hostOps3_W : List (Ref sig .tc))) (g13 : b ∉ (hostOps4_W : List (Ref sig .tc))) (g14 : b ∉ (hostOps4_1_W : List (Ref sig .tc))) (g15 : b ∉ (hostOps4_2_W : List (Ref sig .tc))) (g16 : b ∉ (hostOps4_3_W : List (Ref sig .tc))) (g17 : b ∉ (hostOps4_4_W : List (Ref sig .tc))) (g19 : b ∉ (hostOps5_W : List (Ref sig .tc))) (g21 : b ∉ (hostOps6_W : List (Ref sig .tc))) (g22 : b ∉ (hostOps6_1_W : List (Ref sig .tc))) (g23 : b ∉ (hostOps6_2_W : List (Ref sig .tc))) (g24 : b ∉ (hostOps6_3_W : List (Ref sig .tc))) (g25 : b ∉ (hostOps6_4_W : List (Ref sig .tc))) (g27 : b ∉ (hostOps7_W : List (Ref sig .tc))) (g29 : b ∉ (hostOps8_W : List (Ref sig .tc)))
    (e2 : X2 m c (Proc.devRef .tc b) = X1 m c (Proc.devRef .tc b))
    (e4 : X4 m c (Proc.devRef .tc b) = X3 m c (Proc.devRef .tc b))
    (e10 : X10 m c (Proc.devRef .tc b) = X9 m c (Proc.devRef .tc b))
    (e12 : X12 m c (Proc.devRef .tc b) = X11 m c (Proc.devRef .tc b))
    (e18 : X18 m c (Proc.devRef .tc b) = X17 m c (Proc.devRef .tc b))
    (e20 : X20 m c (Proc.devRef .tc b) = X19 m c (Proc.devRef .tc b))
    (e26 : X26 m c (Proc.devRef .tc b) = X25 m c (Proc.devRef .tc b))
    (e28 : X28 m c (Proc.devRef .tc b) = X27 m c (Proc.devRef .tc b)) :
    X29 m c (Proc.devRef .tc b) = m ((c : Thread nD τ).loc b) := by
  have e1 : X1 m c (Proc.devRef .tc b) = X0 m c (Proc.devRef .tc b) := StableHlo.after_of_writes_sub hostOps0 (X0 m c) hostOps0_writes g1
  have e3 : X3 m c (Proc.devRef .tc b) = X2 m c (Proc.devRef .tc b) := StableHlo.after_of_writes_sub hostOps1 (X2 m c) hostOps1_writes g3
  have e5 : X5 m c (Proc.devRef .tc b) = X4 m c (Proc.devRef .tc b) := StableHlo.after_of_writes_sub hostOps2 (X4 m c) hostOps2_writes g5
  have e6 : X6 m c (Proc.devRef .tc b) = X5 m c (Proc.devRef .tc b) := StableHlo.after_of_writes_sub hostOps2_1 (X5 m c) hostOps2_1_writes g6
  have e7 : X7 m c (Proc.devRef .tc b) = X6 m c (Proc.devRef .tc b) := StableHlo.after_of_writes_sub hostOps2_2 (X6 m c) hostOps2_2_writes g7
  have e8 : X8 m c (Proc.devRef .tc b) = X7 m c (Proc.devRef .tc b) := StableHlo.after_of_writes_sub hostOps2_3 (X7 m c) hostOps2_3_writes g8
  have e9 : X9 m c (Proc.devRef .tc b) = X8 m c (Proc.devRef .tc b) := StableHlo.after_of_writes_sub hostOps2_4 (X8 m c) hostOps2_4_writes g9
  have e11 : X11 m c (Proc.devRef .tc b) = X10 m c (Proc.devRef .tc b) := StableHlo.after_of_writes_sub hostOps3 (X10 m c) hostOps3_writes g11
  have e13 : X13 m c (Proc.devRef .tc b) = X12 m c (Proc.devRef .tc b) := StableHlo.after_of_writes_sub hostOps4 (X12 m c) hostOps4_writes g13
  have e14 : X14 m c (Proc.devRef .tc b) = X13 m c (Proc.devRef .tc b) := StableHlo.after_of_writes_sub hostOps4_1 (X13 m c) hostOps4_1_writes g14
  have e15 : X15 m c (Proc.devRef .tc b) = X14 m c (Proc.devRef .tc b) := StableHlo.after_of_writes_sub hostOps4_2 (X14 m c) hostOps4_2_writes g15
  have e16 : X16 m c (Proc.devRef .tc b) = X15 m c (Proc.devRef .tc b) := StableHlo.after_of_writes_sub hostOps4_3 (X15 m c) hostOps4_3_writes g16
  have e17 : X17 m c (Proc.devRef .tc b) = X16 m c (Proc.devRef .tc b) := StableHlo.after_of_writes_sub hostOps4_4 (X16 m c) hostOps4_4_writes g17
  have e19 : X19 m c (Proc.devRef .tc b) = X18 m c (Proc.devRef .tc b) := StableHlo.after_of_writes_sub hostOps5 (X18 m c) hostOps5_writes g19
  have e21 : X21 m c (Proc.devRef .tc b) = X20 m c (Proc.devRef .tc b) := StableHlo.after_of_writes_sub hostOps6 (X20 m c) hostOps6_writes g21
  have e22 : X22 m c (Proc.devRef .tc b) = X21 m c (Proc.devRef .tc b) := StableHlo.after_of_writes_sub hostOps6_1 (X21 m c) hostOps6_1_writes g22
  have e23 : X23 m c (Proc.devRef .tc b) = X22 m c (Proc.devRef .tc b) := StableHlo.after_of_writes_sub hostOps6_2 (X22 m c) hostOps6_2_writes g23
  have e24 : X24 m c (Proc.devRef .tc b) = X23 m c (Proc.devRef .tc b) := StableHlo.after_of_writes_sub hostOps6_3 (X23 m c) hostOps6_3_writes g24
  have e25 : X25 m c (Proc.devRef .tc b) = X24 m c (Proc.devRef .tc b) := StableHlo.after_of_writes_sub hostOps6_4 (X24 m c) hostOps6_4_writes g25
  have e27 : X27 m c (Proc.devRef .tc b) = X26 m c (Proc.devRef .tc b) := StableHlo.after_of_writes_sub hostOps7 (X26 m c) hostOps7_writes g27
  have e29 : X29 m c (Proc.devRef .tc b) = X28 m c (Proc.devRef .tc b) := StableHlo.after_of_writes_sub hostOps8 (X28 m c) hostOps8_writes g29
  exact e29.trans <| e28.trans <| e27.trans <| e26.trans <| e25.trans <| e24.trans <| e23.trans <| e22.trans <| e21.trans <| e20.trans <| e19.trans <| e18.trans <| e17.trans <| e16.trans <| e15.trans <| e14.trans <| e13.trans <| e12.trans <| e11.trans <| e10.trans <| e9.trans <| e8.trans <| e7.trans <| e6.trans <| e5.trans <| e4.trans <| e3.trans <| e2.trans <| e1

/-! ## The proof data of every pipeline, each at its region's entry contents -/

abbrev admF : (p : Fin 8) → (pcfgs (F := F) p).Adm := fun p => (cfgs p).toPCfg_adm

/-- A literal match on the pipeline's number, so that the pinned configuration at a numeral reduces to the printed one. -/
def pdatsF : (p : Fin 8) → (c : Dev nD) → Dat τ (Elt F) Unit ℕ (UR sig nD τ) ℕ (Pipeline.pin (pcfgs (F := F)) admF p) c
  | ⟨0, _⟩ => fun c => dat0 (XV1 m) c
  | ⟨1, _⟩ => fun c => dat1 (XV3 m) c
  | ⟨2, _⟩ => fun c => dat2 (XV9 m) c
  | ⟨3, _⟩ => fun c => dat3 (XV11 m) c
  | ⟨4, _⟩ => fun c => dat4 (XV17 m) c
  | ⟨5, _⟩ => fun c => dat5 (XV19 m) c
  | ⟨6, _⟩ => fun c => dat6 (XV25 m) c
  | ⟨7, _⟩ => fun c => dat7 (XV27 m) c

abbrev VarF : Variants := Variants.none
/-- No core owes another anything: no level is assigned. -/
abbrev LF : GSem nD τ sig → Finset Unit := fun _ => ∅
abbrev lvF : GSem nD τ sig → Unit → ℕ := fun _ _ => 0
/-- What rides beside the buffers through every item: the core's generator register at some state, and nothing owed. -/
abbrev RF (c : Dev nD) : sProp 𝕄 := iprop((∃ r, prngReg c r) ∗ ∃ W, owes (c : Thread nD τ) (0 : CellTallies nD τ sig Unit) W)
/-- A host stretch as a segment over the unscoped references, from the contents W. -/
abbrev hsegF (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ VarF LF lvF :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RF

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Fr

end
-- ==== Proof.K.Seg0.lean ====
/-
  Region 0 as a segment of the program over the thread state "every unscoped buffer at the boundary's contents, the
  generator register at some state, nothing owed": entered at the contents X1, left at X2. Its arrays are split out of the
  unscoped buffers on entry and put back at their exit contents on exit; the generator register goes into the pipeline's
  invariant and comes back; the kernel has no semaphore of its own.
-/
import proofs.«109328_j13039520711153_1_alg».proof.Proof.K.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def regF0 : Pipeline.RegionSeg (pcfgs (F := F)) admF (pdatsF m) () defs₀ VarF LF lvF 0 where
  win := launch0.win.to₀
  block_pos := launch0.block_pos
  stage_whole := launch0.stage_whole
  K := PEmpty
  osem k := k.elim
  ho := Pipeline.OwnSemFacts.none _
  hbody c := (body_obligation0 (XV1 m) c).loose
  hwaits := Pipeline.hwaits_of_owed_zero _ _ _ _ LF lvF 0 fun _ _ => rfl
  pre c := iprop(StableHlo.held (c : Thread nD τ) (Pipeline.ucRefs τ sig) (X1 m c) ∗ RF c)
  post c := iprop(StableHlo.held (c : Thread nD τ) (Pipeline.ucRefs τ sig) (X2 m c) ∗ RF c)
  X c := iprop(∃ r, prngReg c r)
  Y c := iprop(∃ r, prngReg c r)
  Z c := Pipeline.unscopedRest (Ix := Unit) (Name := ℕ) (U := UR sig nD τ) (Lvl := ℕ) spec0 c (XV1 m c)
  hentry c := by
    rw [Pipeline.ownSems0_none]
    have hsplit := Pipeline.arrays_of_unscopedBufs (p := 0) (pcfgs (F := F)) admF (pdatsF m) launch0.win launch0.arr_whole c
      ((pdatsF m 0 c).share_full fun _ => rfl) (XV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsF m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdatsF m) ((pdatsF m 0 c).share_full fun _ => rfl)
      (XV1 m c) (XV2 m c) ((pdatsF m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Seg1.lean ====
/-
  Region 1 as a segment of the program over the thread state "every unscoped buffer at the boundary's contents, the
  generator register at some state, nothing owed": entered at the contents X3, left at X4. Its arrays are split out of the
  unscoped buffers on entry and put back at their exit contents on exit; the generator register goes into the pipeline's
  invariant and comes back; the kernel has no semaphore of its own.
-/
import proofs.«109328_j13039520711153_1_alg».proof.Proof.K.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def regF1 : Pipeline.RegionSeg (pcfgs (F := F)) admF (pdatsF m) () defs₀ VarF LF lvF 1 where
  win := launch1.win.to₀
  block_pos := launch1.block_pos
  stage_whole := launch1.stage_whole
  K := PEmpty
  osem k := k.elim
  ho := Pipeline.OwnSemFacts.none _
  hbody c := (body_obligation1 (XV3 m) c).loose
  hwaits := Pipeline.hwaits_of_owed_zero _ _ _ _ LF lvF 1 fun _ _ => rfl
  pre c := iprop(StableHlo.held (c : Thread nD τ) (Pipeline.ucRefs τ sig) (X3 m c) ∗ RF c)
  post c := iprop(StableHlo.held (c : Thread nD τ) (Pipeline.ucRefs τ sig) (X4 m c) ∗ RF c)
  X c := iprop(∃ r, prngReg c r)
  Y c := iprop(∃ r, prngReg c r)
  Z c := Pipeline.unscopedRest (Ix := Unit) (Name := ℕ) (U := UR sig nD τ) (Lvl := ℕ) spec1 c (XV3 m c)
  hentry c := by
    rw [Pipeline.ownSems0_none]
    have hsplit := Pipeline.arrays_of_unscopedBufs (p := 1) (pcfgs (F := F)) admF (pdatsF m) launch1.win launch1.arr_whole c
      ((pdatsF m 1 c).share_full fun _ => rfl) (XV3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsF m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pdatsF m) ((pdatsF m 1 c).share_full fun _ => rfl)
      (XV3 m c) (XV4 m c) ((pdatsF m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Seg2.lean ====
/-
  Region 2 as a segment of the program over the thread state "every unscoped buffer at the boundary's contents, the
  generator register at some state, nothing owed": entered at the contents X9, left at X10. Its arrays are split out of the
  unscoped buffers on entry and put back at their exit contents on exit; the generator register goes into the pipeline's
  invariant and comes back; the kernel has no semaphore of its own.
-/
import proofs.«109328_j13039520711153_1_alg».proof.Proof.K.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def regF2 : Pipeline.RegionSeg (pcfgs (F := F)) admF (pdatsF m) () defs₀ VarF LF lvF 2 where
  win := launch2.win.to₀
  block_pos := launch2.block_pos
  stage_whole := launch2.stage_whole
  K := PEmpty
  osem k := k.elim
  ho := Pipeline.OwnSemFacts.none _
  hbody c := (body_obligation2 (XV9 m) c).loose
  hwaits := Pipeline.hwaits_of_owed_zero _ _ _ _ LF lvF 2 fun _ _ => rfl
  pre c := iprop(StableHlo.held (c : Thread nD τ) (Pipeline.ucRefs τ sig) (X9 m c) ∗ RF c)
  post c := iprop(StableHlo.held (c : Thread nD τ) (Pipeline.ucRefs τ sig) (X10 m c) ∗ RF c)
  X c := iprop(∃ r, prngReg c r)
  Y c := iprop(∃ r, prngReg c r)
  Z c := Pipeline.unscopedRest (Ix := Unit) (Name := ℕ) (U := UR sig nD τ) (Lvl := ℕ) spec2 c (XV9 m c)
  hentry c := by
    rw [Pipeline.ownSems0_none]
    have hsplit := Pipeline.arrays_of_unscopedBufs (p := 2) (pcfgs (F := F)) admF (pdatsF m) launch2.win launch2.arr_whole c
      ((pdatsF m 2 c).share_full fun _ => rfl) (XV9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsF m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admF (Ix := Unit) (Name := ℕ) (U := UR sig nD τ) (Lvl := ℕ)
      launch2.win launch2.arr_whole c (pdatsF m) ((pdatsF m 2 c).share_full fun _ => rfl)
      (XV9 m c) (XV10 m c) ((pdatsF m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Seg3.lean ====
/-
  Region 3 as a segment of the program over the thread state "every unscoped buffer at the boundary's contents, the
  generator register at some state, nothing owed": entered at the contents X11, left at X12. Its arrays are split out of the
  unscoped buffers on entry and put back at their exit contents on exit; the generator register goes into the pipeline's
  invariant and comes back; the kernel has no semaphore of its own.
-/
import proofs.«109328_j13039520711153_1_alg».proof.Proof.K.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def regF3 : Pipeline.RegionSeg (pcfgs (F := F)) admF (pdatsF m) () defs₀ VarF LF lvF 3 where
  win := launch3.win.to₀
  block_pos := launch3.block_pos
  stage_whole := launch3.stage_whole
  K := PEmpty
  osem k := k.elim
  ho := Pipeline.OwnSemFacts.none _
  hbody c := (body_obligation3 (XV11 m) c).loose
  hwaits := Pipeline.hwaits_of_owed_zero _ _ _ _ LF lvF 3 fun _ _ => rfl
  pre c := iprop(StableHlo.held (c : Thread nD τ) (Pipeline.ucRefs τ sig) (X11 m c) ∗ RF c)
  post c := iprop(StableHlo.held (c : Thread nD τ) (Pipeline.ucRefs τ sig) (X12 m c) ∗ RF c)
  X c := iprop(∃ r, prngReg c r)
  Y c := iprop(∃ r, prngReg c r)
  Z c := Pipeline.unscopedRest (Ix := Unit) (Name := ℕ) (U := UR sig nD τ) (Lvl := ℕ) spec3 c (XV11 m c)
  hentry c := by
    rw [Pipeline.ownSems0_none]
    have hsplit := Pipeline.arrays_of_unscopedBufs (p := 3) (pcfgs (F := F)) admF (pdatsF m) launch3.win launch3.arr_whole c
      ((pdatsF m 3 c).share_full fun _ => rfl) (XV11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsF m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admF (Ix := Unit) (Name := ℕ) (U := UR sig nD τ) (Lvl := ℕ)
      launch3.win launch3.arr_whole c (pdatsF m) ((pdatsF m 3 c).share_full fun _ => rfl)
      (XV11 m c) (XV12 m c) ((pdatsF m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Seg4.lean ====
/-
  Region 4 as a segment of the program over the thread state "every unscoped buffer at the boundary's contents, the
  generator register at some state, nothing owed": entered at the contents X17, left at X18. Its arrays are split out of the
  unscoped buffers on entry and put back at their exit contents on exit; the generator register goes into the pipeline's
  invariant and comes back; the kernel has no semaphore of its own.
-/
import proofs.«109328_j13039520711153_1_alg».proof.Proof.K.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def regF4 : Pipeline.RegionSeg (pcfgs (F := F)) admF (pdatsF m) () defs₀ VarF LF lvF 4 where
  win := launch4.win.to₀
  block_pos := launch4.block_pos
  stage_whole := launch4.stage_whole
  K := PEmpty
  osem k := k.elim
  ho := Pipeline.OwnSemFacts.none _
  hbody c := (body_obligation4 (XV17 m) c).loose
  hwaits := Pipeline.hwaits_of_owed_zero _ _ _ _ LF lvF 4 fun _ _ => rfl
  pre c := iprop(StableHlo.held (c : Thread nD τ) (Pipeline.ucRefs τ sig) (X17 m c) ∗ RF c)
  post c := iprop(StableHlo.held (c : Thread nD τ) (Pipeline.ucRefs τ sig) (X18 m c) ∗ RF c)
  X c := iprop(∃ r, prngReg c r)
  Y c := iprop(∃ r, prngReg c r)
  Z c := Pipeline.unscopedRest (Ix := Unit) (Name := ℕ) (U := UR sig nD τ) (Lvl := ℕ) spec4 c (XV17 m c)
  hentry c := by
    rw [Pipeline.ownSems0_none]
    have hsplit := Pipeline.arrays_of_unscopedBufs (p := 4) (pcfgs (F := F)) admF (pdatsF m) launch4.win launch4.arr_whole c
      ((pdatsF m 4 c).share_full fun _ => rfl) (XV17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdatsF m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admF (Ix := Unit) (Name := ℕ) (U := UR sig nD τ) (Lvl := ℕ)
      launch4.win launch4.arr_whole c (pdatsF m) ((pdatsF m 4 c).share_full fun _ => rfl)
      (XV17 m c) (XV18 m c) ((pdatsF m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Seg5.lean ====
/-
  Region 5 as a segment of the program over the thread state "every unscoped buffer at the boundary's contents, the
  generator register at some state, nothing owed": entered at the contents X19, left at X20. Its arrays are split out of the
  unscoped buffers on entry and put back at their exit contents on exit; the generator register goes into the pipeline's
  invariant and comes back; the kernel has no semaphore of its own.
-/
import proofs.«109328_j13039520711153_1_alg».proof.Proof.K.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def regF5 : Pipeline.RegionSeg (pcfgs (F := F)) admF (pdatsF m) () defs₀ VarF LF lvF 5 where
  win := launch5.win.to₀
  block_pos := launch5.block_pos
  stage_whole := launch5.stage_whole
  K := PEmpty
  osem k := k.elim
  ho := Pipeline.OwnSemFacts.none _
  hbody c := (body_obligation5 (XV19 m) c).loose
  hwaits := Pipeline.hwaits_of_owed_zero _ _ _ _ LF lvF 5 fun _ _ => rfl
  pre c := iprop(StableHlo.held (c : Thread nD τ) (Pipeline.ucRefs τ sig) (X19 m c) ∗ RF c)
  post c := iprop(StableHlo.held (c : Thread nD τ) (Pipeline.ucRefs τ sig) (X20 m c) ∗ RF c)
  X c := iprop(∃ r, prngReg c r)
  Y c := iprop(∃ r, prngReg c r)
  Z c := Pipeline.unscopedRest (Ix := Unit) (Name := ℕ) (U := UR sig nD τ) (Lvl := ℕ) spec5 c (XV19 m c)
  hentry c := by
    rw [Pipeline.ownSems0_none]
    have hsplit := Pipeline.arrays_of_unscopedBufs (p := 5) (pcfgs (F := F)) admF (pdatsF m) launch5.win launch5.arr_whole c
      ((pdatsF m 5 c).share_full fun _ => rfl) (XV19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdatsF m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admF (Ix := Unit) (Name := ℕ) (U := UR sig nD τ) (Lvl := ℕ)
      launch5.win launch5.arr_whole c (pdatsF m) ((pdatsF m 5 c).share_full fun _ => rfl)
      (XV19 m c) (XV20 m c) ((pdatsF m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Seg6.lean ====
/-
  Region 6 as a segment of the program over the thread state "every unscoped buffer at the boundary's contents, the
  generator register at some state, nothing owed": entered at the contents X25, left at X26. Its arrays are split out of the
  unscoped buffers on entry and put back at their exit contents on exit; the generator register goes into the pipeline's
  invariant and comes back; the kernel has no semaphore of its own.
-/
import proofs.«109328_j13039520711153_1_alg».proof.Proof.K.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def regF6 : Pipeline.RegionSeg (pcfgs (F := F)) admF (pdatsF m) () defs₀ VarF LF lvF 6 where
  win := launch6.win.to₀
  block_pos := launch6.block_pos
  stage_whole := launch6.stage_whole
  K := PEmpty
  osem k := k.elim
  ho := Pipeline.OwnSemFacts.none _
  hbody c := (body_obligation6 (XV25 m) c).loose
  hwaits := Pipeline.hwaits_of_owed_zero _ _ _ _ LF lvF 6 fun _ _ => rfl
  pre c := iprop(StableHlo.held (c : Thread nD τ) (Pipeline.ucRefs τ sig) (X25 m c) ∗ RF c)
  post c := iprop(StableHlo.held (c : Thread nD τ) (Pipeline.ucRefs τ sig) (X26 m c) ∗ RF c)
  X c := iprop(∃ r, prngReg c r)
  Y c := iprop(∃ r, prngReg c r)
  Z c := Pipeline.unscopedRest (Ix := Unit) (Name := ℕ) (U := UR sig nD τ) (Lvl := ℕ) spec6 c (XV25 m c)
  hentry c := by
    rw [Pipeline.ownSems0_none]
    have hsplit := Pipeline.arrays_of_unscopedBufs (p := 6) (pcfgs (F := F)) admF (pdatsF m) launch6.win launch6.arr_whole c
      ((pdatsF m 6 c).share_full fun _ => rfl) (XV25 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdatsF m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admF (Ix := Unit) (Name := ℕ) (U := UR sig nD τ) (Lvl := ℕ)
      launch6.win launch6.arr_whole c (pdatsF m) ((pdatsF m 6 c).share_full fun _ => rfl)
      (XV25 m c) (XV26 m c) ((pdatsF m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Seg7.lean ====
/-
  Region 7 as a segment of the program over the thread state "every unscoped buffer at the boundary's contents, the
  generator register at some state, nothing owed": entered at the contents X27, left at X28. Its arrays are split out of the
  unscoped buffers on entry and put back at their exit contents on exit; the generator register goes into the pipeline's
  invariant and comes back; the kernel has no semaphore of its own.
-/
import proofs.«109328_j13039520711153_1_alg».proof.Proof.K.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def regF7 : Pipeline.RegionSeg (pcfgs (F := F)) admF (pdatsF m) () defs₀ VarF LF lvF 7 where
  win := launch7.win.to₀
  block_pos := launch7.block_pos
  stage_whole := launch7.stage_whole
  K := PEmpty
  osem k := k.elim
  ho := Pipeline.OwnSemFacts.none _
  hbody c := (body_obligation7 (XV27 m) c).loose
  hwaits := Pipeline.hwaits_of_owed_zero _ _ _ _ LF lvF 7 fun _ _ => rfl
  pre c := iprop(StableHlo.held (c : Thread nD τ) (Pipeline.ucRefs τ sig) (X27 m c) ∗ RF c)
  post c := iprop(StableHlo.held (c : Thread nD τ) (Pipeline.ucRefs τ sig) (X28 m c) ∗ RF c)
  X c := iprop(∃ r, prngReg c r)
  Y c := iprop(∃ r, prngReg c r)
  Z c := Pipeline.unscopedRest (Ix := Unit) (Name := ℕ) (U := UR sig nD τ) (Lvl := ℕ) spec7 c (XV27 m c)
  hentry c := by
    rw [Pipeline.ownSems0_none]
    have hsplit := Pipeline.arrays_of_unscopedBufs (p := 7) (pcfgs (F := F)) admF (pdatsF m) launch7.win launch7.arr_whole c
      ((pdatsF m 7 c).share_full fun _ => rfl) (XV27 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdatsF m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) admF (Ix := Unit) (Name := ℕ) (U := UR sig nD τ) (Lvl := ℕ)
      launch7.win launch7.arr_whole c (pdatsF m) ((pdatsF m 7 c).share_full fun _ => rfl)
      (XV27 m c) (XV28 m c) ((pdatsF m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Run.lean ====
/-
  The run of the program: its 29 items as segments (a host segment per stretch of host operations, from its boundary's
  contents; a region per kernel call), the program as the run of those segments, and from the launch theorem for several
  regions: every weakly fair execution from any memory with zero counters terminates, faulting nowhere, and in every final
  state each unscoped buffer holds the last boundary's contents X29. The argument arrays are among those buffers and X29
  holds them as launched; the result array is among them too.
-/
import proofs.«109328_j13039520711153_1_alg».proof.Proof.K.Seg0
import proofs.«109328_j13039520711153_1_alg».proof.Proof.K.Seg1
import proofs.«109328_j13039520711153_1_alg».proof.Proof.K.Seg2
import proofs.«109328_j13039520711153_1_alg».proof.Proof.K.Seg3
import proofs.«109328_j13039520711153_1_alg».proof.Proof.K.Seg4
import proofs.«109328_j13039520711153_1_alg».proof.Proof.K.Seg5
import proofs.«109328_j13039520711153_1_alg».proof.Proof.K.Seg6
import proofs.«109328_j13039520711153_1_alg».proof.Proof.K.Seg7

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's 29 items in order. -/
abbrev segsF : List (Pipeline.Seg (pcfgs (F := F)) admF (pdatsF m) () defs₀ VarF LF lvF) :=
  [ .host (hsegF hostOps0 hostOps0_sub hostOps0_fresh (X0 m)),
    .region (regF0 m),
    .host (hsegF hostOps1 hostOps1_sub hostOps1_fresh (X2 m)),
    .region (regF1 m),
    .host (hsegF hostOps2 hostOps2_sub hostOps2_fresh (X4 m)),
    .host (hsegF hostOps2_1 hostOps2_1_sub hostOps2_1_fresh (X5 m)),
    .host (hsegF hostOps2_2 hostOps2_2_sub hostOps2_2_fresh (X6 m)),
    .host (hsegF hostOps2_3 hostOps2_3_sub hostOps2_3_fresh (X7 m)),
    .host (hsegF hostOps2_4 hostOps2_4_sub hostOps2_4_fresh (X8 m)),
    .region (regF2 m),
    .host (hsegF hostOps3 hostOps3_sub hostOps3_fresh (X10 m)),
    .region (regF3 m),
    .host (hsegF hostOps4 hostOps4_sub hostOps4_fresh (X12 m)),
    .host (hsegF hostOps4_1 hostOps4_1_sub hostOps4_1_fresh (X13 m)),
    .host (hsegF hostOps4_2 hostOps4_2_sub hostOps4_2_fresh (X14 m)),
    .host (hsegF hostOps4_3 hostOps4_3_sub hostOps4_3_fresh (X15 m)),
    .host (hsegF hostOps4_4 hostOps4_4_sub hostOps4_4_fresh (X16 m)),
    .region (regF4 m),
    .host (hsegF hostOps5 hostOps5_sub hostOps5_fresh (X18 m)),
    .region (regF5 m),
    .host (hsegF hostOps6 hostOps6_sub hostOps6_fresh (X20 m)),
    .host (hsegF hostOps6_1 hostOps6_1_sub hostOps6_1_fresh (X21 m)),
    .host (hsegF hostOps6_2 hostOps6_2_sub hostOps6_2_fresh (X22 m)),
    .host (hsegF hostOps6_3 hostOps6_3_sub hostOps6_3_fresh (X23 m)),
    .host (hsegF hostOps6_4 hostOps6_4_sub hostOps6_4_fresh (X24 m)),
    .region (regF6 m),
    .host (hsegF hostOps7 hostOps7_sub hostOps7_fresh (X26 m)),
    .region (regF7 m),
    .host (hsegF hostOps8 hostOps8_sub hostOps8_fresh (X28 m)) ]

/-- The last thread state without what the core owes: every unscoped buffer at X29, the generator register somewhere. -/
abbrev TnF (c : Dev nD) : sProp 𝕄 := iprop(StableHlo.held (c : Thread nD τ) (Pipeline.ucRefs τ sig) (X29 m c) ∗ ∃ r, prngReg c r)

set_option backward.isDefEq.respectTransparency.types false in
/-- THE RUN: every weakly fair execution of the program from memory m with zero counters terminates, faulting nowhere,
    and in every final state every unscoped buffer of every core holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = X29 m c b) :=
  Pipeline.θ_run_regions_kit (pcfgs (F := F)) admF (pdatsF m) () cellOf_inj emb₁ defs₀ VarF LF lvF m ρ main (segsF m)
    (fun c Q => by
      rewrite [main_chain c, Pipeline.Seg.run_eq_chain,
        show (segsF m).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          StableHlo.seq hostOps4_3,
          StableHlo.seq hostOps4_4,
          Prog.lift (.customCall (Pipeline.entry 4) ()),
          StableHlo.seq hostOps5,
          Prog.lift (.customCall (Pipeline.entry 5) ()),
          StableHlo.seq hostOps6,
          StableHlo.seq hostOps6_1,
          StableHlo.seq hostOps6_2,
          StableHlo.seq hostOps6_3,
          StableHlo.seq hostOps6_4,
          Prog.lift (.customCall (Pipeline.entry 6) ()),
          StableHlo.seq hostOps7,
          Prog.lift (.customCall (Pipeline.entry 7) ()),
          StableHlo.seq hostOps8 ] from rfl]
      exact .rfl)
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ RF c)) (Tₙ := TnF m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        show iprop(StableHlo.held (c.tc : Thread nD τ) (Pipeline.ucRefs τ sig) (StableHlo.after hostOps8 (X28 m c)) ∗ RF c) ⊢ _
        iintro ⟨Hh, Hp, HO⟩
        isplitl [Hh Hp]
        · isplitl [Hh]; · iexact Hh
          iexact Hp
        iexact HO⟩)
    (hinit := by
      refine Pipeline.initEach LF lvF fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X29 m c b)
    (hfin := fun c s' => by
      iintro ⟨⟨Hh, -⟩, HSI⟩
      unfold StableHlo.held
      imodintro
      iapply (pointsTo_read_all (Pipeline.ucRefs τ sig) (fun b => (((c : Thread nD τ)).1, b)) (X29 m c) s')
      isplitl [Hh] <;> iassumption)
    (hQ := fun s h c => h c)

end Cert.Kernel.Fr

end
-- ==== Proof.K.Frame.lean ====
/-
  The frame of the program, from its run: the sixteen argument arrays are unscoped buffers that no host operation
  writes; no region has one of them as an output array (the edge-attribute array is an INPUT array of the four edge
  regions, which a pipeline leaves as it found it); so the last boundary's contents hold each of them as launched.
-/
import proofs.«109328_j13039520711153_1_alg».proof.Proof.K.Run

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.Sem
open Idealize.ShloMosaic.Pipeline (Dat)

variable {F : FTy → Type} [FloatOps F]

variable (m : (ℓ : Loc nD τ sig) → Buf (Elt F) ℓ) (ρ : Dev nD → PrngReg)

theorem X29_arg0 (c : Dev nD) : X29 m c (Proc.devRef .tc main_arg0) = m ((c : Thread nD τ).loc main_arg0) :=
  X29_keep m c main_arg0 (by decide) (by decide) (by decide) (by decide) (by decide) (by decide) (by decide) (by decide) (by decide) (by decide) (by decide) (by decide) (by decide) (by decide) (by decide) (by decide) (by decide) (by decide) (by decide) (by decide) (by decide) (X2_of_ne m c _ (by decide)) (X4_of_ne m c _ (by decide)) (X10_of_ne m c _ (by decide)) (X12_of_ne m c _ (by decide)) (X18_of_ne m c _ (by decide)) (X20_of_ne m c _ (by decide)) (X26_of_ne m c _ (by decide)) (X28_of_ne m c _ (by decide))
theorem X29_arg2 (c : Dev nD) : X29 m c (Proc.devRef .tc main_arg2) = m ((c : Thread nD τ).loc main_arg2) :=
  X29_keep m c main_arg2 (by decide) (by decide) (by decide) (by decide) (by decide) (by decide) (by decide) (by decide) (by decide) (by decide) (by decide) (by decide) (by decide) (by decide) (by decide) (by decide) (by decide) (by decide) (by decide) (by decide) (by decide) (X2_of_ne m c _ (by decide)) (X4_of_ne m c _ (by decide)) (X10_of_ne m c _ (by decide)) (X12_of_ne m c _ (by decide)) (X18_of_ne m c _ (by decide)) (X20_of_ne m c _ (by decide)) (X26_of_ne m c _ (by decide)) (X28_of_ne m c _ (by decide))
theorem X29_arg3 (c : Dev nD) : X29 m c (Proc.devRef .tc main_arg3) = m ((c : Thread nD τ).loc main_arg3) :=
  X29_keep m c main_arg3 (by decide) (by decide) (by decide) (by decide) (by decide) (by decide) (by decide) (by decide) (by decide) (by decide) (by decide) (by decide) (by decide) (by decide) (by decide) (by decide) (by decide) (by decide) (by decide) (by decide) (by decide) (X2_of_ne m c _ (by decide)) (X4_of_ne m c _ (by decide)) (X10_of_ne m c _ (by decide)) (X12_of_ne m c _ (by decide)) (X18_of_ne m c _ (by decide)) (X20_of_ne m c _ (by decide)) (X26_of_ne m c _ (by decide)) (X28_of_ne m c _ (by decide))
theorem X29_arg4 (c : Dev nD) : X29 m c (Proc.devRef .tc main_arg4) = m ((c : Thread nD τ).loc main_arg4) :=
  X29_keep m c main_arg4 (by decide) (by decide) (by decide) (by decide) (by decide) (by decide) (by decide) (by decide) (by decide) (by decide) (by decide) (by decide) (by decide) (by decide) (by decide) (by decide) (by decide) (by decide) (by decide) (by decide) (by decide) (X2_of_ne m c _ (by decide)) (X4_of_ne m c _ (by decide)) (X10_of_ne m c _ (by decide)) (X12_of_ne m c _ (by decide)) (X18_of_ne m c _ (by decide)) (X20_of_ne m c _ (by decide)) (X26_of_ne m c _ (by decide)) (X28_of_ne m c _ (by decide))
theorem X29_arg5 (c : Dev nD) : X29 m c (Proc.devRef .tc main_arg5) = m ((c : Thread nD τ).loc main_arg5) :=
  X29_keep m c main_arg5 (by decide) (by decide) (by decide) (by decide) (by decide) (by decide) (by decide) (by decide) (by decide) (by decide) (by decide) (by decide) (by decide) (by decide) (by decide) (by decide) (by decide) (by decide) (by decide) (by decide) (by decide) (X2_of_ne m c _ (by decide)) (X4_of_ne m c _ (by decide)) (X10_of_ne m c _ (by decide)) (X12_of_ne m c _ (by decide)) (X18_of_ne m c _ (by decide)) (X20_of_ne m c _ (by decide)) (X26_of_ne m c _ (by decide)) (X28_of_ne m c _ (by decide))
theorem X29_arg6 (c : Dev nD) : X29 m c (Proc.devRef .tc main_arg6) = m ((c : Thread nD τ).loc main_arg6) :=
  X29_keep m c main_arg6 (by decide) (by decide) (by decide) (by decide) (by decide) (by decide) (by decide) (by decide) (by decide) (by decide) (by decide) (by decide) (by decide) (by decide) (by decide) (by decide) (by decide) (by decide) (by decide) (by decide) (by decide) (X2_of_ne m c _ (by decide)) (X4_of_ne m c _ (by decide)) (X10_of_ne m c _ (by decide)) (X12_of_ne m c _ (by decide)) (X18_of_ne m c _ (by decide)) (X20_of_ne m c _ (by decide)) (X26_of_ne m c _ (by decide)) (X28_of_ne m c _ (by decide))
theorem X29_arg7 (c : Dev nD) : X29 m c (Proc.devRef .tc main_arg7) = m ((c : Thread nD τ).loc main_arg7) :=
  X29_keep m c main_arg7 (by decide) (by decide) (by decide) (by decide) (by decide) (by decide) (by decide) (by decide) (by decide) (by decide) (by decide) (by decide) (by decide) (by decide) (by decide) (by decide) (by decide) (by decide) (by decide) (by decide) (by decide) (X2_of_ne m c _ (by decide)) (X4_of_ne m c _ (by decide)) (X10_of_ne m c _ (by decide)) (X12_of_ne m c _ (by decide)) (X18_of_ne m c _ (by decide)) (X20_of_ne m c _ (by decide)) (X26_of_ne m c _ (by decide)) (X28_of_ne m c _ (by decide))
theorem X29_arg8 (c : Dev nD) : X29 m c (Proc.devRef .tc main_arg8) = m ((c : Thread nD τ).loc main_arg8) :=
  X29_keep m c main_arg8 (by decide) (by decide) (by decide) (by decide) (by decide) (by decide) (by decide) (by decide) (by decide) (by decide) (by decide) (by decide) (by decide) (by decide) (by decide) (by decide) (by decide) (by decide) (by decide) (by decide) (by decide) (X2_of_ne m c _ (by decide)) (X4_of_ne m c _ (by decide)) (X10_of_ne m c _ (by decide)) (X12_of_ne m c _ (by decide)) (X18_of_ne m c _ (by decide)) (X20_of_ne m c _ (by decide)) (X26_of_ne m c _ (by decide)) (X28_of_ne m c _ (by decide))
theorem X29_arg9 (c : Dev nD) : X29 m c (Proc.devRef .tc main_arg9) = m ((c : Thread nD τ).loc main_arg9) :=
  X29_keep m c main_arg9 (by decide) (by decide) (by decide) (by decide) (by decide) (by decide) (by decide) (by decide) (by decide) (by decide) (by decide) (by decide) (by decide) (by decide) (by decide) (by decide) (by decide) (by decide) (by decide) (by decide) (by decide) (X2_of_ne m c _ (by decide)) (X4_of_ne m c _ (by decide)) (X10_of_ne m c _ (by decide)) (X12_of_ne m c _ (by decide)) (X18_of_ne m c _ (by decide)) (X20_of_ne m c _ (by decide)) (X26_of_ne m c _ (by decide)) (X28_of_ne m c _ (by decide))
theorem X29_arg10 (c : Dev nD) : X29 m c (Proc.devRef .tc main_arg10) = m ((c : Thread nD τ).loc main_arg10) :=
  X29_keep m c main_arg10 (by decide) (by decide) (by decide) (by decide) (by decide) (by decide) (by decide) (by decide) (by decide) (by decide) (by decide) (by decide) (by decide) (by decide) (by decide) (by decide) (by decide) (by decide) (by decide) (by decide) (by decide) (X2_of_ne m c _ (by decide)) (X4_of_ne m c _ (by decide)) (X10_of_ne m c _ (by decide)) (X12_of_ne m c _ (by decide)) (X18_of_ne m c _ (by decide)) (X20_of_ne m c _ (by decide)) (X26_of_ne m c _ (by decide)) (X28_of_ne m c _ (by decide))
theorem X29_arg11 (c : Dev nD) : X29 m c (Proc.devRef .tc main_arg11) = m ((c : Thread nD τ).loc main_arg11) :=
  X29_keep m c main_arg11 (by decide) (by decide) (by decide) (by decide) (by decide) (by decide) (by decide) (by decide) (by decide) (by decide) (by decide) (by decide) (by decide) (by decide) (by decide) (by decide) (by decide) (by decide) (by decide) (by decide) (by decide) (X2_of_ne m c _ (by decide)) (X4_of_ne m c _ (by decide)) (X10_of_ne m c _ (by decide)) (X12_of_ne m c _ (by decide)) (X18_of_ne m c _ (by decide)) (X20_of_ne m c _ (by decide)) (X26_of_ne m c _ (by decide)) (X28_of_ne m c _ (by decide))
theorem X29_arg12 (c : Dev nD) : X29 m c (Proc.devRef .tc main_arg12) = m ((c : Thread nD τ).loc main_arg12) :=
  X29_keep m c main_arg12 (by decide) (by decide) (by decide) (by decide) (by decide) (by decide) (by decide) (by decide) (by decide) (by decide) (by decide) (by decide) (by decide) (by decide) (by decide) (by decide) (by decide) (by decide) (by decide) (by decide) (by decide) (X2_of_ne m c _ (by decide)) (X4_of_ne m c _ (by decide)) (X10_of_ne m c _ (by decide)) (X12_of_ne m c _ (by decide)) (X18_of_ne m c _ (by decide)) (X20_of_ne m c _ (by decide)) (X26_of_ne m c _ (by decide)) (X28_of_ne m c _ (by decide))
theorem X29_arg13 (c : Dev nD) : X29 m c (Proc.devRef .tc main_arg13) = m ((c : Thread nD τ).loc main_arg13) :=
  X29_keep m c main_arg13 (by decide) (by decide) (by decide) (by decide) (by decide) (by decide) (by decide) (by decide) (by decide) (by decide) (by decide) (by decide) (by decide) (by decide) (by decide) (by decide) (by decide) (by decide) (by decide) (by decide) (by decide) (X2_of_ne m c _ (by decide)) (X4_of_ne m c _ (by decide)) (X10_of_ne m c _ (by decide)) (X12_of_ne m c _ (by decide)) (X18_of_ne m c _ (by decide)) (X20_of_ne m c _ (by decide)) (X26_of_ne m c _ (by decide)) (X28_of_ne m c _ (by decide))
theorem X29_arg14 (c : Dev nD) : X29 m c (Proc.devRef .tc main_arg14) = m ((c : Thread nD τ).loc main_arg14) :=
  X29_keep m c main_arg14 (by decide) (by decide) (by decide) (by decide) (by decide) (by decide) (by decide) (by decide) (by decide) (by decide) (by decide) (by decide) (by decide) (by decide) (by decide) (by decide) (by decide) (by decide) (by decide) (by decide) (by decide) (X2_of_ne m c _ (by decide)) (X4_of_ne m c _ (by decide)) (X10_of_ne m c _ (by decide)) (X12_of_ne m c _ (by decide)) (X18_of_ne m c _ (by decide)) (X20_of_ne m c _ (by decide)) (X26_of_ne m c _ (by decide)) (X28_of_ne m c _ (by decide))
theorem X29_arg15 (c : Dev nD) : X29 m c (Proc.devRef .tc main_arg15) = m ((c : Thread nD τ).loc main_arg15) :=
  X29_keep m c main_arg15 (by decide) (by decide) (by decide) (by decide) (by decide) (by decide) (by decide) (by decide) (by decide) (by decide) (by decide) (by decide) (by decide) (by decide) (by decide) (by decide) (by decide) (by decide) (by decide) (by decide) (by decide) (X2_of_ne m c _ (by decide)) (X4_of_ne m c _ (by decide)) (X10_of_ne m c _ (by decide)) (X12_of_ne m c _ (by decide)) (X18_of_ne m c _ (by decide)) (X20_of_ne m c _ (by decide)) (X26_of_ne m c _ (by decide)) (X28_of_ne m c _ (by decide))

/-- The edge-attribute array: window 1's array in regions 0, 2, 4 and 6, an input, so each leaves it as entered. -/
theorem X29_arg1 (c : Dev nD) : X29 m c (Proc.devRef .tc main_arg1) = m ((c : Thread nD τ).loc main_arg1) :=
  X29_keep m c main_arg1 (by decide) (by decide) (by decide) (by decide) (by decide) (by decide) (by decide) (by decide) (by decide) (by decide) (by decide) (by decide) (by decide) (by decide) (by decide) (by decide) (by decide) (by decide) (by decide) (by decide) (by decide)
    ((X2_arr m c 1).trans (((dat0 (XV1 m) c).arrAt_in 1 rfl _).trans (A_eq0 (XV1 m) c 1)))
    (X4_of_ne m c _ (by decide))
    ((X10_arr m c 1).trans (((dat2 (XV9 m) c).arrAt_in 1 rfl _).trans (A_eq2 (XV9 m) c 1)))
    (X12_of_ne m c _ (by decide))
    ((X18_arr m c 1).trans (((dat4 (XV17 m) c).arrAt_in 1 rfl _).trans (A_eq4 (XV17 m) c 1)))
    (X20_of_ne m c _ (by decide))
    ((X26_arr m c 1).trans (((dat6 (XV25 m) c).arrAt_in 1 rfl _).trans (A_eq6 (XV25 m) c 1)))
    (X28_of_ne m c _ (by decide))

/-- THE FRAME at any float instance: the program runs to the end from any memory with zero counters, faulting nowhere,
    and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c _ (mem_uc main_arg0 (by decide))).trans (X29_arg0 m c),
    (h c _ (mem_uc main_arg1 (by decide))).trans (X29_arg1 m c),
    (h c _ (mem_uc main_arg2 (by decide))).trans (X29_arg2 m c),
    (h c _ (mem_uc main_arg3 (by decide))).trans (X29_arg3 m c),
    (h c _ (mem_uc main_arg4 (by decide))).trans (X29_arg4 m c),
    (h c _ (mem_uc main_arg5 (by decide))).trans (X29_arg5 m c),
    (h c _ (mem_uc main_arg6 (by decide))).trans (X29_arg6 m c),
    (h c _ (mem_uc main_arg7 (by decide))).trans (X29_arg7 m c),
    (h c _ (mem_uc main_arg8 (by decide))).trans (X29_arg8 m c),
    (h c _ (mem_uc main_arg9 (by decide))).trans (X29_arg9 m c),
    (h c _ (mem_uc main_arg10 (by decide))).trans (X29_arg10 m c),
    (h c _ (mem_uc main_arg11 (by decide))).trans (X29_arg11 m c),
    (h c _ (mem_uc main_arg12 (by decide))).trans (X29_arg12 m c),
    (h c _ (mem_uc main_arg13 (by decide))).trans (X29_arg13 m c),
    (h c _ (mem_uc main_arg14 (by decide))).trans (X29_arg14 m c),
    (h c _ (mem_uc main_arg15 (by decide))).trans (X29_arg15 m c)⟩) (run m ρ)

end Cert.Kernel.Fr

end
-- ==== Proof.KI.Reg0.lean ====
/-
  Region 0 of the program: the edge-message kernel on its grid of 80 points. At point t the body reads a block of
  10000 gathered source rows (window 0), the matching 10000 edge attributes (window 1), and the layer's 1x128 scale and
  bias rows (windows 2 and 3, the same block at every point), and stores into the output block (window 4) the value
  max(hsrc + (attr * scale + bias), 0), entry by entry. Stated at a parameter V, the contents of the buffers when the
  region is entered: what each output block holds after the body, the body's triple, the proof data of the pipeline,
  and the body obligation at every point.
-/
import proofs.«109328_j13039520711153_1_alg».proof.Proof.Gen.KernelIdeal.Launch
import proofs.«109328_j13039520711153_1_alg».proof.Proof.Gen.KernelIdeal.Skeleton
import proofs.«109328_j13039520711153_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether or not it was fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether or not it was fetched there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether or not it was fetched there. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, whether or not it was fetched there. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole rectangles the body loads and stores through. -/
abbrev rE0 : Rect S10000x128 := Rect.unit (s := S10000x128) ![0, 0] S10000x128.size inb_S10000x128_S10000x128_0_0
abbrev rA0 : Rect S10000x1 := Rect.unit (s := S10000x1) ![0, 0] S10000x1.size inb_S10000x1_S10000x1_0_0
abbrev rR0 : Rect S1x128 := Rect.unit (s := S1x128) ![0, 0] S1x128.size inb_S1x128_S1x128_0_0

/-- The output block after the body, from the four input blocks: its one store, of the payload of the four loads. -/
def out0_4 (x0 : Vec F S10000x128 .f32) (x1 : Vec F S10000x1 .f32) (x2 : Vec F S1x128 .f32) (x3 : Vec F S1x128 .f32) : Vec F S10000x128 .f32 :=
  View.canon [⟨rE0, k0_pay1 (View.ld x1 rA0) (View.ld x2 rR0) (View.ld x3 rR0) (View.ld x0 rE0)⟩]

/-- The one store covers the block. -/
theorem cover0_4 (p0 : Vec F S10000x128 .f32) (y : S10000x128.Idx) :
    ∃ pc ∈ ([⟨rE0, p0⟩] : List (View.Piece (Elt F) S10000x128 .f32)), y ∈ pc.1.set :=
  View.cover_of_tiled [⟨rE0, p0⟩] S10000x128.size (by rfl) y

set_option maxHeartbeats 1000000 in
/-- The body on whole staging buffers, the inputs at contents x0..x3 and the output at anything, runs to the end with the
    inputs as they were and the output at out0_4 of the inputs. -/
theorem sound_kernel0 (c : Dev nD) (E : Set ℕ) (i : grid0.Coords)
    (arg1 : Memref sig .tc .vmem S10000x128 .f32) (harg1 : arg1.IsWhole) (arg2 : Memref sig .tc .vmem S10000x1 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S10000x128 .f32) (harg5 : arg5.IsWhole)
    (x0 : Vec F S10000x128 .f32) (x1 : Vec F S10000x1 .f32) (x2 : Vec F S1x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__edge_msg_kernel i arg1 harg1 arg2 harg2 arg3 harg3 arg4 harg4 arg5 harg5) K := by
  simp only [cc0__edge_msg_kernel_eq_skeleton]; unfold cc0__edge_msg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The proof data of this pipeline on core c: the arrays as the region finds them; after the body at point t each input's
    buffer at its block and the output's at out0_4 of the input blocks; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Reg1.lean ====
/-
  Region 1 of the program: the node kernel on its grid of 10 points. At point t the body reads a block of 5000 node rows
  (window 0) and the matching aggregated messages (window 1), and, the same block at every point, the 1x1 scale (window 2),
  the two 128x128 weight matrices (windows 3 and 5) and the two 1x128 bias rows (windows 4 and 6); it stores into the output
  block (window 7) the two-layer map  max((scale * h + agg) W1 + b1, 0) W2 + b2.  Stated at a parameter V, the contents of
  the buffers when the region is entered: what each output block holds after the body, the body's triple, the proof data
  of the pipeline, and the body obligation at every point.
-/
import proofs.«109328_j13039520711153_1_alg».proof.Proof.Gen.KernelIdeal.Launch
import proofs.«109328_j13039520711153_1_alg».proof.Proof.Gen.KernelIdeal.Skeleton
import proofs.«109328_j13039520711153_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether or not it was fetched there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether or not it was fetched there. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether or not it was fetched there. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, whether or not it was fetched there. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, whether or not it was fetched there. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, whether or not it was fetched there. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at every point, whether or not it was fetched there. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The whole rectangles the body loads and stores through. -/
abbrev rN1 : Rect S5000x128 := Rect.unit (s := S5000x128) ![0, 0] S5000x128.size inb_S5000x128_S5000x128_0_0
abbrev rS1 : Rect S1x1 := Rect.unit (s := S1x1) ![0, 0] S1x1.size inb_S1x1_S1x1_0_0
abbrev rW1 : Rect S128x128 := Rect.unit (s := S128x128) ![0, 0] S128x128.size inb_S128x128_S128x128_0_0
abbrev rR1 : Rect S1x128 := Rect.unit (s := S1x128) ![0, 0] S1x128.size inb_S1x128_S1x128_0_0

/-- The output block after the body, from the seven input blocks: its one store, of the payload of the seven loads. -/
def out1_7 (x0 : Vec F S5000x128 .f32) (x1 : Vec F S5000x128 .f32) (x2 : Vec F S1x1 .f32) (x3 : Vec F S128x128 .f32) (x4 : Vec F S1x128 .f32) (x5 : Vec F S128x128 .f32) (x6 : Vec F S1x128 .f32) : Vec F S5000x128 .f32 :=
  View.canon [⟨rN1, k1_pay1 (View.ld x2 rS1) (View.ld x0 rN1) (View.ld x1 rN1) (View.ld x3 rW1) (View.ld x5 rW1) (View.ld x4 rR1) (View.ld x6 rR1)⟩]

/-- The one store covers the block. -/
theorem cover1_7 (p0 : Vec F S5000x128 .f32) (y : S5000x128.Idx) :
    ∃ pc ∈ ([⟨rN1, p0⟩] : List (View.Piece (Elt F) S5000x128 .f32)), y ∈ pc.1.set :=
  View.cover_of_tiled [⟨rN1, p0⟩] S5000x128.size (by rfl) y

set_option maxHeartbeats 1000000 in
/-- The body on whole staging buffers, the inputs at contents x0..x6 and the output at anything, runs to the end with the
    inputs as they were and the output at out1_7 of the inputs. -/
theorem sound_kernel1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S1x1 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S5000x128 .f32) (harg8 : arg8.IsWhole)
    (x0 : Vec F S5000x128 .f32) (x1 : Vec F S5000x128 .f32) (x2 : Vec F S1x1 .f32) (x3 : Vec F S128x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__node_mlp_kernel i arg1 harg1 arg2 harg2 arg3 harg3 arg4 harg4 arg5 harg5 arg6 harg6 arg7 harg7 arg8 harg8) K := by
  simp only [cc1__node_mlp_kernel_eq_skeleton]; unfold cc1__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-- The proof data of this pipeline on core c: the arrays as the region finds them; after the body at point t each input's
    buffer at its block and the output's at out1_7 of the input blocks; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Reg2.lean ====
/-
  Region 2 of the program: the edge-message kernel on its grid of 80 points. At point t the body reads a block of
  10000 gathered source rows (window 0), the matching 10000 edge attributes (window 1), and the layer's 1x128 scale and
  bias rows (windows 2 and 3, the same block at every point), and stores into the output block (window 4) the value
  max(hsrc + (attr * scale + bias), 0), entry by entry. Stated at a parameter V, the contents of the buffers when the
  region is entered: what each output block holds after the body, the body's triple, the proof data of the pipeline,
  and the body obligation at every point.
-/
import proofs.«109328_j13039520711153_1_alg».proof.Proof.Gen.KernelIdeal.Launch
import proofs.«109328_j13039520711153_1_alg».proof.Proof.Gen.KernelIdeal.Skeleton
import proofs.«109328_j13039520711153_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether or not it was fetched there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether or not it was fetched there. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether or not it was fetched there. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, whether or not it was fetched there. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole rectangles the body loads and stores through. -/
abbrev rE2 : Rect S10000x128 := Rect.unit (s := S10000x128) ![0, 0] S10000x128.size inb_S10000x128_S10000x128_0_0
abbrev rA2 : Rect S10000x1 := Rect.unit (s := S10000x1) ![0, 0] S10000x1.size inb_S10000x1_S10000x1_0_0
abbrev rR2 : Rect S1x128 := Rect.unit (s := S1x128) ![0, 0] S1x128.size inb_S1x128_S1x128_0_0

/-- The output block after the body, from the four input blocks: its one store, of the payload of the four loads. -/
def out2_4 (x0 : Vec F S10000x128 .f32) (x1 : Vec F S10000x1 .f32) (x2 : Vec F S1x128 .f32) (x3 : Vec F S1x128 .f32) : Vec F S10000x128 .f32 :=
  View.canon [⟨rE2, k2_pay1 (View.ld x1 rA2) (View.ld x2 rR2) (View.ld x3 rR2) (View.ld x0 rE2)⟩]

/-- The one store covers the block. -/
theorem cover2_4 (p0 : Vec F S10000x128 .f32) (y : S10000x128.Idx) :
    ∃ pc ∈ ([⟨rE2, p0⟩] : List (View.Piece (Elt F) S10000x128 .f32)), y ∈ pc.1.set :=
  View.cover_of_tiled [⟨rE2, p0⟩] S10000x128.size (by rfl) y

set_option maxHeartbeats 1000000 in
/-- The body on whole staging buffers, the inputs at contents x0..x3 and the output at anything, runs to the end with the
    inputs as they were and the output at out2_4 of the inputs. -/
theorem sound_kernel2 (c : Dev nD) (E : Set ℕ) (i : grid2.Coords)
    (arg1 : Memref sig .tc .vmem S10000x128 .f32) (harg1 : arg1.IsWhole) (arg2 : Memref sig .tc .vmem S10000x1 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S10000x128 .f32) (harg5 : arg5.IsWhole)
    (x0 : Vec F S10000x128 .f32) (x1 : Vec F S10000x1 .f32) (x2 : Vec F S1x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__edge_msg_kernel i arg1 harg1 arg2 harg2 arg3 harg3 arg4 harg4 arg5 harg5) K := by
  simp only [cc2__edge_msg_kernel_eq_skeleton]; unfold cc2__edge_msg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The proof data of this pipeline on core c: the arrays as the region finds them; after the body at point t each input's
    buffer at its block and the output's at out2_4 of the input blocks; the class invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the triple applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Reg3.lean ====
/-
  Region 3 of the program: the node kernel on its grid of 10 points. At point t the body reads a block of 5000 node rows
  (window 0) and the matching aggregated messages (window 1), and, the same block at every point, the 1x1 scale (window 2),
  the two 128x128 weight matrices (windows 3 and 5) and the two 1x128 bias rows (windows 4 and 6); it stores into the output
  block (window 7) the two-layer map  max((scale * h + agg) W1 + b1, 0) W2 + b2.  Stated at a parameter V, the contents of
  the buffers when the region is entered: what each output block holds after the body, the body's triple, the proof data
  of the pipeline, and the body obligation at every point.
-/
import proofs.«109328_j13039520711153_1_alg».proof.Proof.Gen.KernelIdeal.Launch
import proofs.«109328_j13039520711153_1_alg».proof.Proof.Gen.KernelIdeal.Skeleton
import proofs.«109328_j13039520711153_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether or not it was fetched there. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, whether or not it was fetched there. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, whether or not it was fetched there. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, whether or not it was fetched there. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, whether or not it was fetched there. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's staging buffer holds its block at every point, whether or not it was fetched there. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's staging buffer holds its block at every point, whether or not it was fetched there. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- The whole rectangles the body loads and stores through. -/
abbrev rN3 : Rect S5000x128 := Rect.unit (s := S5000x128) ![0, 0] S5000x128.size inb_S5000x128_S5000x128_0_0
abbrev rS3 : Rect S1x1 := Rect.unit (s := S1x1) ![0, 0] S1x1.size inb_S1x1_S1x1_0_0
abbrev rW3 : Rect S128x128 := Rect.unit (s := S128x128) ![0, 0] S128x128.size inb_S128x128_S128x128_0_0
abbrev rR3 : Rect S1x128 := Rect.unit (s := S1x128) ![0, 0] S1x128.size inb_S1x128_S1x128_0_0

/-- The output block after the body, from the seven input blocks: its one store, of the payload of the seven loads. -/
def out3_7 (x0 : Vec F S5000x128 .f32) (x1 : Vec F S5000x128 .f32) (x2 : Vec F S1x1 .f32) (x3 : Vec F S128x128 .f32) (x4 : Vec F S1x128 .f32) (x5 : Vec F S128x128 .f32) (x6 : Vec F S1x128 .f32) : Vec F S5000x128 .f32 :=
  View.canon [⟨rN3, k3_pay1 (View.ld x2 rS3) (View.ld x0 rN3) (View.ld x1 rN3) (View.ld x3 rW3) (View.ld x5 rW3) (View.ld x4 rR3) (View.ld x6 rR3)⟩]

/-- The one store covers the block. -/
theorem cover3_7 (p0 : Vec F S5000x128 .f32) (y : S5000x128.Idx) :
    ∃ pc ∈ ([⟨rN3, p0⟩] : List (View.Piece (Elt F) S5000x128 .f32)), y ∈ pc.1.set :=
  View.cover_of_tiled [⟨rN3, p0⟩] S5000x128.size (by rfl) y

set_option maxHeartbeats 1000000 in
/-- The body on whole staging buffers, the inputs at contents x0..x6 and the output at anything, runs to the end with the
    inputs as they were and the output at out3_7 of the inputs. -/
theorem sound_kernel3 (c : Dev nD) (E : Set ℕ) (i : grid3.Coords)
    (arg1 : Memref sig .tc .vmem S5000x128 .f32) (harg1 : arg1.IsWhole) (arg2 : Memref sig .tc .vmem S5000x128 .f32) (harg2 : arg2.IsWhole)
    (arg3 : Memref sig .tc .vmem S1x1 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S5000x128 .f32) (harg8 : arg8.IsWhole)
    (x0 : Vec F S5000x128 .f32) (x1 : Vec F S5000x128 .f32) (x2 : Vec F S1x1 .f32) (x3 : Vec F S128x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3__node_mlp_kernel i arg1 harg1 arg2 harg2 arg3 harg3 arg4 harg4 arg5 harg5 arg6 harg6 arg7 harg7 arg8 harg8) K := by
  simp only [cc3__node_mlp_kernel_eq_skeleton]; unfold cc3__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-- The proof data of this pipeline on core c: the arrays as the region finds them; after the body at point t each input's
    buffer at its block and the output's at out3_7 of the input blocks; the class invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' buffers hold their blocks, so the triple applies; the invariant and what the core
    owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.Reg4.lean ====
/-
  Region 4 of the program: the edge-message kernel on its grid of 80 points. At point t the body reads a block of
  10000 gathered source rows (window 0), the matching 10000 edge attributes (window 1), and the layer's 1x128 scale and
  bias rows (windows 2 and 3, the same block at every point), and stores into the output block (window 4) the value
  max(hsrc + (attr * scale + bias), 0), entry by entry. Stated at a parameter V, the contents of the buffers when the
  region is entered: what each output block holds after the body, the body's triple, the proof data of the pipeline,
  and the body obligation at every point.
-/
import proofs.«109328_j13039520711153_1_alg».proof.Proof.Gen.KernelIdeal.Launch
import proofs.«109328_j13039520711153_1_alg».proof.Proof.Gen.KernelIdeal.Skeleton
import proofs.«109328_j13039520711153_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, whether or not it was fetched there. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, whether or not it was fetched there. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, whether or not it was fetched there. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, whether or not it was fetched there. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The whole rectangles the body loads and stores through. -/
abbrev rE4 : Rect S10000x128 := Rect.unit (s := S10000x128) ![0, 0] S10000x128.size inb_S10000x128_S10000x128_0_0
abbrev rA4 : Rect S10000x1 := Rect.unit (s := S10000x1) ![0, 0] S10000x1.size inb_S10000x1_S10000x1_0_0
abbrev rR4 : Rect S1x128 := Rect.unit (s := S1x128) ![0, 0] S1x128.size inb_S1x128_S1x128_0_0

/-- The output block after the body, from the four input blocks: its one store, of the payload of the four loads. -/
def out4_4 (x0 : Vec F S10000x128 .f32) (x1 : Vec F S10000x1 .f32) (x2 : Vec F S1x128 .f32) (x3 : Vec F S1x128 .f32) : Vec F S10000x128 .f32 :=
  View.canon [⟨rE4, k4_pay1 (View.ld x1 rA4) (View.ld x2 rR4) (View.ld x3 rR4) (View.ld x0 rE4)⟩]

/-- The one store covers the block. -/
theorem cover4_4 (p0 : Vec F S10000x128 .f32) (y : S10000x128.Idx) :
    ∃ pc ∈ ([⟨rE4, p0⟩] : List (View.Piece (Elt F) S10000x128 .f32)), y ∈ pc.1.set :=
  View.cover_of_tiled [⟨rE4, p0⟩] S10000x128.size (by rfl) y

set_option maxHeartbeats 1000000 in
/-- The body on whole staging buffers, the inputs at contents x0..x3 and the output at anything, runs to the end with the
    inputs as they were and the output at out4_4 of the inputs. -/
theorem sound_kernel4 (c : Dev nD) (E : Set ℕ) (i : grid4.Coords)
    (arg1 : Memref sig .tc .vmem S10000x128 .f32) (harg1 : arg1.IsWhole) (arg2 : Memref sig .tc .vmem S10000x1 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S10000x128 .f32) (harg5 : arg5.IsWhole)
    (x0 : Vec F S10000x128 .f32) (x1 : Vec F S10000x1 .f32) (x2 : Vec F S1x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__edge_msg_kernel i arg1 harg1 arg2 harg2 arg3 harg3 arg4 harg4 arg5 harg5) K := by
  simp only [cc4__edge_msg_kernel_eq_skeleton]; unfold cc4__edge_msg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-- The proof data of this pipeline on core c: the arrays as the region finds them; after the body at point t each input's
    buffer at its block and the output's at out4_4 of the input blocks; the class invariant; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' buffers hold their blocks, so the triple applies; the invariant and what the core
    owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.KI.Reg5.lean ====
/-
  Region 5 of the program: the node kernel on its grid of 10 points. At point t the body reads a block of 5000 node rows
  (window 0) and the matching aggregated messages (window 1), and, the same block at every point, the 1x1 scale (window 2),
  the two 128x128 weight matrices (windows 3 and 5) and the two 1x128 bias rows (windows 4 and 6); it stores into the output
  block (window 7) the two-layer map  max((scale * h + agg) W1 + b1, 0) W2 + b2.  Stated at a parameter V, the contents of
  the buffers when the region is entered: what each output block holds after the body, the body's triple, the proof data
  of the pipeline, and the body obligation at every point.
-/
import proofs.«109328_j13039520711153_1_alg».proof.Proof.Gen.KernelIdeal.Launch
import proofs.«109328_j13039520711153_1_alg».proof.Proof.Gen.KernelIdeal.Skeleton
import proofs.«109328_j13039520711153_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, whether or not it was fetched there. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, whether or not it was fetched there. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, whether or not it was fetched there. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point, whether or not it was fetched there. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds its block at every point, whether or not it was fetched there. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's staging buffer holds its block at every point, whether or not it was fetched there. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's staging buffer holds its block at every point, whether or not it was fetched there. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-- The whole rectangles the body loads and stores through. -/
abbrev rN5 : Rect S5000x128 := Rect.unit (s := S5000x128) ![0, 0] S5000x128.size inb_S5000x128_S5000x128_0_0
abbrev rS5 : Rect S1x1 := Rect.unit (s := S1x1) ![0, 0] S1x1.size inb_S1x1_S1x1_0_0
abbrev rW5 : Rect S128x128 := Rect.unit (s := S128x128) ![0, 0] S128x128.size inb_S128x128_S128x128_0_0
abbrev rR5 : Rect S1x128 := Rect.unit (s := S1x128) ![0, 0] S1x128.size inb_S1x128_S1x128_0_0

/-- The output block after the body, from the seven input blocks: its one store, of the payload of the seven loads. -/
def out5_7 (x0 : Vec F S5000x128 .f32) (x1 : Vec F S5000x128 .f32) (x2 : Vec F S1x1 .f32) (x3 : Vec F S128x128 .f32) (x4 : Vec F S1x128 .f32) (x5 : Vec F S128x128 .f32) (x6 : Vec F S1x128 .f32) : Vec F S5000x128 .f32 :=
  View.canon [⟨rN5, k5_pay1 (View.ld x2 rS5) (View.ld x0 rN5) (View.ld x1 rN5) (View.ld x3 rW5) (View.ld x5 rW5) (View.ld x4 rR5) (View.ld x6 rR5)⟩]

/-- The one store covers the block. -/
theorem cover5_7 (p0 : Vec F S5000x128 .f32) (y : S5000x128.Idx) :
    ∃ pc ∈ ([⟨rN5, p0⟩] : List (View.Piece (Elt F) S5000x128 .f32)), y ∈ pc.1.set :=
  View.cover_of_tiled [⟨rN5, p0⟩] S5000x128.size (by rfl) y

set_option maxHeartbeats 1000000 in
/-- The body on whole staging buffers, the inputs at contents x0..x6 and the output at anything, runs to the end with the
    inputs as they were and the output at out5_7 of the inputs. -/
theorem sound_kernel5 (c : Dev nD) (E : Set ℕ) (i : grid5.Coords)
    (arg1 : Memref sig .tc .vmem S5000x128 .f32) (harg1 : arg1.IsWhole) (arg2 : Memref sig .tc .vmem S5000x128 .f32) (harg2 : arg2.IsWhole)
    (arg3 : Memref sig .tc .vmem S1x1 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S5000x128 .f32) (harg8 : arg8.IsWhole)
    (x0 : Vec F S5000x128 .f32) (x1 : Vec F S5000x128 .f32) (x2 : Vec F S1x1 .f32) (x3 : Vec F S128x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out5_7 x0 x1 x2 x3 x4 x5 x6)) -∗ K ⟨⟩))
      ⊢ wp frame (wpE (defs₀ (F := F)) Variants.none c none) E (cc5__node_mlp_kernel i arg1 harg1 arg2 harg2 arg3 harg3 arg4 harg4 arg5 harg5 arg6 harg6 arg7 harg7 arg8 harg8) K := by
  simp only [cc5__node_mlp_kernel_eq_skeleton]; unfold cc5__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_7 _)

/-- The proof data of this pipeline on core c: the arrays as the region finds them; after the body at point t each input's
    buffer at its block and the output's at out5_7 of the input blocks; the class invariant; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

/-- The body at any point: the inputs' buffers hold their blocks, so the triple applies; the invariant and what the core
    owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Fr

end
-- ==== Proof.KI.Reg6.lean ====
/-
  Region 6 of the program: the edge-message kernel on its grid of 80 points. At point t the body reads a block of
  10000 gathered source rows (window 0), the matching 10000 edge attributes (window 1), and the layer's 1x128 scale and
  bias rows (windows 2 and 3, the same block at every point), and stores into the output block (window 4) the value
  max(hsrc + (attr * scale + bias), 0), entry by entry. Stated at a parameter V, the contents of the buffers when the
  region is entered: what each output block holds after the body, the body's triple, the proof data of the pipeline,
  and the body obligation at every point.
-/
import proofs.«109328_j13039520711153_1_alg».proof.Proof.Gen.KernelIdeal.Launch
import proofs.«109328_j13039520711153_1_alg».proof.Proof.Gen.KernelIdeal.Skeleton
import proofs.«109328_j13039520711153_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, whether or not it was fetched there. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every point, whether or not it was fetched there. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block at every point, whether or not it was fetched there. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's staging buffer holds its block at every point, whether or not it was fetched there. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- The whole rectangles the body loads and stores through. -/
abbrev rE6 : Rect S10000x128 := Rect.unit (s := S10000x128) ![0, 0] S10000x128.size inb_S10000x128_S10000x128_0_0
abbrev rA6 : Rect S10000x1 := Rect.unit (s := S10000x1) ![0, 0] S10000x1.size inb_S10000x1_S10000x1_0_0
abbrev rR6 : Rect S1x128 := Rect.unit (s := S1x128) ![0, 0] S1x128.size inb_S1x128_S1x128_0_0

/-- The output block after the body, from the four input blocks: its one store, of the payload of the four loads. -/
def out6_4 (x0 : Vec F S10000x128 .f32) (x1 : Vec F S10000x1 .f32) (x2 : Vec F S1x128 .f32) (x3 : Vec F S1x128 .f32) : Vec F S10000x128 .f32 :=
  View.canon [⟨rE6, k6_pay1 (View.ld x1 rA6) (View.ld x2 rR6) (View.ld x3 rR6) (View.ld x0 rE6)⟩]

/-- The one store covers the block. -/
theorem cover6_4 (p0 : Vec F S10000x128 .f32) (y : S10000x128.Idx) :
    ∃ pc ∈ ([⟨rE6, p0⟩] : List (View.Piece (Elt F) S10000x128 .f32)), y ∈ pc.1.set :=
  View.cover_of_tiled [⟨rE6, p0⟩] S10000x128.size (by rfl) y

set_option maxHeartbeats 1000000 in
/-- The body on whole staging buffers, the inputs at contents x0..x3 and the output at anything, runs to the end with the
    inputs as they were and the output at out6_4 of the inputs. -/
theorem sound_kernel6 (c : Dev nD) (E : Set ℕ) (i : grid6.Coords)
    (arg1 : Memref sig .tc .vmem S10000x128 .f32) (harg1 : arg1.IsWhole) (arg2 : Memref sig .tc .vmem S10000x1 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S10000x128 .f32) (harg5 : arg5.IsWhole)
    (x0 : Vec F S10000x128 .f32) (x1 : Vec F S10000x1 .f32) (x2 : Vec F S1x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out6_4 x0 x1 x2 x3)) -∗ K ⟨⟩))
      ⊢ wp frame (wpE (defs₀ (F := F)) Variants.none c none) E (cc6__edge_msg_kernel i arg1 harg1 arg2 harg2 arg3 harg3 arg4 harg4 arg5 harg5) K := by
  simp only [cc6__edge_msg_kernel_eq_skeleton]; unfold cc6__edge_msg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover6_4 _)

/-- The proof data of this pipeline on core c: the arrays as the region finds them; after the body at point t each input's
    buffer at its block and the output's at out6_4 of the input blocks; the class invariant; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out6_4 (iblk6 V c 0 t) (iblk6 V c 1 t) (iblk6 V c 2 t) (iblk6 V c 3 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-- What the body is called with at point t, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

/-- The body at any point: the inputs' buffers hold their blocks, so the triple applies; the invariant and what the core
    owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ _ _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Fr

end
-- ==== Proof.KI.Reg7.lean ====
/-
  Region 7 of the program: the node kernel on its grid of 10 points. At point t the body reads a block of 5000 node rows
  (window 0) and the matching aggregated messages (window 1), and, the same block at every point, the 1x1 scale (window 2),
  the two 128x128 weight matrices (windows 3 and 5) and the two 1x128 bias rows (windows 4 and 6); it stores into the output
  block (window 7) the two-layer map  max((scale * h + agg) W1 + b1, 0) W2 + b2.  Stated at a parameter V, the contents of
  the buffers when the region is entered: what each output block holds after the body, the body's triple, the proof data
  of the pipeline, and the body obligation at every point.
-/
import proofs.«109328_j13039520711153_1_alg».proof.Proof.Gen.KernelIdeal.Launch
import proofs.«109328_j13039520711153_1_alg».proof.Proof.Gen.KernelIdeal.Skeleton
import proofs.«109328_j13039520711153_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every point, whether or not it was fetched there. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds its block at every point, whether or not it was fetched there. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer holds its block at every point, whether or not it was fetched there. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's staging buffer holds its block at every point, whether or not it was fetched there. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's staging buffer holds its block at every point, whether or not it was fetched there. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's staging buffer holds its block at every point, whether or not it was fetched there. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- Input window 6's staging buffer holds its block at every point, whether or not it was fetched there. -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-- The whole rectangles the body loads and stores through. -/
abbrev rN7 : Rect S5000x128 := Rect.unit (s := S5000x128) ![0, 0] S5000x128.size inb_S5000x128_S5000x128_0_0
abbrev rS7 : Rect S1x1 := Rect.unit (s := S1x1) ![0, 0] S1x1.size inb_S1x1_S1x1_0_0
abbrev rW7 : Rect S128x128 := Rect.unit (s := S128x128) ![0, 0] S128x128.size inb_S128x128_S128x128_0_0
abbrev rR7 : Rect S1x128 := Rect.unit (s := S1x128) ![0, 0] S1x128.size inb_S1x128_S1x128_0_0

/-- The output block after the body, from the seven input blocks: its one store, of the payload of the seven loads. -/
def out7_7 (x0 : Vec F S5000x128 .f32) (x1 : Vec F S5000x128 .f32) (x2 : Vec F S1x1 .f32) (x3 : Vec F S128x128 .f32) (x4 : Vec F S1x128 .f32) (x5 : Vec F S128x128 .f32) (x6 : Vec F S1x128 .f32) : Vec F S5000x128 .f32 :=
  View.canon [⟨rN7, k7_pay1 (View.ld x2 rS7) (View.ld x0 rN7) (View.ld x1 rN7) (View.ld x3 rW7) (View.ld x5 rW7) (View.ld x4 rR7) (View.ld x6 rR7)⟩]

/-- The one store covers the block. -/
theorem cover7_7 (p0 : Vec F S5000x128 .f32) (y : S5000x128.Idx) :
    ∃ pc ∈ ([⟨rN7, p0⟩] : List (View.Piece (Elt F) S5000x128 .f32)), y ∈ pc.1.set :=
  View.cover_of_tiled [⟨rN7, p0⟩] S5000x128.size (by rfl) y

set_option maxHeartbeats 1000000 in
/-- The body on whole staging buffers, the inputs at contents x0..x6 and the output at anything, runs to the end with the
    inputs as they were and the output at out7_7 of the inputs. -/
theorem sound_kernel7 (c : Dev nD) (E : Set ℕ) (i : grid7.Coords)
    (arg1 : Memref sig .tc .vmem S5000x128 .f32) (harg1 : arg1.IsWhole) (arg2 : Memref sig .tc .vmem S5000x128 .f32) (harg2 : arg2.IsWhole)
    (arg3 : Memref sig .tc .vmem S1x1 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S5000x128 .f32) (harg8 : arg8.IsWhole)
    (x0 : Vec F S5000x128 .f32) (x1 : Vec F S5000x128 .f32) (x2 : Vec F S1x1 .f32) (x3 : Vec F S128x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out7_7 x0 x1 x2 x3 x4 x5 x6)) -∗ K ⟨⟩))
      ⊢ wp frame (wpE (defs₀ (F := F)) Variants.none c none) E (cc7__node_mlp_kernel i arg1 harg1 arg2 harg2 arg3 harg3 arg4 harg4 arg5 harg5 arg6 harg6 arg7 harg7 arg8 harg8) K := by
  simp only [cc7__node_mlp_kernel_eq_skeleton]; unfold cc7__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7_7 _)

/-- The proof data of this pipeline on core c: the arrays as the region finds them; after the body at point t each input's
    buffer at its block and the output's at out7_7 of the input blocks; the class invariant; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => out7_7 (iblk7 V c 0 t) (iblk7 V c 1 t) (iblk7 V c 2 t) (iblk7 V c 3 t) (iblk7 V c 4 t) (iblk7 V c 5 t) (iblk7 V c 6 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = out7_7 (iblk7 V c 0 t) (iblk7 V c 1 t) (iblk7 V c 2 t) (iblk7 V c 3 t) (iblk7 V c 4 t) (iblk7 V c 5 t) (iblk7 V c 6 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d

/-- What the body is called with at point t, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t))

/-- The body at any point: the inputs' buffers hold their blocks, so the triple applies; the invariant and what the core
    owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel7 c Set.univ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Fr

end
-- ==== Proof.KI.Chain.lean ====
/-
  The contents of the buffers at each of the 29 boundaries between the items of the program: its host stretches and its
  eight kernel regions, in order. A host stretch takes the contents to the fold of its operations over them; a region
  leaves each of its arrays at what the pipeline's write-backs leave there (an input array as it was, the output array at
  the blocks the body stored, point by point) and every other buffer as it was. From these: the proof data of every
  pipeline at its region's entry contents, and the fact that no item changes an argument array.
-/
import proofs.«109328_j13039520711153_1_alg».proof.Proof.KI.Reg0
import proofs.«109328_j13039520711153_1_alg».proof.Proof.KI.Reg1
import proofs.«109328_j13039520711153_1_alg».proof.Proof.KI.Reg2
import proofs.«109328_j13039520711153_1_alg».proof.Proof.KI.Reg3
import proofs.«109328_j13039520711153_1_alg».proof.Proof.KI.Reg4
import proofs.«109328_j13039520711153_1_alg».proof.Proof.KI.Reg5
import proofs.«109328_j13039520711153_1_alg».proof.Proof.KI.Reg6
import proofs.«109328_j13039520711153_1_alg».proof.Proof.KI.Reg7
import proofs.«109328_j13039520711153_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at each boundary (X J: before item J) -/

abbrev X0 : Dev nD → Valuation τ sig (Elt F) := fun c b => m (c, b)
abbrev X1 : Dev nD → Valuation τ sig (Elt F) := fun c => StableHlo.after hostOps0 (X0 m c)
abbrev XV1 : (c : Dev nD) → (b : Ref sig .tc) → Buf (Elt F) ((c : Thread nD τ).loc b) := fun c b => X1 m c b
/-- After region 0: its arrays at what the pipeline leaves, the rest as entered. -/
def X2 (c : Dev nD) : Valuation τ sig (Elt F) :=
  Pipeline.withArrays spec0 c (X1 m c) fun w => (dat0 (XV1 m) c).arrAt w cfg0.N
abbrev XV2 : (c : Dev nD) → (b : Ref sig .tc) → Buf (Elt F) ((c : Thread nD τ).loc b) := fun c b => X2 m c b
abbrev X3 : Dev nD → Valuation τ sig (Elt F) := fun c => StableHlo.after hostOps1 (X2 m c)
abbrev XV3 : (c : Dev nD) → (b : Ref sig .tc) → Buf (Elt F) ((c : Thread nD τ).loc b) := fun c b => X3 m c b
/-- After region 1. -/
def X4 (c : Dev nD) : Valuation τ sig (Elt F) :=
  Pipeline.withArrays spec1 c (X3 m c) fun w => (dat1 (XV3 m) c).arrAt w cfg1.N
abbrev XV4 : (c : Dev nD) → (b : Ref sig .tc) → Buf (Elt F) ((c : Thread nD τ).loc b) := fun c b => X4 m c b
abbrev X5 : Dev nD → Valuation τ sig (Elt F) := fun c => StableHlo.after hostOps2 (X4 m c)
abbrev X6 : Dev nD → Valuation τ sig (Elt F) := fun c => StableHlo.after hostOps2_1 (X5 m c)
abbrev X7 : Dev nD → Valuation τ sig (Elt F) := fun c => StableHlo.after hostOps2_2 (X6 m c)
abbrev X8 : Dev nD → Valuation τ sig (Elt F) := fun c => StableHlo.after hostOps2_3 (X7 m c)
abbrev X9 : Dev nD → Valuation τ sig (Elt F) := fun c => StableHlo.after hostOps2_4 (X8 m c)
abbrev XV9 : (c : Dev nD) → (b : Ref sig .tc) → Buf (Elt F) ((c : Thread nD τ).loc b) := fun c b => X9 m c b
/-- After region 2. -/
def X10 (c : Dev nD) : Valuation τ sig (Elt F) :=
  Pipeline.withArrays spec2 c (X9 m c) fun w => (dat2 (XV9 m) c).arrAt w cfg2.N
abbrev XV10 : (c : Dev nD) → (b : Ref sig .tc) → Buf (Elt F) ((c : Thread nD τ).loc b) := fun c b => X10 m c b
abbrev X11 : Dev nD → Valuation τ sig (Elt F) := fun c => StableHlo.after hostOps3 (X10 m c)
abbrev XV11 : (c : Dev nD) → (b : Ref sig .tc) → Buf (Elt F) ((c : Thread nD τ).loc b) := fun c b => X11 m c b
/-- After region 3. -/
def X12 (c : Dev nD) : Valuation τ sig (Elt F) :=
  Pipeline.withArrays spec3 c (X11 m c) fun w => (dat3 (XV11 m) c).arrAt w cfg3.N
abbrev XV12 : (c : Dev nD) → (b : Ref sig .tc) → Buf (Elt F) ((c : Thread nD τ).loc b) := fun c b => X12 m c b
abbrev X13 : Dev nD → Valuation τ sig (Elt F) := fun c => StableHlo.after hostOps4 (X12 m c)
abbrev X14 : Dev nD → Valuation τ sig (Elt F) := fun c => StableHlo.after hostOps4_1 (X13 m c)
abbrev X15 : Dev nD → Valuation τ sig (Elt F) := fun c => StableHlo.after hostOps4_2 (X14 m c)
abbrev X16 : Dev nD → Valuation τ sig (Elt F) := fun c => StableHlo.after hostOps4_3 (X15 m c)
abbrev X17 : Dev nD → Valuation τ sig (Elt F) := fun c => StableHlo.after hostOps4_4 (X16 m c)
abbrev XV17 : (c : Dev nD) → (b : Ref sig .tc) → Buf (Elt F) ((c : Thread nD τ).loc b) := fun c b => X17 m c b
/-- After region 4. -/
def X18 (c : Dev nD) : Valuation τ sig (Elt F) :=
  Pipeline.withArrays spec4 c (X17 m c) fun w => (dat4 (XV17 m) c).arrAt w cfg4.N
abbrev XV18 : (c : Dev nD) → (b : Ref sig .tc) → Buf (Elt F) ((c : Thread nD τ).loc b) := fun c b => X18 m c b
abbrev X19 : Dev nD → Valuation τ sig (Elt F) := fun c => StableHlo.after hostOps5 (X18 m c)
abbrev XV19 : (c : Dev nD) → (b : Ref sig .tc) → Buf (Elt F) ((c : Thread nD τ).loc b) := fun c b => X19 m c b
/-- After region 5. -/
def X20 (c : Dev nD) : Valuation τ sig (Elt F) :=
  Pipeline.withArrays spec5 c (X19 m c) fun w => (dat5 (XV19 m) c).arrAt w cfg5.N
abbrev XV20 : (c : Dev nD) → (b : Ref sig .tc) → Buf (Elt F) ((c : Thread nD τ).loc b) := fun c b => X20 m c b
abbrev X21 : Dev nD → Valuation τ sig (Elt F) := fun c => StableHlo.after hostOps6 (X20 m c)
abbrev X22 : Dev nD → Valuation τ sig (Elt F) := fun c => StableHlo.after hostOps6_1 (X21 m c)
abbrev X23 : Dev nD → Valuation τ sig (Elt F) := fun c => StableHlo.after hostOps6_2 (X22 m c)
abbrev X24 : Dev nD → Valuation τ sig (Elt F) := fun c => StableHlo.after hostOps6_3 (X23 m c)
abbrev X25 : Dev nD → Valuation τ sig (Elt F) := fun c => StableHlo.after hostOps6_4 (X24 m c)
abbrev XV25 : (c : Dev nD) → (b : Ref sig .tc) → Buf (Elt F) ((c : Thread nD τ).loc b) := fun c b => X25 m c b
/-- After region 6. -/
def X26 (c : Dev nD) : Valuation τ sig (Elt F) :=
  Pipeline.withArrays spec6 c (X25 m c) fun w => (dat6 (XV25 m) c).arrAt w cfg6.N
abbrev XV26 : (c : Dev nD) → (b : Ref sig .tc) → Buf (Elt F) ((c : Thread nD τ).loc b) := fun c b => X26 m c b
abbrev X27 : Dev nD → Valuation τ sig (Elt F) := fun c => StableHlo.after hostOps7 (X26 m c)
abbrev XV27 : (c : Dev nD) → (b : Ref sig .tc) → Buf (Elt F) ((c : Thread nD τ).loc b) := fun c b => X27 m c b
/-- After region 7. -/
def X28 (c : Dev nD) : Valuation τ sig (Elt F) :=
  Pipeline.withArrays spec7 c (X27 m c) fun w => (dat7 (XV27 m) c).arrAt w cfg7.N
abbrev XV28 : (c : Dev nD) → (b : Ref sig .tc) → Buf (Elt F) ((c : Thread nD τ).loc b) := fun c b => X28 m c b
abbrev X29 : Dev nD → Valuation τ sig (Elt F) := fun c => StableHlo.after hostOps8 (X28 m c)

/-! ## A region's exit contents: its arrays, and the rest -/

theorem X2_arr (c : Dev nD) (w : Fin cfg0.W) : X2 m c (Proc.devRef .tc (Pipeline.arrRef spec0 w)) = (dat0 (XV1 m) c).arrAt w cfg0.N := by
  unfold X2; exact Pipeline.withArrays_arr spec0 launch0.win.arr_inj c _ _ w
theorem X2_of_ne (c : Dev nD) (b : Ref sig .tc) (hb : ∀ w, Pipeline.arrRef spec0 w ≠ b) : X2 m c (Proc.devRef .tc b) = X1 m c (Proc.devRef .tc b) := by
  unfold X2; exact Pipeline.withArrays_of_ne spec0 c _ _ b hb
theorem hF0 (c : Dev nD) (w : Fin cfg0.W) : (dat0 (XV1 m) c).arrAt w cfg0.N = XV2 m c (Pipeline.arrRef spec0 w) := (X2_arr m c w).symm
theorem hrest0 (c : Dev nD) : ∀ b, b ∉ Finset.univ.image (Pipeline.arrRef spec0) → XV2 m c b = XV1 m c b :=
  fun b hb => X2_of_ne m c b fun w e => hb (Finset.mem_image.mpr ⟨w, Finset.mem_univ _, e⟩)

theorem X4_arr (c : Dev nD) (w : Fin cfg1.W) : X4 m c (Proc.devRef .tc (Pipeline.arrRef spec1 w)) = (dat1 (XV3 m) c).arrAt w cfg1.N := by
  unfold X4; exact Pipeline.withArrays_arr spec1 launch1.win.arr_inj c _ _ w
theorem X4_of_ne (c : Dev nD) (b : Ref sig .tc) (hb : ∀ w, Pipeline.arrRef spec1 w ≠ b) : X4 m c (Proc.devRef .tc b) = X3 m c (Proc.devRef .tc b) := by
  unfold X4; exact Pipeline.withArrays_of_ne spec1 c _ _ b hb
theorem hF1 (c : Dev nD) (w : Fin cfg1.W) : (dat1 (XV3 m) c).arrAt w cfg1.N = XV4 m c (Pipeline.arrRef spec1 w) := (X4_arr m c w).symm
theorem hrest1 (c : Dev nD) : ∀ b, b ∉ Finset.univ.image (Pipeline.arrRef spec1) → XV4 m c b = XV3 m c b :=
  fun b hb => X4_of_ne m c b fun w e => hb (Finset.mem_image.mpr ⟨w, Finset.mem_univ _, e⟩)

theorem X10_arr (c : Dev nD) (w : Fin cfg2.W) : X10 m c (Proc.devRef .tc (Pipeline.arrRef spec2 w)) = (dat2 (XV9 m) c).arrAt w cfg2.N := by
  unfold X10; exact Pipeline.withArrays_arr spec2 launch2.win.arr_inj c _ _ w
theorem X10_of_ne (c : Dev nD) (b : Ref sig .tc) (hb : ∀ w, Pipeline.arrRef spec2 w ≠ b) : X10 m c (Proc.devRef .tc b) = X9 m c (Proc.devRef .tc b) := by
  unfold X10; exact Pipeline.withArrays_of_ne spec2 c _ _ b hb
theorem hF2 (c : Dev nD) (w : Fin cfg2.W) : (dat2 (XV9 m) c).arrAt w cfg2.N = XV10 m c (Pipeline.arrRef spec2 w) := (X10_arr m c w).symm
theorem hrest2 (c : Dev nD) : ∀ b, b ∉ Finset.univ.image (Pipeline.arrRef spec2) → XV10 m c b = XV9 m c b :=
  fun b hb => X10_of_ne m c b fun w e => hb (Finset.mem_image.mpr ⟨w, Finset.mem_univ _, e⟩)

theorem X12_arr (c : Dev nD) (w : Fin cfg3.W) : X12 m c (Proc.devRef .tc (Pipeline.arrRef spec3 w)) = (dat3 (XV11 m) c).arrAt w cfg3.N := by
  unfold X12; exact Pipeline.withArrays_arr spec3 launch3.win.arr_inj c _ _ w
theorem X12_of_ne (c : Dev nD) (b : Ref sig .tc) (hb : ∀ w, Pipeline.arrRef spec3 w ≠ b) : X12 m c (Proc.devRef .tc b) = X11 m c (Proc.devRef .tc b) := by
  unfold X12; exact Pipeline.withArrays_of_ne spec3 c _ _ b hb
theorem hF3 (c : Dev nD) (w : Fin cfg3.W) : (dat3 (XV11 m) c).arrAt w cfg3.N = XV12 m c (Pipeline.arrRef spec3 w) := (X12_arr m c w).symm
theorem hrest3 (c : Dev nD) : ∀ b, b ∉ Finset.univ.image (Pipeline.arrRef spec3) → XV12 m c b = XV11 m c b :=
  fun b hb => X12_of_ne m c b fun w e => hb (Finset.mem_image.mpr ⟨w, Finset.mem_univ _, e⟩)

theorem X18_arr (c : Dev nD) (w : Fin cfg4.W) : X18 m c (Proc.devRef .tc (Pipeline.arrRef spec4 w)) = (dat4 (XV17 m) c).arrAt w cfg4.N := by
  unfold X18; exact Pipeline.withArrays_arr spec4 launch4.win.arr_inj c _ _ w
theorem X18_of_ne (c : Dev nD) (b : Ref sig .tc) (hb : ∀ w, Pipeline.arrRef spec4 w ≠ b) : X18 m c (Proc.devRef .tc b) = X17 m c (Proc.devRef .tc b) := by
  unfold X18; exact Pipeline.withArrays_of_ne spec4 c _ _ b hb
theorem hF4 (c : Dev nD) (w : Fin cfg4.W) : (dat4 (XV17 m) c).arrAt w cfg4.N = XV18 m c (Pipeline.arrRef spec4 w) := (X18_arr m c w).symm
theorem hrest4 (c : Dev nD) : ∀ b, b ∉ Finset.univ.image (Pipeline.arrRef spec4) → XV18 m c b = XV17 m c b :=
  fun b hb => X18_of_ne m c b fun w e => hb (Finset.mem_image.mpr ⟨w, Finset.mem_univ _, e⟩)

theorem X20_arr (c : Dev nD) (w : Fin cfg5.W) : X20 m c (Proc.devRef .tc (Pipeline.arrRef spec5 w)) = (dat5 (XV19 m) c).arrAt w cfg5.N := by
  unfold X20; exact Pipeline.withArrays_arr spec5 launch5.win.arr_inj c _ _ w
theorem X20_of_ne (c : Dev nD) (b : Ref sig .tc) (hb : ∀ w, Pipeline.arrRef spec5 w ≠ b) : X20 m c (Proc.devRef .tc b) = X19 m c (Proc.devRef .tc b) := by
  unfold X20; exact Pipeline.withArrays_of_ne spec5 c _ _ b hb
theorem hF5 (c : Dev nD) (w : Fin cfg5.W) : (dat5 (XV19 m) c).arrAt w cfg5.N = XV20 m c (Pipeline.arrRef spec5 w) := (X20_arr m c w).symm
theorem hrest5 (c : Dev nD) : ∀ b, b ∉ Finset.univ.image (Pipeline.arrRef spec5) → XV20 m c b = XV19 m c b :=
  fun b hb => X20_of_ne m c b fun w e => hb (Finset.mem_image.mpr ⟨w, Finset.mem_univ _, e⟩)

theorem X26_arr (c : Dev nD) (w : Fin cfg6.W) : X26 m c (Proc.devRef .tc (Pipeline.arrRef spec6 w)) = (dat6 (XV25 m) c).arrAt w cfg6.N := by
  unfold X26; exact Pipeline.withArrays_arr spec6 launch6.win.arr_inj c _ _ w
theorem X26_of_ne (c : Dev nD) (b : Ref sig .tc) (hb : ∀ w, Pipeline.arrRef spec6 w ≠ b) : X26 m c (Proc.devRef .tc b) = X25 m c (Proc.devRef .tc b) := by
  unfold X26; exact Pipeline.withArrays_of_ne spec6 c _ _ b hb
theorem hF6 (c : Dev nD) (w : Fin cfg6.W) : (dat6 (XV25 m) c).arrAt w cfg6.N = XV26 m c (Pipeline.arrRef spec6 w) := (X26_arr m c w).symm
theorem hrest6 (c : Dev nD) : ∀ b, b ∉ Finset.univ.image (Pipeline.arrRef spec6) → XV26 m c b = XV25 m c b :=
  fun b hb => X26_of_ne m c b fun w e => hb (Finset.mem_image.mpr ⟨w, Finset.mem_univ _, e⟩)

theorem X28_arr (c : Dev nD) (w : Fin cfg7.W) : X28 m c (Proc.devRef .tc (Pipeline.arrRef spec7 w)) = (dat7 (XV27 m) c).arrAt w cfg7.N := by
  unfold X28; exact Pipeline.withArrays_arr spec7 launch7.win.arr_inj c _ _ w
theorem X28_of_ne (c : Dev nD) (b : Ref sig .tc) (hb : ∀ w, Pipeline.arrRef spec7 w ≠ b) : X28 m c (Proc.devRef .tc b) = X27 m c (Proc.devRef .tc b) := by
  unfold X28; exact Pipeline.withArrays_of_ne spec7 c _ _ b hb
theorem hF7 (c : Dev nD) (w : Fin cfg7.W) : (dat7 (XV27 m) c).arrAt w cfg7.N = XV28 m c (Pipeline.arrRef spec7 w) := (X28_arr m c w).symm
theorem hrest7 (c : Dev nD) : ∀ b, b ∉ Finset.univ.image (Pipeline.arrRef spec7) → XV28 m c b = XV27 m c b :=
  fun b hb => X28_of_ne m c b fun w e => hb (Finset.mem_image.mpr ⟨w, Finset.mem_univ _, e⟩)

/-! ## A buffer that no host stretch writes and that is no region's array ends as launched -/

/-- A buffer that no host stretch writes and that every region leaves as it found it holds, at the end, what the
    launch found in it: the 29 items one after the other. -/
theorem X29_keep (c : Dev nD) (b : Ref sig .tc)
    (g1 : b ∉ (hostOps0_W : List (Ref sig .tc))) (g3 : b ∉ (hostOps1_W : List (Ref sig .tc))) (g5 : b ∉ (hostOps2_W : List (Ref sig .tc))) (g6 : b ∉ (hostOps2_1_W : List (Ref sig .tc))) (g7 : b ∉ (hostOps2_2_W : List (Ref sig .tc))) (g8 : b ∉ (hostOps2_3_W : List (Ref sig .tc))) (g9 : b ∉ (hostOps2_4_W : List (Ref sig .tc))) (g11 : b ∉ (hostOps3_W : List (Ref sig .tc))) (g13 : b ∉ (hostOps4_W : List (Ref sig .tc))) (g14 : b ∉ (hostOps4_1_W : List (Ref sig .tc))) (g15 : b ∉ (hostOps4_2_W : List (Ref sig .tc))) (g16 : b ∉ (hostOps4_3_W : List (Ref sig .tc))) (g17 : b ∉ (hostOps4_4_W : List (Ref sig .tc))) (g19 : b ∉ (hostOps5_W : List (Ref sig .tc))) (g21 : b ∉ (hostOps6_W : List (Ref sig .tc))) (g22 : b ∉ (hostOps6_1_W : List (Ref sig .tc))) (g23 : b ∉ (hostOps6_2_W : List (Ref sig .tc))) (g24 : b ∉ (hostOps6_3_W : List (Ref sig .tc))) (g25 : b ∉ (hostOps6_4_W : List (Ref sig .tc))) (g27 : b ∉ (hostOps7_W : List (Ref sig .tc))) (g29 : b ∉ (hostOps8_W : List (Ref sig .tc)))
    (e2 : X2 m c (Proc.devRef .tc b) = X1 m c (Proc.devRef .tc b))
    (e4 : X4 m c (Proc.devRef .tc b) = X3 m c (Proc.devRef .tc b))
    (e10 : X10 m c (Proc.devRef .tc b) = X9 m c (Proc.devRef .tc b))
    (e12 : X12 m c (Proc.devRef .tc b) = X11 m c (Proc.devRef .tc b))
    (e18 : X18 m c (Proc.devRef .tc b) = X17 m c (Proc.devRef .tc b))
    (e20 : X20 m c (Proc.devRef .tc b) = X19 m c (Proc.devRef .tc b))
    (e26 : X26 m c (Proc.devRef .tc b) = X25 m c (Proc.devRef .tc b))
    (e28 : X28 m c (Proc.devRef .tc b) = X27 m c (Proc.devRef .tc b)) :
    X29 m c (Proc.devRef .tc b) = m ((c : Thread nD τ).loc b) := by
  have e1 : X1 m c (Proc.devRef .tc b) = X0 m c (Proc.devRef .tc b) := StableHlo.after_of_writes_sub hostOps0 (X0 m c) hostOps0_writes g1
  have e3 : X3 m c (Proc.devRef .tc b) = X2 m c (Proc.devRef .tc b) := StableHlo.after_of_writes_sub hostOps1 (X2 m c) hostOps1_writes g3
  have e5 : X5 m c (Proc.devRef .tc b) = X4 m c (Proc.devRef .tc b) := StableHlo.after_of_writes_sub hostOps2 (X4 m c) hostOps2_writes g5
  have e6 : X6 m c (Proc.devRef .tc b) = X5 m c (Proc.devRef .tc b) := StableHlo.after_of_writes_sub hostOps2_1 (X5 m c) hostOps2_1_writes g6
  have e7 : X7 m c (Proc.devRef .tc b) = X6 m c (Proc.devRef .tc b) := StableHlo.after_of_writes_sub hostOps2_2 (X6 m c) hostOps2_2_writes g7
  have e8 : X8 m c (Proc.devRef .tc b) = X7 m c (Proc.devRef .tc b) := StableHlo.after_of_writes_sub hostOps2_3 (X7 m c) hostOps2_3_writes g8
  have e9 : X9 m c (Proc.devRef .tc b) = X8 m c (Proc.devRef .tc b) := StableHlo.after_of_writes_sub hostOps2_4 (X8 m c) hostOps2_4_writes g9
  have e11 : X11 m c (Proc.devRef .tc b) = X10 m c (Proc.devRef .tc b) := StableHlo.after_of_writes_sub hostOps3 (X10 m c) hostOps3_writes g11
  have e13 : X13 m c (Proc.devRef .tc b) = X12 m c (Proc.devRef .tc b) := StableHlo.after_of_writes_sub hostOps4 (X12 m c) hostOps4_writes g13
  have e14 : X14 m c (Proc.devRef .tc b) = X13 m c (Proc.devRef .tc b) := StableHlo.after_of_writes_sub hostOps4_1 (X13 m c) hostOps4_1_writes g14
  have e15 : X15 m c (Proc.devRef .tc b) = X14 m c (Proc.devRef .tc b) := StableHlo.after_of_writes_sub hostOps4_2 (X14 m c) hostOps4_2_writes g15
  have e16 : X16 m c (Proc.devRef .tc b) = X15 m c (Proc.devRef .tc b) := StableHlo.after_of_writes_sub hostOps4_3 (X15 m c) hostOps4_3_writes g16
  have e17 : X17 m c (Proc.devRef .tc b) = X16 m c (Proc.devRef .tc b) := StableHlo.after_of_writes_sub hostOps4_4 (X16 m c) hostOps4_4_writes g17
  have e19 : X19 m c (Proc.devRef .tc b) = X18 m c (Proc.devRef .tc b) := StableHlo.after_of_writes_sub hostOps5 (X18 m c) hostOps5_writes g19
  have e21 : X21 m c (Proc.devRef .tc b) = X20 m c (Proc.devRef .tc b) := StableHlo.after_of_writes_sub hostOps6 (X20 m c) hostOps6_writes g21
  have e22 : X22 m c (Proc.devRef .tc b) = X21 m c (Proc.devRef .tc b) := StableHlo.after_of_writes_sub hostOps6_1 (X21 m c) hostOps6_1_writes g22
  have e23 : X23 m c (Proc.devRef .tc b) = X22 m c (Proc.devRef .tc b) := StableHlo.after_of_writes_sub hostOps6_2 (X22 m c) hostOps6_2_writes g23
  have e24 : X24 m c (Proc.devRef .tc b) = X23 m c (Proc.devRef .tc b) := StableHlo.after_of_writes_sub hostOps6_3 (X23 m c) hostOps6_3_writes g24
  have e25 : X25 m c (Proc.devRef .tc b) = X24 m c (Proc.devRef .tc b) := StableHlo.after_of_writes_sub hostOps6_4 (X24 m c) hostOps6_4_writes g25
  have e27 : X27 m c (Proc.devRef .tc b) = X26 m c (Proc.devRef .tc b) := StableHlo.after_of_writes_sub hostOps7 (X26 m c) hostOps7_writes g27
  have e29 : X29 m c (Proc.devRef .tc b) = X28 m c (Proc.devRef .tc b) := StableHlo.after_of_writes_sub hostOps8 (X28 m c) hostOps8_writes g29
  exact e29.trans <| e28.trans <| e27.trans <| e26.trans <| e25.trans <| e24.trans <| e23.trans <| e22.trans <| e21.trans <| e20.trans <| e19.trans <| e18.trans <| e17.trans <| e16.trans <| e15.trans <| e14.trans <| e13.trans <| e12.trans <| e11.trans <| e10.trans <| e9.trans <| e8.trans <| e7.trans <| e6.trans <| e5.trans <| e4.trans <| e3.trans <| e2.trans <| e1

/-! ## The proof data of every pipeline, each at its region's entry contents -/

abbrev admF : (p : Fin 8) → (pcfgs (F := F) p).Adm := fun p => (cfgs p).toPCfg_adm

/-- A literal match on the pipeline's number, so that the pinned configuration at a numeral reduces to the printed one. -/
def pdatsF : (p : Fin 8) → (c : Dev nD) → Dat τ (Elt F) Unit ℕ (UR sig nD τ) ℕ (Pipeline.pin (pcfgs (F := F)) admF p) c
  | ⟨0, _⟩ => fun c => dat0 (XV1 m) c
  | ⟨1, _⟩ => fun c => dat1 (XV3 m) c
  | ⟨2, _⟩ => fun c => dat2 (XV9 m) c
  | ⟨3, _⟩ => fun c => dat3 (XV11 m) c
  | ⟨4, _⟩ => fun c => dat4 (XV17 m) c
  | ⟨5, _⟩ => fun c => dat5 (XV19 m) c
  | ⟨6, _⟩ => fun c => dat6 (XV25 m) c
  | ⟨7, _⟩ => fun c => dat7 (XV27 m) c

abbrev VarF : Variants := Variants.none
/-- No core owes another anything: no level is assigned. -/
abbrev LF : GSem nD τ sig → Finset Unit := fun _ => ∅
abbrev lvF : GSem nD τ sig → Unit → ℕ := fun _ _ => 0
/-- What rides beside the buffers through every item: the core's generator register at some state, and nothing owed. -/
abbrev RF (c : Dev nD) : sProp 𝕄 := iprop((∃ r, prngReg c r) ∗ ∃ W, owes (c : Thread nD τ) (0 : CellTallies nD τ sig Unit) W)
/-- A host stretch as a segment over the unscoped references, from the contents W. -/
abbrev hsegF (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ VarF LF lvF :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RF

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Fr

end
-- ==== Proof.KI.Seg0.lean ====
/-
  Region 0 as a segment of the program over the thread state "every unscoped buffer at the boundary's contents, the
  generator register at some state, nothing owed": entered at the contents X1, left at X2. Its arrays are split out of the
  unscoped buffers on entry and put back at their exit contents on exit; the generator register goes into the pipeline's
  invariant and comes back; the kernel has no semaphore of its own.
-/
import proofs.«109328_j13039520711153_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def regF0 : Pipeline.RegionSeg (pcfgs (F := F)) admF (pdatsF m) () defs₀ VarF LF lvF 0 where
  win := launch0.win.to₀
  block_pos := launch0.block_pos
  stage_whole := launch0.stage_whole
  K := PEmpty
  osem k := k.elim
  ho := Pipeline.OwnSemFacts.none _
  hbody c := (body_obligation0 (XV1 m) c).loose
  hwaits := Pipeline.hwaits_of_owed_zero _ _ _ _ LF lvF 0 fun _ _ => rfl
  pre c := iprop(StableHlo.held (c : Thread nD τ) (Pipeline.ucRefs τ sig) (X1 m c) ∗ RF c)
  post c := iprop(StableHlo.held (c : Thread nD τ) (Pipeline.ucRefs τ sig) (X2 m c) ∗ RF c)
  X c := iprop(∃ r, prngReg c r)
  Y c := iprop(∃ r, prngReg c r)
  Z c := Pipeline.unscopedRest (Ix := Unit) (Name := ℕ) (U := UR sig nD τ) (Lvl := ℕ) spec0 c (XV1 m c)
  hentry c := by
    rw [Pipeline.ownSems0_none]
    have hsplit := Pipeline.arrays_of_unscopedBufs (p := 0) (pcfgs (F := F)) admF (pdatsF m) launch0.win launch0.arr_whole c
      ((pdatsF m 0 c).share_full fun _ => rfl) (XV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsF m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdatsF m) ((pdatsF m 0 c).share_full fun _ => rfl)
      (XV1 m c) (XV2 m c) ((pdatsF m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg1.lean ====
/-
  Region 1 as a segment of the program over the thread state "every unscoped buffer at the boundary's contents, the
  generator register at some state, nothing owed": entered at the contents X3, left at X4. Its arrays are split out of the
  unscoped buffers on entry and put back at their exit contents on exit; the generator register goes into the pipeline's
  invariant and comes back; the kernel has no semaphore of its own.
-/
import proofs.«109328_j13039520711153_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def regF1 : Pipeline.RegionSeg (pcfgs (F := F)) admF (pdatsF m) () defs₀ VarF LF lvF 1 where
  win := launch1.win.to₀
  block_pos := launch1.block_pos
  stage_whole := launch1.stage_whole
  K := PEmpty
  osem k := k.elim
  ho := Pipeline.OwnSemFacts.none _
  hbody c := (body_obligation1 (XV3 m) c).loose
  hwaits := Pipeline.hwaits_of_owed_zero _ _ _ _ LF lvF 1 fun _ _ => rfl
  pre c := iprop(StableHlo.held (c : Thread nD τ) (Pipeline.ucRefs τ sig) (X3 m c) ∗ RF c)
  post c := iprop(StableHlo.held (c : Thread nD τ) (Pipeline.ucRefs τ sig) (X4 m c) ∗ RF c)
  X c := iprop(∃ r, prngReg c r)
  Y c := iprop(∃ r, prngReg c r)
  Z c := Pipeline.unscopedRest (Ix := Unit) (Name := ℕ) (U := UR sig nD τ) (Lvl := ℕ) spec1 c (XV3 m c)
  hentry c := by
    rw [Pipeline.ownSems0_none]
    have hsplit := Pipeline.arrays_of_unscopedBufs (p := 1) (pcfgs (F := F)) admF (pdatsF m) launch1.win launch1.arr_whole c
      ((pdatsF m 1 c).share_full fun _ => rfl) (XV3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsF m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pdatsF m) ((pdatsF m 1 c).share_full fun _ => rfl)
      (XV3 m c) (XV4 m c) ((pdatsF m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg2.lean ====
/-
  Region 2 as a segment of the program over the thread state "every unscoped buffer at the boundary's contents, the
  generator register at some state, nothing owed": entered at the contents X9, left at X10. Its arrays are split out of the
  unscoped buffers on entry and put back at their exit contents on exit; the generator register goes into the pipeline's
  invariant and comes back; the kernel has no semaphore of its own.
-/
import proofs.«109328_j13039520711153_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def regF2 : Pipeline.RegionSeg (pcfgs (F := F)) admF (pdatsF m) () defs₀ VarF LF lvF 2 where
  win := launch2.win.to₀
  block_pos := launch2.block_pos
  stage_whole := launch2.stage_whole
  K := PEmpty
  osem k := k.elim
  ho := Pipeline.OwnSemFacts.none _
  hbody c := (body_obligation2 (XV9 m) c).loose
  hwaits := Pipeline.hwaits_of_owed_zero _ _ _ _ LF lvF 2 fun _ _ => rfl
  pre c := iprop(StableHlo.held (c : Thread nD τ) (Pipeline.ucRefs τ sig) (X9 m c) ∗ RF c)
  post c := iprop(StableHlo.held (c : Thread nD τ) (Pipeline.ucRefs τ sig) (X10 m c) ∗ RF c)
  X c := iprop(∃ r, prngReg c r)
  Y c := iprop(∃ r, prngReg c r)
  Z c := Pipeline.unscopedRest (Ix := Unit) (Name := ℕ) (U := UR sig nD τ) (Lvl := ℕ) spec2 c (XV9 m c)
  hentry c := by
    rw [Pipeline.ownSems0_none]
    have hsplit := Pipeline.arrays_of_unscopedBufs (p := 2) (pcfgs (F := F)) admF (pdatsF m) launch2.win launch2.arr_whole c
      ((pdatsF m 2 c).share_full fun _ => rfl) (XV9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsF m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admF (Ix := Unit) (Name := ℕ) (U := UR sig nD τ) (Lvl := ℕ)
      launch2.win launch2.arr_whole c (pdatsF m) ((pdatsF m 2 c).share_full fun _ => rfl)
      (XV9 m c) (XV10 m c) ((pdatsF m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg3.lean ====
/-
  Region 3 as a segment of the program over the thread state "every unscoped buffer at the boundary's contents, the
  generator register at some state, nothing owed": entered at the contents X11, left at X12. Its arrays are split out of the
  unscoped buffers on entry and put back at their exit contents on exit; the generator register goes into the pipeline's
  invariant and comes back; the kernel has no semaphore of its own.
-/
import proofs.«109328_j13039520711153_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def regF3 : Pipeline.RegionSeg (pcfgs (F := F)) admF (pdatsF m) () defs₀ VarF LF lvF 3 where
  win := launch3.win.to₀
  block_pos := launch3.block_pos
  stage_whole := launch3.stage_whole
  K := PEmpty
  osem k := k.elim
  ho := Pipeline.OwnSemFacts.none _
  hbody c := (body_obligation3 (XV11 m) c).loose
  hwaits := Pipeline.hwaits_of_owed_zero _ _ _ _ LF lvF 3 fun _ _ => rfl
  pre c := iprop(StableHlo.held (c : Thread nD τ) (Pipeline.ucRefs τ sig) (X11 m c) ∗ RF c)
  post c := iprop(StableHlo.held (c : Thread nD τ) (Pipeline.ucRefs τ sig) (X12 m c) ∗ RF c)
  X c := iprop(∃ r, prngReg c r)
  Y c := iprop(∃ r, prngReg c r)
  Z c := Pipeline.unscopedRest (Ix := Unit) (Name := ℕ) (U := UR sig nD τ) (Lvl := ℕ) spec3 c (XV11 m c)
  hentry c := by
    rw [Pipeline.ownSems0_none]
    have hsplit := Pipeline.arrays_of_unscopedBufs (p := 3) (pcfgs (F := F)) admF (pdatsF m) launch3.win launch3.arr_whole c
      ((pdatsF m 3 c).share_full fun _ => rfl) (XV11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsF m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admF (Ix := Unit) (Name := ℕ) (U := UR sig nD τ) (Lvl := ℕ)
      launch3.win launch3.arr_whole c (pdatsF m) ((pdatsF m 3 c).share_full fun _ => rfl)
      (XV11 m c) (XV12 m c) ((pdatsF m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg4.lean ====
/-
  Region 4 as a segment of the program over the thread state "every unscoped buffer at the boundary's contents, the
  generator register at some state, nothing owed": entered at the contents X17, left at X18. Its arrays are split out of the
  unscoped buffers on entry and put back at their exit contents on exit; the generator register goes into the pipeline's
  invariant and comes back; the kernel has no semaphore of its own.
-/
import proofs.«109328_j13039520711153_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def regF4 : Pipeline.RegionSeg (pcfgs (F := F)) admF (pdatsF m) () defs₀ VarF LF lvF 4 where
  win := launch4.win.to₀
  block_pos := launch4.block_pos
  stage_whole := launch4.stage_whole
  K := PEmpty
  osem k := k.elim
  ho := Pipeline.OwnSemFacts.none _
  hbody c := (body_obligation4 (XV17 m) c).loose
  hwaits := Pipeline.hwaits_of_owed_zero _ _ _ _ LF lvF 4 fun _ _ => rfl
  pre c := iprop(StableHlo.held (c : Thread nD τ) (Pipeline.ucRefs τ sig) (X17 m c) ∗ RF c)
  post c := iprop(StableHlo.held (c : Thread nD τ) (Pipeline.ucRefs τ sig) (X18 m c) ∗ RF c)
  X c := iprop(∃ r, prngReg c r)
  Y c := iprop(∃ r, prngReg c r)
  Z c := Pipeline.unscopedRest (Ix := Unit) (Name := ℕ) (U := UR sig nD τ) (Lvl := ℕ) spec4 c (XV17 m c)
  hentry c := by
    rw [Pipeline.ownSems0_none]
    have hsplit := Pipeline.arrays_of_unscopedBufs (p := 4) (pcfgs (F := F)) admF (pdatsF m) launch4.win launch4.arr_whole c
      ((pdatsF m 4 c).share_full fun _ => rfl) (XV17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdatsF m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admF (Ix := Unit) (Name := ℕ) (U := UR sig nD τ) (Lvl := ℕ)
      launch4.win launch4.arr_whole c (pdatsF m) ((pdatsF m 4 c).share_full fun _ => rfl)
      (XV17 m c) (XV18 m c) ((pdatsF m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg5.lean ====
/-
  Region 5 as a segment of the program over the thread state "every unscoped buffer at the boundary's contents, the
  generator register at some state, nothing owed": entered at the contents X19, left at X20. Its arrays are split out of the
  unscoped buffers on entry and put back at their exit contents on exit; the generator register goes into the pipeline's
  invariant and comes back; the kernel has no semaphore of its own.
-/
import proofs.«109328_j13039520711153_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def regF5 : Pipeline.RegionSeg (pcfgs (F := F)) admF (pdatsF m) () defs₀ VarF LF lvF 5 where
  win := launch5.win.to₀
  block_pos := launch5.block_pos
  stage_whole := launch5.stage_whole
  K := PEmpty
  osem k := k.elim
  ho := Pipeline.OwnSemFacts.none _
  hbody c := (body_obligation5 (XV19 m) c).loose
  hwaits := Pipeline.hwaits_of_owed_zero _ _ _ _ LF lvF 5 fun _ _ => rfl
  pre c := iprop(StableHlo.held (c : Thread nD τ) (Pipeline.ucRefs τ sig) (X19 m c) ∗ RF c)
  post c := iprop(StableHlo.held (c : Thread nD τ) (Pipeline.ucRefs τ sig) (X20 m c) ∗ RF c)
  X c := iprop(∃ r, prngReg c r)
  Y c := iprop(∃ r, prngReg c r)
  Z c := Pipeline.unscopedRest (Ix := Unit) (Name := ℕ) (U := UR sig nD τ) (Lvl := ℕ) spec5 c (XV19 m c)
  hentry c := by
    rw [Pipeline.ownSems0_none]
    have hsplit := Pipeline.arrays_of_unscopedBufs (p := 5) (pcfgs (F := F)) admF (pdatsF m) launch5.win launch5.arr_whole c
      ((pdatsF m 5 c).share_full fun _ => rfl) (XV19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdatsF m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admF (Ix := Unit) (Name := ℕ) (U := UR sig nD τ) (Lvl := ℕ)
      launch5.win launch5.arr_whole c (pdatsF m) ((pdatsF m 5 c).share_full fun _ => rfl)
      (XV19 m c) (XV20 m c) ((pdatsF m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg6.lean ====
/-
  Region 6 as a segment of the program over the thread state "every unscoped buffer at the boundary's contents, the
  generator register at some state, nothing owed": entered at the contents X25, left at X26. Its arrays are split out of the
  unscoped buffers on entry and put back at their exit contents on exit; the generator register goes into the pipeline's
  invariant and comes back; the kernel has no semaphore of its own.
-/
import proofs.«109328_j13039520711153_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def regF6 : Pipeline.RegionSeg (pcfgs (F := F)) admF (pdatsF m) () defs₀ VarF LF lvF 6 where
  win := launch6.win.to₀
  block_pos := launch6.block_pos
  stage_whole := launch6.stage_whole
  K := PEmpty
  osem k := k.elim
  ho := Pipeline.OwnSemFacts.none _
  hbody c := (body_obligation6 (XV25 m) c).loose
  hwaits := Pipeline.hwaits_of_owed_zero _ _ _ _ LF lvF 6 fun _ _ => rfl
  pre c := iprop(StableHlo.held (c : Thread nD τ) (Pipeline.ucRefs τ sig) (X25 m c) ∗ RF c)
  post c := iprop(StableHlo.held (c : Thread nD τ) (Pipeline.ucRefs τ sig) (X26 m c) ∗ RF c)
  X c := iprop(∃ r, prngReg c r)
  Y c := iprop(∃ r, prngReg c r)
  Z c := Pipeline.unscopedRest (Ix := Unit) (Name := ℕ) (U := UR sig nD τ) (Lvl := ℕ) spec6 c (XV25 m c)
  hentry c := by
    rw [Pipeline.ownSems0_none]
    have hsplit := Pipeline.arrays_of_unscopedBufs (p := 6) (pcfgs (F := F)) admF (pdatsF m) launch6.win launch6.arr_whole c
      ((pdatsF m 6 c).share_full fun _ => rfl) (XV25 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdatsF m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admF (Ix := Unit) (Name := ℕ) (U := UR sig nD τ) (Lvl := ℕ)
      launch6.win launch6.arr_whole c (pdatsF m) ((pdatsF m 6 c).share_full fun _ => rfl)
      (XV25 m c) (XV26 m c) ((pdatsF m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg7.lean ====
/-
  Region 7 as a segment of the program over the thread state "every unscoped buffer at the boundary's contents, the
  generator register at some state, nothing owed": entered at the contents X27, left at X28. Its arrays are split out of the
  unscoped buffers on entry and put back at their exit contents on exit; the generator register goes into the pipeline's
  invariant and comes back; the kernel has no semaphore of its own.
-/
import proofs.«109328_j13039520711153_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def regF7 : Pipeline.RegionSeg (pcfgs (F := F)) admF (pdatsF m) () defs₀ VarF LF lvF 7 where
  win := launch7.win.to₀
  block_pos := launch7.block_pos
  stage_whole := launch7.stage_whole
  K := PEmpty
  osem k := k.elim
  ho := Pipeline.OwnSemFacts.none _
  hbody c := (body_obligation7 (XV27 m) c).loose
  hwaits := Pipeline.hwaits_of_owed_zero _ _ _ _ LF lvF 7 fun _ _ => rfl
  pre c := iprop(StableHlo.held (c : Thread nD τ) (Pipeline.ucRefs τ sig) (X27 m c) ∗ RF c)
  post c := iprop(StableHlo.held (c : Thread nD τ) (Pipeline.ucRefs τ sig) (X28 m c) ∗ RF c)
  X c := iprop(∃ r, prngReg c r)
  Y c := iprop(∃ r, prngReg c r)
  Z c := Pipeline.unscopedRest (Ix := Unit) (Name := ℕ) (U := UR sig nD τ) (Lvl := ℕ) spec7 c (XV27 m c)
  hentry c := by
    rw [Pipeline.ownSems0_none]
    have hsplit := Pipeline.arrays_of_unscopedBufs (p := 7) (pcfgs (F := F)) admF (pdatsF m) launch7.win launch7.arr_whole c
      ((pdatsF m 7 c).share_full fun _ => rfl) (XV27 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdatsF m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) admF (Ix := Unit) (Name := ℕ) (U := UR sig nD τ) (Lvl := ℕ)
      launch7.win launch7.arr_whole c (pdatsF m) ((pdatsF m 7 c).share_full fun _ => rfl)
      (XV27 m c) (XV28 m c) ((pdatsF m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Run.lean ====
/-
  The run of the program: its 29 items as segments (a host segment per stretch of host operations, from its boundary's
  contents; a region per kernel call), the program as the run of those segments, and from the launch theorem for several
  regions: every weakly fair execution from any memory with zero counters terminates, faulting nowhere, and in every final
  state each unscoped buffer holds the last boundary's contents X29. The argument arrays are among those buffers and X29
  holds them as launched; the result array is among them too.
-/
import proofs.«109328_j13039520711153_1_alg».proof.Proof.KI.Seg0
import proofs.«109328_j13039520711153_1_alg».proof.Proof.KI.Seg1
import proofs.«109328_j13039520711153_1_alg».proof.Proof.KI.Seg2
import proofs.«109328_j13039520711153_1_alg».proof.Proof.KI.Seg3
import proofs.«109328_j13039520711153_1_alg».proof.Proof.KI.Seg4
import proofs.«109328_j13039520711153_1_alg».proof.Proof.KI.Seg5
import proofs.«109328_j13039520711153_1_alg».proof.Proof.KI.Seg6
import proofs.«109328_j13039520711153_1_alg».proof.Proof.KI.Seg7

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's 29 items in order. -/
abbrev segsF : List (Pipeline.Seg (pcfgs (F := F)) admF (pdatsF m) () defs₀ VarF LF lvF) :=
  [ .host (hsegF hostOps0 hostOps0_sub hostOps0_fresh (X0 m)),
    .region (regF0 m),
    .host (hsegF hostOps1 hostOps1_sub hostOps1_fresh (X2 m)),
    .region (regF1 m),
    .host (hsegF hostOps2 hostOps2_sub hostOps2_fresh (X4 m)),
    .host (hsegF hostOps2_1 hostOps2_1_sub hostOps2_1_fresh (X5 m)),
    .host (hsegF hostOps2_2 hostOps2_2_sub hostOps2_2_fresh (X6 m)),
    .host (hsegF hostOps2_3 hostOps2_3_sub hostOps2_3_fresh (X7 m)),
    .host (hsegF hostOps2_4 hostOps2_4_sub hostOps2_4_fresh (X8 m)),
    .region (regF2 m),
    .host (hsegF hostOps3 hostOps3_sub hostOps3_fresh (X10 m)),
    .region (regF3 m),
    .host (hsegF hostOps4 hostOps4_sub hostOps4_fresh (X12 m)),
    .host (hsegF hostOps4_1 hostOps4_1_sub hostOps4_1_fresh (X13 m)),
    .host (hsegF hostOps4_2 hostOps4_2_sub hostOps4_2_fresh (X14 m)),
    .host (hsegF hostOps4_3 hostOps4_3_sub hostOps4_3_fresh (X15 m)),
    .host (hsegF hostOps4_4 hostOps4_4_sub hostOps4_4_fresh (X16 m)),
    .region (regF4 m),
    .host (hsegF hostOps5 hostOps5_sub hostOps5_fresh (X18 m)),
    .region (regF5 m),
    .host (hsegF hostOps6 hostOps6_sub hostOps6_fresh (X20 m)),
    .host (hsegF hostOps6_1 hostOps6_1_sub hostOps6_1_fresh (X21 m)),
    .host (hsegF hostOps6_2 hostOps6_2_sub hostOps6_2_fresh (X22 m)),
    .host (hsegF hostOps6_3 hostOps6_3_sub hostOps6_3_fresh (X23 m)),
    .host (hsegF hostOps6_4 hostOps6_4_sub hostOps6_4_fresh (X24 m)),
    .region (regF6 m),
    .host (hsegF hostOps7 hostOps7_sub hostOps7_fresh (X26 m)),
    .region (regF7 m),
    .host (hsegF hostOps8 hostOps8_sub hostOps8_fresh (X28 m)) ]

/-- The last thread state without what the core owes: every unscoped buffer at X29, the generator register somewhere. -/
abbrev TnF (c : Dev nD) : sProp 𝕄 := iprop(StableHlo.held (c : Thread nD τ) (Pipeline.ucRefs τ sig) (X29 m c) ∗ ∃ r, prngReg c r)

set_option backward.isDefEq.respectTransparency.types false in
/-- THE RUN: every weakly fair execution of the program from memory m with zero counters terminates, faulting nowhere,
    and in every final state every unscoped buffer of every core holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = X29 m c b) :=
  Pipeline.θ_run_regions_kit (pcfgs (F := F)) admF (pdatsF m) () cellOf_inj emb₁ defs₀ VarF LF lvF m ρ main (segsF m)
    (fun c Q => by
      rewrite [main_chain c, Pipeline.Seg.run_eq_chain,
        show (segsF m).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          StableHlo.seq hostOps4_3,
          StableHlo.seq hostOps4_4,
          Prog.lift (.customCall (Pipeline.entry 4) ()),
          StableHlo.seq hostOps5,
          Prog.lift (.customCall (Pipeline.entry 5) ()),
          StableHlo.seq hostOps6,
          StableHlo.seq hostOps6_1,
          StableHlo.seq hostOps6_2,
          StableHlo.seq hostOps6_3,
          StableHlo.seq hostOps6_4,
          Prog.lift (.customCall (Pipeline.entry 6) ()),
          StableHlo.seq hostOps7,
          Prog.lift (.customCall (Pipeline.entry 7) ()),
          StableHlo.seq hostOps8 ] from rfl]
      exact .rfl)
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ RF c)) (Tₙ := TnF m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        show iprop(StableHlo.held (c.tc : Thread nD τ) (Pipeline.ucRefs τ sig) (StableHlo.after hostOps8 (X28 m c)) ∗ RF c) ⊢ _
        iintro ⟨Hh, Hp, HO⟩
        isplitl [Hh Hp]
        · isplitl [Hh]; · iexact Hh
          iexact Hp
        iexact HO⟩)
    (hinit := by
      refine Pipeline.initEach LF lvF fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X29 m c b)
    (hfin := fun c s' => by
      iintro ⟨⟨Hh, -⟩, HSI⟩
      unfold StableHlo.held
      imodintro
      iapply (pointsTo_read_all (Pipeline.ucRefs τ sig) (fun b => (((c : Thread nD τ)).1, b)) (X29 m c) s')
      isplitl [Hh] <;> iassumption)
    (hQ := fun s h c => h c)

end Cert.KernelIdeal.Fr

end
-- ==== Proof.KI.Frame.lean ====
/-
  The frame of the program, from its run: the sixteen argument arrays are unscoped buffers that no host operation
  writes; no region has one of them as an output array (the edge-attribute array is an INPUT array of the four edge
  regions, which a pipeline leaves as it found it); so the last boundary's contents hold each of them as launched.
-/
import proofs.«109328_j13039520711153_1_alg».proof.Proof.KI.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]

variable (m : (ℓ : Loc nD τ sig) → Buf (Elt F) ℓ) (ρ : Dev nD → PrngReg)

theorem X29_arg0 (c : Dev nD) : X29 m c (Proc.devRef .tc main_arg0) = m ((c : Thread nD τ).loc main_arg0) :=
  X29_keep m c main_arg0 (by decide) (by decide) (by decide) (by decide) (by decide) (by decide) (by decide) (by decide) (by decide) (by decide) (by decide) (by decide) (by decide) (by decide) (by decide) (by decide) (by decide) (by decide) (by decide) (by decide) (by decide) (X2_of_ne m c _ (by decide)) (X4_of_ne m c _ (by decide)) (X10_of_ne m c _ (by decide)) (X12_of_ne m c _ (by decide)) (X18_of_ne m c _ (by decide)) (X20_of_ne m c _ (by decide)) (X26_of_ne m c _ (by decide)) (X28_of_ne m c _ (by decide))
theorem X29_arg2 (c : Dev nD) : X29 m c (Proc.devRef .tc main_arg2) = m ((c : Thread nD τ).loc main_arg2) :=
  X29_keep m c main_arg2 (by decide) (by decide) (by decide) (by decide) (by decide) (by decide) (by decide) (by decide) (by decide) (by decide) (by decide) (by decide) (by decide) (by decide) (by decide) (by decide) (by decide) (by decide) (by decide) (by decide) (by decide) (X2_of_ne m c _ (by decide)) (X4_of_ne m c _ (by decide)) (X10_of_ne m c _ (by decide)) (X12_of_ne m c _ (by decide)) (X18_of_ne m c _ (by decide)) (X20_of_ne m c _ (by decide)) (X26_of_ne m c _ (by decide)) (X28_of_ne m c _ (by decide))
theorem X29_arg3 (c : Dev nD) : X29 m c (Proc.devRef .tc main_arg3) = m ((c : Thread nD τ).loc main_arg3) :=
  X29_keep m c main_arg3 (by decide) (by decide) (by decide) (by decide) (by decide) (by decide) (by decide) (by decide) (by decide) (by decide) (by decide) (by decide) (by decide) (by decide) (by decide) (by decide) (by decide) (by decide) (by decide) (by decide) (by decide) (X2_of_ne m c _ (by decide)) (X4_of_ne m c _ (by decide)) (X10_of_ne m c _ (by decide)) (X12_of_ne m c _ (by decide)) (X18_of_ne m c _ (by decide)) (X20_of_ne m c _ (by decide)) (X26_of_ne m c _ (by decide)) (X28_of_ne m c _ (by decide))
theorem X29_arg4 (c : Dev nD) : X29 m c (Proc.devRef .tc main_arg4) = m ((c : Thread nD τ).loc main_arg4) :=
  X29_keep m c main_arg4 (by decide) (by decide) (by decide) (by decide) (by decide) (by decide) (by decide) (by decide) (by decide) (by decide) (by decide) (by decide) (by decide) (by decide) (by decide) (by decide) (by decide) (by decide) (by decide) (by decide) (by decide) (X2_of_ne m c _ (by decide)) (X4_of_ne m c _ (by decide)) (X10_of_ne m c _ (by decide)) (X12_of_ne m c _ (by decide)) (X18_of_ne m c _ (by decide)) (X20_of_ne m c _ (by decide)) (X26_of_ne m c _ (by decide)) (X28_of_ne m c _ (by decide))
theorem X29_arg5 (c : Dev nD) : X29 m c (Proc.devRef .tc main_arg5) = m ((c : Thread nD τ).loc main_arg5) :=
  X29_keep m c main_arg5 (by decide) (by decide) (by decide) (by decide) (by decide) (by decide) (by decide) (by decide) (by decide) (by decide) (by decide) (by decide) (by decide) (by decide) (by decide) (by decide) (by decide) (by decide) (by decide) (by decide) (by decide) (X2_of_ne m c _ (by decide)) (X4_of_ne m c _ (by decide)) (X10_of_ne m c _ (by decide)) (X12_of_ne m c _ (by decide)) (X18_of_ne m c _ (by decide)) (X20_of_ne m c _ (by decide)) (X26_of_ne m c _ (by decide)) (X28_of_ne m c _ (by decide))
theorem X29_arg6 (c : Dev nD) : X29 m c (Proc.devRef .tc main_arg6) = m ((c : Thread nD τ).loc main_arg6) :=
  X29_keep m c main_arg6 (by decide) (by decide) (by decide) (by decide) (by decide) (by decide) (by decide) (by decide) (by decide) (by decide) (by decide) (by decide) (by decide) (by decide) (by decide) (by decide) (by decide) (by decide) (by decide) (by decide) (by decide) (X2_of_ne m c _ (by decide)) (X4_of_ne m c _ (by decide)) (X10_of_ne m c _ (by decide)) (X12_of_ne m c _ (by decide)) (X18_of_ne m c _ (by decide)) (X20_of_ne m c _ (by decide)) (X26_of_ne m c _ (by decide)) (X28_of_ne m c _ (by decide))
theorem X29_arg7 (c : Dev nD) : X29 m c (Proc.devRef .tc main_arg7) = m ((c : Thread nD τ).loc main_arg7) :=
  X29_keep m c main_arg7 (by decide) (by decide) (by decide) (by decide) (by decide) (by decide) (by decide) (by decide) (by decide) (by decide) (by decide) (by decide) (by decide) (by decide) (by decide) (by decide) (by decide) (by decide) (by decide) (by decide) (by decide) (X2_of_ne m c _ (by decide)) (X4_of_ne m c _ (by decide)) (X10_of_ne m c _ (by decide)) (X12_of_ne m c _ (by decide)) (X18_of_ne m c _ (by decide)) (X20_of_ne m c _ (by decide)) (X26_of_ne m c _ (by decide)) (X28_of_ne m c _ (by decide))
theorem X29_arg8 (c : Dev nD) : X29 m c (Proc.devRef .tc main_arg8) = m ((c : Thread nD τ).loc main_arg8) :=
  X29_keep m c main_arg8 (by decide) (by decide) (by decide) (by decide) (by decide) (by decide) (by decide) (by decide) (by decide) (by decide) (by decide) (by decide) (by decide) (by decide) (by decide) (by decide) (by decide) (by decide) (by decide) (by decide) (by decide) (X2_of_ne m c _ (by decide)) (X4_of_ne m c _ (by decide)) (X10_of_ne m c _ (by decide)) (X12_of_ne m c _ (by decide)) (X18_of_ne m c _ (by decide)) (X20_of_ne m c _ (by decide)) (X26_of_ne m c _ (by decide)) (X28_of_ne m c _ (by decide))
theorem X29_arg9 (c : Dev nD) : X29 m c (Proc.devRef .tc main_arg9) = m ((c : Thread nD τ).loc main_arg9) :=
  X29_keep m c main_arg9 (by decide) (by decide) (by decide) (by decide) (by decide) (by decide) (by decide) (by decide) (by decide) (by decide) (by decide) (by decide) (by decide) (by decide) (by decide) (by decide) (by decide) (by decide) (by decide) (by decide) (by decide) (X2_of_ne m c _ (by decide)) (X4_of_ne m c _ (by decide)) (X10_of_ne m c _ (by decide)) (X12_of_ne m c _ (by decide)) (X18_of_ne m c _ (by decide)) (X20_of_ne m c _ (by decide)) (X26_of_ne m c _ (by decide)) (X28_of_ne m c _ (by decide))
theorem X29_arg10 (c : Dev nD) : X29 m c (Proc.devRef .tc main_arg10) = m ((c : Thread nD τ).loc main_arg10) :=
  X29_keep m c main_arg10 (by decide) (by decide) (by decide) (by decide) (by decide) (by decide) (by decide) (by decide) (by decide) (by decide) (by decide) (by decide) (by decide) (by decide) (by decide) (by decide) (by decide) (by decide) (by decide) (by decide) (by decide) (X2_of_ne m c _ (by decide)) (X4_of_ne m c _ (by decide)) (X10_of_ne m c _ (by decide)) (X12_of_ne m c _ (by decide)) (X18_of_ne m c _ (by decide)) (X20_of_ne m c _ (by decide)) (X26_of_ne m c _ (by decide)) (X28_of_ne m c _ (by decide))
theorem X29_arg11 (c : Dev nD) : X29 m c (Proc.devRef .tc main_arg11) = m ((c : Thread nD τ).loc main_arg11) :=
  X29_keep m c main_arg11 (by decide) (by decide) (by decide) (by decide) (by decide) (by decide) (by decide) (by decide) (by decide) (by decide) (by decide) (by decide) (by decide) (by decide) (by decide) (by decide) (by decide) (by decide) (by decide) (by decide) (by decide) (X2_of_ne m c _ (by decide)) (X4_of_ne m c _ (by decide)) (X10_of_ne m c _ (by decide)) (X12_of_ne m c _ (by decide)) (X18_of_ne m c _ (by decide)) (X20_of_ne m c _ (by decide)) (X26_of_ne m c _ (by decide)) (X28_of_ne m c _ (by decide))
theorem X29_arg12 (c : Dev nD) : X29 m c (Proc.devRef .tc main_arg12) = m ((c : Thread nD τ).loc main_arg12) :=
  X29_keep m c main_arg12 (by decide) (by decide) (by decide) (by decide) (by decide) (by decide) (by decide) (by decide) (by decide) (by decide) (by decide) (by decide) (by decide) (by decide) (by decide) (by decide) (by decide) (by decide) (by decide) (by decide) (by decide) (X2_of_ne m c _ (by decide)) (X4_of_ne m c _ (by decide)) (X10_of_ne m c _ (by decide)) (X12_of_ne m c _ (by decide)) (X18_of_ne m c _ (by decide)) (X20_of_ne m c _ (by decide)) (X26_of_ne m c _ (by decide)) (X28_of_ne m c _ (by decide))
theorem X29_arg13 (c : Dev nD) : X29 m c (Proc.devRef .tc main_arg13) = m ((c : Thread nD τ).loc main_arg13) :=
  X29_keep m c main_arg13 (by decide) (by decide) (by decide) (by decide) (by decide) (by decide) (by decide) (by decide) (by decide) (by decide) (by decide) (by decide) (by decide) (by decide) (by decide) (by decide) (by decide) (by decide) (by decide) (by decide) (by decide) (X2_of_ne m c _ (by decide)) (X4_of_ne m c _ (by decide)) (X10_of_ne m c _ (by decide)) (X12_of_ne m c _ (by decide)) (X18_of_ne m c _ (by decide)) (X20_of_ne m c _ (by decide)) (X26_of_ne m c _ (by decide)) (X28_of_ne m c _ (by decide))
theorem X29_arg14 (c : Dev nD) : X29 m c (Proc.devRef .tc main_arg14) = m ((c : Thread nD τ).loc main_arg14) :=
  X29_keep m c main_arg14 (by decide) (by decide) (by decide) (by decide) (by decide) (by decide) (by decide) (by decide) (by decide) (by decide) (by decide) (by decide) (by decide) (by decide) (by decide) (by decide) (by decide) (by decide) (by decide) (by decide) (by decide) (X2_of_ne m c _ (by decide)) (X4_of_ne m c _ (by decide)) (X10_of_ne m c _ (by decide)) (X12_of_ne m c _ (by decide)) (X18_of_ne m c _ (by decide)) (X20_of_ne m c _ (by decide)) (X26_of_ne m c _ (by decide)) (X28_of_ne m c _ (by decide))
theorem X29_arg15 (c : Dev nD) : X29 m c (Proc.devRef .tc main_arg15) = m ((c : Thread nD τ).loc main_arg15) :=
  X29_keep m c main_arg15 (by decide) (by decide) (by decide) (by decide) (by decide) (by decide) (by decide) (by decide) (by decide) (by decide) (by decide) (by decide) (by decide) (by decide) (by decide) (by decide) (by decide) (by decide) (by decide) (by decide) (by decide) (X2_of_ne m c _ (by decide)) (X4_of_ne m c _ (by decide)) (X10_of_ne m c _ (by decide)) (X12_of_ne m c _ (by decide)) (X18_of_ne m c _ (by decide)) (X20_of_ne m c _ (by decide)) (X26_of_ne m c _ (by decide)) (X28_of_ne m c _ (by decide))

/-- The edge-attribute array: window 1's array in regions 0, 2, 4 and 6, an input, so each leaves it as entered. -/
theorem X29_arg1 (c : Dev nD) : X29 m c (Proc.devRef .tc main_arg1) = m ((c : Thread nD τ).loc main_arg1) :=
  X29_keep m c main_arg1 (by decide) (by decide) (by decide) (by decide) (by decide) (by decide) (by decide) (by decide) (by decide) (by decide) (by decide) (by decide) (by decide) (by decide) (by decide) (by decide) (by decide) (by decide) (by decide) (by decide) (by decide)
    ((X2_arr m c 1).trans (((dat0 (XV1 m) c).arrAt_in 1 rfl _).trans (A_eq0 (XV1 m) c 1)))
    (X4_of_ne m c _ (by decide))
    ((X10_arr m c 1).trans (((dat2 (XV9 m) c).arrAt_in 1 rfl _).trans (A_eq2 (XV9 m) c 1)))
    (X12_of_ne m c _ (by decide))
    ((X18_arr m c 1).trans (((dat4 (XV17 m) c).arrAt_in 1 rfl _).trans (A_eq4 (XV17 m) c 1)))
    (X20_of_ne m c _ (by decide))
    ((X26_arr m c 1).trans (((dat6 (XV25 m) c).arrAt_in 1 rfl _).trans (A_eq6 (XV25 m) c 1)))
    (X28_of_ne m c _ (by decide))

/-- THE FRAME at any float instance: the program runs to the end from any memory with zero counters, faulting nowhere,
    and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c _ (mem_uc main_arg0 (by decide))).trans (X29_arg0 m c),
    (h c _ (mem_uc main_arg1 (by decide))).trans (X29_arg1 m c),
    (h c _ (mem_uc main_arg2 (by decide))).trans (X29_arg2 m c),
    (h c _ (mem_uc main_arg3 (by decide))).trans (X29_arg3 m c),
    (h c _ (mem_uc main_arg4 (by decide))).trans (X29_arg4 m c),
    (h c _ (mem_uc main_arg5 (by decide))).trans (X29_arg5 m c),
    (h c _ (mem_uc main_arg6 (by decide))).trans (X29_arg6 m c),
    (h c _ (mem_uc main_arg7 (by decide))).trans (X29_arg7 m c),
    (h c _ (mem_uc main_arg8 (by decide))).trans (X29_arg8 m c),
    (h c _ (mem_uc main_arg9 (by decide))).trans (X29_arg9 m c),
    (h c _ (mem_uc main_arg10 (by decide))).trans (X29_arg10 m c),
    (h c _ (mem_uc main_arg11 (by decide))).trans (X29_arg11 m c),
    (h c _ (mem_uc main_arg12 (by decide))).trans (X29_arg12 m c),
    (h c _ (mem_uc main_arg13 (by decide))).trans (X29_arg13 m c),
    (h c _ (mem_uc main_arg14 (by decide))).trans (X29_arg14 m c),
    (h c _ (mem_uc main_arg15 (by decide))).trans (X29_arg15 m c)⟩) (run m ρ)

end Cert.KernelIdeal.Fr

end
-- ==== Proof.KI.Keep.lean ====
/-
  The argument arrays at the boundaries where a host stretch or a region reads them: no host operation writes an
  argument and no region has one as an output array, so each boundary's contents hold every argument as launched.
-/
import proofs.«109328_j13039520711153_1_alg».proof.Proof.KI.Chain

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (c : Dev nD)

theorem keep2 (b : Ref sig .tc) (g1 : b ∉ (hostOps0_W : List (Ref sig .tc))) (e2 : X2 m c (Proc.devRef .tc b) = X1 m c (Proc.devRef .tc b)) :
    X2 m c (Proc.devRef .tc b) = m ((c : Thread nD τ).loc b) :=
  Eq.trans (e2) <| (StableHlo.after_of_writes_sub hostOps0 (X0 m c) hostOps0_writes g1 : X1 m c (Proc.devRef .tc b) = X0 m c (Proc.devRef .tc b))

theorem keep4 (b : Ref sig .tc) (g1 : b ∉ (hostOps0_W : List (Ref sig .tc))) (e2 : X2 m c (Proc.devRef .tc b) = X1 m c (Proc.devRef .tc b)) (g3 : b ∉ (hostOps1_W : List (Ref sig .tc))) (e4 : X4 m c (Proc.devRef .tc b) = X3 m c (Proc.devRef .tc b)) :
    X4 m c (Proc.devRef .tc b) = m ((c : Thread nD τ).loc b) :=
  Eq.trans (e4) <| Eq.trans (StableHlo.after_of_writes_sub hostOps1 (X2 m c) hostOps1_writes g3 : X3 m c (Proc.devRef .tc b) = X2 m c (Proc.devRef .tc b)) <| Eq.trans (e2) <| (StableHlo.after_of_writes_sub hostOps0 (X0 m c) hostOps0_writes g1 : X1 m c (Proc.devRef .tc b) = X0 m c (Proc.devRef .tc b))

theorem keep9 (b : Ref sig .tc) (g1 : b ∉ (hostOps0_W : List (Ref sig .tc))) (e2 : X2 m c (Proc.devRef .tc b) = X1 m c (Proc.devRef .tc b)) (g3 : b ∉ (hostOps1_W : List (Ref sig .tc))) (e4 : X4 m c (Proc.devRef .tc b) = X3 m c (Proc.devRef .tc b)) (g5 : b ∉ (hostOps2_W : List (Ref sig .tc))) (g6 : b ∉ (hostOps2_1_W : List (Ref sig .tc))) (g7 : b ∉ (hostOps2_2_W : List (Ref sig .tc))) (g8 : b ∉ (hostOps2_3_W : List (Ref sig .tc))) (g9 : b ∉ (hostOps2_4_W : List (Ref sig .tc))) :
    X9 m c (Proc.devRef .tc b) = m ((c : Thread nD τ).loc b) :=
  Eq.trans (StableHlo.after_of_writes_sub hostOps2_4 (X8 m c) hostOps2_4_writes g9 : X9 m c (Proc.devRef .tc b) = X8 m c (Proc.devRef .tc b)) <| Eq.trans (StableHlo.after_of_writes_sub hostOps2_3 (X7 m c) hostOps2_3_writes g8 : X8 m c (Proc.devRef .tc b) = X7 m c (Proc.devRef .tc b)) <| Eq.trans (StableHlo.after_of_writes_sub hostOps2_2 (X6 m c) hostOps2_2_writes g7 : X7 m c (Proc.devRef .tc b) = X6 m c (Proc.devRef .tc b)) <| Eq.trans (StableHlo.after_of_writes_sub hostOps2_1 (X5 m c) hostOps2_1_writes g6 : X6 m c (Proc.devRef .tc b) = X5 m c (Proc.devRef .tc b)) <| Eq.trans (StableHlo.after_of_writes_sub hostOps2 (X4 m c) hostOps2_writes g5 : X5 m c (Proc.devRef .tc b) = X4 m c (Proc.devRef .tc b)) <| Eq.trans (e4) <| Eq.trans (StableHlo.after_of_writes_sub hostOps1 (X2 m c) hostOps1_writes g3 : X3 m c (Proc.devRef .tc b) = X2 m c (Proc.devRef .tc b)) <| Eq.trans (e2) <| (StableHlo.after_of_writes_sub hostOps0 (X0 m c) hostOps0_writes g1 : X1 m c (Proc.devRef .tc b) = X0 m c (Proc.devRef .tc b))

theorem keep10 (b : Ref sig .tc) (g1 : b ∉ (hostOps0_W : List (Ref sig .tc))) (e2 : X2 m c (Proc.devRef .tc b) = X1 m c (Proc.devRef .tc b)) (g3 : b ∉ (hostOps1_W : List (Ref sig .tc))) (e4 : X4 m c (Proc.devRef .tc b) = X3 m c (Proc.devRef .tc b)) (g5 : b ∉ (hostOps2_W : List (Ref sig .tc))) (g6 : b ∉ (hostOps2_1_W : List (Ref sig .tc))) (g7 : b ∉ (hostOps2_2_W : List (Ref sig .tc))) (g8 : b ∉ (hostOps2_3_W : List (Ref sig .tc))) (g9 : b ∉ (hostOps2_4_W : List (Ref sig .tc))) (e10 : X10 m c (Proc.devRef .tc b) = X9 m c (Proc.devRef .tc b)) :
    X10 m c (Proc.devRef .tc b) = m ((c : Thread nD τ).loc b) :=
  Eq.trans (e10) <| Eq.trans (StableHlo.after_of_writes_sub hostOps2_4 (X8 m c) hostOps2_4_writes g9 : X9 m c (Proc.devRef .tc b) = X8 m c (Proc.devRef .tc b)) <| Eq.trans (StableHlo.after_of_writes_sub hostOps2_3 (X7 m c) hostOps2_3_writes g8 : X8 m c (Proc.devRef .tc b) = X7 m c (Proc.devRef .tc b)) <| Eq.trans (StableHlo.after_of_writes_sub hostOps2_2 (X6 m c) hostOps2_2_writes g7 : X7 m c (Proc.devRef .tc b) = X6 m c (Proc.devRef .tc b)) <| Eq.trans (StableHlo.after_of_writes_sub hostOps2_1 (X5 m c) hostOps2_1_writes g6 : X6 m c (Proc.devRef .tc b) = X5 m c (Proc.devRef .tc b)) <| Eq.trans (StableHlo.after_of_writes_sub hostOps2 (X4 m c) hostOps2_writes g5 : X5 m c (Proc.devRef .tc b) = X4 m c (Proc.devRef .tc b)) <| Eq.trans (e4) <| Eq.trans (StableHlo.after_of_writes_sub hostOps1 (X2 m c) hostOps1_writes g3 : X3 m c (Proc.devRef .tc b) = X2 m c (Proc.devRef .tc b)) <| Eq.trans (e2) <| (StableHlo.after_of_writes_sub hostOps0 (X0 m c) hostOps0_writes g1 : X1 m c (Proc.devRef .tc b) = X0 m c (Proc.devRef .tc b))

theorem keep12 (b : Ref sig .tc) (g1 : b ∉ (hostOps0_W : List (Ref sig .tc))) (e2 : X2 m c (Proc.devRef .tc b) = X1 m c (Proc.devRef .tc b)) (g3 : b ∉ (hostOps1_W : List (Ref sig .tc))) (e4 : X4 m c (Proc.devRef .tc b) = X3 m c (Proc.devRef .tc b)) (g5 : b ∉ (hostOps2_W : List (Ref sig .tc))) (g6 : b ∉ (hostOps2_1_W : List (Ref sig .tc))) (g7 : b ∉ (hostOps2_2_W : List (Ref sig .tc))) (g8 : b ∉ (hostOps2_3_W : List (Ref sig .tc))) (g9 : b ∉ (hostOps2_4_W : List (Ref sig .tc))) (e10 : X10 m c (Proc.devRef .tc b) = X9 m c (Proc.devRef .tc b)) (g11 : b ∉ (hostOps3_W : List (Ref sig .tc))) (e12 : X12 m c (Proc.devRef .tc b) = X11 m c (Proc.devRef .tc b)) :
    X12 m c (Proc.devRef .tc b) = m ((c : Thread nD τ).loc b) :=
  Eq.trans (e12) <| Eq.trans (StableHlo.after_of_writes_sub hostOps3 (X10 m c) hostOps3_writes g11 : X11 m c (Proc.devRef .tc b) = X10 m c (Proc.devRef .tc b)) <| Eq.trans (e10) <| Eq.trans (StableHlo.after_of_writes_sub hostOps2_4 (X8 m c) hostOps2_4_writes g9 : X9 m c (Proc.devRef .tc b) = X8 m c (Proc.devRef .tc b)) <| Eq.trans (StableHlo.after_of_writes_sub hostOps2_3 (X7 m c) hostOps2_3_writes g8 : X8 m c (Proc.devRef .tc b) = X7 m c (Proc.devRef .tc b)) <| Eq.trans (StableHlo.after_of_writes_sub hostOps2_2 (X6 m c) hostOps2_2_writes g7 : X7 m c (Proc.devRef .tc b) = X6 m c (Proc.devRef .tc b)) <| Eq.trans (StableHlo.after_of_writes_sub hostOps2_1 (X5 m c) hostOps2_1_writes g6 : X6 m c (Proc.devRef .tc b) = X5 m c (Proc.devRef .tc b)) <| Eq.trans (StableHlo.after_of_writes_sub hostOps2 (X4 m c) hostOps2_writes g5 : X5 m c (Proc.devRef .tc b) = X4 m c (Proc.devRef .tc b)) <| Eq.trans (e4) <| Eq.trans (StableHlo.after_of_writes_sub hostOps1 (X2 m c) hostOps1_writes g3 : X3 m c (Proc.devRef .tc b) = X2 m c (Proc.devRef .tc b)) <| Eq.trans (e2) <| (StableHlo.after_of_writes_sub hostOps0 (X0 m c) hostOps0_writes g1 : X1 m c (Proc.devRef .tc b) = X0 m c (Proc.devRef .tc b))

theorem keep17 (b : Ref sig .tc) (g1 : b ∉ (hostOps0_W : List (Ref sig .tc))) (e2 : X2 m c (Proc.devRef .tc b) = X1 m c (Proc.devRef .tc b)) (g3 : b ∉ (hostOps1_W : List (Ref sig .tc))) (e4 : X4 m c (Proc.devRef .tc b) = X3 m c (Proc.devRef .tc b)) (g5 : b ∉ (hostOps2_W : List (Ref sig .tc))) (g6 : b ∉ (hostOps2_1_W : List (Ref sig .tc))) (g7 : b ∉ (hostOps2_2_W : List (Ref sig .tc))) (g8 : b ∉ (hostOps2_3_W : List (Ref sig .tc))) (g9 : b ∉ (hostOps2_4_W : List (Ref sig .tc))) (e10 : X10 m c (Proc.devRef .tc b) = X9 m c (Proc.devRef .tc b)) (g11 : b ∉ (hostOps3_W : List (Ref sig .tc))) (e12 : X12 m c (Proc.devRef .tc b) = X11 m c (Proc.devRef .tc b)) (g13 : b ∉ (hostOps4_W : List (Ref sig .tc))) (g14 : b ∉ (hostOps4_1_W : List (Ref sig .tc))) (g15 : b ∉ (hostOps4_2_W : List (Ref sig .tc))) (g16 : b ∉ (hostOps4_3_W : List (Ref sig .tc))) (g17 : b ∉ (hostOps4_4_W : List (Ref sig .tc))) :
    X17 m c (Proc.devRef .tc b) = m ((c : Thread nD τ).loc b) :=
  Eq.trans (StableHlo.after_of_writes_sub hostOps4_4 (X16 m c) hostOps4_4_writes g17 : X17 m c (Proc.devRef .tc b) = X16 m c (Proc.devRef .tc b)) <| Eq.trans (StableHlo.after_of_writes_sub hostOps4_3 (X15 m c) hostOps4_3_writes g16 : X16 m c (Proc.devRef .tc b) = X15 m c (Proc.devRef .tc b)) <| Eq.trans (StableHlo.after_of_writes_sub hostOps4_2 (X14 m c) hostOps4_2_writes g15 : X15 m c (Proc.devRef .tc b) = X14 m c (Proc.devRef .tc b)) <| Eq.trans (StableHlo.after_of_writes_sub hostOps4_1 (X13 m c) hostOps4_1_writes g14 : X14 m c (Proc.devRef .tc b) = X13 m c (Proc.devRef .tc b)) <| Eq.trans (StableHlo.after_of_writes_sub hostOps4 (X12 m c) hostOps4_writes g13 : X13 m c (Proc.devRef .tc b) = X12 m c (Proc.devRef .tc b)) <| Eq.trans (e12) <| Eq.trans (StableHlo.after_of_writes_sub hostOps3 (X10 m c) hostOps3_writes g11 : X11 m c (Proc.devRef .tc b) = X10 m c (Proc.devRef .tc b)) <| Eq.trans (e10) <| Eq.trans (StableHlo.after_of_writes_sub hostOps2_4 (X8 m c) hostOps2_4_writes g9 : X9 m c (Proc.devRef .tc b) = X8 m c (Proc.devRef .tc b)) <| Eq.trans (StableHlo.after_of_writes_sub hostOps2_3 (X7 m c) hostOps2_3_writes g8 : X8 m c (Proc.devRef .tc b) = X7 m c (Proc.devRef .tc b)) <| Eq.trans (StableHlo.after_of_writes_sub hostOps2_2 (X6 m c) hostOps2_2_writes g7 : X7 m c (Proc.devRef .tc b) = X6 m c (Proc.devRef .tc b)) <| Eq.trans (StableHlo.after_of_writes_sub hostOps2_1 (X5 m c) hostOps2_1_writes g6 : X6 m c (Proc.devRef .tc b) = X5 m c (Proc.devRef .tc b)) <| Eq.trans (StableHlo.after_of_writes_sub hostOps2 (X4 m c) hostOps2_writes g5 : X5 m c (Proc.devRef .tc b) = X4 m c (Proc.devRef .tc b)) <| Eq.trans (e4) <| Eq.trans (StableHlo.after_of_writes_sub hostOps1 (X2 m c) hostOps1_writes g3 : X3 m c (Proc.devRef .tc b) = X2 m c (Proc.devRef .tc b)) <| Eq.trans (e2) <| (StableHlo.after_of_writes_sub hostOps0 (X0 m c) hostOps0_writes g1 : X1 m c (Proc.devRef .tc b) = X0 m c (Proc.devRef .tc b))

theorem keep18 (b : Ref sig .tc) (g1 : b ∉ (hostOps0_W : List (Ref sig .tc))) (e2 : X2 m c (Proc.devRef .tc b) = X1 m c (Proc.devRef .tc b)) (g3 : b ∉ (hostOps1_W : List (Ref sig .tc))) (e4 : X4 m c (Proc.devRef .tc b) = X3 m c (Proc.devRef .tc b)) (g5 : b ∉ (hostOps2_W : List (Ref sig .tc))) (g6 : b ∉ (hostOps2_1_W : List (Ref sig .tc))) (g7 : b ∉ (hostOps2_2_W : List (Ref sig .tc))) (g8 : b ∉ (hostOps2_3_W : List (Ref sig .tc))) (g9 : b ∉ (hostOps2_4_W : List (Ref sig .tc))) (e10 : X10 m c (Proc.devRef .tc b) = X9 m c (Proc.devRef .tc b)) (g11 : b ∉ (hostOps3_W : List (Ref sig .tc))) (e12 : X12 m c (Proc.devRef .tc b) = X11 m c (Proc.devRef .tc b)) (g13 : b ∉ (hostOps4_W : List (Ref sig .tc))) (g14 : b ∉ (hostOps4_1_W : List (Ref sig .tc))) (g15 : b ∉ (hostOps4_2_W : List (Ref sig .tc))) (g16 : b ∉ (hostOps4_3_W : List (Ref sig .tc))) (g17 : b ∉ (hostOps4_4_W : List (Ref sig .tc))) (e18 : X18 m c (Proc.devRef .tc b) = X17 m c (Proc.devRef .tc b)) :
    X18 m c (Proc.devRef .tc b) = m ((c : Thread nD τ).loc b) :=
  Eq.trans (e18) <| Eq.trans (StableHlo.after_of_writes_sub hostOps4_4 (X16 m c) hostOps4_4_writes g17 : X17 m c (Proc.devRef .tc b) = X16 m c (Proc.devRef .tc b)) <| Eq.trans (StableHlo.after_of_writes_sub hostOps4_3 (X15 m c) hostOps4_3_writes g16 : X16 m c (Proc.devRef .tc b) = X15 m c (Proc.devRef .tc b)) <| Eq.trans (StableHlo.after_of_writes_sub hostOps4_2 (X14 m c) hostOps4_2_writes g15 : X15 m c (Proc.devRef .tc b) = X14 m c (Proc.devRef .tc b)) <| Eq.trans (StableHlo.after_of_writes_sub hostOps4_1 (X13 m c) hostOps4_1_writes g14 : X14 m c (Proc.devRef .tc b) = X13 m c (Proc.devRef .tc b)) <| Eq.trans (StableHlo.after_of_writes_sub hostOps4 (X12 m c) hostOps4_writes g13 : X13 m c (Proc.devRef .tc b) = X12 m c (Proc.devRef .tc b)) <| Eq.trans (e12) <| Eq.trans (StableHlo.after_of_writes_sub hostOps3 (X10 m c) hostOps3_writes g11 : X11 m c (Proc.devRef .tc b) = X10 m c (Proc.devRef .tc b)) <| Eq.trans (e10) <| Eq.trans (StableHlo.after_of_writes_sub hostOps2_4 (X8 m c) hostOps2_4_writes g9 : X9 m c (Proc.devRef .tc b) = X8 m c (Proc.devRef .tc b)) <| Eq.trans (StableHlo.after_of_writes_sub hostOps2_3 (X7 m c) hostOps2_3_writes g8 : X8 m c (Proc.devRef .tc b) = X7 m c (Proc.devRef .tc b)) <| Eq.trans (StableHlo.after_of_writes_sub hostOps2_2 (X6 m c) hostOps2_2_writes g7 : X7 m c (Proc.devRef .tc b) = X6 m c (Proc.devRef .tc b)) <| Eq.trans (StableHlo.after_of_writes_sub hostOps2_1 (X5 m c) hostOps2_1_writes g6 : X6 m c (Proc.devRef .tc b) = X5 m c (Proc.devRef .tc b)) <| Eq.trans (StableHlo.after_of_writes_sub hostOps2 (X4 m c) hostOps2_writes g5 : X5 m c (Proc.devRef .tc b) = X4 m c (Proc.devRef .tc b)) <| Eq.trans (e4) <| Eq.trans (StableHlo.after_of_writes_sub hostOps1 (X2 m c) hostOps1_writes g3 : X3 m c (Proc.devRef .tc b) = X2 m c (Proc.devRef .tc b)) <| Eq.trans (e2) <| (StableHlo.after_of_writes_sub hostOps0 (X0 m c) hostOps0_writes g1 : X1 m c (Proc.devRef .tc b) = X0 m c (Proc.devRef .tc b))

theorem keep20 (b : Ref sig .tc) (g1 : b ∉ (hostOps0_W : List (Ref sig .tc))) (e2 : X2 m c (Proc.devRef .tc b) = X1 m c (Proc.devRef .tc b)) (g3 : b ∉ (hostOps1_W : List (Ref sig .tc))) (e4 : X4 m c (Proc.devRef .tc b) = X3 m c (Proc.devRef .tc b)) (g5 : b ∉ (hostOps2_W : List (Ref sig .tc))) (g6 : b ∉ (hostOps2_1_W : List (Ref sig .tc))) (g7 : b ∉ (hostOps2_2_W : List (Ref sig .tc))) (g8 : b ∉ (hostOps2_3_W : List (Ref sig .tc))) (g9 : b ∉ (hostOps2_4_W : List (Ref sig .tc))) (e10 : X10 m c (Proc.devRef .tc b) = X9 m c (Proc.devRef .tc b)) (g11 : b ∉ (hostOps3_W : List (Ref sig .tc))) (e12 : X12 m c (Proc.devRef .tc b) = X11 m c (Proc.devRef .tc b)) (g13 : b ∉ (hostOps4_W : List (Ref sig .tc))) (g14 : b ∉ (hostOps4_1_W : List (Ref sig .tc))) (g15 : b ∉ (hostOps4_2_W : List (Ref sig .tc))) (g16 : b ∉ (hostOps4_3_W : List (Ref sig .tc))) (g17 : b ∉ (hostOps4_4_W : List (Ref sig .tc))) (e18 : X18 m c (Proc.devRef .tc b) = X17 m c (Proc.devRef .tc b)) (g19 : b ∉ (hostOps5_W : List (Ref sig .tc))) (e20 : X20 m c (Proc.devRef .tc b) = X19 m c (Proc.devRef .tc b)) :
    X20 m c (Proc.devRef .tc b) = m ((c : Thread nD τ).loc b) :=
  Eq.trans (e20) <| Eq.trans (StableHlo.after_of_writes_sub hostOps5 (X18 m c) hostOps5_writes g19 : X19 m c (Proc.devRef .tc b) = X18 m c (Proc.devRef .tc b)) <| Eq.trans (e18) <| Eq.trans (StableHlo.after_of_writes_sub hostOps4_4 (X16 m c) hostOps4_4_writes g17 : X17 m c (Proc.devRef .tc b) = X16 m c (Proc.devRef .tc b)) <| Eq.trans (StableHlo.after_of_writes_sub hostOps4_3 (X15 m c) hostOps4_3_writes g16 : X16 m c (Proc.devRef .tc b) = X15 m c (Proc.devRef .tc b)) <| Eq.trans (StableHlo.after_of_writes_sub hostOps4_2 (X14 m c) hostOps4_2_writes g15 : X15 m c (Proc.devRef .tc b) = X14 m c (Proc.devRef .tc b)) <| Eq.trans (StableHlo.after_of_writes_sub hostOps4_1 (X13 m c) hostOps4_1_writes g14 : X14 m c (Proc.devRef .tc b) = X13 m c (Proc.devRef .tc b)) <| Eq.trans (StableHlo.after_of_writes_sub hostOps4 (X12 m c) hostOps4_writes g13 : X13 m c (Proc.devRef .tc b) = X12 m c (Proc.devRef .tc b)) <| Eq.trans (e12) <| Eq.trans (StableHlo.after_of_writes_sub hostOps3 (X10 m c) hostOps3_writes g11 : X11 m c (Proc.devRef .tc b) = X10 m c (Proc.devRef .tc b)) <| Eq.trans (e10) <| Eq.trans (StableHlo.after_of_writes_sub hostOps2_4 (X8 m c) hostOps2_4_writes g9 : X9 m c (Proc.devRef .tc b) = X8 m c (Proc.devRef .tc b)) <| Eq.trans (StableHlo.after_of_writes_sub hostOps2_3 (X7 m c) hostOps2_3_writes g8 : X8 m c (Proc.devRef .tc b) = X7 m c (Proc.devRef .tc b)) <| Eq.trans (StableHlo.after_of_writes_sub hostOps2_2 (X6 m c) hostOps2_2_writes g7 : X7 m c (Proc.devRef .tc b) = X6 m c (Proc.devRef .tc b)) <| Eq.trans (StableHlo.after_of_writes_sub hostOps2_1 (X5 m c) hostOps2_1_writes g6 : X6 m c (Proc.devRef .tc b) = X5 m c (Proc.devRef .tc b)) <| Eq.trans (StableHlo.after_of_writes_sub hostOps2 (X4 m c) hostOps2_writes g5 : X5 m c (Proc.devRef .tc b) = X4 m c (Proc.devRef .tc b)) <| Eq.trans (e4) <| Eq.trans (StableHlo.after_of_writes_sub hostOps1 (X2 m c) hostOps1_writes g3 : X3 m c (Proc.devRef .tc b) = X2 m c (Proc.devRef .tc b)) <| Eq.trans (e2) <| (StableHlo.after_of_writes_sub hostOps0 (X0 m c) hostOps0_writes g1 : X1 m c (Proc.devRef .tc b) = X0 m c (Proc.devRef .tc b))

theorem keep25 (b : Ref sig .tc) (g1 : b ∉ (hostOps0_W : List (Ref sig .tc))) (e2 : X2 m c (Proc.devRef .tc b) = X1 m c (Proc.devRef .tc b)) (g3 : b ∉ (hostOps1_W : List (Ref sig .tc))) (e4 : X4 m c (Proc.devRef .tc b) = X3 m c (Proc.devRef .tc b)) (g5 : b ∉ (hostOps2_W : List (Ref sig .tc))) (g6 : b ∉ (hostOps2_1_W : List (Ref sig .tc))) (g7 : b ∉ (hostOps2_2_W : List (Ref sig .tc))) (g8 : b ∉ (hostOps2_3_W : List (Ref sig .tc))) (g9 : b ∉ (hostOps2_4_W : List (Ref sig .tc))) (e10 : X10 m c (Proc.devRef .tc b) = X9 m c (Proc.devRef .tc b)) (g11 : b ∉ (hostOps3_W : List (Ref sig .tc))) (e12 : X12 m c (Proc.devRef .tc b) = X11 m c (Proc.devRef .tc b)) (g13 : b ∉ (hostOps4_W : List (Ref sig .tc))) (g14 : b ∉ (hostOps4_1_W : List (Ref sig .tc))) (g15 : b ∉ (hostOps4_2_W : List (Ref sig .tc))) (g16 : b ∉ (hostOps4_3_W : List (Ref sig .tc))) (g17 : b ∉ (hostOps4_4_W : List (Ref sig .tc))) (e18 : X18 m c (Proc.devRef .tc b) = X17 m c (Proc.devRef .tc b)) (g19 : b ∉ (hostOps5_W : List (Ref sig .tc))) (e20 : X20 m c (Proc.devRef .tc b) = X19 m c (Proc.devRef .tc b)) (g21 : b ∉ (hostOps6_W : List (Ref sig .tc))) (g22 : b ∉ (hostOps6_1_W : List (Ref sig .tc))) (g23 : b ∉ (hostOps6_2_W : List (Ref sig .tc))) (g24 : b ∉ (hostOps6_3_W : List (Ref sig .tc))) (g25 : b ∉ (hostOps6_4_W : List (Ref sig .tc))) :
    X25 m c (Proc.devRef .tc b) = m ((c : Thread nD τ).loc b) :=
  Eq.trans (StableHlo.after_of_writes_sub hostOps6_4 (X24 m c) hostOps6_4_writes g25 : X25 m c (Proc.devRef .tc b) = X24 m c (Proc.devRef .tc b)) <| Eq.trans (StableHlo.after_of_writes_sub hostOps6_3 (X23 m c) hostOps6_3_writes g24 : X24 m c (Proc.devRef .tc b) = X23 m c (Proc.devRef .tc b)) <| Eq.trans (StableHlo.after_of_writes_sub hostOps6_2 (X22 m c) hostOps6_2_writes g23 : X23 m c (Proc.devRef .tc b) = X22 m c (Proc.devRef .tc b)) <| Eq.trans (StableHlo.after_of_writes_sub hostOps6_1 (X21 m c) hostOps6_1_writes g22 : X22 m c (Proc.devRef .tc b) = X21 m c (Proc.devRef .tc b)) <| Eq.trans (StableHlo.after_of_writes_sub hostOps6 (X20 m c) hostOps6_writes g21 : X21 m c (Proc.devRef .tc b) = X20 m c (Proc.devRef .tc b)) <| Eq.trans (e20) <| Eq.trans (StableHlo.after_of_writes_sub hostOps5 (X18 m c) hostOps5_writes g19 : X19 m c (Proc.devRef .tc b) = X18 m c (Proc.devRef .tc b)) <| Eq.trans (e18) <| Eq.trans (StableHlo.after_of_writes_sub hostOps4_4 (X16 m c) hostOps4_4_writes g17 : X17 m c (Proc.devRef .tc b) = X16 m c (Proc.devRef .tc b)) <| Eq.trans (StableHlo.after_of_writes_sub hostOps4_3 (X15 m c) hostOps4_3_writes g16 : X16 m c (Proc.devRef .tc b) = X15 m c (Proc.devRef .tc b)) <| Eq.trans (StableHlo.after_of_writes_sub hostOps4_2 (X14 m c) hostOps4_2_writes g15 : X15 m c (Proc.devRef .tc b) = X14 m c (Proc.devRef .tc b)) <| Eq.trans (StableHlo.after_of_writes_sub hostOps4_1 (X13 m c) hostOps4_1_writes g14 : X14 m c (Proc.devRef .tc b) = X13 m c (Proc.devRef .tc b)) <| Eq.trans (StableHlo.after_of_writes_sub hostOps4 (X12 m c) hostOps4_writes g13 : X13 m c (Proc.devRef .tc b) = X12 m c (Proc.devRef .tc b)) <| Eq.trans (e12) <| Eq.trans (StableHlo.after_of_writes_sub hostOps3 (X10 m c) hostOps3_writes g11 : X11 m c (Proc.devRef .tc b) = X10 m c (Proc.devRef .tc b)) <| Eq.trans (e10) <| Eq.trans (StableHlo.after_of_writes_sub hostOps2_4 (X8 m c) hostOps2_4_writes g9 : X9 m c (Proc.devRef .tc b) = X8 m c (Proc.devRef .tc b)) <| Eq.trans (StableHlo.after_of_writes_sub hostOps2_3 (X7 m c) hostOps2_3_writes g8 : X8 m c (Proc.devRef .tc b) = X7 m c (Proc.devRef .tc b)) <| Eq.trans (StableHlo.after_of_writes_sub hostOps2_2 (X6 m c) hostOps2_2_writes g7 : X7 m c (Proc.devRef .tc b) = X6 m c (Proc.devRef .tc b)) <| Eq.trans (StableHlo.after_of_writes_sub hostOps2_1 (X5 m c) hostOps2_1_writes g6 : X6 m c (Proc.devRef .tc b) = X5 m c (Proc.devRef .tc b)) <| Eq.trans (StableHlo.after_of_writes_sub hostOps2 (X4 m c) hostOps2_writes g5 : X5 m c (Proc.devRef .tc b) = X4 m c (Proc.devRef .tc b)) <| Eq.trans (e4) <| Eq.trans (StableHlo.after_of_writes_sub hostOps1 (X2 m c) hostOps1_writes g3 : X3 m c (Proc.devRef .tc b) = X2 m c (Proc.devRef .tc b)) <| Eq.trans (e2) <| (StableHlo.after_of_writes_sub hostOps0 (X0 m c) hostOps0_writes g1 : X1 m c (Proc.devRef .tc b) = X0 m c (Proc.devRef .tc b))

theorem keep26 (b : Ref sig .tc) (g1 : b ∉ (hostOps0_W : List (Ref sig .tc))) (e2 : X2 m c (Proc.devRef .tc b) = X1 m c (Proc.devRef .tc b)) (g3 : b ∉ (hostOps1_W : List (Ref sig .tc))) (e4 : X4 m c (Proc.devRef .tc b) = X3 m c (Proc.devRef .tc b)) (g5 : b ∉ (hostOps2_W : List (Ref sig .tc))) (g6 : b ∉ (hostOps2_1_W : List (Ref sig .tc))) (g7 : b ∉ (hostOps2_2_W : List (Ref sig .tc))) (g8 : b ∉ (hostOps2_3_W : List (Ref sig .tc))) (g9 : b ∉ (hostOps2_4_W : List (Ref sig .tc))) (e10 : X10 m c (Proc.devRef .tc b) = X9 m c (Proc.devRef .tc b)) (g11 : b ∉ (hostOps3_W : List (Ref sig .tc))) (e12 : X12 m c (Proc.devRef .tc b) = X11 m c (Proc.devRef .tc b)) (g13 : b ∉ (hostOps4_W : List (Ref sig .tc))) (g14 : b ∉ (hostOps4_1_W : List (Ref sig .tc))) (g15 : b ∉ (hostOps4_2_W : List (Ref sig .tc))) (g16 : b ∉ (hostOps4_3_W : List (Ref sig .tc))) (g17 : b ∉ (hostOps4_4_W : List (Ref sig .tc))) (e18 : X18 m c (Proc.devRef .tc b) = X17 m c (Proc.devRef .tc b)) (g19 : b ∉ (hostOps5_W : List (Ref sig .tc))) (e20 : X20 m c (Proc.devRef .tc b) = X19 m c (Proc.devRef .tc b)) (g21 : b ∉ (hostOps6_W : List (Ref sig .tc))) (g22 : b ∉ (hostOps6_1_W : List (Ref sig .tc))) (g23 : b ∉ (hostOps6_2_W : List (Ref sig .tc))) (g24 : b ∉ (hostOps6_3_W : List (Ref sig .tc))) (g25 : b ∉ (hostOps6_4_W : List (Ref sig .tc))) (e26 : X26 m c (Proc.devRef .tc b) = X25 m c (Proc.devRef .tc b)) :
    X26 m c (Proc.devRef .tc b) = m ((c : Thread nD τ).loc b) :=
  Eq.trans (e26) <| Eq.trans (StableHlo.after_of_writes_sub hostOps6_4 (X24 m c) hostOps6_4_writes g25 : X25 m c (Proc.devRef .tc b) = X24 m c (Proc.devRef .tc b)) <| Eq.trans (StableHlo.after_of_writes_sub hostOps6_3 (X23 m c) hostOps6_3_writes g24 : X24 m c (Proc.devRef .tc b) = X23 m c (Proc.devRef .tc b)) <| Eq.trans (StableHlo.after_of_writes_sub hostOps6_2 (X22 m c) hostOps6_2_writes g23 : X23 m c (Proc.devRef .tc b) = X22 m c (Proc.devRef .tc b)) <| Eq.trans (StableHlo.after_of_writes_sub hostOps6_1 (X21 m c) hostOps6_1_writes g22 : X22 m c (Proc.devRef .tc b) = X21 m c (Proc.devRef .tc b)) <| Eq.trans (StableHlo.after_of_writes_sub hostOps6 (X20 m c) hostOps6_writes g21 : X21 m c (Proc.devRef .tc b) = X20 m c (Proc.devRef .tc b)) <| Eq.trans (e20) <| Eq.trans (StableHlo.after_of_writes_sub hostOps5 (X18 m c) hostOps5_writes g19 : X19 m c (Proc.devRef .tc b) = X18 m c (Proc.devRef .tc b)) <| Eq.trans (e18) <| Eq.trans (StableHlo.after_of_writes_sub hostOps4_4 (X16 m c) hostOps4_4_writes g17 : X17 m c (Proc.devRef .tc b) = X16 m c (Proc.devRef .tc b)) <| Eq.trans (StableHlo.after_of_writes_sub hostOps4_3 (X15 m c) hostOps4_3_writes g16 : X16 m c (Proc.devRef .tc b) = X15 m c (Proc.devRef .tc b)) <| Eq.trans (StableHlo.after_of_writes_sub hostOps4_2 (X14 m c) hostOps4_2_writes g15 : X15 m c (Proc.devRef .tc b) = X14 m c (Proc.devRef .tc b)) <| Eq.trans (StableHlo.after_of_writes_sub hostOps4_1 (X13 m c) hostOps4_1_writes g14 : X14 m c (Proc.devRef .tc b) = X13 m c (Proc.devRef .tc b)) <| Eq.trans (StableHlo.after_of_writes_sub hostOps4 (X12 m c) hostOps4_writes g13 : X13 m c (Proc.devRef .tc b) = X12 m c (Proc.devRef .tc b)) <| Eq.trans (e12) <| Eq.trans (StableHlo.after_of_writes_sub hostOps3 (X10 m c) hostOps3_writes g11 : X11 m c (Proc.devRef .tc b) = X10 m c (Proc.devRef .tc b)) <| Eq.trans (e10) <| Eq.trans (StableHlo.after_of_writes_sub hostOps2_4 (X8 m c) hostOps2_4_writes g9 : X9 m c (Proc.devRef .tc b) = X8 m c (Proc.devRef .tc b)) <| Eq.trans (StableHlo.after_of_writes_sub hostOps2_3 (X7 m c) hostOps2_3_writes g8 : X8 m c (Proc.devRef .tc b) = X7 m c (Proc.devRef .tc b)) <| Eq.trans (StableHlo.after_of_writes_sub hostOps2_2 (X6 m c) hostOps2_2_writes g7 : X7 m c (Proc.devRef .tc b) = X6 m c (Proc.devRef .tc b)) <| Eq.trans (StableHlo.after_of_writes_sub hostOps2_1 (X5 m c) hostOps2_1_writes g6 : X6 m c (Proc.devRef .tc b) = X5 m c (Proc.devRef .tc b)) <| Eq.trans (StableHlo.after_of_writes_sub hostOps2 (X4 m c) hostOps2_writes g5 : X5 m c (Proc.devRef .tc b) = X4 m c (Proc.devRef .tc b)) <| Eq.trans (e4) <| Eq.trans (StableHlo.after_of_writes_sub hostOps1 (X2 m c) hostOps1_writes g3 : X3 m c (Proc.devRef .tc b) = X2 m c (Proc.devRef .tc b)) <| Eq.trans (e2) <| (StableHlo.after_of_writes_sub hostOps0 (X0 m c) hostOps0_writes g1 : X1 m c (Proc.devRef .tc b) = X0 m c (Proc.devRef .tc b))

/-- The argument arrays other than the edge attributes (which are an input array of the four edge regions). -/
abbrev argsNo1 : List (Ref sig .tc) := [main_arg0, main_arg2, main_arg3, main_arg4, main_arg5, main_arg6, main_arg7, main_arg8, main_arg9, main_arg10, main_arg11, main_arg12, main_arg13, main_arg14, main_arg15]

/-- Every argument array but the edge attributes is as launched at boundary 2. -/
theorem args2 (b : Ref sig .tc) (hb : b ∈ (argsNo1 : List (Ref sig .tc))) : X2 m c (Proc.devRef .tc b) = m ((c : Thread nD τ).loc b) := by
  simp only [argsNo1, List.mem_cons, List.not_mem_nil, or_false] at hb
  rcases hb with rfl | rfl | rfl | rfl | rfl | rfl | rfl | rfl | rfl | rfl | rfl | rfl | rfl | rfl | rfl <;>
    exact keep2 m c _ (by decide) (X2_of_ne m c _ (by decide))

/-- Every argument array but the edge attributes is as launched at boundary 4. -/
theorem args4 (b : Ref sig .tc) (hb : b ∈ (argsNo1 : List (Ref sig .tc))) : X4 m c (Proc.devRef .tc b) = m ((c : Thread nD τ).loc b) := by
  simp only [argsNo1, List.mem_cons, List.not_mem_nil, or_false] at hb
  rcases hb with rfl | rfl | rfl | rfl | rfl | rfl | rfl | rfl | rfl | rfl | rfl | rfl | rfl | rfl | rfl <;>
    exact keep4 m c _ (by decide) (X2_of_ne m c _ (by decide)) (by decide) (X4_of_ne m c _ (by decide))

/-- Every argument array but the edge attributes is as launched at boundary 9. -/
theorem args9 (b : Ref sig .tc) (hb : b ∈ (argsNo1 : List (Ref sig .tc))) : X9 m c (Proc.devRef .tc b) = m ((c : Thread nD τ).loc b) := by
  simp only [argsNo1, List.mem_cons, List.not_mem_nil, or_false] at hb
  rcases hb with rfl | rfl | rfl | rfl | rfl | rfl | rfl | rfl | rfl | rfl | rfl | rfl | rfl | rfl | rfl <;>
    exact keep9 m c _ (by decide) (X2_of_ne m c _ (by decide)) (by decide) (X4_of_ne m c _ (by decide)) (by decide) (by decide) (by decide) (by decide) (by decide)

/-- Every argument array but the edge attributes is as launched at boundary 10. -/
theorem args10 (b : Ref sig .tc) (hb : b ∈ (argsNo1 : List (Ref sig .tc))) : X10 m c (Proc.devRef .tc b) = m ((c : Thread nD τ).loc b) := by
  simp only [argsNo1, List.mem_cons, List.not_mem_nil, or_false] at hb
  rcases hb with rfl | rfl | rfl | rfl | rfl | rfl | rfl | rfl | rfl | rfl | rfl | rfl | rfl | rfl | rfl <;>
    exact keep10 m c _ (by decide) (X2_of_ne m c _ (by decide)) (by decide) (X4_of_ne m c _ (by decide)) (by decide) (by decide) (by decide) (by decide) (by decide) (X10_of_ne m c _ (by decide))

/-- Every argument array but the edge attributes is as launched at boundary 12. -/
theorem args12 (b : Ref sig .tc) (hb : b ∈ (argsNo1 : List (Ref sig .tc))) : X12 m c (Proc.devRef .tc b) = m ((c : Thread nD τ).loc b) := by
  simp only [argsNo1, List.mem_cons, List.not_mem_nil, or_false] at hb
  rcases hb with rfl | rfl | rfl | rfl | rfl | rfl | rfl | rfl | rfl | rfl | rfl | rfl | rfl | rfl | rfl <;>
    exact keep12 m c _ (by decide) (X2_of_ne m c _ (by decide)) (by decide) (X4_of_ne m c _ (by decide)) (by decide) (by decide) (by decide) (by decide) (by decide) (X10_of_ne m c _ (by decide)) (by decide) (X12_of_ne m c _ (by decide))

/-- Every argument array but the edge attributes is as launched at boundary 17. -/
theorem args17 (b : Ref sig .tc) (hb : b ∈ (argsNo1 : List (Ref sig .tc))) : X17 m c (Proc.devRef .tc b) = m ((c : Thread nD τ).loc b) := by
  simp only [argsNo1, List.mem_cons, List.not_mem_nil, or_false] at hb
  rcases hb with rfl | rfl | rfl | rfl | rfl | rfl | rfl | rfl | rfl | rfl | rfl | rfl | rfl | rfl | rfl <;>
    exact keep17 m c _ (by decide) (X2_of_ne m c _ (by decide)) (by decide) (X4_of_ne m c _ (by decide)) (by decide) (by decide) (by decide) (by decide) (by decide) (X10_of_ne m c _ (by decide)) (by decide) (X12_of_ne m c _ (by decide)) (by decide) (by decide) (by decide) (by decide) (by decide)

/-- Every argument array but the edge attributes is as launched at boundary 18. -/
theorem args18 (b : Ref sig .tc) (hb : b ∈ (argsNo1 : List (Ref sig .tc))) : X18 m c (Proc.devRef .tc b) = m ((c : Thread nD τ).loc b) := by
  simp only [argsNo1, List.mem_cons, List.not_mem_nil, or_false] at hb
  rcases hb with rfl | rfl | rfl | rfl | rfl | rfl | rfl | rfl | rfl | rfl | rfl | rfl | rfl | rfl | rfl <;>
    exact keep18 m c _ (by decide) (X2_of_ne m c _ (by decide)) (by decide) (X4_of_ne m c _ (by decide)) (by decide) (by decide) (by decide) (by decide) (by decide) (X10_of_ne m c _ (by decide)) (by decide) (X12_of_ne m c _ (by decide)) (by decide) (by decide) (by decide) (by decide) (by decide) (X18_of_ne m c _ (by decide))

/-- Every argument array but the edge attributes is as launched at boundary 20. -/
theorem args20 (b : Ref sig .tc) (hb : b ∈ (argsNo1 : List (Ref sig .tc))) : X20 m c (Proc.devRef .tc b) = m ((c : Thread nD τ).loc b) := by
  simp only [argsNo1, List.mem_cons, List.not_mem_nil, or_false] at hb
  rcases hb with rfl | rfl | rfl | rfl | rfl | rfl | rfl | rfl | rfl | rfl | rfl | rfl | rfl | rfl | rfl <;>
    exact keep20 m c _ (by decide) (X2_of_ne m c _ (by decide)) (by decide) (X4_of_ne m c _ (by decide)) (by decide) (by decide) (by decide) (by decide) (by decide) (X10_of_ne m c _ (by decide)) (by decide) (X12_of_ne m c _ (by decide)) (by decide) (by decide) (by decide) (by decide) (by decide) (X18_of_ne m c _ (by decide)) (by decide) (X20_of_ne m c _ (by decide))

/-- Every argument array but the edge attributes is as launched at boundary 25. -/
theorem args25 (b : Ref sig .tc) (hb : b ∈ (argsNo1 : List (Ref sig .tc))) : X25 m c (Proc.devRef .tc b) = m ((c : Thread nD τ).loc b) := by
  simp only [argsNo1, List.mem_cons, List.not_mem_nil, or_false] at hb
  rcases hb with rfl | rfl | rfl | rfl | rfl | rfl | rfl | rfl | rfl | rfl | rfl | rfl | rfl | rfl | rfl <;>
    exact keep25 m c _ (by decide) (X2_of_ne m c _ (by decide)) (by decide) (X4_of_ne m c _ (by decide)) (by decide) (by decide) (by decide) (by decide) (by decide) (X10_of_ne m c _ (by decide)) (by decide) (X12_of_ne m c _ (by decide)) (by decide) (by decide) (by decide) (by decide) (by decide) (X18_of_ne m c _ (by decide)) (by decide) (X20_of_ne m c _ (by decide)) (by decide) (by decide) (by decide) (by decide) (by decide)

/-- Every argument array but the edge attributes is as launched at boundary 26. -/
theorem args26 (b : Ref sig .tc) (hb : b ∈ (argsNo1 : List (Ref sig .tc))) : X26 m c (Proc.devRef .tc b) = m ((c : Thread nD τ).loc b) := by
  simp only [argsNo1, List.mem_cons, List.not_mem_nil, or_false] at hb
  rcases hb with rfl | rfl | rfl | rfl | rfl | rfl | rfl | rfl | rfl | rfl | rfl | rfl | rfl | rfl | rfl <;>
    exact keep26 m c _ (by decide) (X2_of_ne m c _ (by decide)) (by decide) (X4_of_ne m c _ (by decide)) (by decide) (by decide) (by decide) (by decide) (by decide) (X10_of_ne m c _ (by decide)) (by decide) (X12_of_ne m c _ (by decide)) (by decide) (by decide) (by decide) (by decide) (by decide) (X18_of_ne m c _ (by decide)) (by decide) (X20_of_ne m c _ (by decide)) (by decide) (by decide) (by decide) (by decide) (by decide) (X26_of_ne m c _ (by decide))

/-! ## The edge attributes: an input array of regions 0, 2, 4, 6, which a pipeline leaves as it found it -/

theorem arg1_r0 : X2 m c (Proc.devRef .tc main_arg1) = X1 m c (Proc.devRef .tc main_arg1) :=
  (X2_arr m c 1).trans (((dat0 (XV1 m) c).arrAt_in 1 rfl _).trans (A_eq0 (XV1 m) c 1))
theorem arg1_r2 : X10 m c (Proc.devRef .tc main_arg1) = X9 m c (Proc.devRef .tc main_arg1) :=
  (X10_arr m c 1).trans (((dat2 (XV9 m) c).arrAt_in 1 rfl _).trans (A_eq2 (XV9 m) c 1))
theorem arg1_r4 : X18 m c (Proc.devRef .tc main_arg1) = X17 m c (Proc.devRef .tc main_arg1) :=
  (X18_arr m c 1).trans (((dat4 (XV17 m) c).arrAt_in 1 rfl _).trans (A_eq4 (XV17 m) c 1))
theorem arg1_r6 : X26 m c (Proc.devRef .tc main_arg1) = X25 m c (Proc.devRef .tc main_arg1) :=
  (X26_arr m c 1).trans (((dat6 (XV25 m) c).arrAt_in 1 rfl _).trans (A_eq6 (XV25 m) c 1))

/-- The edge attributes as launched at the boundaries after region 1, 3 and 5 (where the next layer's host stretches
    start) . -/
theorem arg1_at4 : X4 m c (Proc.devRef .tc main_arg1) = m ((c : Thread nD τ).loc main_arg1) :=
  keep4 m c main_arg1 (by decide) (arg1_r0 m c) (by decide) (X4_of_ne m c _ (by decide))
theorem arg1_at12 : X12 m c (Proc.devRef .tc main_arg1) = m ((c : Thread nD τ).loc main_arg1) :=
  keep12 m c main_arg1 (by decide) (arg1_r0 m c) (by decide) (X4_of_ne m c _ (by decide)) (by decide) (by decide) (by decide) (by decide) (by decide)
    (arg1_r2 m c) (by decide) (X12_of_ne m c _ (by decide))
theorem arg1_at20 : X20 m c (Proc.devRef .tc main_arg1) = m ((c : Thread nD τ).loc main_arg1) :=
  keep20 m c main_arg1 (by decide) (arg1_r0 m c) (by decide) (X4_of_ne m c _ (by decide)) (by decide) (by decide) (by decide) (by decide) (by decide)
    (arg1_r2 m c) (by decide) (X12_of_ne m c _ (by decide)) (by decide) (by decide) (by decide) (by decide) (by decide)
    (arg1_r4 m c) (by decide) (X20_of_ne m c _ (by decide))

/-! ## Between two consecutive region exits: a buffer the host stretches in between do not write and that is no array of
    the later region is kept -/

theorem keepV_2_4 (b : Ref sig .tc) (g3 : b ∉ (hostOps1_W : List (Ref sig .tc))) (r : ∀ w, Pipeline.arrRef spec1 w ≠ b) :
    X4 m c (Proc.devRef .tc b) = X2 m c (Proc.devRef .tc b) :=
  (X4_of_ne m c b r).trans (StableHlo.after_of_writes_sub hostOps1 (X2 m c) hostOps1_writes g3)
theorem keepV_4_10 (b : Ref sig .tc) (g5 : b ∉ (hostOps2_W : List (Ref sig .tc))) (g6 : b ∉ (hostOps2_1_W : List (Ref sig .tc)))
    (g7 : b ∉ (hostOps2_2_W : List (Ref sig .tc))) (g8 : b ∉ (hostOps2_3_W : List (Ref sig .tc))) (g9 : b ∉ (hostOps2_4_W : List (Ref sig .tc)))
    (r : ∀ w, Pipeline.arrRef spec2 w ≠ b) : X10 m c (Proc.devRef .tc b) = X4 m c (Proc.devRef .tc b) :=
  (X10_of_ne m c b r).trans <| (StableHlo.after_of_writes_sub hostOps2_4 (X8 m c) hostOps2_4_writes g9).trans <|
    (StableHlo.after_of_writes_sub hostOps2_3 (X7 m c) hostOps2_3_writes g8).trans <| (StableHlo.after_of_writes_sub hostOps2_2 (X6 m c) hostOps2_2_writes g7).trans <|
    (StableHlo.after_of_writes_sub hostOps2_1 (X5 m c) hostOps2_1_writes g6).trans (StableHlo.after_of_writes_sub hostOps2 (X4 m c) hostOps2_writes g5)
theorem keepV_10_12 (b : Ref sig .tc) (g11 : b ∉ (hostOps3_W : List (Ref sig .tc))) (r : ∀ w, Pipeline.arrRef spec3 w ≠ b) :
    X12 m c (Proc.devRef .tc b) = X10 m c (Proc.devRef .tc b) :=
  (X12_of_ne m c b r).trans (StableHlo.after_of_writes_sub hostOps3 (X10 m c) hostOps3_writes g11)
theorem keepV_12_18 (b : Ref sig .tc) (g5 : b ∉ (hostOps4_W : List (Ref sig .tc))) (g6 : b ∉ (hostOps4_1_W : List (Ref sig .tc)))
    (g7 : b ∉ (hostOps4_2_W : List (Ref sig .tc))) (g8 : b ∉ (hostOps4_3_W : List (Ref sig .tc))) (g9 : b ∉ (hostOps4_4_W : List (Ref sig .tc)))
    (r : ∀ w, Pipeline.arrRef spec4 w ≠ b) : X18 m c (Proc.devRef .tc b) = X12 m c (Proc.devRef .tc b) :=
  (X18_of_ne m c b r).trans <| (StableHlo.after_of_writes_sub hostOps4_4 (X16 m c) hostOps4_4_writes g9).trans <|
    (StableHlo.after_of_writes_sub hostOps4_3 (X15 m c) hostOps4_3_writes g8).trans <| (StableHlo.after_of_writes_sub hostOps4_2 (X14 m c) hostOps4_2_writes g7).trans <|
    (StableHlo.after_of_writes_sub hostOps4_1 (X13 m c) hostOps4_1_writes g6).trans (StableHlo.after_of_writes_sub hostOps4 (X12 m c) hostOps4_writes g5)
theorem keepV_18_20 (b : Ref sig .tc) (g11 : b ∉ (hostOps5_W : List (Ref sig .tc))) (r : ∀ w, Pipeline.arrRef spec5 w ≠ b) :
    X20 m c (Proc.devRef .tc b) = X18 m c (Proc.devRef .tc b) :=
  (X20_of_ne m c b r).trans (StableHlo.after_of_writes_sub hostOps5 (X18 m c) hostOps5_writes g11)
theorem keepV_20_26 (b : Ref sig .tc) (g5 : b ∉ (hostOps6_W : List (Ref sig .tc))) (g6 : b ∉ (hostOps6_1_W : List (Ref sig .tc)))
    (g7 : b ∉ (hostOps6_2_W : List (Ref sig .tc))) (g8 : b ∉ (hostOps6_3_W : List (Ref sig .tc))) (g9 : b ∉ (hostOps6_4_W : List (Ref sig .tc)))
    (r : ∀ w, Pipeline.arrRef spec6 w ≠ b) : X26 m c (Proc.devRef .tc b) = X20 m c (Proc.devRef .tc b) :=
  (X26_of_ne m c b r).trans <| (StableHlo.after_of_writes_sub hostOps6_4 (X24 m c) hostOps6_4_writes g9).trans <|
    (StableHlo.after_of_writes_sub hostOps6_3 (X23 m c) hostOps6_3_writes g8).trans <| (StableHlo.after_of_writes_sub hostOps6_2 (X22 m c) hostOps6_2_writes g7).trans <|
    (StableHlo.after_of_writes_sub hostOps6_1 (X21 m c) hostOps6_1_writes g6).trans (StableHlo.after_of_writes_sub hostOps6 (X20 m c) hostOps6_writes g5)
theorem keepV_26_28 (b : Ref sig .tc) (g11 : b ∉ (hostOps7_W : List (Ref sig .tc))) (r : ∀ w, Pipeline.arrRef spec7 w ≠ b) :
    X28 m c (Proc.devRef .tc b) = X26 m c (Proc.devRef .tc b) :=
  (X28_of_ne m c b r).trans (StableHlo.after_of_writes_sub hostOps7 (X26 m c) hostOps7_writes g11)

end Cert.KernelIdeal.Fr

end
-- ==== Proof.Val.Pay.lean ====
/-
  The two kernel bodies' arithmetic read at one element, at the ideal (extended-real) values.

  The edge-message body computes, on a block of 10000 edges with 128 features,
    out[e, h] = max (hsrc[e, h] + (attr[e, 0] * scale[0, h] + bias[0, h])) 0,
  a column [10000, 1] broadcast along the features, two rows [1, 128] broadcast along the edges, and a
  pointwise product, two sums and a maximum with the zero splat.

  The node body computes, on a block of 5000 nodes with 128 features,
    out[n, h] = (Σ_k max ((Σ_k' (eps[0, 0] * hin[n, k'] + agg[n, k']) * W1[k', k]) + b1[0, k]) 0 * W2[k, h]) + b2[0, h]:
  each matrix product is a contraction over one axis of extent 128 into a zero accumulator, and the changes of
  float format on the way into it are the identity on extended reals.
-/
import proofs.«109328_j13039520711153_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Val.Pay

open Cert.KernelIdeal Cert.KernelIdeal.Gen Idealize.ShloMosaic Idealize.ShloMosaic.ValueIdx

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The edge-message body at edge `e` and feature `h`. -/
theorem edge_pay0 (v0 : FVec Ideal S10000x1 .f32) (v1 v6 : FVec Ideal S1x128 .f32) (v10 : FVec Ideal S10000x128 .f32)
    (e : Fin 10000) (h : Fin 128) :
    k0_pay1 (F := Ideal) v0 v1 v6 v10 (ix2 e h)
      = max (v10 (ix2 e h) + (v0 (ix2 e 0) * v1 (ix2 0 h) + v6 (ix2 0 h))) 0 := by
  unfold k0_pay1
  rw [maximumf_apply, addf_apply, addf_apply, mulf_apply, broadcast_apply]
  rw [shapeCast_self, shapeCast_self, shapeCast_self]
  rw [broadcastTo_a1_ab_apply, broadcastTo_1b_ab_apply, broadcastTo_1b_ab_apply]
  rw [show (Scalar.ofBits .f32 0x00000000#32 : Ideal .f32) = 0 from Ideal.ofBits_zero_f32]

/-! ## The matrix product `[5000, 128] × [128, 128]` at an element -/

/-- The left operand is read on the result's row … -/
theorem lhsIdx_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- … at the contracted coordinate; -/
theorem lhsIdx_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contracted coordinate … -/
theorem rhsIdx_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … on the result's column. -/
theorem rhsIdx_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The product into the zero accumulator, read at `(n, h)`: the sum over the one contracted coordinate of the left
    operand's row `n` times the right operand's column `h`. -/
theorem matmul_zero_apply {φ₁ φ₂ : FTy} (A : FVec Ideal S5000x128 φ₁) (B : FVec Ideal S128x128 φ₂) (n : Fin 5000) (h : Fin 128) :
    matmul dot_S5000x128_S128x128_S5000x128_1_0_0_1_n_n none A B (constant (F := Ideal) S5000x128 .f32 0x00000000#32) (ix2 n h)
      = ∑ k : Fin 128, A (ix2 n k) * B (ix2 k h) := by
  refine (Ideal.matmul_constant_zero_apply dot_S5000x128_S128x128_S5000x128_1_0_0_1_n_n none A B (ix2 n h)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 n h)
      ((contrEquiv1 dot_S5000x128_S128x128_S5000x128_1_0_0_1_n_n 128 rfl rfl).symm k) = ix2 n k :=
    funext fun a => Fin.ext (by
      match a with
      | ⟨0, _⟩ => exact lhsIdx_row _ _
      | ⟨1, _⟩ => exact (lhsIdx_col _ _).trans hk)
  have er : dot_S5000x128_S128x128_S5000x128_1_0_0_1_n_n.rhsIdx (ix2 n h)
      ((contrEquiv1 dot_S5000x128_S128x128_S5000x128_1_0_0_1_n_n 128 rfl rfl).symm k) = ix2 k h :=
    funext fun a => Fin.ext (by
      match a with
      | ⟨0, _⟩ => exact (rhsIdx_row _ _).trans hk
      | ⟨1, _⟩ => exact rhsIdx_col _ _)
  rw [el, er]

/-! ## The node body -/

/-- The one element of a `[1, 1]` vector, extracted at position `(0, 0)`. -/
theorem extractAt_zero_zero {α : Type} (x : S1x1.Idx → α) (hp : ∀ a, (![0, 0] : Fin 2 → Nat) a < S1x1.size a) :
    extractAt ![0, 0] x hp = x (ix2 0 0) := by
  unfold extractAt
  refine congrArg x (funext fun a => ?_)
  match a with
  | ⟨0, _⟩ => rfl
  | ⟨1, _⟩ => rfl

/-- The node body at node `n` and feature `h`. -/
theorem node_pay1 (v0 : FVec Ideal S1x1 .f32) (v2 v6 : FVec Ideal S5000x128 .f32) (v10 v13 : FVec Ideal S128x128 .f32)
    (v17 v25 : FVec Ideal S1x128 .f32) (n : Fin 5000) (h : Fin 128) :
    k1_pay1 (F := Ideal) v0 v2 v6 v10 v13 v17 v25 (ix2 n h)
      = (∑ k : Fin 128, max ((∑ k' : Fin 128, (v0 (ix2 0 0) * v2 (ix2 n k') + v6 (ix2 n k')) * v10 (ix2 k' k))
          + v17 (ix2 0 k)) 0 * v13 (ix2 k h)) + v25 (ix2 0 h) := by
  unfold k1_pay1
  simp only [shapeCast_self]
  rw [addf_apply, matmul_zero_apply, broadcastTo_1b_ab_apply]
  refine congrArg (· + v25 (ix2 0 h)) (Finset.sum_congr rfl fun k _ => ?_)
  rw [truncf_apply, truncf_apply, maximumf_apply, addf_apply, matmul_zero_apply, broadcast_apply,
    broadcastTo_1b_ab_apply]
  rw [show (Scalar.ofBits .f32 0x00000000#32 : Ideal .f32) = 0 from Ideal.ofBits_zero_f32]
  refine congrArg (fun x => max (x + v17 (ix2 0 k)) 0 * v13 (ix2 k h)) (Finset.sum_congr rfl fun k' _ => ?_)
  rw [truncf_apply, truncf_apply, addf_apply, mulf_apply, broadcast_apply, extractAt_zero_zero]

/-! ## The other three layers: the same two bodies under their own names -/

/-- The second layer's edge-message body at edge `e` and feature `h`. -/
theorem edge_pay2 (v0 : FVec Ideal S10000x1 .f32) (v1 v6 : FVec Ideal S1x128 .f32) (v10 : FVec Ideal S10000x128 .f32)
    (e : Fin 10000) (h : Fin 128) :
    k2_pay1 (F := Ideal) v0 v1 v6 v10 (ix2 e h)
      = max (v10 (ix2 e h) + (v0 (ix2 e 0) * v1 (ix2 0 h) + v6 (ix2 0 h))) 0 := by
  unfold k2_pay1
  rw [maximumf_apply, addf_apply, addf_apply, mulf_apply, broadcast_apply]
  rw [shapeCast_self, shapeCast_self, shapeCast_self]
  rw [broadcastTo_a1_ab_apply, broadcastTo_1b_ab_apply, broadcastTo_1b_ab_apply]
  rw [show (Scalar.ofBits .f32 0x00000000#32 : Ideal .f32) = 0 from Ideal.ofBits_zero_f32]

/-- The third layer's edge-message body at edge `e` and feature `h`. -/
theorem edge_pay4 (v0 : FVec Ideal S10000x1 .f32) (v1 v6 : FVec Ideal S1x128 .f32) (v10 : FVec Ideal S10000x128 .f32)
    (e : Fin 10000) (h : Fin 128) :
    k4_pay1 (F := Ideal) v0 v1 v6 v10 (ix2 e h)
      = max (v10 (ix2 e h) + (v0 (ix2 e 0) * v1 (ix2 0 h) + v6 (ix2 0 h))) 0 := by
  unfold k4_pay1
  rw [maximumf_apply, addf_apply, addf_apply, mulf_apply, broadcast_apply]
  rw [shapeCast_self, shapeCast_self, shapeCast_self]
  rw [broadcastTo_a1_ab_apply, broadcastTo_1b_ab_apply, broadcastTo_1b_ab_apply]
  rw [show (Scalar.ofBits .f32 0x00000000#32 : Ideal .f32) = 0 from Ideal.ofBits_zero_f32]

/-- The fourth layer's edge-message body at edge `e` and feature `h`. -/
theorem edge_pay6 (v0 : FVec Ideal S10000x1 .f32) (v1 v6 : FVec Ideal S1x128 .f32) (v10 : FVec Ideal S10000x128 .f32)
    (e : Fin 10000) (h : Fin 128) :
    k6_pay1 (F := Ideal) v0 v1 v6 v10 (ix2 e h)
      = max (v10 (ix2 e h) + (v0 (ix2 e 0) * v1 (ix2 0 h) + v6 (ix2 0 h))) 0 := by
  unfold k6_pay1
  rw [maximumf_apply, addf_apply, addf_apply, mulf_apply, broadcast_apply]
  rw [shapeCast_self, shapeCast_self, shapeCast_self]
  rw [broadcastTo_a1_ab_apply, broadcastTo_1b_ab_apply, broadcastTo_1b_ab_apply]
  rw [show (Scalar.ofBits .f32 0x00000000#32 : Ideal .f32) = 0 from Ideal.ofBits_zero_f32]

/-- The second layer's node body at node `n` and feature `h`. -/
theorem node_pay3 (v0 : FVec Ideal S1x1 .f32) (v2 v6 : FVec Ideal S5000x128 .f32) (v10 v13 : FVec Ideal S128x128 .f32)
    (v17 v25 : FVec Ideal S1x128 .f32) (n : Fin 5000) (h : Fin 128) :
    k3_pay1 (F := Ideal) v0 v2 v6 v10 v13 v17 v25 (ix2 n h)
      = (∑ k : Fin 128, max ((∑ k' : Fin 128, (v0 (ix2 0 0) * v2 (ix2 n k') + v6 (ix2 n k')) * v10 (ix2 k' k))
          + v17 (ix2 0 k)) 0 * v13 (ix2 k h)) + v25 (ix2 0 h) := by
  unfold k3_pay1
  simp only [shapeCast_self]
  rw [addf_apply, matmul_zero_apply, broadcastTo_1b_ab_apply]
  refine congrArg (· + v25 (ix2 0 h)) (Finset.sum_congr rfl fun k _ => ?_)
  rw [truncf_apply, truncf_apply, maximumf_apply, addf_apply, matmul_zero_apply, broadcast_apply,
    broadcastTo_1b_ab_apply]
  rw [show (Scalar.ofBits .f32 0x00000000#32 : Ideal .f32) = 0 from Ideal.ofBits_zero_f32]
  refine congrArg (fun x => max (x + v17 (ix2 0 k)) 0 * v13 (ix2 k h)) (Finset.sum_congr rfl fun k' _ => ?_)
  rw [truncf_apply, truncf_apply, addf_apply, mulf_apply, broadcast_apply, extractAt_zero_zero]

/-- The third layer's node body at node `n` and feature `h`. -/
theorem node_pay5 (v0 : FVec Ideal S1x1 .f32) (v2 v6 : FVec Ideal S5000x128 .f32) (v10 v13 : FVec Ideal S128x128 .f32)
    (v17 v25 : FVec Ideal S1x128 .f32) (n : Fin 5000) (h : Fin 128) :
    k5_pay1 (F := Ideal) v0 v2 v6 v10 v13 v17 v25 (ix2 n h)
      = (∑ k : Fin 128, max ((∑ k' : Fin 128, (v0 (ix2 0 0) * v2 (ix2 n k') + v6 (ix2 n k')) * v10 (ix2 k' k))
          + v17 (ix2 0 k)) 0 * v13 (ix2 k h)) + v25 (ix2 0 h) := by
  unfold k5_pay1
  simp only [shapeCast_self]
  rw [addf_apply, matmul_zero_apply, broadcastTo_1b_ab_apply]
  refine congrArg (· + v25 (ix2 0 h)) (Finset.sum_congr rfl fun k _ => ?_)
  rw [truncf_apply, truncf_apply, maximumf_apply, addf_apply, matmul_zero_apply, broadcast_apply,
    broadcastTo_1b_ab_apply]
  rw [show (Scalar.ofBits .f32 0x00000000#32 : Ideal .f32) = 0 from Ideal.ofBits_zero_f32]
  refine congrArg (fun x => max (x + v17 (ix2 0 k)) 0 * v13 (ix2 k h)) (Finset.sum_congr rfl fun k' _ => ?_)
  rw [truncf_apply, truncf_apply, addf_apply, mulf_apply, broadcast_apply, extractAt_zero_zero]

/-- The fourth layer's node body at node `n` and feature `h`. -/
theorem node_pay7 (v0 : FVec Ideal S1x1 .f32) (v2 v6 : FVec Ideal S5000x128 .f32) (v10 v13 : FVec Ideal S128x128 .f32)
    (v17 v25 : FVec Ideal S1x128 .f32) (n : Fin 5000) (h : Fin 128) :
    k7_pay1 (F := Ideal) v0 v2 v6 v10 v13 v17 v25 (ix2 n h)
      = (∑ k : Fin 128, max ((∑ k' : Fin 128, (v0 (ix2 0 0) * v2 (ix2 n k') + v6 (ix2 n k')) * v10 (ix2 k' k))
          + v17 (ix2 0 k)) 0 * v13 (ix2 k h)) + v25 (ix2 0 h) := by
  unfold k7_pay1
  simp only [shapeCast_self]
  rw [addf_apply, matmul_zero_apply, broadcastTo_1b_ab_apply]
  refine congrArg (· + v25 (ix2 0 h)) (Finset.sum_congr rfl fun k _ => ?_)
  rw [truncf_apply, truncf_apply, maximumf_apply, addf_apply, matmul_zero_apply, broadcast_apply,
    broadcastTo_1b_ab_apply]
  rw [show (Scalar.ofBits .f32 0x00000000#32 : Ideal .f32) = 0 from Ideal.ofBits_zero_f32]
  refine congrArg (fun x => max (x + v17 (ix2 0 k)) 0 * v13 (ix2 k h)) (Finset.sum_congr rfl fun k' _ => ?_)
  rw [truncf_apply, truncf_apply, addf_apply, mulf_apply, broadcast_apply, extractAt_zero_zero]

end Cert.Val.Pay

end
-- ==== Proof.Val.Edge0.lean ====
/-
  What region 0 leaves in its output array, at the exact reals: the message array. With hs the gathered source rows
  [800000,128], ea the edge attributes [800000,1], sc and bi the layer's scale and bias rows [1,128], the array after
  the region is   M[e,h] = max(hs[e,h] + (ea[e,0] * sc[0,h] + bi[0,h]), 0)   at every index: block t of the pipeline
  (rows 10000 t … 10000 t + 9999) is what point t writes back, and the 80 blocks cover the array.
-/
import proofs.«109328_j13039520711153_1_alg».proof.Proof.KI.Reg0
import proofs.«109328_j13039520711153_1_alg».proof.Proof.Val.Pay
import Idealize.ShloMosaic.Lib.Pipeline.Value
import Idealize.ShloMosaic.Lib.ValueIdx

set_option maxRecDepth 16384

noncomputable section

namespace Cert.Val.Edge0

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The message array as one function of the four arrays the region reads. -/
def M (hs : S800000x128.Idx → Elt Ideal .f32) (ea : S800000x1.Idx → Elt Ideal .f32) (sc bi : S1x128.Idx → Elt Ideal .f32) :
    S800000x128.Idx → Elt Ideal .f32 :=
  fun i => max (hs i + (ea (ix2 (i 0) 0) * sc (ix2 0 (i 1)) + bi (ix2 0 (i 1)))) 0

/-- Where each window's block sits at point t: windows 0, 1 and 4 at row block t, windows 2 and 3 at the one block. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Window 0's block at point t is rows 10000 t … of the source-row array. -/
theorem blk0_at (c : Dev nD) (t : Fin cfg0.N) (x : S10000x128.Idx) (k : S800000x128.Idx)
    (hk0 : (k 0).val = 10000 * t.val + (x 0).val) (hk1 : (k 1).val = (x 1).val) :
    (iblk0 V c 0 t : Vec Ideal S10000x128 .f32) x = (V c (Pipeline.arrRef spec0 0) : S800000x128.Idx → Elt Ideal .f32) k := by
  obtain ⟨e0, e1, -⟩ := idx0 t
  unfold iblk0
  rw [View.read_apply]
  have key : (((cfg0.win 0).blk t).view.emb x : S800000x128.Idx) = k := by
    funext a; apply Fin.ext
    match a with
    | ⟨0, _⟩ => show win0_0.index t 0 * 10000 + 1 * (x 0).val = (k 0).val; rw [e0, hk0]; omega
    | ⟨1, _⟩ => show win0_0.index t 1 * 128 + 1 * (x 1).val = (k 1).val; rw [e1, hk1]; omega
  exact congrArg (V c (Pipeline.arrRef spec0 0) : S800000x128.Idx → Elt Ideal .f32) key

/-- Window 1's block at point t is rows 10000 t … of the edge-attribute array. -/
theorem blk1_at (c : Dev nD) (t : Fin cfg0.N) (x : S10000x1.Idx) (k : S800000x1.Idx)
    (hk0 : (k 0).val = 10000 * t.val + (x 0).val) (hk1 : (k 1).val = (x 1).val) :
    (iblk0 V c 1 t : Vec Ideal S10000x1 .f32) x = (V c (Pipeline.arrRef spec0 1) : S800000x1.Idx → Elt Ideal .f32) k := by
  obtain ⟨-, -, e0, e1, -⟩ := idx0 t
  unfold iblk0
  rw [View.read_apply]
  have key : (((cfg0.win 1).blk t).view.emb x : S800000x1.Idx) = k := by
    funext a; apply Fin.ext
    match a with
    | ⟨0, _⟩ => show win0_1.index t 0 * 10000 + 1 * (x 0).val = (k 0).val; rw [e0, hk0]; omega
    | ⟨1, _⟩ => show win0_1.index t 1 * 1 + 1 * (x 1).val = (k 1).val; rw [e1, hk1]; omega
  exact congrArg (V c (Pipeline.arrRef spec0 1) : S800000x1.Idx → Elt Ideal .f32) key

/-- Windows 2 and 3: the one block is the whole row array. -/
theorem blk2_at (c : Dev nD) (t : Fin cfg0.N) (x : S1x128.Idx) :
    (iblk0 V c 2 t : Vec Ideal S1x128 .f32) x = (V c (Pipeline.arrRef spec0 2) : S1x128.Idx → Elt Ideal .f32) x := by
  obtain ⟨-, -, -, -, e0, e1, -⟩ := idx0 t
  unfold iblk0
  rw [View.read_apply]
  have key : (((cfg0.win 2).blk t).view.emb x : S1x128.Idx) = x := by
    funext a; apply Fin.ext
    match a with
    | ⟨0, _⟩ => show win0_2.index t 0 * 1 + 1 * (x 0).val = (x 0).val; rw [e0]; omega
    | ⟨1, _⟩ => show win0_2.index t 1 * 128 + 1 * (x 1).val = (x 1).val; rw [e1]; omega
  exact congrArg (V c (Pipeline.arrRef spec0 2) : S1x128.Idx → Elt Ideal .f32) key
theorem blk3_at (c : Dev nD) (t : Fin cfg0.N) (x : S1x128.Idx) :
    (iblk0 V c 3 t : Vec Ideal S1x128 .f32) x = (V c (Pipeline.arrRef spec0 3) : S1x128.Idx → Elt Ideal .f32) x := by
  obtain ⟨-, -, -, -, -, -, e0, e1, -⟩ := idx0 t
  unfold iblk0
  rw [View.read_apply]
  have key : (((cfg0.win 3).blk t).view.emb x : S1x128.Idx) = x := by
    funext a; apply Fin.ext
    match a with
    | ⟨0, _⟩ => show win0_3.index t 0 * 1 + 1 * (x 0).val = (x 0).val; rw [e0]; omega
    | ⟨1, _⟩ => show win0_3.index t 1 * 128 + 1 * (x 1).val = (x 1).val; rw [e1]; omega
  exact congrArg (V c (Pipeline.arrRef spec0 3) : S1x128.Idx → Elt Ideal .f32) key

/-- The output block after the body, entry by entry, from the four input blocks. -/
theorem out_at (x0 : Vec Ideal S10000x128 .f32) (x1 : Vec Ideal S10000x1 .f32) (x2 x3 : Vec Ideal S1x128 .f32) (p : Fin 10000) (q : Fin 128) :
    out0_4 x0 x1 x2 x3 (ix2 p q) = max (x0 (ix2 p q) + (x1 (ix2 p 0) * x2 (ix2 0 q) + x3 (ix2 0 q))) 0 := by
  unfold out0_4
  rw [View.canon_unit_zero hz]
  simp only [View.ld_unit_zero (S := S10000x128) hz, View.ld_unit_zero (S := S10000x1) hz, View.ld_unit_zero (S := S1x128) hz]
  exact Cert.Val.Pay.edge_pay0 _ _ _ _ p q

/-- What point t writes back is block t of the message array of the entry contents. -/
theorem flushed0 (c : Dev nD) (t : Fin cfg0.N) :
    (dat0 V c).flushed 4 t = ((cfg0.win 4).blk t).view.read (Elt Ideal)
      (M (V c (Pipeline.arrRef spec0 0)) (V c (Pipeline.arrRef spec0 1)) (V c (Pipeline.arrRef spec0 2)) (V c (Pipeline.arrRef spec0 3))) := by
  show (cfg0.win 4).cut (grid0.coords t) ((dat0 V c).after 4 t) = _
  rw [after0_4]
  funext j
  obtain ⟨p, q, rfl⟩ : ∃ (p : Fin 10000) (q : Fin 128), j = ix2 p q := ⟨j 0, j 1, eq_ix2 j⟩
  refine (out_at _ _ _ _ p q).trans ?_
  rw [View.read_apply]
  obtain ⟨-, -, -, -, -, -, -, -, e0, e1⟩ := idx0 t
  have hk0 : ((((cfg0.win 4).blk t).view.emb (ix2 p q)) 0).val = 10000 * t.val + p.val := by
    show win0_4.index t 0 * 10000 + 1 * p.val = _; rw [e0]; omega
  have hk1 : ((((cfg0.win 4).blk t).view.emb (ix2 p q)) 1).val = q.val := by
    show win0_4.index t 1 * 128 + 1 * q.val = _; rw [e1]; omega
  unfold M
  rw [blk0_at V c t (ix2 p q) _ hk0 hk1, blk1_at V c t (ix2 p 0) (ix2 ((((cfg0.win 4).blk t).view.emb (ix2 p q)) 0) 0) hk0 rfl,
    blk2_at V c t (ix2 0 q), blk3_at V c t (ix2 0 q)]
  have hq : (ix2 (0 : Fin 1) ((((cfg0.win 4).blk t).view.emb (ix2 p q)) 1) : S1x128.Idx) = ix2 0 q := by
    funext a; match a with
    | ⟨0, _⟩ => rfl
    | ⟨1, _⟩ => exact Fin.ext hk1
  rw [hq]
  first | rfl | exact (cast_eq _ _).symm

/-- THE ARRAY region 0 leaves: the message array of the entry contents. Every index of the array is in the block of
    the point its row belongs to (row r in block r / 10000), so the 80 write-backs cover the array. -/
theorem final0 (c : Dev nD) : (dat0 V c).arrAt 4 cfg0.N
    = M (V c (Pipeline.arrRef spec0 0)) (V c (Pipeline.arrRef spec0 1)) (V c (Pipeline.arrRef spec0 2)) (V c (Pipeline.arrRef spec0 3)) :=
  (dat0 V c).arrAt_eq_of_cover 4 _ (fun t _ => flushed0 V c t) fun i => by
    have hi0 : (i 0).val < 800000 := (i 0).isLt
    have hi1 : (i 1).val < 128 := (i 1).isLt
    have hN : cfg0.N = 80 := N_0
    have ht : (i 0).val / 10000 < cfg0.N := by rw [hN]; omega
    obtain ⟨-, -, -, -, -, -, -, -, e0, e1⟩ := idx0 ⟨(i 0).val / 10000, ht⟩
    refine ⟨⟨(i 0).val / 10000, ht⟩, flush0_4 _, ?_⟩
    show i ∈ ((View.whole main_v33).slice (win0_4.rect ⟨(i 0).val / 10000, ht⟩)).set
    rw [View.set_slice_whole, Rect.mem_set_unit]
    intro a
    match a with
    | ⟨0, _⟩ =>
      show win0_4.index ⟨(i 0).val / 10000, ht⟩ 0 * 10000 ≤ (i 0).val ∧ (i 0).val < win0_4.index ⟨(i 0).val / 10000, ht⟩ 0 * 10000 + 10000
      rw [e0]; show (i 0).val / 10000 * 10000 ≤ (i 0).val ∧ (i 0).val < (i 0).val / 10000 * 10000 + 10000; omega
    | ⟨1, _⟩ =>
      show win0_4.index ⟨(i 0).val / 10000, ht⟩ 1 * 128 ≤ (i 1).val ∧ (i 1).val < win0_4.index ⟨(i 0).val / 10000, ht⟩ 1 * 128 + 128
      rw [e1]; omega

end Cert.Val.Edge0

end
-- ==== Proof.Val.Node1.lean ====
/-
  What region 1 leaves in its output array, at the exact reals: the node map. With h the node rows [50000,128], ag the
  aggregated messages [50000,128], ep the 1x1 scale, w1 and w2 the two weight matrices [128,128] and b1 and b2 the two bias
  rows [1,128], the array after the region is
    N[n,j] = (Σ_k max((Σ_k' (ep[0,0] * h[n,k'] + ag[n,k']) * w1[k',k]) + b1[0,k], 0) * w2[k,j]) + b2[0,j]
  at every index: block t of the pipeline (rows 5000 t … 5000 t + 4999) is what point t writes back, and the 10 blocks
  cover the array.
-/
import proofs.«109328_j13039520711153_1_alg».proof.Proof.KI.Reg1
import proofs.«109328_j13039520711153_1_alg».proof.Proof.Val.Pay
import Idealize.ShloMosaic.Lib.Pipeline.Value
import Idealize.ShloMosaic.Lib.ValueIdx

set_option maxRecDepth 16384

noncomputable section

namespace Cert.Val.Node1

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The node map as one function of the seven arrays the region reads. -/
def N (h ag : S50000x128.Idx → Elt Ideal .f32) (ep : S1x1.Idx → Elt Ideal .f32) (w1 : S128x128.Idx → Elt Ideal .f32)
    (b1 : S1x128.Idx → Elt Ideal .f32) (w2 : S128x128.Idx → Elt Ideal .f32) (b2 : S1x128.Idx → Elt Ideal .f32) :
    S50000x128.Idx → Elt Ideal .f32 :=
  fun i => (∑ k : Fin 128, max ((∑ k' : Fin 128, (ep (ix2 0 0) * h (ix2 (i 0) k') + ag (ix2 (i 0) k')) * w1 (ix2 k' k)) + b1 (ix2 0 k)) 0 * w2 (ix2 k (i 1))) + b2 (ix2 0 (i 1))

/-! ## Where each window's block sits at point t: windows 0, 1 and 7 at row block t, windows 2 to 6 at the one block -/

theorem idx_row0 : ∀ t : Fin cfg1.N, win1_0.index t (0 : Fin 2) = t.val ∧ win1_0.index t (1 : Fin 2) = 0 :=
  (by decide +kernel : ∀ t : Fin grid1.N, _)
theorem idx_row1 : ∀ t : Fin cfg1.N, win1_1.index t (0 : Fin 2) = t.val ∧ win1_1.index t (1 : Fin 2) = 0 :=
  (by decide +kernel : ∀ t : Fin grid1.N, _)
theorem idx_row7 : ∀ t : Fin cfg1.N, win1_7.index t (0 : Fin 2) = t.val ∧ win1_7.index t (1 : Fin 2) = 0 :=
  (by decide +kernel : ∀ t : Fin grid1.N, _)
theorem idx_one2 : ∀ t : Fin cfg1.N, win1_2.index t (0 : Fin 2) = 0 ∧ win1_2.index t (1 : Fin 2) = 0 :=
  (by decide +kernel : ∀ t : Fin grid1.N, _)
theorem idx_one3 : ∀ t : Fin cfg1.N, win1_3.index t (0 : Fin 2) = 0 ∧ win1_3.index t (1 : Fin 2) = 0 :=
  (by decide +kernel : ∀ t : Fin grid1.N, _)
theorem idx_one4 : ∀ t : Fin cfg1.N, win1_4.index t (0 : Fin 2) = 0 ∧ win1_4.index t (1 : Fin 2) = 0 :=
  (by decide +kernel : ∀ t : Fin grid1.N, _)
theorem idx_one5 : ∀ t : Fin cfg1.N, win1_5.index t (0 : Fin 2) = 0 ∧ win1_5.index t (1 : Fin 2) = 0 :=
  (by decide +kernel : ∀ t : Fin grid1.N, _)
theorem idx_one6 : ∀ t : Fin cfg1.N, win1_6.index t (0 : Fin 2) = 0 ∧ win1_6.index t (1 : Fin 2) = 0 :=
  (by decide +kernel : ∀ t : Fin grid1.N, _)

/-! ## The input blocks read off their arrays -/

/-- Window 0's block at point t is rows 5000 t … of the node-row array. -/
theorem blk0_at (c : Dev nD) (t : Fin cfg1.N) (x : S5000x128.Idx) (k : S50000x128.Idx)
    (hk0 : (k 0).val = 5000 * t.val + (x 0).val) (hk1 : (k 1).val = (x 1).val) :
    (iblk1 V c 0 t : Vec Ideal S5000x128 .f32) x = (V c (Pipeline.arrRef spec1 0) : S50000x128.Idx → Elt Ideal .f32) k := by
  obtain ⟨e0, e1⟩ := idx_row0 t
  unfold iblk1
  rw [View.read_apply]
  have key : (((cfg1.win 0).blk t).view.emb x : S50000x128.Idx) = k := by
    funext a; apply Fin.ext
    match a with
    | ⟨0, _⟩ => show win1_0.index t 0 * 5000 + 1 * (x 0).val = (k 0).val; rw [e0, hk0]; omega
    | ⟨1, _⟩ => show win1_0.index t 1 * 128 + 1 * (x 1).val = (k 1).val; rw [e1, hk1]; omega
  exact congrArg (V c (Pipeline.arrRef spec1 0) : S50000x128.Idx → Elt Ideal .f32) key

/-- Window 1's block at point t is rows 5000 t … of the aggregated-message array. -/
theorem blk1_at (c : Dev nD) (t : Fin cfg1.N) (x : S5000x128.Idx) (k : S50000x128.Idx)
    (hk0 : (k 0).val = 5000 * t.val + (x 0).val) (hk1 : (k 1).val = (x 1).val) :
    (iblk1 V c 1 t : Vec Ideal S5000x128 .f32) x = (V c (Pipeline.arrRef spec1 1) : S50000x128.Idx → Elt Ideal .f32) k := by
  obtain ⟨e0, e1⟩ := idx_row1 t
  unfold iblk1
  rw [View.read_apply]
  have key : (((cfg1.win 1).blk t).view.emb x : S50000x128.Idx) = k := by
    funext a; apply Fin.ext
    match a with
    | ⟨0, _⟩ => show win1_1.index t 0 * 5000 + 1 * (x 0).val = (k 0).val; rw [e0, hk0]; omega
    | ⟨1, _⟩ => show win1_1.index t 1 * 128 + 1 * (x 1).val = (k 1).val; rw [e1, hk1]; omega
  exact congrArg (V c (Pipeline.arrRef spec1 1) : S50000x128.Idx → Elt Ideal .f32) key

/-- Windows 2 to 6: the one block is the whole array. -/
theorem blk2_at (c : Dev nD) (t : Fin cfg1.N) (x : S1x1.Idx) :
    (iblk1 V c 2 t : Vec Ideal S1x1 .f32) x = (V c (Pipeline.arrRef spec1 2) : S1x1.Idx → Elt Ideal .f32) x := by
  obtain ⟨e0, e1⟩ := idx_one2 t
  unfold iblk1
  rw [View.read_apply]
  have key : (((cfg1.win 2).blk t).view.emb x : S1x1.Idx) = x := by
    funext a; apply Fin.ext
    match a with
    | ⟨0, _⟩ => show win1_2.index t 0 * 1 + 1 * (x 0).val = (x 0).val; rw [e0]; omega
    | ⟨1, _⟩ => show win1_2.index t 1 * 1 + 1 * (x 1).val = (x 1).val; rw [e1]; omega
  exact congrArg (V c (Pipeline.arrRef spec1 2) : S1x1.Idx → Elt Ideal .f32) key
theorem blk3_at (c : Dev nD) (t : Fin cfg1.N) (x : S128x128.Idx) :
    (iblk1 V c 3 t : Vec Ideal S128x128 .f32) x = (V c (Pipeline.arrRef spec1 3) : S128x128.Idx → Elt Ideal .f32) x := by
  obtain ⟨e0, e1⟩ := idx_one3 t
  unfold iblk1
  rw [View.read_apply]
  have key : (((cfg1.win 3).blk t).view.emb x : S128x128.Idx) = x := by
    funext a; apply Fin.ext
    match a with
    | ⟨0, _⟩ => show win1_3.index t 0 * 128 + 1 * (x 0).val = (x 0).val; rw [e0]; omega
    | ⟨1, _⟩ => show win1_3.index t 1 * 128 + 1 * (x 1).val = (x 1).val; rw [e1]; omega
  exact congrArg (V c (Pipeline.arrRef spec1 3) : S128x128.Idx → Elt Ideal .f32) key
theorem blk4_at (c : Dev nD) (t : Fin cfg1.N) (x : S1x128.Idx) :
    (iblk1 V c 4 t : Vec Ideal S1x128 .f32) x = (V c (Pipeline.arrRef spec1 4) : S1x128.Idx → Elt Ideal .f32) x := by
  obtain ⟨e0, e1⟩ := idx_one4 t
  unfold iblk1
  rw [View.read_apply]
  have key : (((cfg1.win 4).blk t).view.emb x : S1x128.Idx) = x := by
    funext a; apply Fin.ext
    match a with
    | ⟨0, _⟩ => show win1_4.index t 0 * 1 + 1 * (x 0).val = (x 0).val; rw [e0]; omega
    | ⟨1, _⟩ => show win1_4.index t 1 * 128 + 1 * (x 1).val = (x 1).val; rw [e1]; omega
  exact congrArg (V c (Pipeline.arrRef spec1 4) : S1x128.Idx → Elt Ideal .f32) key
theorem blk5_at (c : Dev nD) (t : Fin cfg1.N) (x : S128x128.Idx) :
    (iblk1 V c 5 t : Vec Ideal S128x128 .f32) x = (V c (Pipeline.arrRef spec1 5) : S128x128.Idx → Elt Ideal .f32) x := by
  obtain ⟨e0, e1⟩ := idx_one5 t
  unfold iblk1
  rw [View.read_apply]
  have key : (((cfg1.win 5).blk t).view.emb x : S128x128.Idx) = x := by
    funext a; apply Fin.ext
    match a with
    | ⟨0, _⟩ => show win1_5.index t 0 * 128 + 1 * (x 0).val = (x 0).val; rw [e0]; omega
    | ⟨1, _⟩ => show win1_5.index t 1 * 128 + 1 * (x 1).val = (x 1).val; rw [e1]; omega
  exact congrArg (V c (Pipeline.arrRef spec1 5) : S128x128.Idx → Elt Ideal .f32) key
theorem blk6_at (c : Dev nD) (t : Fin cfg1.N) (x : S1x128.Idx) :
    (iblk1 V c 6 t : Vec Ideal S1x128 .f32) x = (V c (Pipeline.arrRef spec1 6) : S1x128.Idx → Elt Ideal .f32) x := by
  obtain ⟨e0, e1⟩ := idx_one6 t
  unfold iblk1
  rw [View.read_apply]
  have key : (((cfg1.win 6).blk t).view.emb x : S1x128.Idx) = x := by
    funext a; apply Fin.ext
    match a with
    | ⟨0, _⟩ => show win1_6.index t 0 * 1 + 1 * (x 0).val = (x 0).val; rw [e0]; omega
    | ⟨1, _⟩ => show win1_6.index t 1 * 128 + 1 * (x 1).val = (x 1).val; rw [e1]; omega
  exact congrArg (V c (Pipeline.arrRef spec1 6) : S1x128.Idx → Elt Ideal .f32) key

/-! ## The output block and the array -/

/-- Two congruences in the shape of the node map: a summand replaced under `· + x`, and under `max (· + x) 0 * y`. -/
theorem add_congr_left {a b x : EReal} (hab : a = b) : a + x = b + x := hab ▸ rfl
theorem relu_mul_congr {a b x y : EReal} (hab : a = b) : max (a + x) 0 * y = max (b + x) 0 * y := hab ▸ rfl

/-- The output block after the body, entry by entry, from the seven input blocks. -/
theorem out_at (x0 x1 : Vec Ideal S5000x128 .f32) (x2 : Vec Ideal S1x1 .f32) (x3 : Vec Ideal S128x128 .f32) (x4 : Vec Ideal S1x128 .f32)
    (x5 : Vec Ideal S128x128 .f32) (x6 : Vec Ideal S1x128 .f32) (p : Fin 5000) (q : Fin 128) :
    out1_7 x0 x1 x2 x3 x4 x5 x6 (ix2 p q)
      = (∑ k : Fin 128, max ((∑ k' : Fin 128, (x2 (ix2 0 0) * x0 (ix2 p k') + x1 (ix2 p k')) * x3 (ix2 k' k)) + x4 (ix2 0 k)) 0 * x5 (ix2 k q))
        + x6 (ix2 0 q) := by
  unfold out1_7
  rw [View.canon_unit_zero hz]
  simp only [View.ld_unit_zero (S := S5000x128) hz, View.ld_unit_zero (S := S1x1) hz, View.ld_unit_zero (S := S128x128) hz,
    View.ld_unit_zero (S := S1x128) hz]
  exact Cert.Val.Pay.node_pay1 _ _ _ _ _ _ _ p q

set_option maxHeartbeats 2000000 in
/-- What point t writes back is block t of the node map of the entry contents. -/
theorem flushed1 (c : Dev nD) (t : Fin cfg1.N) :
    (dat1 V c).flushed 7 t = ((cfg1.win 7).blk t).view.read (Elt Ideal)
      (N (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6))) := by
  show (cfg1.win 7).cut (grid1.coords t) ((dat1 V c).after 7 t) = _
  rw [after1_7]
  funext j
  obtain ⟨p, q, rfl⟩ : ∃ (p : Fin 5000) (q : Fin 128), j = ix2 p q := ⟨j 0, j 1, eq_ix2 j⟩
  refine (out_at _ _ _ _ _ _ _ p q).trans ?_
  rw [View.read_apply]
  obtain ⟨e0, e1⟩ := idx_row7 t
  have hk0 : ((((cfg1.win 7).blk t).view.emb (ix2 p q)) 0).val = 5000 * t.val + p.val := by
    show win1_7.index t 0 * 5000 + 1 * p.val = _; rw [e0]; omega
  have hk1 : ((((cfg1.win 7).blk t).view.emb (ix2 p q)) 1).val = q.val := by
    show win1_7.index t 1 * 128 + 1 * q.val = _; rw [e1]; omega
  unfold N
  refine Eq.trans ?_ (cast_eq _ _).symm
  have hcol : ∀ k : Fin 128, (ix2 k ((((cfg1.win 7).blk t).view.emb (ix2 p q)) 1) : S128x128.Idx) = ix2 k q := fun k => by
    funext a; match a with
    | ⟨0, _⟩ => rfl
    | ⟨1, _⟩ => exact Fin.ext hk1
  have hrow : (ix2 (0 : Fin 1) ((((cfg1.win 7).blk t).view.emb (ix2 p q)) 1) : S1x128.Idx) = ix2 0 q := by
    funext a; match a with
    | ⟨0, _⟩ => rfl
    | ⟨1, _⟩ => exact Fin.ext hk1
  rw [hrow, blk6_at V c t (ix2 0 q)]
  refine add_congr_left (Finset.sum_congr rfl fun k _ => ?_)
  rw [hcol k, blk5_at V c t (ix2 k q), blk4_at V c t (ix2 0 k)]
  refine relu_mul_congr (Finset.sum_congr rfl fun k' _ => ?_)
  rw [blk0_at V c t (ix2 p k') (ix2 ((((cfg1.win 7).blk t).view.emb (ix2 p q)) 0) k') hk0 rfl,
    blk1_at V c t (ix2 p k') (ix2 ((((cfg1.win 7).blk t).view.emb (ix2 p q)) 0) k') hk0 rfl,
    blk2_at V c t (ix2 0 0), blk3_at V c t (ix2 k' k)]

/-- THE ARRAY region 1 leaves: the node map of the entry contents. Every index of the array is in the block of the point
    its row belongs to (row r in block r / 5000), so the 10 write-backs cover the array. -/
theorem final1 (c : Dev nD) : (dat1 V c).arrAt 7 cfg1.N
    = N (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) :=
  (dat1 V c).arrAt_eq_of_cover 7 _ (fun t _ => flushed1 V c t) fun i => by
    have hi0 : (i 0).val < 50000 := (i 0).isLt
    have hi1 : (i 1).val < 128 := (i 1).isLt
    have hN : cfg1.N = 10 := N_1
    have ht : (i 0).val / 5000 < cfg1.N := by rw [hN]; omega
    obtain ⟨e0, e1⟩ := idx_row7 ⟨(i 0).val / 5000, ht⟩
    refine ⟨⟨(i 0).val / 5000, ht⟩, flush1_7 _, ?_⟩
    show i ∈ ((View.whole main_v53).slice (win1_7.rect ⟨(i 0).val / 5000, ht⟩)).set
    rw [View.set_slice_whole, Rect.mem_set_unit]
    intro a
    match a with
    | ⟨0, _⟩ =>
      show win1_7.index ⟨(i 0).val / 5000, ht⟩ 0 * 5000 ≤ (i 0).val ∧ (i 0).val < win1_7.index ⟨(i 0).val / 5000, ht⟩ 0 * 5000 + 5000
      rw [e0]; show (i 0).val / 5000 * 5000 ≤ (i 0).val ∧ (i 0).val < (i 0).val / 5000 * 5000 + 5000; omega
    | ⟨1, _⟩ =>
      show win1_7.index ⟨(i 0).val / 5000, ht⟩ 1 * 128 ≤ (i 1).val ∧ (i 1).val < win1_7.index ⟨(i 0).val / 5000, ht⟩ 1 * 128 + 128
      rw [e1]; omega

end Cert.Val.Node1

end
-- ==== Proof.Val.RefChain.lean ====
/-
  The reference program's buffers at the eight cuts of its operation list: Y0 the launch contents, Y(k+1) the fold of
  chunk k over Y k. The last, Y9, is the fold of all 350 operations (RefJoin.lean). Short names are given to the reference's buffers
  that the comparison with the kernel's program reads: the index arrays, the degree, the virtual node's embedding, the
  node tables, the message arrays and the node arrays of the four layers, the result, and the sixteen arguments.
-/
import proofs.«109328_j13039520711153_1_alg».proof.Proof.RefChunks
import Idealize.ShloMosaic.PureOps.Ideal

noncomputable section

namespace Cert.Val.RC

open Cert.ReferenceIdeal Cert.ReferenceIdeal.Gen Cert.ReferenceIdeal.ValueP
open Idealize.ShloMosaic Idealize.ShloMosaic.TcCoe Idealize.SL.Sem Idealize.ShloMosaic.StableHlo

variable (m : (ℓ : Loc nD τ sig) → Buf (Elt Ideal) ℓ) (c : Dev nD)

abbrev Y0 : Valuation τ sig (Elt Ideal) := launchContents m c
def Y1 : Valuation τ sig (Elt Ideal) := after opsC0 (Y0 m c)
def Y2 : Valuation τ sig (Elt Ideal) := after opsC1 (Y1 m c)
def Y3 : Valuation τ sig (Elt Ideal) := after opsC2 (Y2 m c)
def Y4 : Valuation τ sig (Elt Ideal) := after opsC3 (Y3 m c)
def Y5 : Valuation τ sig (Elt Ideal) := after opsC4 (Y4 m c)
def Y6 : Valuation τ sig (Elt Ideal) := after opsC5 (Y5 m c)
def Y7 : Valuation τ sig (Elt Ideal) := after opsC6 (Y6 m c)
def Y8 : Valuation τ sig (Elt Ideal) := after opsC7 (Y7 m c)
def Y9 : Valuation τ sig (Elt Ideal) := after opsC8 (Y8 m c)

/-- The reference's buffers by short names (the reference's own numbering, as in its printed program). -/
abbrev rArg0 := Proc.devRef (τ := τ) .tc main_arg0
abbrev rArg1 := Proc.devRef (τ := τ) .tc main_arg1
abbrev rArg2 := Proc.devRef (τ := τ) .tc main_arg2
abbrev rArg3 := Proc.devRef (τ := τ) .tc main_arg3
abbrev rArg4 := Proc.devRef (τ := τ) .tc main_arg4
abbrev rArg5 := Proc.devRef (τ := τ) .tc main_arg5
abbrev rArg6 := Proc.devRef (τ := τ) .tc main_arg6
abbrev rArg7 := Proc.devRef (τ := τ) .tc main_arg7
abbrev rArg8 := Proc.devRef (τ := τ) .tc main_arg8
abbrev rArg9 := Proc.devRef (τ := τ) .tc main_arg9
abbrev rArg10 := Proc.devRef (τ := τ) .tc main_arg10
abbrev rArg11 := Proc.devRef (τ := τ) .tc main_arg11
abbrev rArg12 := Proc.devRef (τ := τ) .tc main_arg12
abbrev rArg13 := Proc.devRef (τ := τ) .tc main_arg13
abbrev rArg14 := Proc.devRef (τ := τ) .tc main_arg14
abbrev rArg15 := Proc.devRef (τ := τ) .tc main_arg15
abbrev r1 := Proc.devRef (τ := τ) .tc main_v1
abbrev r3 := Proc.devRef (τ := τ) .tc main_v3
abbrev r10 := Proc.devRef (τ := τ) .tc main_v10
abbrev r12 := Proc.devRef (τ := τ) .tc main_v12
abbrev r20 := Proc.devRef (τ := τ) .tc main_v20
abbrev r37 := Proc.devRef (τ := τ) .tc main_v37
abbrev r65 := Proc.devRef (τ := τ) .tc main_v65
abbrev r87 := Proc.devRef (τ := τ) .tc main_v87
abbrev r95 := Proc.devRef (τ := τ) .tc main_v95
abbrev r112 := Proc.devRef (τ := τ) .tc main_v112
abbrev r140 := Proc.devRef (τ := τ) .tc main_v140
abbrev r162 := Proc.devRef (τ := τ) .tc main_v162
abbrev r170 := Proc.devRef (τ := τ) .tc main_v170
abbrev r187 := Proc.devRef (τ := τ) .tc main_v187
abbrev r215 := Proc.devRef (τ := τ) .tc main_v215
abbrev r237 := Proc.devRef (τ := τ) .tc main_v237
abbrev r245 := Proc.devRef (τ := τ) .tc main_v245
abbrev r262 := Proc.devRef (τ := τ) .tc main_v262
abbrev r290 := Proc.devRef (τ := τ) .tc main_v290
abbrev r291 := Proc.devRef (τ := τ) .tc main_v291

end Cert.Val.RC

end
-- ==== Proof.Val.RefStage.lean ====
/-
The reference network's two per-layer stages as whole-array identities (in exact arithmetic).

Message stage.  For arrays hs [800000,128], ea [800000,1], sc [1,128] and a vector b [128],
    max (hs + (ea · sc + row(b))) 0,
where ea · sc contracts the one-element axis, row(b) repeats b along the rows and the last
zero is the scalar zero repeated over the array, is at every index (e,h)
    max (hs[e,h] + (ea[e,0] * sc[0,h] + b[h])) 0.
Node stage.  For arrays x, ag [50000,128], a scalar c, matrices W1, W2 [128,128] and vectors
b1, b2 [128],
    (max (((c * x + ag) · W1) + row(b1)) 0 · W2) + row(b2)
is at every index (n,j)
    (Σ_k max ((Σ_k' (c * x[n,k'] + ag[n,k']) * W1[k',k]) + b1[k]) 0 * W2[k,j]) + b2[j].
Both right sides are the arrays the two kernels leave, once the bias vectors are given as
1×128 rows and the scalar as a 1×1 array with the same entries.
-/
import proofs.«109328_j13039520711153_1_alg».proof.ReferenceIdeal
import proofs.«109328_j13039520711153_1_alg».proof.Proof.Gen.ReferenceIdeal
import proofs.«109328_j13039520711153_1_alg».proof.Proof.Val.Edge0
import proofs.«109328_j13039520711153_1_alg».proof.Proof.Val.Node1
import Idealize.ShloMosaic.Lib.Pipeline.Value
import Idealize.ShloMosaic.Lib.ValueIdx
import Idealize.ShloMosaic.PureOps.Ideal.Laws

noncomputable section

namespace Cert.Val.Ref

open Cert.ReferenceIdeal
open Idealize.ShloMosaic Idealize.ShloMosaic.TcCoe Idealize.SL.Sem Idealize.ShloMosaic.StableHlo
open Idealize.ShloMosaic.ValueIdx

open Facts₀

/-! ## The contraction [800000,1] · [1,128] at an index -/

theorem dotE_l0 (i : S800000x128.Idx) (q : dot_S800000x1_S1x128_S800000x128_1_0_0_1_n_n.contr.Idx) :
    (dot_S800000x1_S1x128_S800000x128_1_0_0_1_n_n.lhsIdx i q 0).val = (i 0).val := by
  unfold DotDims.lhsIdx
  rw [dif_neg (show ¬(0 : Fin S800000x1.rank) ∈ dot_S800000x1_S1x128_S800000x128_1_0_0_1_n_n.lhsBatch by decide), dif_pos (show (0 : Fin S800000x1.rank) ∈ dot_S800000x1_S1x128_S800000x128_1_0_0_1_n_n.lhsNonContracting by decide)]
  rfl
theorem dotE_l1 (i : S800000x128.Idx) (q : dot_S800000x1_S1x128_S800000x128_1_0_0_1_n_n.contr.Idx) :
    (dot_S800000x1_S1x128_S800000x128_1_0_0_1_n_n.lhsIdx i q 1).val = (q ⟨0, by decide⟩).val :=
  dot_S800000x1_S1x128_S800000x128_1_0_0_1_n_n.lhsIdx_val_of_single rfl i q
theorem dotE_r0 (i : S800000x128.Idx) (q : dot_S800000x1_S1x128_S800000x128_1_0_0_1_n_n.contr.Idx) :
    (dot_S800000x1_S1x128_S800000x128_1_0_0_1_n_n.rhsIdx i q 0).val = (q ⟨0, by decide⟩).val :=
  dot_S800000x1_S1x128_S800000x128_1_0_0_1_n_n.rhsIdx_val_of_single rfl i q
theorem dotE_r1 (i : S800000x128.Idx) (q : dot_S800000x1_S1x128_S800000x128_1_0_0_1_n_n.contr.Idx) :
    (dot_S800000x1_S1x128_S800000x128_1_0_0_1_n_n.rhsIdx i q 1).val = (i 1).val := by
  unfold DotDims.rhsIdx
  rw [dif_neg (show ¬(1 : Fin S1x128.rank) ∈ dot_S800000x1_S1x128_S800000x128_1_0_0_1_n_n.rhsBatch by decide), dif_pos (show (1 : Fin S1x128.rank) ∈ dot_S800000x1_S1x128_S800000x128_1_0_0_1_n_n.rhsNonContracting by decide)]
  rfl

/-- The one-term contraction: entry (e,h) is ea[e,0] * sc[0,h]. -/
theorem dotE_apply (ea : (⟨S800000x1, .f32⟩ : BufTy).Contents (Elt Ideal)) (sc : (⟨S1x128, .f32⟩ : BufTy).Contents (Elt Ideal)) (e : Fin 800000) (h : Fin 128) :
    Host.dotGeneral (F := Ideal) (φ₁ := .f32) (φ₂ := .f32) dot_S800000x1_S1x128_S800000x128_1_0_0_1_n_n none ea sc (ix2 e h)
      = ea (ix2 e (0 : Fin 1)) * sc (ix2 (0 : Fin 1) h) := by
  simp only [Host.dotGeneral]
  rw [Ideal.dotGeneral_apply, ← Equiv.sum_comp (ValueIdx.contrEquiv1 dot_S800000x1_S1x128_S800000x128_1_0_0_1_n_n 1 rfl rfl).symm, Fin.sum_univ_one]
  have hk := ValueIdx.contrEquiv1_symm_val dot_S800000x1_S1x128_S800000x128_1_0_0_1_n_n 1 rfl rfl (0 : Fin 1)
  have el : dot_S800000x1_S1x128_S800000x128_1_0_0_1_n_n.lhsIdx (ix2 e h) ((ValueIdx.contrEquiv1 dot_S800000x1_S1x128_S800000x128_1_0_0_1_n_n 1 rfl rfl).symm (0 : Fin 1)) = ix2 e (0 : Fin 1) := funext fun a => Fin.ext (by
    match a with
    | ⟨0, _⟩ => exact dotE_l0 _ _
    | ⟨1, _⟩ => exact (dotE_l1 _ _).trans hk)
  have er : dot_S800000x1_S1x128_S800000x128_1_0_0_1_n_n.rhsIdx (ix2 e h) ((ValueIdx.contrEquiv1 dot_S800000x1_S1x128_S800000x128_1_0_0_1_n_n 1 rfl rfl).symm (0 : Fin 1)) = ix2 (0 : Fin 1) h := funext fun a => Fin.ext (by
    match a with
    | ⟨0, _⟩ => exact (dotE_r0 _ _).trans hk
    | ⟨1, _⟩ => exact dotE_r1 _ _)
  rw [el, er]

/-! ## The contraction [50000,128] · [128,128] at an index -/

theorem dotN_l0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem dotN_l1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem dotN_r0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem dotN_r1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The matrix product: entry (n,j) is Σ_k x[n,k] * w[k,j]. -/
theorem dotN_apply (x : (⟨S50000x128, .f32⟩ : BufTy).Contents (Elt Ideal)) (w : (⟨S128x128, .f32⟩ : BufTy).Contents (Elt Ideal)) (n : Fin 50000) (j : Fin 128) :
    Host.dotGeneral (F := Ideal) (φ₁ := .f32) (φ₂ := .f32) dot_S50000x128_S128x128_S50000x128_1_0_0_1_n_n none x w (ix2 n j)
      = ∑ k : Fin 128, x (ix2 n k) * w (ix2 k j) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 n j) ((ValueIdx.contrEquiv1 dot_S50000x128_S128x128_S50000x128_1_0_0_1_n_n 128 rfl rfl).symm k) = ix2 n k := funext fun a => Fin.ext (by
    match a with
    | ⟨0, _⟩ => exact dotN_l0 _ _
    | ⟨1, _⟩ => exact (dotN_l1 _ _).trans hk)
  have er : dot_S50000x128_S128x128_S50000x128_1_0_0_1_n_n.rhsIdx (ix2 n j) ((ValueIdx.contrEquiv1 dot_S50000x128_S128x128_S50000x128_1_0_0_1_n_n 128 rfl rfl).symm k) = ix2 k j := funext fun a => Fin.ext (by
    match a with
    | ⟨0, _⟩ => exact (dotN_r0 _ _).trans hk
    | ⟨1, _⟩ => exact dotN_r1 _ _)
  rw [el, er]

/-! ## A vector repeated along the rows, and a scalar repeated over the array, at an index -/

/-- The vector b as a 1×128 row, at (0,h). -/
theorem row1_apply (b : (⟨S128, .f32⟩ : BufTy).Contents (Elt Ideal)) (h : Fin 128) :
    broadcastInDim S1x128 ![1] bcast_S128_S1x128_1 b (ix2 (0 : Fin 1) h) = b (ix1 h) :=
  broadcastInDim_apply _ bcast_S128_S1x128_1 b (ix2 (0 : Fin 1) h) (ix1 h) (fun a => match a with
    | ⟨0, _⟩ => by show h.val = if (128 : Nat) = 1 then 0 else h.val; rw [if_neg (by decide)])

theorem rowE_apply (b : (⟨S128, .f32⟩ : BufTy).Contents (Elt Ideal)) (e : Fin 800000) (h : Fin 128) :
    broadcastInDim S800000x128 ![0, 1] bcast_S1x128_S800000x128_0_1 (broadcastInDim S1x128 ![1] bcast_S128_S1x128_1 b) (ix2 e h)
      = b (ix1 h) :=
  (broadcastInDim_apply _ bcast_S1x128_S800000x128_0_1 _ (ix2 e h) (ix2 (0 : Fin 1) h) (fun a => match a with
    | ⟨0, _⟩ => by show 0 = if (1 : Nat) = 1 then 0 else e.val; rw [if_pos rfl]
    | ⟨1, _⟩ => by show h.val = if (128 : Nat) = 1 then 0 else h.val; rw [if_neg (by decide)])).trans (row1_apply b h)

theorem rowN_apply (b : (⟨S128, .f32⟩ : BufTy).Contents (Elt Ideal)) (n : Fin 50000) (h : Fin 128) :
    broadcastInDim S50000x128 ![0, 1] bcast_S1x128_S50000x128_0_1 (broadcastInDim S1x128 ![1] bcast_S128_S1x128_1 b) (ix2 n h)
      = b (ix1 h) :=
  (broadcastInDim_apply _ bcast_S1x128_S50000x128_0_1 _ (ix2 n h) (ix2 (0 : Fin 1) h) (fun a => match a with
    | ⟨0, _⟩ => by show 0 = if (1 : Nat) = 1 then 0 else n.val; rw [if_pos rfl]
    | ⟨1, _⟩ => by show h.val = if (128 : Nat) = 1 then 0 else h.val; rw [if_neg (by decide)])).trans (row1_apply b h)

theorem scalE_apply (c : (⟨S_, .f32⟩ : BufTy).Contents (Elt Ideal)) (e : Fin 800000) (h : Fin 128) :
    broadcastInDim S800000x128 ![] bcast_S_S800000x128 c (ix2 e h) = c ix0 :=
  broadcastInDim_apply _ bcast_S_S800000x128 c (ix2 e h) ix0 (fun a => a.elim0)

theorem scalN_apply (c : (⟨S_, .f32⟩ : BufTy).Contents (Elt Ideal)) (n : Fin 50000) (h : Fin 128) :
    broadcastInDim S50000x128 ![] bcast_S_S50000x128 c (ix2 n h) = c ix0 :=
  broadcastInDim_apply _ bcast_S_S50000x128 c (ix2 n h) ix0 (fun a => a.elim0)

theorem zeroE_apply (e : Fin 800000) (h : Fin 128) :
    broadcastInDim S800000x128 ![] bcast_S_S800000x128 (constant (F := Ideal) S_ .f32 0x00000000#32) (ix2 e h) = 0 := by
  rw [scalE_apply, constant_apply, Ideal.ofBits_zero_f32]

theorem zeroN_apply (n : Fin 50000) (h : Fin 128) :
    broadcastInDim S50000x128 ![] bcast_S_S50000x128 (constant (F := Ideal) S_ .f32 0x00000000#32) (ix2 n h) = 0 := by
  rw [scalN_apply, constant_apply, Ideal.ofBits_zero_f32]

/-! ## The message stage -/

/-- The message stage of the reference is the message array of the kernel. -/
theorem msg_eq (hs : (⟨S800000x128, .f32⟩ : BufTy).Contents (Elt Ideal)) (ea : (⟨S800000x1, .f32⟩ : BufTy).Contents (Elt Ideal)) (sc : (⟨S1x128, .f32⟩ : BufTy).Contents (Elt Ideal))
    (b : (⟨S128, .f32⟩ : BufTy).Contents (Elt Ideal)) (bi : (⟨S1x128, .f32⟩ : BufTy).Contents (Elt Ideal))
    (hbi : ∀ h : Fin 128, bi (ix2 (0 : Fin 1) h) = b (ix1 h)) :
    maximumf (φ := .f32) (addf (φ := .f32) hs (addf (φ := .f32) (Host.dotGeneral (F := Ideal) (φ₁ := .f32) (φ₂ := .f32) dot_S800000x1_S1x128_S800000x128_1_0_0_1_n_n none ea sc)
        (broadcastInDim S800000x128 ![0, 1] bcast_S1x128_S800000x128_0_1 (broadcastInDim S1x128 ![1] bcast_S128_S1x128_1 b))))
      (broadcastInDim S800000x128 ![] bcast_S_S800000x128 (constant (F := Ideal) S_ .f32 0x00000000#32))
      = Cert.Val.Edge0.M hs ea sc bi := by
  funext i
  obtain ⟨e, h, rfl⟩ : ∃ (e : Fin 800000) (h : Fin 128), i = ix2 e h := ⟨i 0, i 1, eq_ix2 i⟩
  rw [maximumf_apply, addf_apply, addf_apply, dotE_apply, rowE_apply, zeroE_apply, ← hbi h]
  rfl

/-! ## The node stage -/

/-- The hidden layer at (n,k). -/
theorem hidden_apply (x ag : (⟨S50000x128, .f32⟩ : BufTy).Contents (Elt Ideal)) (c : (⟨S_, .f32⟩ : BufTy).Contents (Elt Ideal)) (w1 : (⟨S128x128, .f32⟩ : BufTy).Contents (Elt Ideal)) (b1 : (⟨S128, .f32⟩ : BufTy).Contents (Elt Ideal))
    (n : Fin 50000) (k : Fin 128) :
    maximumf (φ := .f32) (addf (φ := .f32) (Host.dotGeneral (F := Ideal) (φ₁ := .f32) (φ₂ := .f32) dot_S50000x128_S128x128_S50000x128_1_0_0_1_n_n none
          (addf (φ := .f32) (mulf (φ := .f32) (broadcastInDim S50000x128 ![] bcast_S_S50000x128 c) x) ag) w1)
        (broadcastInDim S50000x128 ![0, 1] bcast_S1x128_S50000x128_0_1 (broadcastInDim S1x128 ![1] bcast_S128_S1x128_1 b1)))
      (broadcastInDim S50000x128 ![] bcast_S_S50000x128 (constant (F := Ideal) S_ .f32 0x00000000#32)) (ix2 n k)
      = max ((∑ k' : Fin 128, (c ix0 * x (ix2 n k') + ag (ix2 n k')) * w1 (ix2 k' k)) + b1 (ix1 k)) 0 := by
  rw [maximumf_apply, addf_apply, dotN_apply, rowN_apply, zeroN_apply]
  congr 1
  congr 1
  refine Finset.sum_congr rfl fun k' _ => ?_
  rw [addf_apply, mulf_apply, scalN_apply]

/-- The node stage of the reference is the node map of the kernel. -/
theorem node_eq (x ag : (⟨S50000x128, .f32⟩ : BufTy).Contents (Elt Ideal)) (c : (⟨S_, .f32⟩ : BufTy).Contents (Elt Ideal))
    (c11 : Cert.KernelIdeal.S1x1.Idx → Elt Ideal .f32) (hc : c11 (ix2 (0 : Fin 1) (0 : Fin 1)) = c ix0)
    (w1 w2 : (⟨S128x128, .f32⟩ : BufTy).Contents (Elt Ideal)) (b1 b2 : (⟨S128, .f32⟩ : BufTy).Contents (Elt Ideal)) (b1r b2r : (⟨S1x128, .f32⟩ : BufTy).Contents (Elt Ideal))
    (h1 : ∀ k : Fin 128, b1r (ix2 (0 : Fin 1) k) = b1 (ix1 k)) (h2 : ∀ k : Fin 128, b2r (ix2 (0 : Fin 1) k) = b2 (ix1 k)) :
    addf (φ := .f32) (Host.dotGeneral (F := Ideal) (φ₁ := .f32) (φ₂ := .f32) dot_S50000x128_S128x128_S50000x128_1_0_0_1_n_n none
        (maximumf (φ := .f32) (addf (φ := .f32) (Host.dotGeneral (F := Ideal) (φ₁ := .f32) (φ₂ := .f32) dot_S50000x128_S128x128_S50000x128_1_0_0_1_n_n none
              (addf (φ := .f32) (mulf (φ := .f32) (broadcastInDim S50000x128 ![] bcast_S_S50000x128 c) x) ag) w1)
            (broadcastInDim S50000x128 ![0, 1] bcast_S1x128_S50000x128_0_1 (broadcastInDim S1x128 ![1] bcast_S128_S1x128_1 b1)))
          (broadcastInDim S50000x128 ![] bcast_S_S50000x128 (constant (F := Ideal) S_ .f32 0x00000000#32))) w2)
      (broadcastInDim S50000x128 ![0, 1] bcast_S1x128_S50000x128_0_1 (broadcastInDim S1x128 ![1] bcast_S128_S1x128_1 b2))
      = Cert.Val.Node1.N x ag c11 w1 b1r w2 b2r := by
  funext i
  obtain ⟨n, j, rfl⟩ : ∃ (n : Fin 50000) (j : Fin 128), i = ix2 n j := ⟨i 0, i 1, eq_ix2 i⟩
  rw [addf_apply, dotN_apply, rowN_apply, ← h2 j]
  refine Eq.trans ?_ (rfl : (∑ k : Fin 128, max ((∑ k' : Fin 128, (c11 (ix2 (0 : Fin 1) (0 : Fin 1)) * x (ix2 n k') + ag (ix2 n k')) * w1 (ix2 k' k))
      + b1r (ix2 (0 : Fin 1) k)) 0 * w2 (ix2 k j)) + b2r (ix2 (0 : Fin 1) j) = Cert.Val.Node1.N x ag c11 w1 b1r w2 b2r (ix2 n j))
  congr 1
  refine Finset.sum_congr rfl fun k _ => ?_
  rw [hidden_apply, hc, h1 k]

end Cert.Val.Ref
-- ==== Proof.Val.Rows0.lean ====
/-
  The small reshaped operands of layer 0's two regions: the bias row [1,128] the first region reads is the layer's edge
  bias [128] reshaped (entry (0,h) is entry h); likewise the second region's two bias rows; and its 1x1 block is the
  scalar 1 + eps reshaped.
-/
import proofs.«109328_j13039520711153_1_alg».proof.Proof.KI.Keep
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.Val.Rows0

open Cert.KernelIdeal Cert.KernelIdeal.Gen Cert.KernelIdeal.Fr
open Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

theorem bias_row (h : Fin 128) : (XV1 m c (Pipeline.arrRef spec0 3) : S1x128.Idx → Elt Ideal .f32) (ix2 0 h)
    = (X1 m c (Proc.devRef .tc main_v31) : S128.Idx → Elt Ideal .f32) (ix1 h) := by
  show StableHlo.after hostOps0 (X0 m c) (Proc.devRef .tc main_v32) (ix2 0 h) = StableHlo.after hostOps0 (X0 m c) (Proc.devRef .tc main_v31) (ix1 h)
  after_results_simp
  exact shapeCast_a_1a_apply _ _ 0 h

theorem eps_blk : (XV3 m c (Pipeline.arrRef spec1 2) : S1x1.Idx → Elt Ideal .f32) (ix2 0 0) = (X3 m c (Proc.devRef .tc main_v41) : S_.Idx → Elt Ideal .f32) ix0 := by
  show StableHlo.after hostOps1 (X2 m c) (Proc.devRef .tc main_v52) (ix2 0 0) = StableHlo.after hostOps1 (X2 m c) (Proc.devRef .tc main_v41) ix0
  after_results_simp
  exact shapeCast_apply _ _ _ ix0 (by decide)

theorem b1_row (k : Fin 128) : (XV3 m c (Pipeline.arrRef spec1 4) : S1x128.Idx → Elt Ideal .f32) (ix2 0 k) = (X3 m c (Proc.devRef .tc main_v45) : S128.Idx → Elt Ideal .f32) (ix1 k) := by
  show StableHlo.after hostOps1 (X2 m c) (Proc.devRef .tc main_v50) (ix2 0 k) = StableHlo.after hostOps1 (X2 m c) (Proc.devRef .tc main_v45) (ix1 k)
  after_results_simp
  exact shapeCast_a_1a_apply _ _ 0 k

theorem b2_row (k : Fin 128) : (XV3 m c (Pipeline.arrRef spec1 6) : S1x128.Idx → Elt Ideal .f32) (ix2 0 k) = (X3 m c (Proc.devRef .tc main_v49) : S128.Idx → Elt Ideal .f32) (ix1 k) := by
  show StableHlo.after hostOps1 (X2 m c) (Proc.devRef .tc main_v51) (ix2 0 k) = StableHlo.after hostOps1 (X2 m c) (Proc.devRef .tc main_v49) (ix1 k)
  after_results_simp
  exact shapeCast_a_1a_apply _ _ 0 k

end Cert.Val.Rows0

end
-- ==== Proof.Val.RefKeep.lean ====
/-
  The reference's argument buffers are as launched at every cut of its operation list: no operation writes an argument.
-/
import proofs.«109328_j13039520711153_1_alg».proof.Proof.Val.RefChain

noncomputable section

namespace Cert.Val.RC

open Cert.ReferenceIdeal Cert.ReferenceIdeal.Gen Cert.ReferenceIdeal.ValueP
open Idealize.ShloMosaic Idealize.ShloMosaic.TcCoe Idealize.SL.Sem Idealize.ShloMosaic.StableHlo

variable (m : (ℓ : Loc nD τ sig) → Buf (Elt Ideal) ℓ) (c : Dev nD)

theorem yK1_2 : Y1 m c rArg2 = Y0 m c rArg2 := by unfold Y1; after_results_simp
theorem yK1_3 : Y1 m c rArg3 = Y0 m c rArg3 := by unfold Y1; after_results_simp
theorem yK1_4 : Y1 m c rArg4 = Y0 m c rArg4 := by unfold Y1; after_results_simp
theorem yK1_5 : Y1 m c rArg5 = Y0 m c rArg5 := by unfold Y1; after_results_simp
theorem yK1_6 : Y1 m c rArg6 = Y0 m c rArg6 := by unfold Y1; after_results_simp

/-! ## One chunk leaves an argument as it was

For any contents V, the fold of chunk i over V has argument j where V has it: no operation of the chunk writes it. -/
theorem keep0_0 (V : Valuation τ sig (Elt Ideal)) : after opsC0 V rArg0 = V rArg0 := by after_results_simp
theorem keep0_1 (V : Valuation τ sig (Elt Ideal)) : after opsC0 V rArg1 = V rArg1 := by after_results_simp
theorem keep0_2 (V : Valuation τ sig (Elt Ideal)) : after opsC0 V rArg2 = V rArg2 := by after_results_simp
theorem keep0_3 (V : Valuation τ sig (Elt Ideal)) : after opsC0 V rArg3 = V rArg3 := by after_results_simp
theorem keep0_4 (V : Valuation τ sig (Elt Ideal)) : after opsC0 V rArg4 = V rArg4 := by after_results_simp
theorem keep0_5 (V : Valuation τ sig (Elt Ideal)) : after opsC0 V rArg5 = V rArg5 := by after_results_simp
theorem keep0_6 (V : Valuation τ sig (Elt Ideal)) : after opsC0 V rArg6 = V rArg6 := by after_results_simp
theorem keep0_7 (V : Valuation τ sig (Elt Ideal)) : after opsC0 V rArg7 = V rArg7 := by after_results_simp
theorem keep0_8 (V : Valuation τ sig (Elt Ideal)) : after opsC0 V rArg8 = V rArg8 := by after_results_simp
theorem keep0_9 (V : Valuation τ sig (Elt Ideal)) : after opsC0 V rArg9 = V rArg9 := by after_results_simp
theorem keep0_10 (V : Valuation τ sig (Elt Ideal)) : after opsC0 V rArg10 = V rArg10 := by after_results_simp
theorem keep0_11 (V : Valuation τ sig (Elt Ideal)) : after opsC0 V rArg11 = V rArg11 := by after_results_simp
theorem keep0_12 (V : Valuation τ sig (Elt Ideal)) : after opsC0 V rArg12 = V rArg12 := by after_results_simp
theorem keep0_13 (V : Valuation τ sig (Elt Ideal)) : after opsC0 V rArg13 = V rArg13 := by after_results_simp
theorem keep0_14 (V : Valuation τ sig (Elt Ideal)) : after opsC0 V rArg14 = V rArg14 := by after_results_simp
theorem keep0_15 (V : Valuation τ sig (Elt Ideal)) : after opsC0 V rArg15 = V rArg15 := by after_results_simp
theorem keep1_0 (V : Valuation τ sig (Elt Ideal)) : after opsC1 V rArg0 = V rArg0 := by after_results_simp
theorem keep1_1 (V : Valuation τ sig (Elt Ideal)) : after opsC1 V rArg1 = V rArg1 := by after_results_simp
theorem keep1_2 (V : Valuation τ sig (Elt Ideal)) : after opsC1 V rArg2 = V rArg2 := by after_results_simp
theorem keep1_3 (V : Valuation τ sig (Elt Ideal)) : after opsC1 V rArg3 = V rArg3 := by after_results_simp
theorem keep1_4 (V : Valuation τ sig (Elt Ideal)) : after opsC1 V rArg4 = V rArg4 := by after_results_simp
theorem keep1_5 (V : Valuation τ sig (Elt Ideal)) : after opsC1 V rArg5 = V rArg5 := by after_results_simp
theorem keep1_6 (V : Valuation τ sig (Elt Ideal)) : after opsC1 V rArg6 = V rArg6 := by after_results_simp
theorem keep1_7 (V : Valuation τ sig (Elt Ideal)) : after opsC1 V rArg7 = V rArg7 := by after_results_simp
theorem keep1_8 (V : Valuation τ sig (Elt Ideal)) : after opsC1 V rArg8 = V rArg8 := by after_results_simp
theorem keep1_9 (V : Valuation τ sig (Elt Ideal)) : after opsC1 V rArg9 = V rArg9 := by after_results_simp
theorem keep1_10 (V : Valuation τ sig (Elt Ideal)) : after opsC1 V rArg10 = V rArg10 := by after_results_simp
theorem keep1_11 (V : Valuation τ sig (Elt Ideal)) : after opsC1 V rArg11 = V rArg11 := by after_results_simp
theorem keep1_12 (V : Valuation τ sig (Elt Ideal)) : after opsC1 V rArg12 = V rArg12 := by after_results_simp
theorem keep1_13 (V : Valuation τ sig (Elt Ideal)) : after opsC1 V rArg13 = V rArg13 := by after_results_simp
theorem keep1_14 (V : Valuation τ sig (Elt Ideal)) : after opsC1 V rArg14 = V rArg14 := by after_results_simp
theorem keep1_15 (V : Valuation τ sig (Elt Ideal)) : after opsC1 V rArg15 = V rArg15 := by after_results_simp
theorem keep2_0 (V : Valuation τ sig (Elt Ideal)) : after opsC2 V rArg0 = V rArg0 := by after_results_simp
theorem keep2_1 (V : Valuation τ sig (Elt Ideal)) : after opsC2 V rArg1 = V rArg1 := by after_results_simp
theorem keep2_2 (V : Valuation τ sig (Elt Ideal)) : after opsC2 V rArg2 = V rArg2 := by after_results_simp
theorem keep2_3 (V : Valuation τ sig (Elt Ideal)) : after opsC2 V rArg3 = V rArg3 := by after_results_simp
theorem keep2_4 (V : Valuation τ sig (Elt Ideal)) : after opsC2 V rArg4 = V rArg4 := by after_results_simp
theorem keep2_5 (V : Valuation τ sig (Elt Ideal)) : after opsC2 V rArg5 = V rArg5 := by after_results_simp
theorem keep2_6 (V : Valuation τ sig (Elt Ideal)) : after opsC2 V rArg6 = V rArg6 := by after_results_simp
theorem keep2_7 (V : Valuation τ sig (Elt Ideal)) : after opsC2 V rArg7 = V rArg7 := by after_results_simp
theorem keep2_8 (V : Valuation τ sig (Elt Ideal)) : after opsC2 V rArg8 = V rArg8 := by after_results_simp
theorem keep2_9 (V : Valuation τ sig (Elt Ideal)) : after opsC2 V rArg9 = V rArg9 := by after_results_simp
theorem keep2_10 (V : Valuation τ sig (Elt Ideal)) : after opsC2 V rArg10 = V rArg10 := by after_results_simp
theorem keep2_11 (V : Valuation τ sig (Elt Ideal)) : after opsC2 V rArg11 = V rArg11 := by after_results_simp
theorem keep2_12 (V : Valuation τ sig (Elt Ideal)) : after opsC2 V rArg12 = V rArg12 := by after_results_simp
theorem keep2_13 (V : Valuation τ sig (Elt Ideal)) : after opsC2 V rArg13 = V rArg13 := by after_results_simp
theorem keep2_14 (V : Valuation τ sig (Elt Ideal)) : after opsC2 V rArg14 = V rArg14 := by after_results_simp
theorem keep2_15 (V : Valuation τ sig (Elt Ideal)) : after opsC2 V rArg15 = V rArg15 := by after_results_simp
theorem keep3_0 (V : Valuation τ sig (Elt Ideal)) : after opsC3 V rArg0 = V rArg0 := by after_results_simp
theorem keep3_1 (V : Valuation τ sig (Elt Ideal)) : after opsC3 V rArg1 = V rArg1 := by after_results_simp
theorem keep3_2 (V : Valuation τ sig (Elt Ideal)) : after opsC3 V rArg2 = V rArg2 := by after_results_simp
theorem keep3_3 (V : Valuation τ sig (Elt Ideal)) : after opsC3 V rArg3 = V rArg3 := by after_results_simp
theorem keep3_4 (V : Valuation τ sig (Elt Ideal)) : after opsC3 V rArg4 = V rArg4 := by after_results_simp
theorem keep3_5 (V : Valuation τ sig (Elt Ideal)) : after opsC3 V rArg5 = V rArg5 := by after_results_simp
theorem keep3_6 (V : Valuation τ sig (Elt Ideal)) : after opsC3 V rArg6 = V rArg6 := by after_results_simp
theorem keep3_7 (V : Valuation τ sig (Elt Ideal)) : after opsC3 V rArg7 = V rArg7 := by after_results_simp
theorem keep3_8 (V : Valuation τ sig (Elt Ideal)) : after opsC3 V rArg8 = V rArg8 := by after_results_simp
theorem keep3_9 (V : Valuation τ sig (Elt Ideal)) : after opsC3 V rArg9 = V rArg9 := by after_results_simp
theorem keep3_10 (V : Valuation τ sig (Elt Ideal)) : after opsC3 V rArg10 = V rArg10 := by after_results_simp
theorem keep3_11 (V : Valuation τ sig (Elt Ideal)) : after opsC3 V rArg11 = V rArg11 := by after_results_simp
theorem keep3_12 (V : Valuation τ sig (Elt Ideal)) : after opsC3 V rArg12 = V rArg12 := by after_results_simp
theorem keep3_13 (V : Valuation τ sig (Elt Ideal)) : after opsC3 V rArg13 = V rArg13 := by after_results_simp
theorem keep3_14 (V : Valuation τ sig (Elt Ideal)) : after opsC3 V rArg14 = V rArg14 := by after_results_simp
theorem keep3_15 (V : Valuation τ sig (Elt Ideal)) : after opsC3 V rArg15 = V rArg15 := by after_results_simp
theorem keep4_0 (V : Valuation τ sig (Elt Ideal)) : after opsC4 V rArg0 = V rArg0 := by after_results_simp
theorem keep4_1 (V : Valuation τ sig (Elt Ideal)) : after opsC4 V rArg1 = V rArg1 := by after_results_simp
theorem keep4_2 (V : Valuation τ sig (Elt Ideal)) : after opsC4 V rArg2 = V rArg2 := by after_results_simp
theorem keep4_3 (V : Valuation τ sig (Elt Ideal)) : after opsC4 V rArg3 = V rArg3 := by after_results_simp
theorem keep4_4 (V : Valuation τ sig (Elt Ideal)) : after opsC4 V rArg4 = V rArg4 := by after_results_simp
theorem keep4_5 (V : Valuation τ sig (Elt Ideal)) : after opsC4 V rArg5 = V rArg5 := by after_results_simp
theorem keep4_6 (V : Valuation τ sig (Elt Ideal)) : after opsC4 V rArg6 = V rArg6 := by after_results_simp
theorem keep4_7 (V : Valuation τ sig (Elt Ideal)) : after opsC4 V rArg7 = V rArg7 := by after_results_simp
theorem keep4_8 (V : Valuation τ sig (Elt Ideal)) : after opsC4 V rArg8 = V rArg8 := by after_results_simp
theorem keep4_9 (V : Valuation τ sig (Elt Ideal)) : after opsC4 V rArg9 = V rArg9 := by after_results_simp
theorem keep4_10 (V : Valuation τ sig (Elt Ideal)) : after opsC4 V rArg10 = V rArg10 := by after_results_simp
theorem keep4_11 (V : Valuation τ sig (Elt Ideal)) : after opsC4 V rArg11 = V rArg11 := by after_results_simp
theorem keep4_12 (V : Valuation τ sig (Elt Ideal)) : after opsC4 V rArg12 = V rArg12 := by after_results_simp
theorem keep4_13 (V : Valuation τ sig (Elt Ideal)) : after opsC4 V rArg13 = V rArg13 := by after_results_simp
theorem keep4_14 (V : Valuation τ sig (Elt Ideal)) : after opsC4 V rArg14 = V rArg14 := by after_results_simp
theorem keep4_15 (V : Valuation τ sig (Elt Ideal)) : after opsC4 V rArg15 = V rArg15 := by after_results_simp
theorem keep5_0 (V : Valuation τ sig (Elt Ideal)) : after opsC5 V rArg0 = V rArg0 := by after_results_simp
theorem keep5_1 (V : Valuation τ sig (Elt Ideal)) : after opsC5 V rArg1 = V rArg1 := by after_results_simp
theorem keep5_2 (V : Valuation τ sig (Elt Ideal)) : after opsC5 V rArg2 = V rArg2 := by after_results_simp
theorem keep5_3 (V : Valuation τ sig (Elt Ideal)) : after opsC5 V rArg3 = V rArg3 := by after_results_simp
theorem keep5_4 (V : Valuation τ sig (Elt Ideal)) : after opsC5 V rArg4 = V rArg4 := by after_results_simp
theorem keep5_5 (V : Valuation τ sig (Elt Ideal)) : after opsC5 V rArg5 = V rArg5 := by after_results_simp
theorem keep5_6 (V : Valuation τ sig (Elt Ideal)) : after opsC5 V rArg6 = V rArg6 := by after_results_simp
theorem keep5_7 (V : Valuation τ sig (Elt Ideal)) : after opsC5 V rArg7 = V rArg7 := by after_results_simp
theorem keep5_8 (V : Valuation τ sig (Elt Ideal)) : after opsC5 V rArg8 = V rArg8 := by after_results_simp
theorem keep5_9 (V : Valuation τ sig (Elt Ideal)) : after opsC5 V rArg9 = V rArg9 := by after_results_simp
theorem keep5_10 (V : Valuation τ sig (Elt Ideal)) : after opsC5 V rArg10 = V rArg10 := by after_results_simp
theorem keep5_11 (V : Valuation τ sig (Elt Ideal)) : after opsC5 V rArg11 = V rArg11 := by after_results_simp
theorem keep5_12 (V : Valuation τ sig (Elt Ideal)) : after opsC5 V rArg12 = V rArg12 := by after_results_simp
theorem keep5_13 (V : Valuation τ sig (Elt Ideal)) : after opsC5 V rArg13 = V rArg13 := by after_results_simp
theorem keep5_14 (V : Valuation τ sig (Elt Ideal)) : after opsC5 V rArg14 = V rArg14 := by after_results_simp
theorem keep5_15 (V : Valuation τ sig (Elt Ideal)) : after opsC5 V rArg15 = V rArg15 := by after_results_simp
theorem keep6_0 (V : Valuation τ sig (Elt Ideal)) : after opsC6 V rArg0 = V rArg0 := by after_results_simp
theorem keep6_1 (V : Valuation τ sig (Elt Ideal)) : after opsC6 V rArg1 = V rArg1 := by after_results_simp
theorem keep6_2 (V : Valuation τ sig (Elt Ideal)) : after opsC6 V rArg2 = V rArg2 := by after_results_simp
theorem keep6_3 (V : Valuation τ sig (Elt Ideal)) : after opsC6 V rArg3 = V rArg3 := by after_results_simp
theorem keep6_4 (V : Valuation τ sig (Elt Ideal)) : after opsC6 V rArg4 = V rArg4 := by after_results_simp
theorem keep6_5 (V : Valuation τ sig (Elt Ideal)) : after opsC6 V rArg5 = V rArg5 := by after_results_simp
theorem keep6_6 (V : Valuation τ sig (Elt Ideal)) : after opsC6 V rArg6 = V rArg6 := by after_results_simp
theorem keep6_7 (V : Valuation τ sig (Elt Ideal)) : after opsC6 V rArg7 = V rArg7 := by after_results_simp
theorem keep6_8 (V : Valuation τ sig (Elt Ideal)) : after opsC6 V rArg8 = V rArg8 := by after_results_simp
theorem keep6_9 (V : Valuation τ sig (Elt Ideal)) : after opsC6 V rArg9 = V rArg9 := by after_results_simp
theorem keep6_10 (V : Valuation τ sig (Elt Ideal)) : after opsC6 V rArg10 = V rArg10 := by after_results_simp
theorem keep6_11 (V : Valuation τ sig (Elt Ideal)) : after opsC6 V rArg11 = V rArg11 := by after_results_simp
theorem keep6_12 (V : Valuation τ sig (Elt Ideal)) : after opsC6 V rArg12 = V rArg12 := by after_results_simp
theorem keep6_13 (V : Valuation τ sig (Elt Ideal)) : after opsC6 V rArg13 = V rArg13 := by after_results_simp
theorem keep6_14 (V : Valuation τ sig (Elt Ideal)) : after opsC6 V rArg14 = V rArg14 := by after_results_simp
theorem keep6_15 (V : Valuation τ sig (Elt Ideal)) : after opsC6 V rArg15 = V rArg15 := by after_results_simp
theorem keep7_0 (V : Valuation τ sig (Elt Ideal)) : after opsC7 V rArg0 = V rArg0 := by after_results_simp
theorem keep7_1 (V : Valuation τ sig (Elt Ideal)) : after opsC7 V rArg1 = V rArg1 := by after_results_simp
theorem keep7_2 (V : Valuation τ sig (Elt Ideal)) : after opsC7 V rArg2 = V rArg2 := by after_results_simp
theorem keep7_3 (V : Valuation τ sig (Elt Ideal)) : after opsC7 V rArg3 = V rArg3 := by after_results_simp
theorem keep7_4 (V : Valuation τ sig (Elt Ideal)) : after opsC7 V rArg4 = V rArg4 := by after_results_simp
theorem keep7_5 (V : Valuation τ sig (Elt Ideal)) : after opsC7 V rArg5 = V rArg5 := by after_results_simp
theorem keep7_6 (V : Valuation τ sig (Elt Ideal)) : after opsC7 V rArg6 = V rArg6 := by after_results_simp
theorem keep7_7 (V : Valuation τ sig (Elt Ideal)) : after opsC7 V rArg7 = V rArg7 := by after_results_simp
theorem keep7_8 (V : Valuation τ sig (Elt Ideal)) : after opsC7 V rArg8 = V rArg8 := by after_results_simp
theorem keep7_9 (V : Valuation τ sig (Elt Ideal)) : after opsC7 V rArg9 = V rArg9 := by after_results_simp
theorem keep7_10 (V : Valuation τ sig (Elt Ideal)) : after opsC7 V rArg10 = V rArg10 := by after_results_simp
theorem keep7_11 (V : Valuation τ sig (Elt Ideal)) : after opsC7 V rArg11 = V rArg11 := by after_results_simp
theorem keep7_12 (V : Valuation τ sig (Elt Ideal)) : after opsC7 V rArg12 = V rArg12 := by after_results_simp
theorem keep7_13 (V : Valuation τ sig (Elt Ideal)) : after opsC7 V rArg13 = V rArg13 := by after_results_simp
theorem keep7_14 (V : Valuation τ sig (Elt Ideal)) : after opsC7 V rArg14 = V rArg14 := by after_results_simp
theorem keep7_15 (V : Valuation τ sig (Elt Ideal)) : after opsC7 V rArg15 = V rArg15 := by after_results_simp
theorem keep8_0 (V : Valuation τ sig (Elt Ideal)) : after opsC8 V rArg0 = V rArg0 := by after_results_simp
theorem keep8_1 (V : Valuation τ sig (Elt Ideal)) : after opsC8 V rArg1 = V rArg1 := by after_results_simp
theorem keep8_2 (V : Valuation τ sig (Elt Ideal)) : after opsC8 V rArg2 = V rArg2 := by after_results_simp
theorem keep8_3 (V : Valuation τ sig (Elt Ideal)) : after opsC8 V rArg3 = V rArg3 := by after_results_simp
theorem keep8_4 (V : Valuation τ sig (Elt Ideal)) : after opsC8 V rArg4 = V rArg4 := by after_results_simp
theorem keep8_5 (V : Valuation τ sig (Elt Ideal)) : after opsC8 V rArg5 = V rArg5 := by after_results_simp
theorem keep8_6 (V : Valuation τ sig (Elt Ideal)) : after opsC8 V rArg6 = V rArg6 := by after_results_simp
theorem keep8_7 (V : Valuation τ sig (Elt Ideal)) : after opsC8 V rArg7 = V rArg7 := by after_results_simp
theorem keep8_8 (V : Valuation τ sig (Elt Ideal)) : after opsC8 V rArg8 = V rArg8 := by after_results_simp
theorem keep8_9 (V : Valuation τ sig (Elt Ideal)) : after opsC8 V rArg9 = V rArg9 := by after_results_simp
theorem keep8_10 (V : Valuation τ sig (Elt Ideal)) : after opsC8 V rArg10 = V rArg10 := by after_results_simp
theorem keep8_11 (V : Valuation τ sig (Elt Ideal)) : after opsC8 V rArg11 = V rArg11 := by after_results_simp
theorem keep8_12 (V : Valuation τ sig (Elt Ideal)) : after opsC8 V rArg12 = V rArg12 := by after_results_simp
theorem keep8_13 (V : Valuation τ sig (Elt Ideal)) : after opsC8 V rArg13 = V rArg13 := by after_results_simp
theorem keep8_14 (V : Valuation τ sig (Elt Ideal)) : after opsC8 V rArg14 = V rArg14 := by after_results_simp
theorem keep8_15 (V : Valuation τ sig (Elt Ideal)) : after opsC8 V rArg15 = V rArg15 := by after_results_simp

/-! ## The arguments at the cuts -/
theorem yK2_1 : Y2 m c rArg1 = Y0 m c rArg1 :=
  (keep1_1 (Y1 m c)).trans <| keep0_1 (Y0 m c)
theorem yK2_7 : Y2 m c rArg7 = Y0 m c rArg7 :=
  (keep1_7 (Y1 m c)).trans <| keep0_7 (Y0 m c)
theorem yK2_8 : Y2 m c rArg8 = Y0 m c rArg8 :=
  (keep1_8 (Y1 m c)).trans <| keep0_8 (Y0 m c)
theorem yK2_9 : Y2 m c rArg9 = Y0 m c rArg9 :=
  (keep1_9 (Y1 m c)).trans <| keep0_9 (Y0 m c)
theorem yK2_10 : Y2 m c rArg10 = Y0 m c rArg10 :=
  (keep1_10 (Y1 m c)).trans <| keep0_10 (Y0 m c)
theorem yK2_11 : Y2 m c rArg11 = Y0 m c rArg11 :=
  (keep1_11 (Y1 m c)).trans <| keep0_11 (Y0 m c)
theorem yK2_12 : Y2 m c rArg12 = Y0 m c rArg12 :=
  (keep1_12 (Y1 m c)).trans <| keep0_12 (Y0 m c)
theorem yK2_15 : Y2 m c rArg15 = Y0 m c rArg15 :=
  (keep1_15 (Y1 m c)).trans <| keep0_15 (Y0 m c)
theorem yK3_2 : Y3 m c rArg2 = Y0 m c rArg2 :=
  (keep2_2 (Y2 m c)).trans <| (keep1_2 (Y1 m c)).trans <| keep0_2 (Y0 m c)
theorem yK3_3 : Y3 m c rArg3 = Y0 m c rArg3 :=
  (keep2_3 (Y2 m c)).trans <| (keep1_3 (Y1 m c)).trans <| keep0_3 (Y0 m c)
theorem yK3_4 : Y3 m c rArg4 = Y0 m c rArg4 :=
  (keep2_4 (Y2 m c)).trans <| (keep1_4 (Y1 m c)).trans <| keep0_4 (Y0 m c)
theorem yK3_5 : Y3 m c rArg5 = Y0 m c rArg5 :=
  (keep2_5 (Y2 m c)).trans <| (keep1_5 (Y1 m c)).trans <| keep0_5 (Y0 m c)
theorem yK3_6 : Y3 m c rArg6 = Y0 m c rArg6 :=
  (keep2_6 (Y2 m c)).trans <| (keep1_6 (Y1 m c)).trans <| keep0_6 (Y0 m c)
theorem yK4_1 : Y4 m c rArg1 = Y0 m c rArg1 :=
  (keep3_1 (Y3 m c)).trans <| (keep2_1 (Y2 m c)).trans <| (keep1_1 (Y1 m c)).trans <| keep0_1 (Y0 m c)
theorem yK4_7 : Y4 m c rArg7 = Y0 m c rArg7 :=
  (keep3_7 (Y3 m c)).trans <| (keep2_7 (Y2 m c)).trans <| (keep1_7 (Y1 m c)).trans <| keep0_7 (Y0 m c)
theorem yK4_8 : Y4 m c rArg8 = Y0 m c rArg8 :=
  (keep3_8 (Y3 m c)).trans <| (keep2_8 (Y2 m c)).trans <| (keep1_8 (Y1 m c)).trans <| keep0_8 (Y0 m c)
theorem yK4_9 : Y4 m c rArg9 = Y0 m c rArg9 :=
  (keep3_9 (Y3 m c)).trans <| (keep2_9 (Y2 m c)).trans <| (keep1_9 (Y1 m c)).trans <| keep0_9 (Y0 m c)
theorem yK4_10 : Y4 m c rArg10 = Y0 m c rArg10 :=
  (keep3_10 (Y3 m c)).trans <| (keep2_10 (Y2 m c)).trans <| (keep1_10 (Y1 m c)).trans <| keep0_10 (Y0 m c)
theorem yK4_11 : Y4 m c rArg11 = Y0 m c rArg11 :=
  (keep3_11 (Y3 m c)).trans <| (keep2_11 (Y2 m c)).trans <| (keep1_11 (Y1 m c)).trans <| keep0_11 (Y0 m c)
theorem yK4_12 : Y4 m c rArg12 = Y0 m c rArg12 :=
  (keep3_12 (Y3 m c)).trans <| (keep2_12 (Y2 m c)).trans <| (keep1_12 (Y1 m c)).trans <| keep0_12 (Y0 m c)
theorem yK4_15 : Y4 m c rArg15 = Y0 m c rArg15 :=
  (keep3_15 (Y3 m c)).trans <| (keep2_15 (Y2 m c)).trans <| (keep1_15 (Y1 m c)).trans <| keep0_15 (Y0 m c)
theorem yK5_2 : Y5 m c rArg2 = Y0 m c rArg2 :=
  (keep4_2 (Y4 m c)).trans <| (keep3_2 (Y3 m c)).trans <| (keep2_2 (Y2 m c)).trans <| (keep1_2 (Y1 m c)).trans <| keep0_2 (Y0 m c)
theorem yK5_3 : Y5 m c rArg3 = Y0 m c rArg3 :=
  (keep4_3 (Y4 m c)).trans <| (keep3_3 (Y3 m c)).trans <| (keep2_3 (Y2 m c)).trans <| (keep1_3 (Y1 m c)).trans <| keep0_3 (Y0 m c)
theorem yK5_4 : Y5 m c rArg4 = Y0 m c rArg4 :=
  (keep4_4 (Y4 m c)).trans <| (keep3_4 (Y3 m c)).trans <| (keep2_4 (Y2 m c)).trans <| (keep1_4 (Y1 m c)).trans <| keep0_4 (Y0 m c)
theorem yK5_5 : Y5 m c rArg5 = Y0 m c rArg5 :=
  (keep4_5 (Y4 m c)).trans <| (keep3_5 (Y3 m c)).trans <| (keep2_5 (Y2 m c)).trans <| (keep1_5 (Y1 m c)).trans <| keep0_5 (Y0 m c)
theorem yK5_6 : Y5 m c rArg6 = Y0 m c rArg6 :=
  (keep4_6 (Y4 m c)).trans <| (keep3_6 (Y3 m c)).trans <| (keep2_6 (Y2 m c)).trans <| (keep1_6 (Y1 m c)).trans <| keep0_6 (Y0 m c)
theorem yK6_1 : Y6 m c rArg1 = Y0 m c rArg1 :=
  (keep5_1 (Y5 m c)).trans <| (keep4_1 (Y4 m c)).trans <| (keep3_1 (Y3 m c)).trans <| (keep2_1 (Y2 m c)).trans <| (keep1_1 (Y1 m c)).trans <| keep0_1 (Y0 m c)
theorem yK6_7 : Y6 m c rArg7 = Y0 m c rArg7 :=
  (keep5_7 (Y5 m c)).trans <| (keep4_7 (Y4 m c)).trans <| (keep3_7 (Y3 m c)).trans <| (keep2_7 (Y2 m c)).trans <| (keep1_7 (Y1 m c)).trans <| keep0_7 (Y0 m c)
theorem yK6_8 : Y6 m c rArg8 = Y0 m c rArg8 :=
  (keep5_8 (Y5 m c)).trans <| (keep4_8 (Y4 m c)).trans <| (keep3_8 (Y3 m c)).trans <| (keep2_8 (Y2 m c)).trans <| (keep1_8 (Y1 m c)).trans <| keep0_8 (Y0 m c)
theorem yK6_9 : Y6 m c rArg9 = Y0 m c rArg9 :=
  (keep5_9 (Y5 m c)).trans <| (keep4_9 (Y4 m c)).trans <| (keep3_9 (Y3 m c)).trans <| (keep2_9 (Y2 m c)).trans <| (keep1_9 (Y1 m c)).trans <| keep0_9 (Y0 m c)
theorem yK6_10 : Y6 m c rArg10 = Y0 m c rArg10 :=
  (keep5_10 (Y5 m c)).trans <| (keep4_10 (Y4 m c)).trans <| (keep3_10 (Y3 m c)).trans <| (keep2_10 (Y2 m c)).trans <| (keep1_10 (Y1 m c)).trans <| keep0_10 (Y0 m c)
theorem yK6_11 : Y6 m c rArg11 = Y0 m c rArg11 :=
  (keep5_11 (Y5 m c)).trans <| (keep4_11 (Y4 m c)).trans <| (keep3_11 (Y3 m c)).trans <| (keep2_11 (Y2 m c)).trans <| (keep1_11 (Y1 m c)).trans <| keep0_11 (Y0 m c)
theorem yK6_12 : Y6 m c rArg12 = Y0 m c rArg12 :=
  (keep5_12 (Y5 m c)).trans <| (keep4_12 (Y4 m c)).trans <| (keep3_12 (Y3 m c)).trans <| (keep2_12 (Y2 m c)).trans <| (keep1_12 (Y1 m c)).trans <| keep0_12 (Y0 m c)
theorem yK6_15 : Y6 m c rArg15 = Y0 m c rArg15 :=
  (keep5_15 (Y5 m c)).trans <| (keep4_15 (Y4 m c)).trans <| (keep3_15 (Y3 m c)).trans <| (keep2_15 (Y2 m c)).trans <| (keep1_15 (Y1 m c)).trans <| keep0_15 (Y0 m c)
theorem yK7_2 : Y7 m c rArg2 = Y0 m c rArg2 :=
  (keep6_2 (Y6 m c)).trans <| (keep5_2 (Y5 m c)).trans <| (keep4_2 (Y4 m c)).trans <| (keep3_2 (Y3 m c)).trans <| (keep2_2 (Y2 m c)).trans <| (keep1_2 (Y1 m c)).trans <| keep0_2 (Y0 m c)
theorem yK7_3 : Y7 m c rArg3 = Y0 m c rArg3 :=
  (keep6_3 (Y6 m c)).trans <| (keep5_3 (Y5 m c)).trans <| (keep4_3 (Y4 m c)).trans <| (keep3_3 (Y3 m c)).trans <| (keep2_3 (Y2 m c)).trans <| (keep1_3 (Y1 m c)).trans <| keep0_3 (Y0 m c)
theorem yK7_4 : Y7 m c rArg4 = Y0 m c rArg4 :=
  (keep6_4 (Y6 m c)).trans <| (keep5_4 (Y5 m c)).trans <| (keep4_4 (Y4 m c)).trans <| (keep3_4 (Y3 m c)).trans <| (keep2_4 (Y2 m c)).trans <| (keep1_4 (Y1 m c)).trans <| keep0_4 (Y0 m c)
theorem yK7_5 : Y7 m c rArg5 = Y0 m c rArg5 :=
  (keep6_5 (Y6 m c)).trans <| (keep5_5 (Y5 m c)).trans <| (keep4_5 (Y4 m c)).trans <| (keep3_5 (Y3 m c)).trans <| (keep2_5 (Y2 m c)).trans <| (keep1_5 (Y1 m c)).trans <| keep0_5 (Y0 m c)
theorem yK7_6 : Y7 m c rArg6 = Y0 m c rArg6 :=
  (keep6_6 (Y6 m c)).trans <| (keep5_6 (Y5 m c)).trans <| (keep4_6 (Y4 m c)).trans <| (keep3_6 (Y3 m c)).trans <| (keep2_6 (Y2 m c)).trans <| (keep1_6 (Y1 m c)).trans <| keep0_6 (Y0 m c)
theorem yK9_0 : Y9 m c rArg0 = Y0 m c rArg0 :=
  (keep8_0 (Y8 m c)).trans <| (keep7_0 (Y7 m c)).trans <| (keep6_0 (Y6 m c)).trans <| (keep5_0 (Y5 m c)).trans <| (keep4_0 (Y4 m c)).trans <| (keep3_0 (Y3 m c)).trans <| (keep2_0 (Y2 m c)).trans <| (keep1_0 (Y1 m c)).trans <| keep0_0 (Y0 m c)
theorem yK9_1 : Y9 m c rArg1 = Y0 m c rArg1 :=
  (keep8_1 (Y8 m c)).trans <| (keep7_1 (Y7 m c)).trans <| (keep6_1 (Y6 m c)).trans <| (keep5_1 (Y5 m c)).trans <| (keep4_1 (Y4 m c)).trans <| (keep3_1 (Y3 m c)).trans <| (keep2_1 (Y2 m c)).trans <| (keep1_1 (Y1 m c)).trans <| keep0_1 (Y0 m c)
theorem yK9_2 : Y9 m c rArg2 = Y0 m c rArg2 :=
  (keep8_2 (Y8 m c)).trans <| (keep7_2 (Y7 m c)).trans <| (keep6_2 (Y6 m c)).trans <| (keep5_2 (Y5 m c)).trans <| (keep4_2 (Y4 m c)).trans <| (keep3_2 (Y3 m c)).trans <| (keep2_2 (Y2 m c)).trans <| (keep1_2 (Y1 m c)).trans <| keep0_2 (Y0 m c)
theorem yK9_3 : Y9 m c rArg3 = Y0 m c rArg3 :=
  (keep8_3 (Y8 m c)).trans <| (keep7_3 (Y7 m c)).trans <| (keep6_3 (Y6 m c)).trans <| (keep5_3 (Y5 m c)).trans <| (keep4_3 (Y4 m c)).trans <| (keep3_3 (Y3 m c)).trans <| (keep2_3 (Y2 m c)).trans <| (keep1_3 (Y1 m c)).trans <| keep0_3 (Y0 m c)
theorem yK9_4 : Y9 m c rArg4 = Y0 m c rArg4 :=
  (keep8_4 (Y8 m c)).trans <| (keep7_4 (Y7 m c)).trans <| (keep6_4 (Y6 m c)).trans <| (keep5_4 (Y5 m c)).trans <| (keep4_4 (Y4 m c)).trans <| (keep3_4 (Y3 m c)).trans <| (keep2_4 (Y2 m c)).trans <| (keep1_4 (Y1 m c)).trans <| keep0_4 (Y0 m c)
theorem yK9_5 : Y9 m c rArg5 = Y0 m c rArg5 :=
  (keep8_5 (Y8 m c)).trans <| (keep7_5 (Y7 m c)).trans <| (keep6_5 (Y6 m c)).trans <| (keep5_5 (Y5 m c)).trans <| (keep4_5 (Y4 m c)).trans <| (keep3_5 (Y3 m c)).trans <| (keep2_5 (Y2 m c)).trans <| (keep1_5 (Y1 m c)).trans <| keep0_5 (Y0 m c)
theorem yK9_6 : Y9 m c rArg6 = Y0 m c rArg6 :=
  (keep8_6 (Y8 m c)).trans <| (keep7_6 (Y7 m c)).trans <| (keep6_6 (Y6 m c)).trans <| (keep5_6 (Y5 m c)).trans <| (keep4_6 (Y4 m c)).trans <| (keep3_6 (Y3 m c)).trans <| (keep2_6 (Y2 m c)).trans <| (keep1_6 (Y1 m c)).trans <| keep0_6 (Y0 m c)
theorem yK9_7 : Y9 m c rArg7 = Y0 m c rArg7 :=
  (keep8_7 (Y8 m c)).trans <| (keep7_7 (Y7 m c)).trans <| (keep6_7 (Y6 m c)).trans <| (keep5_7 (Y5 m c)).trans <| (keep4_7 (Y4 m c)).trans <| (keep3_7 (Y3 m c)).trans <| (keep2_7 (Y2 m c)).trans <| (keep1_7 (Y1 m c)).trans <| keep0_7 (Y0 m c)
theorem yK9_8 : Y9 m c rArg8 = Y0 m c rArg8 :=
  (keep8_8 (Y8 m c)).trans <| (keep7_8 (Y7 m c)).trans <| (keep6_8 (Y6 m c)).trans <| (keep5_8 (Y5 m c)).trans <| (keep4_8 (Y4 m c)).trans <| (keep3_8 (Y3 m c)).trans <| (keep2_8 (Y2 m c)).trans <| (keep1_8 (Y1 m c)).trans <| keep0_8 (Y0 m c)
theorem yK9_9 : Y9 m c rArg9 = Y0 m c rArg9 :=
  (keep8_9 (Y8 m c)).trans <| (keep7_9 (Y7 m c)).trans <| (keep6_9 (Y6 m c)).trans <| (keep5_9 (Y5 m c)).trans <| (keep4_9 (Y4 m c)).trans <| (keep3_9 (Y3 m c)).trans <| (keep2_9 (Y2 m c)).trans <| (keep1_9 (Y1 m c)).trans <| keep0_9 (Y0 m c)
theorem yK9_10 : Y9 m c rArg10 = Y0 m c rArg10 :=
  (keep8_10 (Y8 m c)).trans <| (keep7_10 (Y7 m c)).trans <| (keep6_10 (Y6 m c)).trans <| (keep5_10 (Y5 m c)).trans <| (keep4_10 (Y4 m c)).trans <| (keep3_10 (Y3 m c)).trans <| (keep2_10 (Y2 m c)).trans <| (keep1_10 (Y1 m c)).trans <| keep0_10 (Y0 m c)
theorem yK9_11 : Y9 m c rArg11 = Y0 m c rArg11 :=
  (keep8_11 (Y8 m c)).trans <| (keep7_11 (Y7 m c)).trans <| (keep6_11 (Y6 m c)).trans <| (keep5_11 (Y5 m c)).trans <| (keep4_11 (Y4 m c)).trans <| (keep3_11 (Y3 m c)).trans <| (keep2_11 (Y2 m c)).trans <| (keep1_11 (Y1 m c)).trans <| keep0_11 (Y0 m c)
theorem yK9_12 : Y9 m c rArg12 = Y0 m c rArg12 :=
  (keep8_12 (Y8 m c)).trans <| (keep7_12 (Y7 m c)).trans <| (keep6_12 (Y6 m c)).trans <| (keep5_12 (Y5 m c)).trans <| (keep4_12 (Y4 m c)).trans <| (keep3_12 (Y3 m c)).trans <| (keep2_12 (Y2 m c)).trans <| (keep1_12 (Y1 m c)).trans <| keep0_12 (Y0 m c)
theorem yK9_13 : Y9 m c rArg13 = Y0 m c rArg13 :=
  (keep8_13 (Y8 m c)).trans <| (keep7_13 (Y7 m c)).trans <| (keep6_13 (Y6 m c)).trans <| (keep5_13 (Y5 m c)).trans <| (keep4_13 (Y4 m c)).trans <| (keep3_13 (Y3 m c)).trans <| (keep2_13 (Y2 m c)).trans <| (keep1_13 (Y1 m c)).trans <| keep0_13 (Y0 m c)
theorem yK9_14 : Y9 m c rArg14 = Y0 m c rArg14 :=
  (keep8_14 (Y8 m c)).trans <| (keep7_14 (Y7 m c)).trans <| (keep6_14 (Y6 m c)).trans <| (keep5_14 (Y5 m c)).trans <| (keep4_14 (Y4 m c)).trans <| (keep3_14 (Y3 m c)).trans <| (keep2_14 (Y2 m c)).trans <| (keep1_14 (Y1 m c)).trans <| keep0_14 (Y0 m c)
theorem yK9_15 : Y9 m c rArg15 = Y0 m c rArg15 :=
  (keep8_15 (Y8 m c)).trans <| (keep7_15 (Y7 m c)).trans <| (keep6_15 (Y6 m c)).trans <| (keep5_15 (Y5 m c)).trans <| (keep4_15 (Y4 m c)).trans <| (keep3_15 (Y3 m c)).trans <| (keep2_15 (Y2 m c)).trans <| (keep1_15 (Y1 m c)).trans <| keep0_15 (Y0 m c)

end Cert.Val.RC

end
-- ==== Proof.Val.Sim0.lean ====
/-
  Layer 0: the kernel's program and the reference, side by side. From memories that agree on the sixteen argument
  arrays, the kernel's program at the boundary after its first region holds what the reference holds after its first
  chunk of operations — the same index arrays, degree, start embedding and node table (the same host operations of the
  same arguments), and the same message array: the first region leaves max(hsrc + (attr * scale + bias), 0), which is
  the reference's relu of gathered rows plus (attributes times the scale row, a product over an axis of extent one) plus
  the broadcast bias. After the second region the kernel's node array is the reference's: the two-layer map of
  (1 + eps) h + agg.
-/
import proofs.«109328_j13039520711153_1_alg».proof.Proof.KI.Keep
import proofs.«109328_j13039520711153_1_alg».proof.Proof.Val.Edge0
import proofs.«109328_j13039520711153_1_alg».proof.Proof.Val.Node1
import proofs.«109328_j13039520711153_1_alg».proof.Proof.Val.RefChain
import proofs.«109328_j13039520711153_1_alg».proof.Proof.Val.RefStage
import proofs.«109328_j13039520711153_1_alg».proof.Proof.Val.Rows0
import proofs.«109328_j13039520711153_1_alg».proof.Proof.Val.RefKeep

set_option maxRecDepth 16384

noncomputable section

namespace Cert.Val.Sim

open Cert.KernelIdeal Cert.KernelIdeal.Gen Cert.KernelIdeal.Fr Cert.Val.RC
open Idealize.ShloMosaic Idealize.ShloMosaic.TcCoe Idealize.ShloMosaic.ValueIdx Idealize.SL.Sem Idealize.ShloMosaic.StableHlo

variable (m : (ℓ : Loc nD τ sig) → Buf (Elt Ideal) ℓ)
variable (m' : (ℓ : Loc Cert.ReferenceIdeal.nD Cert.ReferenceIdeal.τ Cert.ReferenceIdeal.sig) → Buf (Elt Ideal) ℓ)
variable (c : Dev nD)

/-- The two memories agree on the argument arrays. -/
structure Agree : Prop where
  a0 : Y0 m' c rArg0 = m ((c.tc : Thread nD τ).loc main_arg0)
  a1 : Y0 m' c rArg1 = m ((c.tc : Thread nD τ).loc main_arg1)
  a2 : Y0 m' c rArg2 = m ((c.tc : Thread nD τ).loc main_arg2)
  a3 : Y0 m' c rArg3 = m ((c.tc : Thread nD τ).loc main_arg3)
  a4 : Y0 m' c rArg4 = m ((c.tc : Thread nD τ).loc main_arg4)
  a5 : Y0 m' c rArg5 = m ((c.tc : Thread nD τ).loc main_arg5)
  a6 : Y0 m' c rArg6 = m ((c.tc : Thread nD τ).loc main_arg6)
  a7 : Y0 m' c rArg7 = m ((c.tc : Thread nD τ).loc main_arg7)
  a8 : Y0 m' c rArg8 = m ((c.tc : Thread nD τ).loc main_arg8)
  a9 : Y0 m' c rArg9 = m ((c.tc : Thread nD τ).loc main_arg9)
  a10 : Y0 m' c rArg10 = m ((c.tc : Thread nD τ).loc main_arg10)
  a11 : Y0 m' c rArg11 = m ((c.tc : Thread nD τ).loc main_arg11)
  a12 : Y0 m' c rArg12 = m ((c.tc : Thread nD τ).loc main_arg12)
  a13 : Y0 m' c rArg13 = m ((c.tc : Thread nD τ).loc main_arg13)
  a14 : Y0 m' c rArg14 = m ((c.tc : Thread nD τ).loc main_arg14)
  a15 : Y0 m' c rArg15 = m ((c.tc : Thread nD τ).loc main_arg15)

variable {m m' c}

/-! ## After the kernel's first region (its boundary 2) and the reference's first chunk (its boundary 1) -/

theorem s2_v1 (H : Agree m m' c) : X2 m c (Proc.devRef .tc main_v1) = Y1 m' c r1 := by
  rw [X2_of_ne m c main_v1 (by decide)]
  unfold X1 Y1
  after_results_simp
  simp only [H.a0, H.a1, H.a2, H.a3, H.a4, H.a5, H.a6, H.a7, H.a8, H.a9, H.a10, H.a11, H.a12, H.a13, H.a14, H.a15]
  all_goals rfl
theorem s2_v3 (H : Agree m m' c) : X2 m c (Proc.devRef .tc main_v3) = Y1 m' c r3 := by
  rw [X2_of_ne m c main_v3 (by decide)]
  unfold X1 Y1
  after_results_simp
  rw [H.a14]
  all_goals rfl
theorem s2_v10 (H : Agree m m' c) : X2 m c (Proc.devRef .tc main_v10) = Y1 m' c r10 := by
  rw [X2_of_ne m c main_v10 (by decide)]
  unfold X1 Y1
  after_results_simp
  rw [H.a14]
  all_goals rfl
theorem s2_v12 (H : Agree m m' c) : X2 m c (Proc.devRef .tc main_v12) = Y1 m' c r12 := by
  rw [X2_of_ne m c main_v12 (by decide)]
  unfold X1 Y1
  after_results_simp
  rw [H.a13]
  all_goals rfl
theorem s2_v20 (H : Agree m m' c) : X2 m c (Proc.devRef .tc main_v20) = Y1 m' c r20 := by
  rw [X2_of_ne m c main_v20 (by decide)]
  unfold X1 Y1
  after_results_simp
  rw [H.a0, H.a13, H.a15]
  all_goals rfl

set_option maxHeartbeats 8000000 in
/-- The message array. -/
theorem s2_v33 (H : Agree m m' c) : X2 m c (Proc.devRef .tc main_v33) = Y1 m' c r37 := by
  refine (X2_arr m c 4).trans ?_
  rw [Cert.Val.Edge0.final0, ← Cert.Val.Ref.msg_eq _ _ _ (X1 m c (Proc.devRef .tc main_v31)) _ (Cert.Val.Rows0.bias_row m c)]
  unfold XV1 X1 Y1
  after_results_simp
  simp only [H.a0, H.a1, H.a2, H.a3, H.a4, H.a5, H.a6, H.a7, H.a8, H.a9, H.a10, H.a11, H.a12, H.a13, H.a14, H.a15]
  all_goals rfl

/-! ## After the kernel's second region (its boundary 4) and the reference's second chunk (its boundary 2) -/

set_option maxHeartbeats 8000000 in
/-- The node array. -/
theorem s4_v53 (H : Agree m m' c) : X4 m c (Proc.devRef .tc main_v53) = Y2 m' c r65 := by
  refine (X4_arr m c 7).trans ?_
  rw [Cert.Val.Node1.final1, ← Cert.Val.Ref.node_eq _ _ (X3 m c (Proc.devRef .tc main_v41)) _ (Cert.Val.Rows0.eps_blk m c) _ _ (X3 m c (Proc.devRef .tc main_v45)) (X3 m c (Proc.devRef .tc main_v49)) _ _ (Cert.Val.Rows0.b1_row m c) (Cert.Val.Rows0.b2_row m c)]
  unfold XV3 X3 Y2
  after_results_simp
  rw [s2_v3 H, s2_v10 H, s2_v20 H, s2_v33 H, args2 m c main_arg2 (by decide), args2 m c main_arg3 (by decide), args2 m c main_arg4 (by decide),
    args2 m c main_arg5 (by decide), args2 m c main_arg6 (by decide), yK1_2 m' c, yK1_3 m' c, yK1_4 m' c, yK1_5 m' c, yK1_6 m' c]
  simp only [H.a0, H.a1, H.a2, H.a3, H.a4, H.a5, H.a6, H.a7, H.a8, H.a9, H.a10, H.a11, H.a12, H.a13, H.a14, H.a15]
  all_goals rfl

/-- What the reference's second chunk does not write, it keeps; so does the kernel's second stretch and region. -/
theorem s4_v1 (H : Agree m m' c) : X4 m c (Proc.devRef .tc main_v1) = Y2 m' c r1 := by
  rw [keepV_2_4 m c main_v1 (by decide) (by decide), s2_v1 H]
  unfold Y2; after_results_simp
theorem s4_v3 (H : Agree m m' c) : X4 m c (Proc.devRef .tc main_v3) = Y2 m' c r3 := by
  rw [keepV_2_4 m c main_v3 (by decide) (by decide), s2_v3 H]
  unfold Y2; after_results_simp
theorem s4_v10 (H : Agree m m' c) : X4 m c (Proc.devRef .tc main_v10) = Y2 m' c r10 := by
  rw [keepV_2_4 m c main_v10 (by decide) (by decide), s2_v10 H]
  unfold Y2; after_results_simp
theorem s4_v12 (H : Agree m m' c) : X4 m c (Proc.devRef .tc main_v12) = Y2 m' c r12 := by
  rw [keepV_2_4 m c main_v12 (by decide) (by decide), s2_v12 H]
  unfold Y2; after_results_simp

end Cert.Val.Sim

end
-- ==== Proof.Val.Edge2.lean ====
/-
  What region 2 leaves in its output array, at the exact reals: the message array M of the first edge region, taken at
  this region's four arrays. With hs the gathered source rows [800000,128], ea the edge attributes [800000,1], sc and bi the
  layer's scale and bias rows [1,128], the array after the region is
    M[e,h] = max(hs[e,h] + (ea[e,0] * sc[0,h] + bi[0,h]), 0)
  at every index: block t of the pipeline (rows 10000 t … 10000 t + 9999) is what point t writes back, and the 80 blocks
  cover the array.
-/
import proofs.«109328_j13039520711153_1_alg».proof.Proof.KI.Reg2
import proofs.«109328_j13039520711153_1_alg».proof.Proof.Val.Pay
import proofs.«109328_j13039520711153_1_alg».proof.Proof.Val.Edge0
import Idealize.ShloMosaic.Lib.Pipeline.Value
import Idealize.ShloMosaic.Lib.ValueIdx

set_option maxRecDepth 16384

noncomputable section

namespace Cert.Val.Edge2

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: windows 0, 1 and 4 at row block t, windows 2 and 3 at the one block. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Window 0's block at point t is rows 10000 t … of the source-row array. -/
theorem blk0_at (c : Dev nD) (t : Fin cfg2.N) (x : S10000x128.Idx) (k : S800000x128.Idx)
    (hk0 : (k 0).val = 10000 * t.val + (x 0).val) (hk1 : (k 1).val = (x 1).val) :
    (iblk2 V c 0 t : Vec Ideal S10000x128 .f32) x = (V c (Pipeline.arrRef spec2 0) : S800000x128.Idx → Elt Ideal .f32) k := by
  obtain ⟨e0, e1, -⟩ := idx2 t
  unfold iblk2
  rw [View.read_apply]
  have key : (((cfg2.win 0).blk t).view.emb x : S800000x128.Idx) = k := by
    funext a; apply Fin.ext
    match a with
    | ⟨0, _⟩ => show win2_0.index t 0 * 10000 + 1 * (x 0).val = (k 0).val; rw [e0, hk0]; omega
    | ⟨1, _⟩ => show win2_0.index t 1 * 128 + 1 * (x 1).val = (k 1).val; rw [e1, hk1]; omega
  exact congrArg (V c (Pipeline.arrRef spec2 0) : S800000x128.Idx → Elt Ideal .f32) key

/-- Window 1's block at point t is rows 10000 t … of the edge-attribute array. -/
theorem blk1_at (c : Dev nD) (t : Fin cfg2.N) (x : S10000x1.Idx) (k : S800000x1.Idx)
    (hk0 : (k 0).val = 10000 * t.val + (x 0).val) (hk1 : (k 1).val = (x 1).val) :
    (iblk2 V c 1 t : Vec Ideal S10000x1 .f32) x = (V c (Pipeline.arrRef spec2 1) : S800000x1.Idx → Elt Ideal .f32) k := by
  obtain ⟨-, -, e0, e1, -⟩ := idx2 t
  unfold iblk2
  rw [View.read_apply]
  have key : (((cfg2.win 1).blk t).view.emb x : S800000x1.Idx) = k := by
    funext a; apply Fin.ext
    match a with
    | ⟨0, _⟩ => show win2_1.index t 0 * 10000 + 1 * (x 0).val = (k 0).val; rw [e0, hk0]; omega
    | ⟨1, _⟩ => show win2_1.index t 1 * 1 + 1 * (x 1).val = (k 1).val; rw [e1, hk1]; omega
  exact congrArg (V c (Pipeline.arrRef spec2 1) : S800000x1.Idx → Elt Ideal .f32) key

/-- Windows 2 and 3: the one block is the whole row array. -/
theorem blk2_at (c : Dev nD) (t : Fin cfg2.N) (x : S1x128.Idx) :
    (iblk2 V c 2 t : Vec Ideal S1x128 .f32) x = (V c (Pipeline.arrRef spec2 2) : S1x128.Idx → Elt Ideal .f32) x := by
  obtain ⟨-, -, -, -, e0, e1, -⟩ := idx2 t
  unfold iblk2
  rw [View.read_apply]
  have key : (((cfg2.win 2).blk t).view.emb x : S1x128.Idx) = x := by
    funext a; apply Fin.ext
    match a with
    | ⟨0, _⟩ => show win2_2.index t 0 * 1 + 1 * (x 0).val = (x 0).val; rw [e0]; omega
    | ⟨1, _⟩ => show win2_2.index t 1 * 128 + 1 * (x 1).val = (x 1).val; rw [e1]; omega
  exact congrArg (V c (Pipeline.arrRef spec2 2) : S1x128.Idx → Elt Ideal .f32) key
theorem blk3_at (c : Dev nD) (t : Fin cfg2.N) (x : S1x128.Idx) :
    (iblk2 V c 3 t : Vec Ideal S1x128 .f32) x = (V c (Pipeline.arrRef spec2 3) : S1x128.Idx → Elt Ideal .f32) x := by
  obtain ⟨-, -, -, -, -, -, e0, e1, -⟩ := idx2 t
  unfold iblk2
  rw [View.read_apply]
  have key : (((cfg2.win 3).blk t).view.emb x : S1x128.Idx) = x := by
    funext a; apply Fin.ext
    match a with
    | ⟨0, _⟩ => show win2_3.index t 0 * 1 + 1 * (x 0).val = (x 0).val; rw [e0]; omega
    | ⟨1, _⟩ => show win2_3.index t 1 * 128 + 1 * (x 1).val = (x 1).val; rw [e1]; omega
  exact congrArg (V c (Pipeline.arrRef spec2 3) : S1x128.Idx → Elt Ideal .f32) key

/-- The output block after the body, entry by entry, from the four input blocks. -/
theorem out_at (x0 : Vec Ideal S10000x128 .f32) (x1 : Vec Ideal S10000x1 .f32) (x2 x3 : Vec Ideal S1x128 .f32) (p : Fin 10000) (q : Fin 128) :
    out2_4 x0 x1 x2 x3 (ix2 p q) = max (x0 (ix2 p q) + (x1 (ix2 p 0) * x2 (ix2 0 q) + x3 (ix2 0 q))) 0 := by
  unfold out2_4
  rw [View.canon_unit_zero hz]
  simp only [View.ld_unit_zero (S := S10000x128) hz, View.ld_unit_zero (S := S10000x1) hz, View.ld_unit_zero (S := S1x128) hz]
  exact Cert.Val.Pay.edge_pay2 _ _ _ _ p q

/-- What point t writes back is block t of the message array of the entry contents. -/
theorem flushed2 (c : Dev nD) (t : Fin cfg2.N) :
    (dat2 V c).flushed 4 t = ((cfg2.win 4).blk t).view.read (Elt Ideal)
      (Edge0.M (V c (Pipeline.arrRef spec2 0)) (V c (Pipeline.arrRef spec2 1)) (V c (Pipeline.arrRef spec2 2)) (V c (Pipeline.arrRef spec2 3))) := by
  show (cfg2.win 4).cut (grid2.coords t) ((dat2 V c).after 4 t) = _
  rw [after2_4]
  funext j
  obtain ⟨p, q, rfl⟩ : ∃ (p : Fin 10000) (q : Fin 128), j = ix2 p q := ⟨j 0, j 1, eq_ix2 j⟩
  refine (out_at _ _ _ _ p q).trans ?_
  rw [View.read_apply]
  obtain ⟨-, -, -, -, -, -, -, -, e0, e1⟩ := idx2 t
  have hk0 : ((((cfg2.win 4).blk t).view.emb (ix2 p q)) 0).val = 10000 * t.val + p.val := by
    show win2_4.index t 0 * 10000 + 1 * p.val = _; rw [e0]; omega
  have hk1 : ((((cfg2.win 4).blk t).view.emb (ix2 p q)) 1).val = q.val := by
    show win2_4.index t 1 * 128 + 1 * q.val = _; rw [e1]; omega
  unfold Edge0.M
  rw [blk0_at V c t (ix2 p q) _ hk0 hk1, blk1_at V c t (ix2 p 0) (ix2 ((((cfg2.win 4).blk t).view.emb (ix2 p q)) 0) 0) hk0 rfl,
    blk2_at V c t (ix2 0 q), blk3_at V c t (ix2 0 q)]
  have hq : (ix2 (0 : Fin 1) ((((cfg2.win 4).blk t).view.emb (ix2 p q)) 1) : S1x128.Idx) = ix2 0 q := by
    funext a; match a with
    | ⟨0, _⟩ => rfl
    | ⟨1, _⟩ => exact Fin.ext hk1
  rw [hq]
  first | rfl | exact (cast_eq _ _).symm

/-- THE ARRAY region 2 leaves: the message array of the entry contents. Every index of the array is in the block of
    the point its row belongs to (row r in block r / 10000), so the 80 write-backs cover the array. -/
theorem final2 (c : Dev nD) : (dat2 V c).arrAt 4 cfg2.N
    = Edge0.M (V c (Pipeline.arrRef spec2 0)) (V c (Pipeline.arrRef spec2 1)) (V c (Pipeline.arrRef spec2 2)) (V c (Pipeline.arrRef spec2 3)) :=
  (dat2 V c).arrAt_eq_of_cover 4 _ (fun t _ => flushed2 V c t) fun i => by
    have hi0 : (i 0).val < 800000 := (i 0).isLt
    have hi1 : (i 1).val < 128 := (i 1).isLt
    have hN : cfg2.N = 80 := N_2
    have ht : (i 0).val / 10000 < cfg2.N := by rw [hN]; omega
    obtain ⟨-, -, -, -, -, -, -, -, e0, e1⟩ := idx2 ⟨(i 0).val / 10000, ht⟩
    refine ⟨⟨(i 0).val / 10000, ht⟩, flush2_4 _, ?_⟩
    show i ∈ ((View.whole main_v96).slice (win2_4.rect ⟨(i 0).val / 10000, ht⟩)).set
    rw [View.set_slice_whole, Rect.mem_set_unit]
    intro a
    match a with
    | ⟨0, _⟩ =>
      show win2_4.index ⟨(i 0).val / 10000, ht⟩ 0 * 10000 ≤ (i 0).val ∧ (i 0).val < win2_4.index ⟨(i 0).val / 10000, ht⟩ 0 * 10000 + 10000
      rw [e0]; show (i 0).val / 10000 * 10000 ≤ (i 0).val ∧ (i 0).val < (i 0).val / 10000 * 10000 + 10000; omega
    | ⟨1, _⟩ =>
      show win2_4.index ⟨(i 0).val / 10000, ht⟩ 1 * 128 ≤ (i 1).val ∧ (i 1).val < win2_4.index ⟨(i 0).val / 10000, ht⟩ 1 * 128 + 128
      rw [e1]; omega

end Cert.Val.Edge2

end
-- ==== Proof.Val.Node3.lean ====
/-
  What region 3 leaves in its output array, at the exact reals: the node map N of the first node region, taken at
  this region's seven arrays. With h the node rows [50000,128], ag the aggregated messages [50000,128], ep the 1x1 scale,
  w1 and w2 the two weight matrices [128,128] and b1 and b2 the two bias rows [1,128], the array after the region is
    N[n,j] = (Σ_k max((Σ_k' (ep[0,0] * h[n,k'] + ag[n,k']) * w1[k',k]) + b1[0,k], 0) * w2[k,j]) + b2[0,j]
  at every index: block t of the pipeline (rows 5000 t … 5000 t + 4999) is what point t writes back, and the 10 blocks
  cover the array.
-/
import proofs.«109328_j13039520711153_1_alg».proof.Proof.KI.Reg3
import proofs.«109328_j13039520711153_1_alg».proof.Proof.Val.Pay
import proofs.«109328_j13039520711153_1_alg».proof.Proof.Val.Node1
import Idealize.ShloMosaic.Lib.Pipeline.Value
import Idealize.ShloMosaic.Lib.ValueIdx

set_option maxRecDepth 16384

noncomputable section

namespace Cert.Val.Node3

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

open Cert.Val.Node1 (N)

/-! ## Where each window's block sits at point t: windows 0, 1 and 7 at row block t, windows 2 to 6 at the one block -/

theorem idx_row0 : ∀ t : Fin cfg3.N, win3_0.index t (0 : Fin 2) = t.val ∧ win3_0.index t (1 : Fin 2) = 0 :=
  (by decide +kernel : ∀ t : Fin grid3.N, _)
theorem idx_row1 : ∀ t : Fin cfg3.N, win3_1.index t (0 : Fin 2) = t.val ∧ win3_1.index t (1 : Fin 2) = 0 :=
  (by decide +kernel : ∀ t : Fin grid3.N, _)
theorem idx_row7 : ∀ t : Fin cfg3.N, win3_7.index t (0 : Fin 2) = t.val ∧ win3_7.index t (1 : Fin 2) = 0 :=
  (by decide +kernel : ∀ t : Fin grid3.N, _)
theorem idx_one2 : ∀ t : Fin cfg3.N, win3_2.index t (0 : Fin 2) = 0 ∧ win3_2.index t (1 : Fin 2) = 0 :=
  (by decide +kernel : ∀ t : Fin grid3.N, _)
theorem idx_one3 : ∀ t : Fin cfg3.N, win3_3.index t (0 : Fin 2) = 0 ∧ win3_3.index t (1 : Fin 2) = 0 :=
  (by decide +kernel : ∀ t : Fin grid3.N, _)
theorem idx_one4 : ∀ t : Fin cfg3.N, win3_4.index t (0 : Fin 2) = 0 ∧ win3_4.index t (1 : Fin 2) = 0 :=
  (by decide +kernel : ∀ t : Fin grid3.N, _)
theorem idx_one5 : ∀ t : Fin cfg3.N, win3_5.index t (0 : Fin 2) = 0 ∧ win3_5.index t (1 : Fin 2) = 0 :=
  (by decide +kernel : ∀ t : Fin grid3.N, _)
theorem idx_one6 : ∀ t : Fin cfg3.N, win3_6.index t (0 : Fin 2) = 0 ∧ win3_6.index t (1 : Fin 2) = 0 :=
  (by decide +kernel : ∀ t : Fin grid3.N, _)

/-! ## The input blocks read off their arrays -/

/-- Window 0's block at point t is rows 5000 t … of the node-row array. -/
theorem blk0_at (c : Dev nD) (t : Fin cfg3.N) (x : S5000x128.Idx) (k : S50000x128.Idx)
    (hk0 : (k 0).val = 5000 * t.val + (x 0).val) (hk1 : (k 1).val = (x 1).val) :
    (iblk3 V c 0 t : Vec Ideal S5000x128 .f32) x = (V c (Pipeline.arrRef spec3 0) : S50000x128.Idx → Elt Ideal .f32) k := by
  obtain ⟨e0, e1⟩ := idx_row0 t
  unfold iblk3
  rw [View.read_apply]
  have key : (((cfg3.win 0).blk t).view.emb x : S50000x128.Idx) = k := by
    funext a; apply Fin.ext
    match a with
    | ⟨0, _⟩ => show win3_0.index t 0 * 5000 + 1 * (x 0).val = (k 0).val; rw [e0, hk0]; omega
    | ⟨1, _⟩ => show win3_0.index t 1 * 128 + 1 * (x 1).val = (k 1).val; rw [e1, hk1]; omega
  exact congrArg (V c (Pipeline.arrRef spec3 0) : S50000x128.Idx → Elt Ideal .f32) key

/-- Window 1's block at point t is rows 5000 t … of the aggregated-message array. -/
theorem blk1_at (c : Dev nD) (t : Fin cfg3.N) (x : S5000x128.Idx) (k : S50000x128.Idx)
    (hk0 : (k 0).val = 5000 * t.val + (x 0).val) (hk1 : (k 1).val = (x 1).val) :
    (iblk3 V c 1 t : Vec Ideal S5000x128 .f32) x = (V c (Pipeline.arrRef spec3 1) : S50000x128.Idx → Elt Ideal .f32) k := by
  obtain ⟨e0, e1⟩ := idx_row1 t
  unfold iblk3
  rw [View.read_apply]
  have key : (((cfg3.win 1).blk t).view.emb x : S50000x128.Idx) = k := by
    funext a; apply Fin.ext
    match a with
    | ⟨0, _⟩ => show win3_1.index t 0 * 5000 + 1 * (x 0).val = (k 0).val; rw [e0, hk0]; omega
    | ⟨1, _⟩ => show win3_1.index t 1 * 128 + 1 * (x 1).val = (k 1).val; rw [e1, hk1]; omega
  exact congrArg (V c (Pipeline.arrRef spec3 1) : S50000x128.Idx → Elt Ideal .f32) key

/-- Windows 2 to 6: the one block is the whole array. -/
theorem blk2_at (c : Dev nD) (t : Fin cfg3.N) (x : S1x1.Idx) :
    (iblk3 V c 2 t : Vec Ideal S1x1 .f32) x = (V c (Pipeline.arrRef spec3 2) : S1x1.Idx → Elt Ideal .f32) x := by
  obtain ⟨e0, e1⟩ := idx_one2 t
  unfold iblk3
  rw [View.read_apply]
  have key : (((cfg3.win 2).blk t).view.emb x : S1x1.Idx) = x := by
    funext a; apply Fin.ext
    match a with
    | ⟨0, _⟩ => show win3_2.index t 0 * 1 + 1 * (x 0).val = (x 0).val; rw [e0]; omega
    | ⟨1, _⟩ => show win3_2.index t 1 * 1 + 1 * (x 1).val = (x 1).val; rw [e1]; omega
  exact congrArg (V c (Pipeline.arrRef spec3 2) : S1x1.Idx → Elt Ideal .f32) key
theorem blk3_at (c : Dev nD) (t : Fin cfg3.N) (x : S128x128.Idx) :
    (iblk3 V c 3 t : Vec Ideal S128x128 .f32) x = (V c (Pipeline.arrRef spec3 3) : S128x128.Idx → Elt Ideal .f32) x := by
  obtain ⟨e0, e1⟩ := idx_one3 t
  unfold iblk3
  rw [View.read_apply]
  have key : (((cfg3.win 3).blk t).view.emb x : S128x128.Idx) = x := by
    funext a; apply Fin.ext
    match a with
    | ⟨0, _⟩ => show win3_3.index t 0 * 128 + 1 * (x 0).val = (x 0).val; rw [e0]; omega
    | ⟨1, _⟩ => show win3_3.index t 1 * 128 + 1 * (x 1).val = (x 1).val; rw [e1]; omega
  exact congrArg (V c (Pipeline.arrRef spec3 3) : S128x128.Idx → Elt Ideal .f32) key
theorem blk4_at (c : Dev nD) (t : Fin cfg3.N) (x : S1x128.Idx) :
    (iblk3 V c 4 t : Vec Ideal S1x128 .f32) x = (V c (Pipeline.arrRef spec3 4) : S1x128.Idx → Elt Ideal .f32) x := by
  obtain ⟨e0, e1⟩ := idx_one4 t
  unfold iblk3
  rw [View.read_apply]
  have key : (((cfg3.win 4).blk t).view.emb x : S1x128.Idx) = x := by
    funext a; apply Fin.ext
    match a with
    | ⟨0, _⟩ => show win3_4.index t 0 * 1 + 1 * (x 0).val = (x 0).val; rw [e0]; omega
    | ⟨1, _⟩ => show win3_4.index t 1 * 128 + 1 * (x 1).val = (x 1).val; rw [e1]; omega
  exact congrArg (V c (Pipeline.arrRef spec3 4) : S1x128.Idx → Elt Ideal .f32) key
theorem blk5_at (c : Dev nD) (t : Fin cfg3.N) (x : S128x128.Idx) :
    (iblk3 V c 5 t : Vec Ideal S128x128 .f32) x = (V c (Pipeline.arrRef spec3 5) : S128x128.Idx → Elt Ideal .f32) x := by
  obtain ⟨e0, e1⟩ := idx_one5 t
  unfold iblk3
  rw [View.read_apply]
  have key : (((cfg3.win 5).blk t).view.emb x : S128x128.Idx) = x := by
    funext a; apply Fin.ext
    match a with
    | ⟨0, _⟩ => show win3_5.index t 0 * 128 + 1 * (x 0).val = (x 0).val; rw [e0]; omega
    | ⟨1, _⟩ => show win3_5.index t 1 * 128 + 1 * (x 1).val = (x 1).val; rw [e1]; omega
  exact congrArg (V c (Pipeline.arrRef spec3 5) : S128x128.Idx → Elt Ideal .f32) key
theorem blk6_at (c : Dev nD) (t : Fin cfg3.N) (x : S1x128.Idx) :
    (iblk3 V c 6 t : Vec Ideal S1x128 .f32) x = (V c (Pipeline.arrRef spec3 6) : S1x128.Idx → Elt Ideal .f32) x := by
  obtain ⟨e0, e1⟩ := idx_one6 t
  unfold iblk3
  rw [View.read_apply]
  have key : (((cfg3.win 6).blk t).view.emb x : S1x128.Idx) = x := by
    funext a; apply Fin.ext
    match a with
    | ⟨0, _⟩ => show win3_6.index t 0 * 1 + 1 * (x 0).val = (x 0).val; rw [e0]; omega
    | ⟨1, _⟩ => show win3_6.index t 1 * 128 + 1 * (x 1).val = (x 1).val; rw [e1]; omega
  exact congrArg (V c (Pipeline.arrRef spec3 6) : S1x128.Idx → Elt Ideal .f32) key

/-! ## The output block and the array -/

/-- Two congruences in the shape of the node map: a summand replaced under `· + x`, and under `max (· + x) 0 * y`. -/
theorem add_congr_left {a b x : EReal} (hab : a = b) : a + x = b + x := hab ▸ rfl
theorem relu_mul_congr {a b x y : EReal} (hab : a = b) : max (a + x) 0 * y = max (b + x) 0 * y := hab ▸ rfl

/-- The output block after the body, entry by entry, from the seven input blocks. -/
theorem out_at (x0 x1 : Vec Ideal S5000x128 .f32) (x2 : Vec Ideal S1x1 .f32) (x3 : Vec Ideal S128x128 .f32) (x4 : Vec Ideal S1x128 .f32)
    (x5 : Vec Ideal S128x128 .f32) (x6 : Vec Ideal S1x128 .f32) (p : Fin 5000) (q : Fin 128) :
    out3_7 x0 x1 x2 x3 x4 x5 x6 (ix2 p q)
      = (∑ k : Fin 128, max ((∑ k' : Fin 128, (x2 (ix2 0 0) * x0 (ix2 p k') + x1 (ix2 p k')) * x3 (ix2 k' k)) + x4 (ix2 0 k)) 0 * x5 (ix2 k q))
        + x6 (ix2 0 q) := by
  unfold out3_7
  rw [View.canon_unit_zero hz]
  simp only [View.ld_unit_zero (S := S5000x128) hz, View.ld_unit_zero (S := S1x1) hz, View.ld_unit_zero (S := S128x128) hz,
    View.ld_unit_zero (S := S1x128) hz]
  exact Cert.Val.Pay.node_pay3 _ _ _ _ _ _ _ p q

set_option maxHeartbeats 2000000 in
/-- What point t writes back is block t of the node map of the entry contents. -/
theorem flushed3 (c : Dev nD) (t : Fin cfg3.N) :
    (dat3 V c).flushed 7 t = ((cfg3.win 7).blk t).view.read (Elt Ideal)
      (N (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6))) := by
  show (cfg3.win 7).cut (grid3.coords t) ((dat3 V c).after 7 t) = _
  rw [after3_7]
  funext j
  obtain ⟨p, q, rfl⟩ : ∃ (p : Fin 5000) (q : Fin 128), j = ix2 p q := ⟨j 0, j 1, eq_ix2 j⟩
  refine (out_at _ _ _ _ _ _ _ p q).trans ?_
  rw [View.read_apply]
  obtain ⟨e0, e1⟩ := idx_row7 t
  have hk0 : ((((cfg3.win 7).blk t).view.emb (ix2 p q)) 0).val = 5000 * t.val + p.val := by
    show win3_7.index t 0 * 5000 + 1 * p.val = _; rw [e0]; omega
  have hk1 : ((((cfg3.win 7).blk t).view.emb (ix2 p q)) 1).val = q.val := by
    show win3_7.index t 1 * 128 + 1 * q.val = _; rw [e1]; omega
  unfold N
  refine Eq.trans ?_ (cast_eq _ _).symm
  have hcol : ∀ k : Fin 128, (ix2 k ((((cfg3.win 7).blk t).view.emb (ix2 p q)) 1) : S128x128.Idx) = ix2 k q := fun k => by
    funext a; match a with
    | ⟨0, _⟩ => rfl
    | ⟨1, _⟩ => exact Fin.ext hk1
  have hrow : (ix2 (0 : Fin 1) ((((cfg3.win 7).blk t).view.emb (ix2 p q)) 1) : S1x128.Idx) = ix2 0 q := by
    funext a; match a with
    | ⟨0, _⟩ => rfl
    | ⟨1, _⟩ => exact Fin.ext hk1
  rw [hrow, blk6_at V c t (ix2 0 q)]
  refine add_congr_left (Finset.sum_congr rfl fun k _ => ?_)
  rw [hcol k, blk5_at V c t (ix2 k q), blk4_at V c t (ix2 0 k)]
  refine relu_mul_congr (Finset.sum_congr rfl fun k' _ => ?_)
  rw [blk0_at V c t (ix2 p k') (ix2 ((((cfg3.win 7).blk t).view.emb (ix2 p q)) 0) k') hk0 rfl,
    blk1_at V c t (ix2 p k') (ix2 ((((cfg3.win 7).blk t).view.emb (ix2 p q)) 0) k') hk0 rfl,
    blk2_at V c t (ix2 0 0), blk3_at V c t (ix2 k' k)]

/-- THE ARRAY region 3 leaves: the node map of the entry contents. Every index of the array is in the block of the point
    its row belongs to (row r in block r / 5000), so the 10 write-backs cover the array. -/
theorem final3 (c : Dev nD) : (dat3 V c).arrAt 7 cfg3.N
    = N (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) :=
  (dat3 V c).arrAt_eq_of_cover 7 _ (fun t _ => flushed3 V c t) fun i => by
    have hi0 : (i 0).val < 50000 := (i 0).isLt
    have hi1 : (i 1).val < 128 := (i 1).isLt
    have hN : cfg3.N = 10 := N_3
    have ht : (i 0).val / 5000 < cfg3.N := by rw [hN]; omega
    obtain ⟨e0, e1⟩ := idx_row7 ⟨(i 0).val / 5000, ht⟩
    refine ⟨⟨(i 0).val / 5000, ht⟩, flush3_7 _, ?_⟩
    show i ∈ ((View.whole main_v116).slice (win3_7.rect ⟨(i 0).val / 5000, ht⟩)).set
    rw [View.set_slice_whole, Rect.mem_set_unit]
    intro a
    match a with
    | ⟨0, _⟩ =>
      show win3_7.index ⟨(i 0).val / 5000, ht⟩ 0 * 5000 ≤ (i 0).val ∧ (i 0).val < win3_7.index ⟨(i 0).val / 5000, ht⟩ 0 * 5000 + 5000
      rw [e0]; show (i 0).val / 5000 * 5000 ≤ (i 0).val ∧ (i 0).val < (i 0).val / 5000 * 5000 + 5000; omega
    | ⟨1, _⟩ =>
      show win3_7.index ⟨(i 0).val / 5000, ht⟩ 1 * 128 ≤ (i 1).val ∧ (i 1).val < win3_7.index ⟨(i 0).val / 5000, ht⟩ 1 * 128 + 128
      rw [e1]; omega

end Cert.Val.Node3

end
-- ==== Proof.Val.Rows1.lean ====
/-
  The small reshaped operands of layer 1's two regions: the bias row [1,128] the first region reads is the layer's edge
  bias [128] reshaped (entry (0,h) is entry h); likewise the second region's two bias rows; and its 1x1 block is the
  scalar 1 + eps reshaped.
-/
import proofs.«109328_j13039520711153_1_alg».proof.Proof.KI.Keep
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.Val.Rows1

open Cert.KernelIdeal Cert.KernelIdeal.Gen Cert.KernelIdeal.Fr
open Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

theorem bias_row (h : Fin 128) : (XV9 m c (Pipeline.arrRef spec2 3) : S1x128.Idx → Elt Ideal .f32) (ix2 0 h)
    = (X9 m c (Proc.devRef .tc main_v94) : S128.Idx → Elt Ideal .f32) (ix1 h) := by
  show StableHlo.after hostOps2_4 (X8 m c) (Proc.devRef .tc main_v95) (ix2 0 h) = StableHlo.after hostOps2_4 (X8 m c) (Proc.devRef .tc main_v94) (ix1 h)
  after_results_simp
  exact shapeCast_a_1a_apply _ _ 0 h

theorem eps_blk : (XV11 m c (Pipeline.arrRef spec3 2) : S1x1.Idx → Elt Ideal .f32) (ix2 0 0) = (X11 m c (Proc.devRef .tc main_v104) : S_.Idx → Elt Ideal .f32) ix0 := by
  show StableHlo.after hostOps3 (X10 m c) (Proc.devRef .tc main_v115) (ix2 0 0) = StableHlo.after hostOps3 (X10 m c) (Proc.devRef .tc main_v104) ix0
  after_results_simp
  exact shapeCast_apply _ _ _ ix0 (by decide)

theorem b1_row (k : Fin 128) : (XV11 m c (Pipeline.arrRef spec3 4) : S1x128.Idx → Elt Ideal .f32) (ix2 0 k) = (X11 m c (Proc.devRef .tc main_v108) : S128.Idx → Elt Ideal .f32) (ix1 k) := by
  show StableHlo.after hostOps3 (X10 m c) (Proc.devRef .tc main_v113) (ix2 0 k) = StableHlo.after hostOps3 (X10 m c) (Proc.devRef .tc main_v108) (ix1 k)
  after_results_simp
  exact shapeCast_a_1a_apply _ _ 0 k

theorem b2_row (k : Fin 128) : (XV11 m c (Pipeline.arrRef spec3 6) : S1x128.Idx → Elt Ideal .f32) (ix2 0 k) = (X11 m c (Proc.devRef .tc main_v112) : S128.Idx → Elt Ideal .f32) (ix1 k) := by
  show StableHlo.after hostOps3 (X10 m c) (Proc.devRef .tc main_v114) (ix2 0 k) = StableHlo.after hostOps3 (X10 m c) (Proc.devRef .tc main_v112) (ix1 k)
  after_results_simp
  exact shapeCast_a_1a_apply _ _ 0 k

end Cert.Val.Rows1

end
-- ==== Proof.Val.Sim1.lean ====
/-
  Layer 1: the kernel's program and the reference, side by side, continued. After the host operations that follow the
  second region — the virtual node's update from the sum of the node array over each graph, the next node table
  h + vn[batch], its gathered source rows — and the third region, the kernel's program holds the reference's updated
  embedding, node table and message array; after the fourth region, the reference's next node array.
-/
import proofs.«109328_j13039520711153_1_alg».proof.Proof.Val.Sim0
import proofs.«109328_j13039520711153_1_alg».proof.Proof.Val.Edge2
import proofs.«109328_j13039520711153_1_alg».proof.Proof.Val.Node3
import proofs.«109328_j13039520711153_1_alg».proof.Proof.Val.Rows1
import proofs.«109328_j13039520711153_1_alg».proof.Proof.Val.RefKeep

set_option maxRecDepth 16384

noncomputable section

namespace Cert.Val.Sim

open Cert.KernelIdeal Cert.KernelIdeal.Gen Cert.KernelIdeal.Fr Cert.Val.RC
open Idealize.ShloMosaic Idealize.ShloMosaic.TcCoe Idealize.ShloMosaic.ValueIdx Idealize.SL.Sem Idealize.ShloMosaic.StableHlo

variable {m : (ℓ : Loc nD τ sig) → Buf (Elt Ideal) ℓ}
variable {m' : (ℓ : Loc Cert.ReferenceIdeal.nD Cert.ReferenceIdeal.τ Cert.ReferenceIdeal.sig) → Buf (Elt Ideal) ℓ}
variable {c : Dev nD}

/-! ## After the kernel's third region (its boundary 10) and the reference's third chunk (its boundary 3) -/

set_option maxHeartbeats 8000000 in
/-- The virtual node's updated embedding. -/
theorem s10_v75 (H : Agree m m' c) : X10 m c (Proc.devRef .tc main_v75) = Y3 m' c r87 := by
  rw [X10_of_ne m c main_v75 (by decide)]
  unfold X9 X8 X7 X6 X5 Y3
  after_results_simp
  simp only [s4_v53 H, s4_v12 H, args4 m c main_arg15 (by decide), args4 m c main_arg9 (by decide), args4 m c main_arg10 (by decide), args4 m c main_arg11 (by decide), args4 m c main_arg12 (by decide), args4 m c main_arg7 (by decide), args4 m c main_arg8 (by decide),
    yK2_15 m' c, yK2_9 m' c, yK2_10 m' c, yK2_11 m' c, yK2_12 m' c, yK2_7 m' c, yK2_8 m' c]
  try simp only [H.a0, H.a1, H.a2, H.a3, H.a4, H.a5, H.a6, H.a7, H.a8, H.a9, H.a10, H.a11, H.a12, H.a13, H.a14, H.a15]
  all_goals rfl
set_option maxHeartbeats 8000000 in
/-- The next node table. -/
theorem s10_v83 (H : Agree m m' c) : X10 m c (Proc.devRef .tc main_v83) = Y3 m' c r95 := by
  rw [X10_of_ne m c main_v83 (by decide)]
  unfold X9 X8 X7 X6 X5 Y3
  after_results_simp
  simp only [s4_v53 H, s4_v12 H, args4 m c main_arg15 (by decide), args4 m c main_arg9 (by decide), args4 m c main_arg10 (by decide), args4 m c main_arg11 (by decide), args4 m c main_arg12 (by decide), args4 m c main_arg7 (by decide), args4 m c main_arg8 (by decide),
    yK2_15 m' c, yK2_9 m' c, yK2_10 m' c, yK2_11 m' c, yK2_12 m' c, yK2_7 m' c, yK2_8 m' c]
  try simp only [H.a0, H.a1, H.a2, H.a3, H.a4, H.a5, H.a6, H.a7, H.a8, H.a9, H.a10, H.a11, H.a12, H.a13, H.a14, H.a15]
  all_goals rfl
set_option maxHeartbeats 8000000 in
/-- The message array. -/
theorem s10_v96 (H : Agree m m' c) : X10 m c (Proc.devRef .tc main_v96) = Y3 m' c r112 := by
  refine (X10_arr m c 4).trans ?_
  rw [Cert.Val.Edge2.final2, ← Cert.Val.Ref.msg_eq _ _ _ (X9 m c (Proc.devRef .tc main_v94)) _ (Cert.Val.Rows1.bias_row m c)]
  unfold XV9 X9 X8 X7 X6 X5 Y3
  after_results_simp
  simp only [s4_v53 H, s4_v12 H, s4_v1 H, arg1_at4 m c, args4 m c main_arg15 (by decide), args4 m c main_arg9 (by decide), args4 m c main_arg10 (by decide), args4 m c main_arg11 (by decide), args4 m c main_arg12 (by decide), args4 m c main_arg7 (by decide), args4 m c main_arg8 (by decide),
    yK2_1 m' c, yK2_15 m' c, yK2_9 m' c, yK2_10 m' c, yK2_11 m' c, yK2_12 m' c, yK2_7 m' c, yK2_8 m' c]
  try simp only [H.a0, H.a1, H.a2, H.a3, H.a4, H.a5, H.a6, H.a7, H.a8, H.a9, H.a10, H.a11, H.a12, H.a13, H.a14, H.a15]
  all_goals rfl
/-- What the third chunk and the kernel's items 4 to 9 do not write, they keep. -/
theorem s10_v1 (H : Agree m m' c) : X10 m c (Proc.devRef .tc main_v1) = Y3 m' c r1 := by
  rw [keepV_4_10 m c main_v1 (by decide) (by decide) (by decide) (by decide) (by decide) (by decide), s4_v1 H]
  unfold Y3; after_results_simp
theorem s10_v3 (H : Agree m m' c) : X10 m c (Proc.devRef .tc main_v3) = Y3 m' c r3 := by
  rw [keepV_4_10 m c main_v3 (by decide) (by decide) (by decide) (by decide) (by decide) (by decide), s4_v3 H]
  unfold Y3; after_results_simp
theorem s10_v10 (H : Agree m m' c) : X10 m c (Proc.devRef .tc main_v10) = Y3 m' c r10 := by
  rw [keepV_4_10 m c main_v10 (by decide) (by decide) (by decide) (by decide) (by decide) (by decide), s4_v10 H]
  unfold Y3; after_results_simp
theorem s10_v53 (H : Agree m m' c) : X10 m c (Proc.devRef .tc main_v53) = Y3 m' c r65 := by
  rw [keepV_4_10 m c main_v53 (by decide) (by decide) (by decide) (by decide) (by decide) (by decide), s4_v53 H]
  unfold Y3; after_results_simp

/-! ## After the kernel's fourth region (its boundary 12) and the reference's fourth chunk (its boundary 4) -/

set_option maxHeartbeats 8000000 in
/-- The node array. -/
theorem s12_v116 (H : Agree m m' c) : X12 m c (Proc.devRef .tc main_v116) = Y4 m' c r140 := by
  refine (X12_arr m c 7).trans ?_
  rw [Cert.Val.Node3.final3, ← Cert.Val.Ref.node_eq _ _ (X11 m c (Proc.devRef .tc main_v104)) _ (Cert.Val.Rows1.eps_blk m c) _ _
    (X11 m c (Proc.devRef .tc main_v108)) (X11 m c (Proc.devRef .tc main_v112)) _ _ (Cert.Val.Rows1.b1_row m c) (Cert.Val.Rows1.b2_row m c)]
  unfold XV11 X11 Y4
  after_results_simp
  simp only [s10_v3 H, s10_v10 H, s10_v83 H, s10_v96 H, args10 m c main_arg2 (by decide), args10 m c main_arg3 (by decide), args10 m c main_arg4 (by decide),
    args10 m c main_arg5 (by decide), args10 m c main_arg6 (by decide), yK3_2 m' c, yK3_3 m' c, yK3_4 m' c, yK3_5 m' c, yK3_6 m' c]
  try simp only [H.a0, H.a1, H.a2, H.a3, H.a4, H.a5, H.a6, H.a7, H.a8, H.a9, H.a10, H.a11, H.a12, H.a13, H.a14, H.a15]
  all_goals rfl
theorem s12_v1 (H : Agree m m' c) : X12 m c (Proc.devRef .tc main_v1) = Y4 m' c r1 := by
  rw [keepV_10_12 m c main_v1 (by decide) (by decide), s10_v1 H]
  unfold Y4; after_results_simp
theorem s12_v3 (H : Agree m m' c) : X12 m c (Proc.devRef .tc main_v3) = Y4 m' c r3 := by
  rw [keepV_10_12 m c main_v3 (by decide) (by decide), s10_v3 H]
  unfold Y4; after_results_simp
theorem s12_v10 (H : Agree m m' c) : X12 m c (Proc.devRef .tc main_v10) = Y4 m' c r10 := by
  rw [keepV_10_12 m c main_v10 (by decide) (by decide), s10_v10 H]
  unfold Y4; after_results_simp
theorem s12_v75 (H : Agree m m' c) : X12 m c (Proc.devRef .tc main_v75) = Y4 m' c r87 := by
  rw [keepV_10_12 m c main_v75 (by decide) (by decide), s10_v75 H]
  unfold Y4; after_results_simp
theorem s12_v53 (H : Agree m m' c) : X12 m c (Proc.devRef .tc main_v53) = Y4 m' c r65 := by
  rw [keepV_10_12 m c main_v53 (by decide) (by decide), s10_v53 H]
  unfold Y4; after_results_simp

end Cert.Val.Sim

end
-- ==== Proof.Val.Edge4.lean ====
/-
  What region 4 leaves in its output array, at the exact reals: the message array M of the first edge region, taken at
  this region's four arrays. With hs the gathered source rows [800000,128], ea the edge attributes [800000,1], sc and bi the
  layer's scale and bias rows [1,128], the array after the region is
    M[e,h] = max(hs[e,h] + (ea[e,0] * sc[0,h] + bi[0,h]), 0)
  at every index: block t of the pipeline (rows 10000 t … 10000 t + 9999) is what point t writes back, and the 80 blocks
  cover the array.
-/
import proofs.«109328_j13039520711153_1_alg».proof.Proof.KI.Reg4
import proofs.«109328_j13039520711153_1_alg».proof.Proof.Val.Pay
import proofs.«109328_j13039520711153_1_alg».proof.Proof.Val.Edge0
import Idealize.ShloMosaic.Lib.Pipeline.Value
import Idealize.ShloMosaic.Lib.ValueIdx

set_option maxRecDepth 16384

noncomputable section

namespace Cert.Val.Edge4

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: windows 0, 1 and 4 at row block t, windows 2 and 3 at the one block. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Window 0's block at point t is rows 10000 t … of the source-row array. -/
theorem blk0_at (c : Dev nD) (t : Fin cfg4.N) (x : S10000x128.Idx) (k : S800000x128.Idx)
    (hk0 : (k 0).val = 10000 * t.val + (x 0).val) (hk1 : (k 1).val = (x 1).val) :
    (iblk4 V c 0 t : Vec Ideal S10000x128 .f32) x = (V c (Pipeline.arrRef spec4 0) : S800000x128.Idx → Elt Ideal .f32) k := by
  obtain ⟨e0, e1, -⟩ := idx4 t
  unfold iblk4
  rw [View.read_apply]
  have key : (((cfg4.win 0).blk t).view.emb x : S800000x128.Idx) = k := by
    funext a; apply Fin.ext
    match a with
    | ⟨0, _⟩ => show win4_0.index t 0 * 10000 + 1 * (x 0).val = (k 0).val; rw [e0, hk0]; omega
    | ⟨1, _⟩ => show win4_0.index t 1 * 128 + 1 * (x 1).val = (k 1).val; rw [e1, hk1]; omega
  exact congrArg (V c (Pipeline.arrRef spec4 0) : S800000x128.Idx → Elt Ideal .f32) key

/-- Window 1's block at point t is rows 10000 t … of the edge-attribute array. -/
theorem blk1_at (c : Dev nD) (t : Fin cfg4.N) (x : S10000x1.Idx) (k : S800000x1.Idx)
    (hk0 : (k 0).val = 10000 * t.val + (x 0).val) (hk1 : (k 1).val = (x 1).val) :
    (iblk4 V c 1 t : Vec Ideal S10000x1 .f32) x = (V c (Pipeline.arrRef spec4 1) : S800000x1.Idx → Elt Ideal .f32) k := by
  obtain ⟨-, -, e0, e1, -⟩ := idx4 t
  unfold iblk4
  rw [View.read_apply]
  have key : (((cfg4.win 1).blk t).view.emb x : S800000x1.Idx) = k := by
    funext a; apply Fin.ext
    match a with
    | ⟨0, _⟩ => show win4_1.index t 0 * 10000 + 1 * (x 0).val = (k 0).val; rw [e0, hk0]; omega
    | ⟨1, _⟩ => show win4_1.index t 1 * 1 + 1 * (x 1).val = (k 1).val; rw [e1, hk1]; omega
  exact congrArg (V c (Pipeline.arrRef spec4 1) : S800000x1.Idx → Elt Ideal .f32) key

/-- Windows 2 and 3: the one block is the whole row array. -/
theorem blk2_at (c : Dev nD) (t : Fin cfg4.N) (x : S1x128.Idx) :
    (iblk4 V c 2 t : Vec Ideal S1x128 .f32) x = (V c (Pipeline.arrRef spec4 2) : S1x128.Idx → Elt Ideal .f32) x := by
  obtain ⟨-, -, -, -, e0, e1, -⟩ := idx4 t
  unfold iblk4
  rw [View.read_apply]
  have key : (((cfg4.win 2).blk t).view.emb x : S1x128.Idx) = x := by
    funext a; apply Fin.ext
    match a with
    | ⟨0, _⟩ => show win4_2.index t 0 * 1 + 1 * (x 0).val = (x 0).val; rw [e0]; omega
    | ⟨1, _⟩ => show win4_2.index t 1 * 128 + 1 * (x 1).val = (x 1).val; rw [e1]; omega
  exact congrArg (V c (Pipeline.arrRef spec4 2) : S1x128.Idx → Elt Ideal .f32) key
theorem blk3_at (c : Dev nD) (t : Fin cfg4.N) (x : S1x128.Idx) :
    (iblk4 V c 3 t : Vec Ideal S1x128 .f32) x = (V c (Pipeline.arrRef spec4 3) : S1x128.Idx → Elt Ideal .f32) x := by
  obtain ⟨-, -, -, -, -, -, e0, e1, -⟩ := idx4 t
  unfold iblk4
  rw [View.read_apply]
  have key : (((cfg4.win 3).blk t).view.emb x : S1x128.Idx) = x := by
    funext a; apply Fin.ext
    match a with
    | ⟨0, _⟩ => show win4_3.index t 0 * 1 + 1 * (x 0).val = (x 0).val; rw [e0]; omega
    | ⟨1, _⟩ => show win4_3.index t 1 * 128 + 1 * (x 1).val = (x 1).val; rw [e1]; omega
  exact congrArg (V c (Pipeline.arrRef spec4 3) : S1x128.Idx → Elt Ideal .f32) key

/-- The output block after the body, entry by entry, from the four input blocks. -/
theorem out_at (x0 : Vec Ideal S10000x128 .f32) (x1 : Vec Ideal S10000x1 .f32) (x2 x3 : Vec Ideal S1x128 .f32) (p : Fin 10000) (q : Fin 128) :
    out4_4 x0 x1 x2 x3 (ix2 p q) = max (x0 (ix2 p q) + (x1 (ix2 p 0) * x2 (ix2 0 q) + x3 (ix2 0 q))) 0 := by
  unfold out4_4
  rw [View.canon_unit_zero hz]
  simp only [View.ld_unit_zero (S := S10000x128) hz, View.ld_unit_zero (S := S10000x1) hz, View.ld_unit_zero (S := S1x128) hz]
  exact Cert.Val.Pay.edge_pay4 _ _ _ _ p q

/-- What point t writes back is block t of the message array of the entry contents. -/
theorem flushed4 (c : Dev nD) (t : Fin cfg4.N) :
    (dat4 V c).flushed 4 t = ((cfg4.win 4).blk t).view.read (Elt Ideal)
      (Edge0.M (V c (Pipeline.arrRef spec4 0)) (V c (Pipeline.arrRef spec4 1)) (V c (Pipeline.arrRef spec4 2)) (V c (Pipeline.arrRef spec4 3))) := by
  show (cfg4.win 4).cut (grid4.coords t) ((dat4 V c).after 4 t) = _
  rw [after4_4]
  funext j
  obtain ⟨p, q, rfl⟩ : ∃ (p : Fin 10000) (q : Fin 128), j = ix2 p q := ⟨j 0, j 1, eq_ix2 j⟩
  refine (out_at _ _ _ _ p q).trans ?_
  rw [View.read_apply]
  obtain ⟨-, -, -, -, -, -, -, -, e0, e1⟩ := idx4 t
  have hk0 : ((((cfg4.win 4).blk t).view.emb (ix2 p q)) 0).val = 10000 * t.val + p.val := by
    show win4_4.index t 0 * 10000 + 1 * p.val = _; rw [e0]; omega
  have hk1 : ((((cfg4.win 4).blk t).view.emb (ix2 p q)) 1).val = q.val := by
    show win4_4.index t 1 * 128 + 1 * q.val = _; rw [e1]; omega
  unfold Edge0.M
  rw [blk0_at V c t (ix2 p q) _ hk0 hk1, blk1_at V c t (ix2 p 0) (ix2 ((((cfg4.win 4).blk t).view.emb (ix2 p q)) 0) 0) hk0 rfl,
    blk2_at V c t (ix2 0 q), blk3_at V c t (ix2 0 q)]
  have hq : (ix2 (0 : Fin 1) ((((cfg4.win 4).blk t).view.emb (ix2 p q)) 1) : S1x128.Idx) = ix2 0 q := by
    funext a; match a with
    | ⟨0, _⟩ => rfl
    | ⟨1, _⟩ => exact Fin.ext hk1
  rw [hq]
  first | rfl | exact (cast_eq _ _).symm

/-- THE ARRAY region 4 leaves: the message array of the entry contents. Every index of the array is in the block of
    the point its row belongs to (row r in block r / 10000), so the 80 write-backs cover the array. -/
theorem final4 (c : Dev nD) : (dat4 V c).arrAt 4 cfg4.N
    = Edge0.M (V c (Pipeline.arrRef spec4 0)) (V c (Pipeline.arrRef spec4 1)) (V c (Pipeline.arrRef spec4 2)) (V c (Pipeline.arrRef spec4 3)) :=
  (dat4 V c).arrAt_eq_of_cover 4 _ (fun t _ => flushed4 V c t) fun i => by
    have hi0 : (i 0).val < 800000 := (i 0).isLt
    have hi1 : (i 1).val < 128 := (i 1).isLt
    have hN : cfg4.N = 80 := N_4
    have ht : (i 0).val / 10000 < cfg4.N := by rw [hN]; omega
    obtain ⟨-, -, -, -, -, -, -, -, e0, e1⟩ := idx4 ⟨(i 0).val / 10000, ht⟩
    refine ⟨⟨(i 0).val / 10000, ht⟩, flush4_4 _, ?_⟩
    show i ∈ ((View.whole main_v159).slice (win4_4.rect ⟨(i 0).val / 10000, ht⟩)).set
    rw [View.set_slice_whole, Rect.mem_set_unit]
    intro a
    match a with
    | ⟨0, _⟩ =>
      show win4_4.index ⟨(i 0).val / 10000, ht⟩ 0 * 10000 ≤ (i 0).val ∧ (i 0).val < win4_4.index ⟨(i 0).val / 10000, ht⟩ 0 * 10000 + 10000
      rw [e0]; show (i 0).val / 10000 * 10000 ≤ (i 0).val ∧ (i 0).val < (i 0).val / 10000 * 10000 + 10000; omega
    | ⟨1, _⟩ =>
      show win4_4.index ⟨(i 0).val / 10000, ht⟩ 1 * 128 ≤ (i 1).val ∧ (i 1).val < win4_4.index ⟨(i 0).val / 10000, ht⟩ 1 * 128 + 128
      rw [e1]; omega

end Cert.Val.Edge4

end
-- ==== Proof.Val.Node5.lean ====
/-
  What region 5 leaves in its output array, at the exact reals: the node map N of the first node region, taken at
  this region's seven arrays. With h the node rows [50000,128], ag the aggregated messages [50000,128], ep the 1x1 scale,
  w1 and w2 the two weight matrices [128,128] and b1 and b2 the two bias rows [1,128], the array after the region is
    N[n,j] = (Σ_k max((Σ_k' (ep[0,0] * h[n,k'] + ag[n,k']) * w1[k',k]) + b1[0,k], 0) * w2[k,j]) + b2[0,j]
  at every index: block t of the pipeline (rows 5000 t … 5000 t + 4999) is what point t writes back, and the 10 blocks
  cover the array.
-/
import proofs.«109328_j13039520711153_1_alg».proof.Proof.KI.Reg5
import proofs.«109328_j13039520711153_1_alg».proof.Proof.Val.Pay
import proofs.«109328_j13039520711153_1_alg».proof.Proof.Val.Node1
import Idealize.ShloMosaic.Lib.Pipeline.Value
import Idealize.ShloMosaic.Lib.ValueIdx

set_option maxRecDepth 16384

noncomputable section

namespace Cert.Val.Node5

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

open Cert.Val.Node1 (N)

/-! ## Where each window's block sits at point t: windows 0, 1 and 7 at row block t, windows 2 to 6 at the one block -/

theorem idx_row0 : ∀ t : Fin cfg5.N, win5_0.index t (0 : Fin 2) = t.val ∧ win5_0.index t (1 : Fin 2) = 0 :=
  (by decide +kernel : ∀ t : Fin grid5.N, _)
theorem idx_row1 : ∀ t : Fin cfg5.N, win5_1.index t (0 : Fin 2) = t.val ∧ win5_1.index t (1 : Fin 2) = 0 :=
  (by decide +kernel : ∀ t : Fin grid5.N, _)
theorem idx_row7 : ∀ t : Fin cfg5.N, win5_7.index t (0 : Fin 2) = t.val ∧ win5_7.index t (1 : Fin 2) = 0 :=
  (by decide +kernel : ∀ t : Fin grid5.N, _)
theorem idx_one2 : ∀ t : Fin cfg5.N, win5_2.index t (0 : Fin 2) = 0 ∧ win5_2.index t (1 : Fin 2) = 0 :=
  (by decide +kernel : ∀ t : Fin grid5.N, _)
theorem idx_one3 : ∀ t : Fin cfg5.N, win5_3.index t (0 : Fin 2) = 0 ∧ win5_3.index t (1 : Fin 2) = 0 :=
  (by decide +kernel : ∀ t : Fin grid5.N, _)
theorem idx_one4 : ∀ t : Fin cfg5.N, win5_4.index t (0 : Fin 2) = 0 ∧ win5_4.index t (1 : Fin 2) = 0 :=
  (by decide +kernel : ∀ t : Fin grid5.N, _)
theorem idx_one5 : ∀ t : Fin cfg5.N, win5_5.index t (0 : Fin 2) = 0 ∧ win5_5.index t (1 : Fin 2) = 0 :=
  (by decide +kernel : ∀ t : Fin grid5.N, _)
theorem idx_one6 : ∀ t : Fin cfg5.N, win5_6.index t (0 : Fin 2) = 0 ∧ win5_6.index t (1 : Fin 2) = 0 :=
  (by decide +kernel : ∀ t : Fin grid5.N, _)

/-! ## The input blocks read off their arrays -/

/-- Window 0's block at point t is rows 5000 t … of the node-row array. -/
theorem blk0_at (c : Dev nD) (t : Fin cfg5.N) (x : S5000x128.Idx) (k : S50000x128.Idx)
    (hk0 : (k 0).val = 5000 * t.val + (x 0).val) (hk1 : (k 1).val = (x 1).val) :
    (iblk5 V c 0 t : Vec Ideal S5000x128 .f32) x = (V c (Pipeline.arrRef spec5 0) : S50000x128.Idx → Elt Ideal .f32) k := by
  obtain ⟨e0, e1⟩ := idx_row0 t
  unfold iblk5
  rw [View.read_apply]
  have key : (((cfg5.win 0).blk t).view.emb x : S50000x128.Idx) = k := by
    funext a; apply Fin.ext
    match a with
    | ⟨0, _⟩ => show win5_0.index t 0 * 5000 + 1 * (x 0).val = (k 0).val; rw [e0, hk0]; omega
    | ⟨1, _⟩ => show win5_0.index t 1 * 128 + 1 * (x 1).val = (k 1).val; rw [e1, hk1]; omega
  exact congrArg (V c (Pipeline.arrRef spec5 0) : S50000x128.Idx → Elt Ideal .f32) key

/-- Window 1's block at point t is rows 5000 t … of the aggregated-message array. -/
theorem blk1_at (c : Dev nD) (t : Fin cfg5.N) (x : S5000x128.Idx) (k : S50000x128.Idx)
    (hk0 : (k 0).val = 5000 * t.val + (x 0).val) (hk1 : (k 1).val = (x 1).val) :
    (iblk5 V c 1 t : Vec Ideal S5000x128 .f32) x = (V c (Pipeline.arrRef spec5 1) : S50000x128.Idx → Elt Ideal .f32) k := by
  obtain ⟨e0, e1⟩ := idx_row1 t
  unfold iblk5
  rw [View.read_apply]
  have key : (((cfg5.win 1).blk t).view.emb x : S50000x128.Idx) = k := by
    funext a; apply Fin.ext
    match a with
    | ⟨0, _⟩ => show win5_1.index t 0 * 5000 + 1 * (x 0).val = (k 0).val; rw [e0, hk0]; omega
    | ⟨1, _⟩ => show win5_1.index t 1 * 128 + 1 * (x 1).val = (k 1).val; rw [e1, hk1]; omega
  exact congrArg (V c (Pipeline.arrRef spec5 1) : S50000x128.Idx → Elt Ideal .f32) key

/-- Windows 2 to 6: the one block is the whole array. -/
theorem blk2_at (c : Dev nD) (t : Fin cfg5.N) (x : S1x1.Idx) :
    (iblk5 V c 2 t : Vec Ideal S1x1 .f32) x = (V c (Pipeline.arrRef spec5 2) : S1x1.Idx → Elt Ideal .f32) x := by
  obtain ⟨e0, e1⟩ := idx_one2 t
  unfold iblk5
  rw [View.read_apply]
  have key : (((cfg5.win 2).blk t).view.emb x : S1x1.Idx) = x := by
    funext a; apply Fin.ext
    match a with
    | ⟨0, _⟩ => show win5_2.index t 0 * 1 + 1 * (x 0).val = (x 0).val; rw [e0]; omega
    | ⟨1, _⟩ => show win5_2.index t 1 * 1 + 1 * (x 1).val = (x 1).val; rw [e1]; omega
  exact congrArg (V c (Pipeline.arrRef spec5 2) : S1x1.Idx → Elt Ideal .f32) key
theorem blk3_at (c : Dev nD) (t : Fin cfg5.N) (x : S128x128.Idx) :
    (iblk5 V c 3 t : Vec Ideal S128x128 .f32) x = (V c (Pipeline.arrRef spec5 3) : S128x128.Idx → Elt Ideal .f32) x := by
  obtain ⟨e0, e1⟩ := idx_one3 t
  unfold iblk5
  rw [View.read_apply]
  have key : (((cfg5.win 3).blk t).view.emb x : S128x128.Idx) = x := by
    funext a; apply Fin.ext
    match a with
    | ⟨0, _⟩ => show win5_3.index t 0 * 128 + 1 * (x 0).val = (x 0).val; rw [e0]; omega
    | ⟨1, _⟩ => show win5_3.index t 1 * 128 + 1 * (x 1).val = (x 1).val; rw [e1]; omega
  exact congrArg (V c (Pipeline.arrRef spec5 3) : S128x128.Idx → Elt Ideal .f32) key
theorem blk4_at (c : Dev nD) (t : Fin cfg5.N) (x : S1x128.Idx) :
    (iblk5 V c 4 t : Vec Ideal S1x128 .f32) x = (V c (Pipeline.arrRef spec5 4) : S1x128.Idx → Elt Ideal .f32) x := by
  obtain ⟨e0, e1⟩ := idx_one4 t
  unfold iblk5
  rw [View.read_apply]
  have key : (((cfg5.win 4).blk t).view.emb x : S1x128.Idx) = x := by
    funext a; apply Fin.ext
    match a with
    | ⟨0, _⟩ => show win5_4.index t 0 * 1 + 1 * (x 0).val = (x 0).val; rw [e0]; omega
    | ⟨1, _⟩ => show win5_4.index t 1 * 128 + 1 * (x 1).val = (x 1).val; rw [e1]; omega
  exact congrArg (V c (Pipeline.arrRef spec5 4) : S1x128.Idx → Elt Ideal .f32) key
theorem blk5_at (c : Dev nD) (t : Fin cfg5.N) (x : S128x128.Idx) :
    (iblk5 V c 5 t : Vec Ideal S128x128 .f32) x = (V c (Pipeline.arrRef spec5 5) : S128x128.Idx → Elt Ideal .f32) x := by
  obtain ⟨e0, e1⟩ := idx_one5 t
  unfold iblk5
  rw [View.read_apply]
  have key : (((cfg5.win 5).blk t).view.emb x : S128x128.Idx) = x := by
    funext a; apply Fin.ext
    match a with
    | ⟨0, _⟩ => show win5_5.index t 0 * 128 + 1 * (x 0).val = (x 0).val; rw [e0]; omega
    | ⟨1, _⟩ => show win5_5.index t 1 * 128 + 1 * (x 1).val = (x 1).val; rw [e1]; omega
  exact congrArg (V c (Pipeline.arrRef spec5 5) : S128x128.Idx → Elt Ideal .f32) key
theorem blk6_at (c : Dev nD) (t : Fin cfg5.N) (x : S1x128.Idx) :
    (iblk5 V c 6 t : Vec Ideal S1x128 .f32) x = (V c (Pipeline.arrRef spec5 6) : S1x128.Idx → Elt Ideal .f32) x := by
  obtain ⟨e0, e1⟩ := idx_one6 t
  unfold iblk5
  rw [View.read_apply]
  have key : (((cfg5.win 6).blk t).view.emb x : S1x128.Idx) = x := by
    funext a; apply Fin.ext
    match a with
    | ⟨0, _⟩ => show win5_6.index t 0 * 1 + 1 * (x 0).val = (x 0).val; rw [e0]; omega
    | ⟨1, _⟩ => show win5_6.index t 1 * 128 + 1 * (x 1).val = (x 1).val; rw [e1]; omega
  exact congrArg (V c (Pipeline.arrRef spec5 6) : S1x128.Idx → Elt Ideal .f32) key

/-! ## The output block and the array -/

/-- Two congruences in the shape of the node map: a summand replaced under `· + x`, and under `max (· + x) 0 * y`. -/
theorem add_congr_left {a b x : EReal} (hab : a = b) : a + x = b + x := hab ▸ rfl
theorem relu_mul_congr {a b x y : EReal} (hab : a = b) : max (a + x) 0 * y = max (b + x) 0 * y := hab ▸ rfl

/-- The output block after the body, entry by entry, from the seven input blocks. -/
theorem out_at (x0 x1 : Vec Ideal S5000x128 .f32) (x2 : Vec Ideal S1x1 .f32) (x3 : Vec Ideal S128x128 .f32) (x4 : Vec Ideal S1x128 .f32)
    (x5 : Vec Ideal S128x128 .f32) (x6 : Vec Ideal S1x128 .f32) (p : Fin 5000) (q : Fin 128) :
    out5_7 x0 x1 x2 x3 x4 x5 x6 (ix2 p q)
      = (∑ k : Fin 128, max ((∑ k' : Fin 128, (x2 (ix2 0 0) * x0 (ix2 p k') + x1 (ix2 p k')) * x3 (ix2 k' k)) + x4 (ix2 0 k)) 0 * x5 (ix2 k q))
        + x6 (ix2 0 q) := by
  unfold out5_7
  rw [View.canon_unit_zero hz]
  simp only [View.ld_unit_zero (S := S5000x128) hz, View.ld_unit_zero (S := S1x1) hz, View.ld_unit_zero (S := S128x128) hz,
    View.ld_unit_zero (S := S1x128) hz]
  exact Cert.Val.Pay.node_pay5 _ _ _ _ _ _ _ p q

set_option maxHeartbeats 2000000 in
/-- What point t writes back is block t of the node map of the entry contents. -/
theorem flushed5 (c : Dev nD) (t : Fin cfg5.N) :
    (dat5 V c).flushed 7 t = ((cfg5.win 7).blk t).view.read (Elt Ideal)
      (N (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6))) := by
  show (cfg5.win 7).cut (grid5.coords t) ((dat5 V c).after 7 t) = _
  rw [after5_7]
  funext j
  obtain ⟨p, q, rfl⟩ : ∃ (p : Fin 5000) (q : Fin 128), j = ix2 p q := ⟨j 0, j 1, eq_ix2 j⟩
  refine (out_at _ _ _ _ _ _ _ p q).trans ?_
  rw [View.read_apply]
  obtain ⟨e0, e1⟩ := idx_row7 t
  have hk0 : ((((cfg5.win 7).blk t).view.emb (ix2 p q)) 0).val = 5000 * t.val + p.val := by
    show win5_7.index t 0 * 5000 + 1 * p.val = _; rw [e0]; omega
  have hk1 : ((((cfg5.win 7).blk t).view.emb (ix2 p q)) 1).val = q.val := by
    show win5_7.index t 1 * 128 + 1 * q.val = _; rw [e1]; omega
  unfold N
  refine Eq.trans ?_ (cast_eq _ _).symm
  have hcol : ∀ k : Fin 128, (ix2 k ((((cfg5.win 7).blk t).view.emb (ix2 p q)) 1) : S128x128.Idx) = ix2 k q := fun k => by
    funext a; match a with
    | ⟨0, _⟩ => rfl
    | ⟨1, _⟩ => exact Fin.ext hk1
  have hrow : (ix2 (0 : Fin 1) ((((cfg5.win 7).blk t).view.emb (ix2 p q)) 1) : S1x128.Idx) = ix2 0 q := by
    funext a; match a with
    | ⟨0, _⟩ => rfl
    | ⟨1, _⟩ => exact Fin.ext hk1
  rw [hrow, blk6_at V c t (ix2 0 q)]
  refine add_congr_left (Finset.sum_congr rfl fun k _ => ?_)
  rw [hcol k, blk5_at V c t (ix2 k q), blk4_at V c t (ix2 0 k)]
  refine relu_mul_congr (Finset.sum_congr rfl fun k' _ => ?_)
  rw [blk0_at V c t (ix2 p k') (ix2 ((((cfg5.win 7).blk t).view.emb (ix2 p q)) 0) k') hk0 rfl,
    blk1_at V c t (ix2 p k') (ix2 ((((cfg5.win 7).blk t).view.emb (ix2 p q)) 0) k') hk0 rfl,
    blk2_at V c t (ix2 0 0), blk3_at V c t (ix2 k' k)]

/-- THE ARRAY region 5 leaves: the node map of the entry contents. Every index of the array is in the block of the point
    its row belongs to (row r in block r / 5000), so the 10 write-backs cover the array. -/
theorem final5 (c : Dev nD) : (dat5 V c).arrAt 7 cfg5.N
    = N (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) :=
  (dat5 V c).arrAt_eq_of_cover 7 _ (fun t _ => flushed5 V c t) fun i => by
    have hi0 : (i 0).val < 50000 := (i 0).isLt
    have hi1 : (i 1).val < 128 := (i 1).isLt
    have hN : cfg5.N = 10 := N_5
    have ht : (i 0).val / 5000 < cfg5.N := by rw [hN]; omega
    obtain ⟨e0, e1⟩ := idx_row7 ⟨(i 0).val / 5000, ht⟩
    refine ⟨⟨(i 0).val / 5000, ht⟩, flush5_7 _, ?_⟩
    show i ∈ ((View.whole main_v179).slice (win5_7.rect ⟨(i 0).val / 5000, ht⟩)).set
    rw [View.set_slice_whole, Rect.mem_set_unit]
    intro a
    match a with
    | ⟨0, _⟩ =>
      show win5_7.index ⟨(i 0).val / 5000, ht⟩ 0 * 5000 ≤ (i 0).val ∧ (i 0).val < win5_7.index ⟨(i 0).val / 5000, ht⟩ 0 * 5000 + 5000
      rw [e0]; show (i 0).val / 5000 * 5000 ≤ (i 0).val ∧ (i 0).val < (i 0).val / 5000 * 5000 + 5000; omega
    | ⟨1, _⟩ =>
      show win5_7.index ⟨(i 0).val / 5000, ht⟩ 1 * 128 ≤ (i 1).val ∧ (i 1).val < win5_7.index ⟨(i 0).val / 5000, ht⟩ 1 * 128 + 128
      rw [e1]; omega

end Cert.Val.Node5

end
-- ==== Proof.Val.Rows2.lean ====
/-
  The small reshaped operands of layer 2's two regions: the bias row [1,128] the first region reads is the layer's edge
  bias [128] reshaped (entry (0,h) is entry h); likewise the second region's two bias rows; and its 1x1 block is the
  scalar 1 + eps reshaped.
-/
import proofs.«109328_j13039520711153_1_alg».proof.Proof.KI.Keep
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.Val.Rows2

open Cert.KernelIdeal Cert.KernelIdeal.Gen Cert.KernelIdeal.Fr
open Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

theorem bias_row (h : Fin 128) : (XV17 m c (Pipeline.arrRef spec4 3) : S1x128.Idx → Elt Ideal .f32) (ix2 0 h)
    = (X17 m c (Proc.devRef .tc main_v157) : S128.Idx → Elt Ideal .f32) (ix1 h) := by
  show StableHlo.after hostOps4_4 (X16 m c) (Proc.devRef .tc main_v158) (ix2 0 h) = StableHlo.after hostOps4_4 (X16 m c) (Proc.devRef .tc main_v157) (ix1 h)
  after_results_simp
  exact shapeCast_a_1a_apply _ _ 0 h

theorem eps_blk : (XV19 m c (Pipeline.arrRef spec5 2) : S1x1.Idx → Elt Ideal .f32) (ix2 0 0) = (X19 m c (Proc.devRef .tc main_v167) : S_.Idx → Elt Ideal .f32) ix0 := by
  show StableHlo.after hostOps5 (X18 m c) (Proc.devRef .tc main_v178) (ix2 0 0) = StableHlo.after hostOps5 (X18 m c) (Proc.devRef .tc main_v167) ix0
  after_results_simp
  exact shapeCast_apply _ _ _ ix0 (by decide)

theorem b1_row (k : Fin 128) : (XV19 m c (Pipeline.arrRef spec5 4) : S1x128.Idx → Elt Ideal .f32) (ix2 0 k) = (X19 m c (Proc.devRef .tc main_v171) : S128.Idx → Elt Ideal .f32) (ix1 k) := by
  show StableHlo.after hostOps5 (X18 m c) (Proc.devRef .tc main_v176) (ix2 0 k) = StableHlo.after hostOps5 (X18 m c) (Proc.devRef .tc main_v171) (ix1 k)
  after_results_simp
  exact shapeCast_a_1a_apply _ _ 0 k

theorem b2_row (k : Fin 128) : (XV19 m c (Pipeline.arrRef spec5 6) : S1x128.Idx → Elt Ideal .f32) (ix2 0 k) = (X19 m c (Proc.devRef .tc main_v175) : S128.Idx → Elt Ideal .f32) (ix1 k) := by
  show StableHlo.after hostOps5 (X18 m c) (Proc.devRef .tc main_v177) (ix2 0 k) = StableHlo.after hostOps5 (X18 m c) (Proc.devRef .tc main_v175) (ix1 k)
  after_results_simp
  exact shapeCast_a_1a_apply _ _ 0 k

end Cert.Val.Rows2

end
-- ==== Proof.Val.Sim2.lean ====
/-
  Layer 2: the kernel's program and the reference, side by side, continued. After the host operations that follow the
  fourth region — the virtual node's update from the sum of the node array over each graph, the next node table
  h + vn[batch], its gathered source rows — and the fifth region, the kernel's program holds the reference's updated
  embedding, node table and message array; after the sixth region, the reference's next node array.
-/
import proofs.«109328_j13039520711153_1_alg».proof.Proof.Val.Sim1
import proofs.«109328_j13039520711153_1_alg».proof.Proof.Val.Edge4
import proofs.«109328_j13039520711153_1_alg».proof.Proof.Val.Node5
import proofs.«109328_j13039520711153_1_alg».proof.Proof.Val.Rows2
import proofs.«109328_j13039520711153_1_alg».proof.Proof.Val.RefKeep

set_option maxRecDepth 16384

noncomputable section

namespace Cert.Val.Sim

open Cert.KernelIdeal Cert.KernelIdeal.Gen Cert.KernelIdeal.Fr Cert.Val.RC
open Idealize.ShloMosaic Idealize.ShloMosaic.TcCoe Idealize.ShloMosaic.ValueIdx Idealize.SL.Sem Idealize.ShloMosaic.StableHlo

variable {m : (ℓ : Loc nD τ sig) → Buf (Elt Ideal) ℓ}
variable {m' : (ℓ : Loc Cert.ReferenceIdeal.nD Cert.ReferenceIdeal.τ Cert.ReferenceIdeal.sig) → Buf (Elt Ideal) ℓ}
variable {c : Dev nD}

/-! ## After the kernel's fifth region (its boundary 18) and the reference's fifth chunk (its boundary 5) -/

set_option maxHeartbeats 8000000 in
/-- The virtual node's updated embedding. -/
theorem s18_v138 (H : Agree m m' c) : X18 m c (Proc.devRef .tc main_v138) = Y5 m' c r162 := by
  rw [X18_of_ne m c main_v138 (by decide)]
  unfold X17 X16 X15 X14 X13 Y5
  after_results_simp
  simp only [s12_v116 H, s12_v75 H, args12 m c main_arg15 (by decide), args12 m c main_arg9 (by decide), args12 m c main_arg10 (by decide), args12 m c main_arg11 (by decide), args12 m c main_arg12 (by decide), args12 m c main_arg7 (by decide), args12 m c main_arg8 (by decide),
    yK4_15 m' c, yK4_9 m' c, yK4_10 m' c, yK4_11 m' c, yK4_12 m' c, yK4_7 m' c, yK4_8 m' c]
  try simp only [H.a0, H.a1, H.a2, H.a3, H.a4, H.a5, H.a6, H.a7, H.a8, H.a9, H.a10, H.a11, H.a12, H.a13, H.a14, H.a15]
  all_goals rfl
set_option maxHeartbeats 8000000 in
/-- The next node table. -/
theorem s18_v146 (H : Agree m m' c) : X18 m c (Proc.devRef .tc main_v146) = Y5 m' c r170 := by
  rw [X18_of_ne m c main_v146 (by decide)]
  unfold X17 X16 X15 X14 X13 Y5
  after_results_simp
  simp only [s12_v116 H, s12_v75 H, args12 m c main_arg15 (by decide), args12 m c main_arg9 (by decide), args12 m c main_arg10 (by decide), args12 m c main_arg11 (by decide), args12 m c main_arg12 (by decide), args12 m c main_arg7 (by decide), args12 m c main_arg8 (by decide),
    yK4_15 m' c, yK4_9 m' c, yK4_10 m' c, yK4_11 m' c, yK4_12 m' c, yK4_7 m' c, yK4_8 m' c]
  try simp only [H.a0, H.a1, H.a2, H.a3, H.a4, H.a5, H.a6, H.a7, H.a8, H.a9, H.a10, H.a11, H.a12, H.a13, H.a14, H.a15]
  all_goals rfl
set_option maxHeartbeats 8000000 in
/-- The message array. -/
theorem s18_v159 (H : Agree m m' c) : X18 m c (Proc.devRef .tc main_v159) = Y5 m' c r187 := by
  refine (X18_arr m c 4).trans ?_
  rw [Cert.Val.Edge4.final4, ← Cert.Val.Ref.msg_eq _ _ _ (X17 m c (Proc.devRef .tc main_v157)) _ (Cert.Val.Rows2.bias_row m c)]
  unfold XV17 X17 X16 X15 X14 X13 Y5
  after_results_simp
  simp only [s12_v116 H, s12_v75 H, s12_v1 H, arg1_at12 m c, args12 m c main_arg15 (by decide), args12 m c main_arg9 (by decide), args12 m c main_arg10 (by decide), args12 m c main_arg11 (by decide), args12 m c main_arg12 (by decide), args12 m c main_arg7 (by decide), args12 m c main_arg8 (by decide),
    yK4_1 m' c, yK4_15 m' c, yK4_9 m' c, yK4_10 m' c, yK4_11 m' c, yK4_12 m' c, yK4_7 m' c, yK4_8 m' c]
  try simp only [H.a0, H.a1, H.a2, H.a3, H.a4, H.a5, H.a6, H.a7, H.a8, H.a9, H.a10, H.a11, H.a12, H.a13, H.a14, H.a15]
  all_goals rfl
/-- What the fifth chunk and the kernel's items 12 to 17 do not write, they keep. -/
theorem s18_v1 (H : Agree m m' c) : X18 m c (Proc.devRef .tc main_v1) = Y5 m' c r1 := by
  rw [keepV_12_18 m c main_v1 (by decide) (by decide) (by decide) (by decide) (by decide) (by decide), s12_v1 H]
  unfold Y5; after_results_simp
theorem s18_v3 (H : Agree m m' c) : X18 m c (Proc.devRef .tc main_v3) = Y5 m' c r3 := by
  rw [keepV_12_18 m c main_v3 (by decide) (by decide) (by decide) (by decide) (by decide) (by decide), s12_v3 H]
  unfold Y5; after_results_simp
theorem s18_v10 (H : Agree m m' c) : X18 m c (Proc.devRef .tc main_v10) = Y5 m' c r10 := by
  rw [keepV_12_18 m c main_v10 (by decide) (by decide) (by decide) (by decide) (by decide) (by decide), s12_v10 H]
  unfold Y5; after_results_simp
theorem s18_v53 (H : Agree m m' c) : X18 m c (Proc.devRef .tc main_v53) = Y5 m' c r65 := by
  rw [keepV_12_18 m c main_v53 (by decide) (by decide) (by decide) (by decide) (by decide) (by decide), s12_v53 H]
  unfold Y5; after_results_simp
theorem s18_v116 (H : Agree m m' c) : X18 m c (Proc.devRef .tc main_v116) = Y5 m' c r140 := by
  rw [keepV_12_18 m c main_v116 (by decide) (by decide) (by decide) (by decide) (by decide) (by decide), s12_v116 H]
  unfold Y5; after_results_simp

/-! ## After the kernel's sixth region (its boundary 20) and the reference's sixth chunk (its boundary 6) -/

set_option maxHeartbeats 8000000 in
/-- The node array. -/
theorem s20_v179 (H : Agree m m' c) : X20 m c (Proc.devRef .tc main_v179) = Y6 m' c r215 := by
  refine (X20_arr m c 7).trans ?_
  rw [Cert.Val.Node5.final5, ← Cert.Val.Ref.node_eq _ _ (X19 m c (Proc.devRef .tc main_v167)) _ (Cert.Val.Rows2.eps_blk m c) _ _
    (X19 m c (Proc.devRef .tc main_v171)) (X19 m c (Proc.devRef .tc main_v175)) _ _ (Cert.Val.Rows2.b1_row m c) (Cert.Val.Rows2.b2_row m c)]
  unfold XV19 X19 Y6
  after_results_simp
  simp only [s18_v3 H, s18_v10 H, s18_v146 H, s18_v159 H, args18 m c main_arg2 (by decide), args18 m c main_arg3 (by decide), args18 m c main_arg4 (by decide),
    args18 m c main_arg5 (by decide), args18 m c main_arg6 (by decide), yK5_2 m' c, yK5_3 m' c, yK5_4 m' c, yK5_5 m' c, yK5_6 m' c]
  try simp only [H.a0, H.a1, H.a2, H.a3, H.a4, H.a5, H.a6, H.a7, H.a8, H.a9, H.a10, H.a11, H.a12, H.a13, H.a14, H.a15]
  all_goals rfl
theorem s20_v1 (H : Agree m m' c) : X20 m c (Proc.devRef .tc main_v1) = Y6 m' c r1 := by
  rw [keepV_18_20 m c main_v1 (by decide) (by decide), s18_v1 H]
  unfold Y6; after_results_simp
theorem s20_v3 (H : Agree m m' c) : X20 m c (Proc.devRef .tc main_v3) = Y6 m' c r3 := by
  rw [keepV_18_20 m c main_v3 (by decide) (by decide), s18_v3 H]
  unfold Y6; after_results_simp
theorem s20_v10 (H : Agree m m' c) : X20 m c (Proc.devRef .tc main_v10) = Y6 m' c r10 := by
  rw [keepV_18_20 m c main_v10 (by decide) (by decide), s18_v10 H]
  unfold Y6; after_results_simp
theorem s20_v138 (H : Agree m m' c) : X20 m c (Proc.devRef .tc main_v138) = Y6 m' c r162 := by
  rw [keepV_18_20 m c main_v138 (by decide) (by decide), s18_v138 H]
  unfold Y6; after_results_simp
theorem s20_v53 (H : Agree m m' c) : X20 m c (Proc.devRef .tc main_v53) = Y6 m' c r65 := by
  rw [keepV_18_20 m c main_v53 (by decide) (by decide), s18_v53 H]
  unfold Y6; after_results_simp
theorem s20_v116 (H : Agree m m' c) : X20 m c (Proc.devRef .tc main_v116) = Y6 m' c r140 := by
  rw [keepV_18_20 m c main_v116 (by decide) (by decide), s18_v116 H]
  unfold Y6; after_results_simp

end Cert.Val.Sim

end
-- ==== Proof.Val.Edge6.lean ====
/-
  What region 6 leaves in its output array, at the exact reals: the message array M of the first edge region, taken at
  this region's four arrays. With hs the gathered source rows [800000,128], ea the edge attributes [800000,1], sc and bi the
  layer's scale and bias rows [1,128], the array after the region is
    M[e,h] = max(hs[e,h] + (ea[e,0] * sc[0,h] + bi[0,h]), 0)
  at every index: block t of the pipeline (rows 10000 t … 10000 t + 9999) is what point t writes back, and the 80 blocks
  cover the array.
-/
import proofs.«109328_j13039520711153_1_alg».proof.Proof.KI.Reg6
import proofs.«109328_j13039520711153_1_alg».proof.Proof.Val.Pay
import proofs.«109328_j13039520711153_1_alg».proof.Proof.Val.Edge0
import Idealize.ShloMosaic.Lib.Pipeline.Value
import Idealize.ShloMosaic.Lib.ValueIdx

set_option maxRecDepth 16384

noncomputable section

namespace Cert.Val.Edge6

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: windows 0, 1 and 4 at row block t, windows 2 and 3 at the one block. -/
theorem idx6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- Window 0's block at point t is rows 10000 t … of the source-row array. -/
theorem blk0_at (c : Dev nD) (t : Fin cfg6.N) (x : S10000x128.Idx) (k : S800000x128.Idx)
    (hk0 : (k 0).val = 10000 * t.val + (x 0).val) (hk1 : (k 1).val = (x 1).val) :
    (iblk6 V c 0 t : Vec Ideal S10000x128 .f32) x = (V c (Pipeline.arrRef spec6 0) : S800000x128.Idx → Elt Ideal .f32) k := by
  obtain ⟨e0, e1, -⟩ := idx6 t
  unfold iblk6
  rw [View.read_apply]
  have key : (((cfg6.win 0).blk t).view.emb x : S800000x128.Idx) = k := by
    funext a; apply Fin.ext
    match a with
    | ⟨0, _⟩ => show win6_0.index t 0 * 10000 + 1 * (x 0).val = (k 0).val; rw [e0, hk0]; omega
    | ⟨1, _⟩ => show win6_0.index t 1 * 128 + 1 * (x 1).val = (k 1).val; rw [e1, hk1]; omega
  exact congrArg (V c (Pipeline.arrRef spec6 0) : S800000x128.Idx → Elt Ideal .f32) key

/-- Window 1's block at point t is rows 10000 t … of the edge-attribute array. -/
theorem blk1_at (c : Dev nD) (t : Fin cfg6.N) (x : S10000x1.Idx) (k : S800000x1.Idx)
    (hk0 : (k 0).val = 10000 * t.val + (x 0).val) (hk1 : (k 1).val = (x 1).val) :
    (iblk6 V c 1 t : Vec Ideal S10000x1 .f32) x = (V c (Pipeline.arrRef spec6 1) : S800000x1.Idx → Elt Ideal .f32) k := by
  obtain ⟨-, -, e0, e1, -⟩ := idx6 t
  unfold iblk6
  rw [View.read_apply]
  have key : (((cfg6.win 1).blk t).view.emb x : S800000x1.Idx) = k := by
    funext a; apply Fin.ext
    match a with
    | ⟨0, _⟩ => show win6_1.index t 0 * 10000 + 1 * (x 0).val = (k 0).val; rw [e0, hk0]; omega
    | ⟨1, _⟩ => show win6_1.index t 1 * 1 + 1 * (x 1).val = (k 1).val; rw [e1, hk1]; omega
  exact congrArg (V c (Pipeline.arrRef spec6 1) : S800000x1.Idx → Elt Ideal .f32) key

/-- Windows 2 and 3: the one block is the whole row array. -/
theorem blk2_at (c : Dev nD) (t : Fin cfg6.N) (x : S1x128.Idx) :
    (iblk6 V c 2 t : Vec Ideal S1x128 .f32) x = (V c (Pipeline.arrRef spec6 2) : S1x128.Idx → Elt Ideal .f32) x := by
  obtain ⟨-, -, -, -, e0, e1, -⟩ := idx6 t
  unfold iblk6
  rw [View.read_apply]
  have key : (((cfg6.win 2).blk t).view.emb x : S1x128.Idx) = x := by
    funext a; apply Fin.ext
    match a with
    | ⟨0, _⟩ => show win6_2.index t 0 * 1 + 1 * (x 0).val = (x 0).val; rw [e0]; omega
    | ⟨1, _⟩ => show win6_2.index t 1 * 128 + 1 * (x 1).val = (x 1).val; rw [e1]; omega
  exact congrArg (V c (Pipeline.arrRef spec6 2) : S1x128.Idx → Elt Ideal .f32) key
theorem blk3_at (c : Dev nD) (t : Fin cfg6.N) (x : S1x128.Idx) :
    (iblk6 V c 3 t : Vec Ideal S1x128 .f32) x = (V c (Pipeline.arrRef spec6 3) : S1x128.Idx → Elt Ideal .f32) x := by
  obtain ⟨-, -, -, -, -, -, e0, e1, -⟩ := idx6 t
  unfold iblk6
  rw [View.read_apply]
  have key : (((cfg6.win 3).blk t).view.emb x : S1x128.Idx) = x := by
    funext a; apply Fin.ext
    match a with
    | ⟨0, _⟩ => show win6_3.index t 0 * 1 + 1 * (x 0).val = (x 0).val; rw [e0]; omega
    | ⟨1, _⟩ => show win6_3.index t 1 * 128 + 1 * (x 1).val = (x 1).val; rw [e1]; omega
  exact congrArg (V c (Pipeline.arrRef spec6 3) : S1x128.Idx → Elt Ideal .f32) key

/-- The output block after the body, entry by entry, from the four input blocks. -/
theorem out_at (x0 : Vec Ideal S10000x128 .f32) (x1 : Vec Ideal S10000x1 .f32) (x2 x3 : Vec Ideal S1x128 .f32) (p : Fin 10000) (q : Fin 128) :
    out6_4 x0 x1 x2 x3 (ix2 p q) = max (x0 (ix2 p q) + (x1 (ix2 p 0) * x2 (ix2 0 q) + x3 (ix2 0 q))) 0 := by
  unfold out6_4
  rw [View.canon_unit_zero hz]
  simp only [View.ld_unit_zero (S := S10000x128) hz, View.ld_unit_zero (S := S10000x1) hz, View.ld_unit_zero (S := S1x128) hz]
  exact Cert.Val.Pay.edge_pay6 _ _ _ _ p q

/-- What point t writes back is block t of the message array of the entry contents. -/
theorem flushed6 (c : Dev nD) (t : Fin cfg6.N) :
    (dat6 V c).flushed 4 t = ((cfg6.win 4).blk t).view.read (Elt Ideal)
      (Edge0.M (V c (Pipeline.arrRef spec6 0)) (V c (Pipeline.arrRef spec6 1)) (V c (Pipeline.arrRef spec6 2)) (V c (Pipeline.arrRef spec6 3))) := by
  show (cfg6.win 4).cut (grid6.coords t) ((dat6 V c).after 4 t) = _
  rw [after6_4]
  funext j
  obtain ⟨p, q, rfl⟩ : ∃ (p : Fin 10000) (q : Fin 128), j = ix2 p q := ⟨j 0, j 1, eq_ix2 j⟩
  refine (out_at _ _ _ _ p q).trans ?_
  rw [View.read_apply]
  obtain ⟨-, -, -, -, -, -, -, -, e0, e1⟩ := idx6 t
  have hk0 : ((((cfg6.win 4).blk t).view.emb (ix2 p q)) 0).val = 10000 * t.val + p.val := by
    show win6_4.index t 0 * 10000 + 1 * p.val = _; rw [e0]; omega
  have hk1 : ((((cfg6.win 4).blk t).view.emb (ix2 p q)) 1).val = q.val := by
    show win6_4.index t 1 * 128 + 1 * q.val = _; rw [e1]; omega
  unfold Edge0.M
  rw [blk0_at V c t (ix2 p q) _ hk0 hk1, blk1_at V c t (ix2 p 0) (ix2 ((((cfg6.win 4).blk t).view.emb (ix2 p q)) 0) 0) hk0 rfl,
    blk2_at V c t (ix2 0 q), blk3_at V c t (ix2 0 q)]
  have hq : (ix2 (0 : Fin 1) ((((cfg6.win 4).blk t).view.emb (ix2 p q)) 1) : S1x128.Idx) = ix2 0 q := by
    funext a; match a with
    | ⟨0, _⟩ => rfl
    | ⟨1, _⟩ => exact Fin.ext hk1
  rw [hq]
  first | rfl | exact (cast_eq _ _).symm

/-- THE ARRAY region 6 leaves: the message array of the entry contents. Every index of the array is in the block of
    the point its row belongs to (row r in block r / 10000), so the 80 write-backs cover the array. -/
theorem final6 (c : Dev nD) : (dat6 V c).arrAt 4 cfg6.N
    = Edge0.M (V c (Pipeline.arrRef spec6 0)) (V c (Pipeline.arrRef spec6 1)) (V c (Pipeline.arrRef spec6 2)) (V c (Pipeline.arrRef spec6 3)) :=
  (dat6 V c).arrAt_eq_of_cover 4 _ (fun t _ => flushed6 V c t) fun i => by
    have hi0 : (i 0).val < 800000 := (i 0).isLt
    have hi1 : (i 1).val < 128 := (i 1).isLt
    have hN : cfg6.N = 80 := N_6
    have ht : (i 0).val / 10000 < cfg6.N := by rw [hN]; omega
    obtain ⟨-, -, -, -, -, -, -, -, e0, e1⟩ := idx6 ⟨(i 0).val / 10000, ht⟩
    refine ⟨⟨(i 0).val / 10000, ht⟩, flush6_4 _, ?_⟩
    show i ∈ ((View.whole main_v222).slice (win6_4.rect ⟨(i 0).val / 10000, ht⟩)).set
    rw [View.set_slice_whole, Rect.mem_set_unit]
    intro a
    match a with
    | ⟨0, _⟩ =>
      show win6_4.index ⟨(i 0).val / 10000, ht⟩ 0 * 10000 ≤ (i 0).val ∧ (i 0).val < win6_4.index ⟨(i 0).val / 10000, ht⟩ 0 * 10000 + 10000
      rw [e0]; show (i 0).val / 10000 * 10000 ≤ (i 0).val ∧ (i 0).val < (i 0).val / 10000 * 10000 + 10000; omega
    | ⟨1, _⟩ =>
      show win6_4.index ⟨(i 0).val / 10000, ht⟩ 1 * 128 ≤ (i 1).val ∧ (i 1).val < win6_4.index ⟨(i 0).val / 10000, ht⟩ 1 * 128 + 128
      rw [e1]; omega

end Cert.Val.Edge6

end
-- ==== Proof.Val.Node7.lean ====
/-
  What region 7 leaves in its output array, at the exact reals: the node map N of the first node region, taken at
  this region's seven arrays. With h the node rows [50000,128], ag the aggregated messages [50000,128], ep the 1x1 scale,
  w1 and w2 the two weight matrices [128,128] and b1 and b2 the two bias rows [1,128], the array after the region is
    N[n,j] = (Σ_k max((Σ_k' (ep[0,0] * h[n,k'] + ag[n,k']) * w1[k',k]) + b1[0,k], 0) * w2[k,j]) + b2[0,j]
  at every index: block t of the pipeline (rows 5000 t … 5000 t + 4999) is what point t writes back, and the 10 blocks
  cover the array.
-/
import proofs.«109328_j13039520711153_1_alg».proof.Proof.KI.Reg7
import proofs.«109328_j13039520711153_1_alg».proof.Proof.Val.Pay
import proofs.«109328_j13039520711153_1_alg».proof.Proof.Val.Node1
import Idealize.ShloMosaic.Lib.Pipeline.Value
import Idealize.ShloMosaic.Lib.ValueIdx

set_option maxRecDepth 16384

noncomputable section

namespace Cert.Val.Node7

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

open Cert.Val.Node1 (N)

/-! ## Where each window's block sits at point t: windows 0, 1 and 7 at row block t, windows 2 to 6 at the one block -/

theorem idx_row0 : ∀ t : Fin cfg7.N, win7_0.index t (0 : Fin 2) = t.val ∧ win7_0.index t (1 : Fin 2) = 0 :=
  (by decide +kernel : ∀ t : Fin grid7.N, _)
theorem idx_row1 : ∀ t : Fin cfg7.N, win7_1.index t (0 : Fin 2) = t.val ∧ win7_1.index t (1 : Fin 2) = 0 :=
  (by decide +kernel : ∀ t : Fin grid7.N, _)
theorem idx_row7 : ∀ t : Fin cfg7.N, win7_7.index t (0 : Fin 2) = t.val ∧ win7_7.index t (1 : Fin 2) = 0 :=
  (by decide +kernel : ∀ t : Fin grid7.N, _)
theorem idx_one2 : ∀ t : Fin cfg7.N, win7_2.index t (0 : Fin 2) = 0 ∧ win7_2.index t (1 : Fin 2) = 0 :=
  (by decide +kernel : ∀ t : Fin grid7.N, _)
theorem idx_one3 : ∀ t : Fin cfg7.N, win7_3.index t (0 : Fin 2) = 0 ∧ win7_3.index t (1 : Fin 2) = 0 :=
  (by decide +kernel : ∀ t : Fin grid7.N, _)
theorem idx_one4 : ∀ t : Fin cfg7.N, win7_4.index t (0 : Fin 2) = 0 ∧ win7_4.index t (1 : Fin 2) = 0 :=
  (by decide +kernel : ∀ t : Fin grid7.N, _)
theorem idx_one5 : ∀ t : Fin cfg7.N, win7_5.index t (0 : Fin 2) = 0 ∧ win7_5.index t (1 : Fin 2) = 0 :=
  (by decide +kernel : ∀ t : Fin grid7.N, _)
theorem idx_one6 : ∀ t : Fin cfg7.N, win7_6.index t (0 : Fin 2) = 0 ∧ win7_6.index t (1 : Fin 2) = 0 :=
  (by decide +kernel : ∀ t : Fin grid7.N, _)

/-! ## The input blocks read off their arrays -/

/-- Window 0's block at point t is rows 5000 t … of the node-row array. -/
theorem blk0_at (c : Dev nD) (t : Fin cfg7.N) (x : S5000x128.Idx) (k : S50000x128.Idx)
    (hk0 : (k 0).val = 5000 * t.val + (x 0).val) (hk1 : (k 1).val = (x 1).val) :
    (iblk7 V c 0 t : Vec Ideal S5000x128 .f32) x = (V c (Pipeline.arrRef spec7 0) : S50000x128.Idx → Elt Ideal .f32) k := by
  obtain ⟨e0, e1⟩ := idx_row0 t
  unfold iblk7
  rw [View.read_apply]
  have key : (((cfg7.win 0).blk t).view.emb x : S50000x128.Idx) = k := by
    funext a; apply Fin.ext
    match a with
    | ⟨0, _⟩ => show win7_0.index t 0 * 5000 + 1 * (x 0).val = (k 0).val; rw [e0, hk0]; omega
    | ⟨1, _⟩ => show win7_0.index t 1 * 128 + 1 * (x 1).val = (k 1).val; rw [e1, hk1]; omega
  exact congrArg (V c (Pipeline.arrRef spec7 0) : S50000x128.Idx → Elt Ideal .f32) key

/-- Window 1's block at point t is rows 5000 t … of the aggregated-message array. -/
theorem blk1_at (c : Dev nD) (t : Fin cfg7.N) (x : S5000x128.Idx) (k : S50000x128.Idx)
    (hk0 : (k 0).val = 5000 * t.val + (x 0).val) (hk1 : (k 1).val = (x 1).val) :
    (iblk7 V c 1 t : Vec Ideal S5000x128 .f32) x = (V c (Pipeline.arrRef spec7 1) : S50000x128.Idx → Elt Ideal .f32) k := by
  obtain ⟨e0, e1⟩ := idx_row1 t
  unfold iblk7
  rw [View.read_apply]
  have key : (((cfg7.win 1).blk t).view.emb x : S50000x128.Idx) = k := by
    funext a; apply Fin.ext
    match a with
    | ⟨0, _⟩ => show win7_1.index t 0 * 5000 + 1 * (x 0).val = (k 0).val; rw [e0, hk0]; omega
    | ⟨1, _⟩ => show win7_1.index t 1 * 128 + 1 * (x 1).val = (k 1).val; rw [e1, hk1]; omega
  exact congrArg (V c (Pipeline.arrRef spec7 1) : S50000x128.Idx → Elt Ideal .f32) key

/-- Windows 2 to 6: the one block is the whole array. -/
theorem blk2_at (c : Dev nD) (t : Fin cfg7.N) (x : S1x1.Idx) :
    (iblk7 V c 2 t : Vec Ideal S1x1 .f32) x = (V c (Pipeline.arrRef spec7 2) : S1x1.Idx → Elt Ideal .f32) x := by
  obtain ⟨e0, e1⟩ := idx_one2 t
  unfold iblk7
  rw [View.read_apply]
  have key : (((cfg7.win 2).blk t).view.emb x : S1x1.Idx) = x := by
    funext a; apply Fin.ext
    match a with
    | ⟨0, _⟩ => show win7_2.index t 0 * 1 + 1 * (x 0).val = (x 0).val; rw [e0]; omega
    | ⟨1, _⟩ => show win7_2.index t 1 * 1 + 1 * (x 1).val = (x 1).val; rw [e1]; omega
  exact congrArg (V c (Pipeline.arrRef spec7 2) : S1x1.Idx → Elt Ideal .f32) key
theorem blk3_at (c : Dev nD) (t : Fin cfg7.N) (x : S128x128.Idx) :
    (iblk7 V c 3 t : Vec Ideal S128x128 .f32) x = (V c (Pipeline.arrRef spec7 3) : S128x128.Idx → Elt Ideal .f32) x := by
  obtain ⟨e0, e1⟩ := idx_one3 t
  unfold iblk7
  rw [View.read_apply]
  have key : (((cfg7.win 3).blk t).view.emb x : S128x128.Idx) = x := by
    funext a; apply Fin.ext
    match a with
    | ⟨0, _⟩ => show win7_3.index t 0 * 128 + 1 * (x 0).val = (x 0).val; rw [e0]; omega
    | ⟨1, _⟩ => show win7_3.index t 1 * 128 + 1 * (x 1).val = (x 1).val; rw [e1]; omega
  exact congrArg (V c (Pipeline.arrRef spec7 3) : S128x128.Idx → Elt Ideal .f32) key
theorem blk4_at (c : Dev nD) (t : Fin cfg7.N) (x : S1x128.Idx) :
    (iblk7 V c 4 t : Vec Ideal S1x128 .f32) x = (V c (Pipeline.arrRef spec7 4) : S1x128.Idx → Elt Ideal .f32) x := by
  obtain ⟨e0, e1⟩ := idx_one4 t
  unfold iblk7
  rw [View.read_apply]
  have key : (((cfg7.win 4).blk t).view.emb x : S1x128.Idx) = x := by
    funext a; apply Fin.ext
    match a with
    | ⟨0, _⟩ => show win7_4.index t 0 * 1 + 1 * (x 0).val = (x 0).val; rw [e0]; omega
    | ⟨1, _⟩ => show win7_4.index t 1 * 128 + 1 * (x 1).val = (x 1).val; rw [e1]; omega
  exact congrArg (V c (Pipeline.arrRef spec7 4) : S1x128.Idx → Elt Ideal .f32) key
theorem blk5_at (c : Dev nD) (t : Fin cfg7.N) (x : S128x128.Idx) :
    (iblk7 V c 5 t : Vec Ideal S128x128 .f32) x = (V c (Pipeline.arrRef spec7 5) : S128x128.Idx → Elt Ideal .f32) x := by
  obtain ⟨e0, e1⟩ := idx_one5 t
  unfold iblk7
  rw [View.read_apply]
  have key : (((cfg7.win 5).blk t).view.emb x : S128x128.Idx) = x := by
    funext a; apply Fin.ext
    match a with
    | ⟨0, _⟩ => show win7_5.index t 0 * 128 + 1 * (x 0).val = (x 0).val; rw [e0]; omega
    | ⟨1, _⟩ => show win7_5.index t 1 * 128 + 1 * (x 1).val = (x 1).val; rw [e1]; omega
  exact congrArg (V c (Pipeline.arrRef spec7 5) : S128x128.Idx → Elt Ideal .f32) key
theorem blk6_at (c : Dev nD) (t : Fin cfg7.N) (x : S1x128.Idx) :
    (iblk7 V c 6 t : Vec Ideal S1x128 .f32) x = (V c (Pipeline.arrRef spec7 6) : S1x128.Idx → Elt Ideal .f32) x := by
  obtain ⟨e0, e1⟩ := idx_one6 t
  unfold iblk7
  rw [View.read_apply]
  have key : (((cfg7.win 6).blk t).view.emb x : S1x128.Idx) = x := by
    funext a; apply Fin.ext
    match a with
    | ⟨0, _⟩ => show win7_6.index t 0 * 1 + 1 * (x 0).val = (x 0).val; rw [e0]; omega
    | ⟨1, _⟩ => show win7_6.index t 1 * 128 + 1 * (x 1).val = (x 1).val; rw [e1]; omega
  exact congrArg (V c (Pipeline.arrRef spec7 6) : S1x128.Idx → Elt Ideal .f32) key

/-! ## The output block and the array -/

/-- Two congruences in the shape of the node map: a summand replaced under `· + x`, and under `max (· + x) 0 * y`. -/
theorem add_congr_left {a b x : EReal} (hab : a = b) : a + x = b + x := hab ▸ rfl
theorem relu_mul_congr {a b x y : EReal} (hab : a = b) : max (a + x) 0 * y = max (b + x) 0 * y := hab ▸ rfl

/-- The output block after the body, entry by entry, from the seven input blocks. -/
theorem out_at (x0 x1 : Vec Ideal S5000x128 .f32) (x2 : Vec Ideal S1x1 .f32) (x3 : Vec Ideal S128x128 .f32) (x4 : Vec Ideal S1x128 .f32)
    (x5 : Vec Ideal S128x128 .f32) (x6 : Vec Ideal S1x128 .f32) (p : Fin 5000) (q : Fin 128) :
    out7_7 x0 x1 x2 x3 x4 x5 x6 (ix2 p q)
      = (∑ k : Fin 128, max ((∑ k' : Fin 128, (x2 (ix2 0 0) * x0 (ix2 p k') + x1 (ix2 p k')) * x3 (ix2 k' k)) + x4 (ix2 0 k)) 0 * x5 (ix2 k q))
        + x6 (ix2 0 q) := by
  unfold out7_7
  rw [View.canon_unit_zero hz]
  simp only [View.ld_unit_zero (S := S5000x128) hz, View.ld_unit_zero (S := S1x1) hz, View.ld_unit_zero (S := S128x128) hz,
    View.ld_unit_zero (S := S1x128) hz]
  exact Cert.Val.Pay.node_pay7 _ _ _ _ _ _ _ p q

set_option maxHeartbeats 2000000 in
/-- What point t writes back is block t of the node map of the entry contents. -/
theorem flushed7 (c : Dev nD) (t : Fin cfg7.N) :
    (dat7 V c).flushed 7 t = ((cfg7.win 7).blk t).view.read (Elt Ideal)
      (N (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6))) := by
  show (cfg7.win 7).cut (grid7.coords t) ((dat7 V c).after 7 t) = _
  rw [after7_7]
  funext j
  obtain ⟨p, q, rfl⟩ : ∃ (p : Fin 5000) (q : Fin 128), j = ix2 p q := ⟨j 0, j 1, eq_ix2 j⟩
  refine (out_at _ _ _ _ _ _ _ p q).trans ?_
  rw [View.read_apply]
  obtain ⟨e0, e1⟩ := idx_row7 t
  have hk0 : ((((cfg7.win 7).blk t).view.emb (ix2 p q)) 0).val = 5000 * t.val + p.val := by
    show win7_7.index t 0 * 5000 + 1 * p.val = _; rw [e0]; omega
  have hk1 : ((((cfg7.win 7).blk t).view.emb (ix2 p q)) 1).val = q.val := by
    show win7_7.index t 1 * 128 + 1 * q.val = _; rw [e1]; omega
  unfold N
  refine Eq.trans ?_ (cast_eq _ _).symm
  have hcol : ∀ k : Fin 128, (ix2 k ((((cfg7.win 7).blk t).view.emb (ix2 p q)) 1) : S128x128.Idx) = ix2 k q := fun k => by
    funext a; match a with
    | ⟨0, _⟩ => rfl
    | ⟨1, _⟩ => exact Fin.ext hk1
  have hrow : (ix2 (0 : Fin 1) ((((cfg7.win 7).blk t).view.emb (ix2 p q)) 1) : S1x128.Idx) = ix2 0 q := by
    funext a; match a with
    | ⟨0, _⟩ => rfl
    | ⟨1, _⟩ => exact Fin.ext hk1
  rw [hrow, blk6_at V c t (ix2 0 q)]
  refine add_congr_left (Finset.sum_congr rfl fun k _ => ?_)
  rw [hcol k, blk5_at V c t (ix2 k q), blk4_at V c t (ix2 0 k)]
  refine relu_mul_congr (Finset.sum_congr rfl fun k' _ => ?_)
  rw [blk0_at V c t (ix2 p k') (ix2 ((((cfg7.win 7).blk t).view.emb (ix2 p q)) 0) k') hk0 rfl,
    blk1_at V c t (ix2 p k') (ix2 ((((cfg7.win 7).blk t).view.emb (ix2 p q)) 0) k') hk0 rfl,
    blk2_at V c t (ix2 0 0), blk3_at V c t (ix2 k' k)]

/-- THE ARRAY region 7 leaves: the node map of the entry contents. Every index of the array is in the block of the point
    its row belongs to (row r in block r / 5000), so the 10 write-backs cover the array. -/
theorem final7 (c : Dev nD) : (dat7 V c).arrAt 7 cfg7.N
    = N (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6)) :=
  (dat7 V c).arrAt_eq_of_cover 7 _ (fun t _ => flushed7 V c t) fun i => by
    have hi0 : (i 0).val < 50000 := (i 0).isLt
    have hi1 : (i 1).val < 128 := (i 1).isLt
    have hN : cfg7.N = 10 := N_7
    have ht : (i 0).val / 5000 < cfg7.N := by rw [hN]; omega
    obtain ⟨e0, e1⟩ := idx_row7 ⟨(i 0).val / 5000, ht⟩
    refine ⟨⟨(i 0).val / 5000, ht⟩, flush7_7 _, ?_⟩
    show i ∈ ((View.whole main_v242).slice (win7_7.rect ⟨(i 0).val / 5000, ht⟩)).set
    rw [View.set_slice_whole, Rect.mem_set_unit]
    intro a
    match a with
    | ⟨0, _⟩ =>
      show win7_7.index ⟨(i 0).val / 5000, ht⟩ 0 * 5000 ≤ (i 0).val ∧ (i 0).val < win7_7.index ⟨(i 0).val / 5000, ht⟩ 0 * 5000 + 5000
      rw [e0]; show (i 0).val / 5000 * 5000 ≤ (i 0).val ∧ (i 0).val < (i 0).val / 5000 * 5000 + 5000; omega
    | ⟨1, _⟩ =>
      show win7_7.index ⟨(i 0).val / 5000, ht⟩ 1 * 128 ≤ (i 1).val ∧ (i 1).val < win7_7.index ⟨(i 0).val / 5000, ht⟩ 1 * 128 + 128
      rw [e1]; omega

end Cert.Val.Node7

end
-- ==== Proof.Val.Rows3.lean ====
/-
  The small reshaped operands of layer 3's two regions: the bias row [1,128] the first region reads is the layer's edge
  bias [128] reshaped (entry (0,h) is entry h); likewise the second region's two bias rows; and its 1x1 block is the
  scalar 1 + eps reshaped.
-/
import proofs.«109328_j13039520711153_1_alg».proof.Proof.KI.Keep
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.Val.Rows3

open Cert.KernelIdeal Cert.KernelIdeal.Gen Cert.KernelIdeal.Fr
open Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

theorem bias_row (h : Fin 128) : (XV25 m c (Pipeline.arrRef spec6 3) : S1x128.Idx → Elt Ideal .f32) (ix2 0 h)
    = (X25 m c (Proc.devRef .tc main_v220) : S128.Idx → Elt Ideal .f32) (ix1 h) := by
  show StableHlo.after hostOps6_4 (X24 m c) (Proc.devRef .tc main_v221) (ix2 0 h) = StableHlo.after hostOps6_4 (X24 m c) (Proc.devRef .tc main_v220) (ix1 h)
  after_results_simp
  exact shapeCast_a_1a_apply _ _ 0 h

theorem eps_blk : (XV27 m c (Pipeline.arrRef spec7 2) : S1x1.Idx → Elt Ideal .f32) (ix2 0 0) = (X27 m c (Proc.devRef .tc main_v230) : S_.Idx → Elt Ideal .f32) ix0 := by
  show StableHlo.after hostOps7 (X26 m c) (Proc.devRef .tc main_v241) (ix2 0 0) = StableHlo.after hostOps7 (X26 m c) (Proc.devRef .tc main_v230) ix0
  after_results_simp
  exact shapeCast_apply _ _ _ ix0 (by decide)

theorem b1_row (k : Fin 128) : (XV27 m c (Pipeline.arrRef spec7 4) : S1x128.Idx → Elt Ideal .f32) (ix2 0 k) = (X27 m c (Proc.devRef .tc main_v234) : S128.Idx → Elt Ideal .f32) (ix1 k) := by
  show StableHlo.after hostOps7 (X26 m c) (Proc.devRef .tc main_v239) (ix2 0 k) = StableHlo.after hostOps7 (X26 m c) (Proc.devRef .tc main_v234) (ix1 k)
  after_results_simp
  exact shapeCast_a_1a_apply _ _ 0 k

theorem b2_row (k : Fin 128) : (XV27 m c (Pipeline.arrRef spec7 6) : S1x128.Idx → Elt Ideal .f32) (ix2 0 k) = (X27 m c (Proc.devRef .tc main_v238) : S128.Idx → Elt Ideal .f32) (ix1 k) := by
  show StableHlo.after hostOps7 (X26 m c) (Proc.devRef .tc main_v240) (ix2 0 k) = StableHlo.after hostOps7 (X26 m c) (Proc.devRef .tc main_v238) (ix1 k)
  after_results_simp
  exact shapeCast_a_1a_apply _ _ 0 k

end Cert.Val.Rows3

end
-- ==== Proof.Val.Sim3.lean ====
/-
  Layer 3: the kernel's program and the reference, side by side, continued. After the host operations that follow the
  sixth region — the virtual node's update from the sum of the node array over each graph, the next node table
  h + vn[batch], its gathered source rows — and the seventh region, the kernel's program holds the reference's updated
  embedding, node table and message array; after the eighth region, the reference's next node array.
-/
import proofs.«109328_j13039520711153_1_alg».proof.Proof.Val.Sim2
import proofs.«109328_j13039520711153_1_alg».proof.Proof.Val.Edge6
import proofs.«109328_j13039520711153_1_alg».proof.Proof.Val.Node7
import proofs.«109328_j13039520711153_1_alg».proof.Proof.Val.Rows3
import proofs.«109328_j13039520711153_1_alg».proof.Proof.Val.RefKeep

set_option maxRecDepth 16384

noncomputable section

namespace Cert.Val.Sim

open Cert.KernelIdeal Cert.KernelIdeal.Gen Cert.KernelIdeal.Fr Cert.Val.RC
open Idealize.ShloMosaic Idealize.ShloMosaic.TcCoe Idealize.ShloMosaic.ValueIdx Idealize.SL.Sem Idealize.ShloMosaic.StableHlo

variable {m : (ℓ : Loc nD τ sig) → Buf (Elt Ideal) ℓ}
variable {m' : (ℓ : Loc Cert.ReferenceIdeal.nD Cert.ReferenceIdeal.τ Cert.ReferenceIdeal.sig) → Buf (Elt Ideal) ℓ}
variable {c : Dev nD}

/-! ## After the kernel's seventh region (its boundary 26) and the reference's seventh chunk (its boundary 7) -/

set_option maxHeartbeats 8000000 in
/-- The virtual node's updated embedding. -/
theorem s26_v201 (H : Agree m m' c) : X26 m c (Proc.devRef .tc main_v201) = Y7 m' c r237 := by
  rw [X26_of_ne m c main_v201 (by decide)]
  unfold X25 X24 X23 X22 X21 Y7
  after_results_simp
  simp only [s20_v179 H, s20_v138 H, args20 m c main_arg15 (by decide), args20 m c main_arg9 (by decide), args20 m c main_arg10 (by decide), args20 m c main_arg11 (by decide), args20 m c main_arg12 (by decide), args20 m c main_arg7 (by decide), args20 m c main_arg8 (by decide),
    yK6_15 m' c, yK6_9 m' c, yK6_10 m' c, yK6_11 m' c, yK6_12 m' c, yK6_7 m' c, yK6_8 m' c]
  try simp only [H.a0, H.a1, H.a2, H.a3, H.a4, H.a5, H.a6, H.a7, H.a8, H.a9, H.a10, H.a11, H.a12, H.a13, H.a14, H.a15]
  all_goals rfl
set_option maxHeartbeats 8000000 in
/-- The next node table. -/
theorem s26_v209 (H : Agree m m' c) : X26 m c (Proc.devRef .tc main_v209) = Y7 m' c r245 := by
  rw [X26_of_ne m c main_v209 (by decide)]
  unfold X25 X24 X23 X22 X21 Y7
  after_results_simp
  simp only [s20_v179 H, s20_v138 H, args20 m c main_arg15 (by decide), args20 m c main_arg9 (by decide), args20 m c main_arg10 (by decide), args20 m c main_arg11 (by decide), args20 m c main_arg12 (by decide), args20 m c main_arg7 (by decide), args20 m c main_arg8 (by decide),
    yK6_15 m' c, yK6_9 m' c, yK6_10 m' c, yK6_11 m' c, yK6_12 m' c, yK6_7 m' c, yK6_8 m' c]
  try simp only [H.a0, H.a1, H.a2, H.a3, H.a4, H.a5, H.a6, H.a7, H.a8, H.a9, H.a10, H.a11, H.a12, H.a13, H.a14, H.a15]
  all_goals rfl
set_option maxHeartbeats 8000000 in
/-- The message array. -/
theorem s26_v222 (H : Agree m m' c) : X26 m c (Proc.devRef .tc main_v222) = Y7 m' c r262 := by
  refine (X26_arr m c 4).trans ?_
  rw [Cert.Val.Edge6.final6, ← Cert.Val.Ref.msg_eq _ _ _ (X25 m c (Proc.devRef .tc main_v220)) _ (Cert.Val.Rows3.bias_row m c)]
  unfold XV25 X25 X24 X23 X22 X21 Y7
  after_results_simp
  simp only [s20_v179 H, s20_v138 H, s20_v1 H, arg1_at20 m c, args20 m c main_arg15 (by decide), args20 m c main_arg9 (by decide), args20 m c main_arg10 (by decide), args20 m c main_arg11 (by decide), args20 m c main_arg12 (by decide), args20 m c main_arg7 (by decide), args20 m c main_arg8 (by decide),
    yK6_1 m' c, yK6_15 m' c, yK6_9 m' c, yK6_10 m' c, yK6_11 m' c, yK6_12 m' c, yK6_7 m' c, yK6_8 m' c]
  try simp only [H.a0, H.a1, H.a2, H.a3, H.a4, H.a5, H.a6, H.a7, H.a8, H.a9, H.a10, H.a11, H.a12, H.a13, H.a14, H.a15]
  all_goals rfl
/-- What the seventh chunk and the kernel's items 20 to 25 do not write, they keep. -/
theorem s26_v1 (H : Agree m m' c) : X26 m c (Proc.devRef .tc main_v1) = Y7 m' c r1 := by
  rw [keepV_20_26 m c main_v1 (by decide) (by decide) (by decide) (by decide) (by decide) (by decide), s20_v1 H]
  unfold Y7; after_results_simp
theorem s26_v3 (H : Agree m m' c) : X26 m c (Proc.devRef .tc main_v3) = Y7 m' c r3 := by
  rw [keepV_20_26 m c main_v3 (by decide) (by decide) (by decide) (by decide) (by decide) (by decide), s20_v3 H]
  unfold Y7; after_results_simp
theorem s26_v10 (H : Agree m m' c) : X26 m c (Proc.devRef .tc main_v10) = Y7 m' c r10 := by
  rw [keepV_20_26 m c main_v10 (by decide) (by decide) (by decide) (by decide) (by decide) (by decide), s20_v10 H]
  unfold Y7; after_results_simp
theorem s26_v53 (H : Agree m m' c) : X26 m c (Proc.devRef .tc main_v53) = Y7 m' c r65 := by
  rw [keepV_20_26 m c main_v53 (by decide) (by decide) (by decide) (by decide) (by decide) (by decide), s20_v53 H]
  unfold Y7; after_results_simp
theorem s26_v116 (H : Agree m m' c) : X26 m c (Proc.devRef .tc main_v116) = Y7 m' c r140 := by
  rw [keepV_20_26 m c main_v116 (by decide) (by decide) (by decide) (by decide) (by decide) (by decide), s20_v116 H]
  unfold Y7; after_results_simp
theorem s26_v179 (H : Agree m m' c) : X26 m c (Proc.devRef .tc main_v179) = Y7 m' c r215 := by
  rw [keepV_20_26 m c main_v179 (by decide) (by decide) (by decide) (by decide) (by decide) (by decide), s20_v179 H]
  unfold Y7; after_results_simp

/-! ## After the kernel's eighth region (its boundary 28) and the reference's eighth chunk (its boundary 8) -/

set_option maxHeartbeats 8000000 in
/-- The node array. -/
theorem s28_v242 (H : Agree m m' c) : X28 m c (Proc.devRef .tc main_v242) = Y8 m' c r290 := by
  refine (X28_arr m c 7).trans ?_
  rw [Cert.Val.Node7.final7, ← Cert.Val.Ref.node_eq _ _ (X27 m c (Proc.devRef .tc main_v230)) _ (Cert.Val.Rows3.eps_blk m c) _ _
    (X27 m c (Proc.devRef .tc main_v234)) (X27 m c (Proc.devRef .tc main_v238)) _ _ (Cert.Val.Rows3.b1_row m c) (Cert.Val.Rows3.b2_row m c)]
  unfold XV27 X27 Y8
  after_results_simp
  simp only [s26_v3 H, s26_v10 H, s26_v209 H, s26_v222 H, args26 m c main_arg2 (by decide), args26 m c main_arg3 (by decide), args26 m c main_arg4 (by decide),
    args26 m c main_arg5 (by decide), args26 m c main_arg6 (by decide), yK7_2 m' c, yK7_3 m' c, yK7_4 m' c, yK7_5 m' c, yK7_6 m' c]
  try simp only [H.a0, H.a1, H.a2, H.a3, H.a4, H.a5, H.a6, H.a7, H.a8, H.a9, H.a10, H.a11, H.a12, H.a13, H.a14, H.a15]
  all_goals rfl
theorem s28_v1 (H : Agree m m' c) : X28 m c (Proc.devRef .tc main_v1) = Y8 m' c r1 := by
  rw [keepV_26_28 m c main_v1 (by decide) (by decide), s26_v1 H]
  unfold Y8; after_results_simp
theorem s28_v3 (H : Agree m m' c) : X28 m c (Proc.devRef .tc main_v3) = Y8 m' c r3 := by
  rw [keepV_26_28 m c main_v3 (by decide) (by decide), s26_v3 H]
  unfold Y8; after_results_simp
theorem s28_v10 (H : Agree m m' c) : X28 m c (Proc.devRef .tc main_v10) = Y8 m' c r10 := by
  rw [keepV_26_28 m c main_v10 (by decide) (by decide), s26_v10 H]
  unfold Y8; after_results_simp
theorem s28_v53 (H : Agree m m' c) : X28 m c (Proc.devRef .tc main_v53) = Y8 m' c r65 := by
  rw [keepV_26_28 m c main_v53 (by decide) (by decide), s26_v53 H]
  unfold Y8; after_results_simp
theorem s28_v116 (H : Agree m m' c) : X28 m c (Proc.devRef .tc main_v116) = Y8 m' c r140 := by
  rw [keepV_26_28 m c main_v116 (by decide) (by decide), s26_v116 H]
  unfold Y8; after_results_simp
theorem s28_v179 (H : Agree m m' c) : X28 m c (Proc.devRef .tc main_v179) = Y8 m' c r215 := by
  rw [keepV_26_28 m c main_v179 (by decide) (by decide), s26_v179 H]
  unfold Y8; after_results_simp

end Cert.Val.Sim

end
-- ==== Proof.Val.SimEnd.lean ====
/-
  The end of the comparison: the last operation of each program concatenates the four layers' node arrays; those are equal
  pairwise, so the two results are equal.
-/
import proofs.«109328_j13039520711153_1_alg».proof.Proof.Val.Sim3

set_option maxRecDepth 16384

noncomputable section

namespace Cert.Val.Sim

open Cert.KernelIdeal Cert.KernelIdeal.Gen Cert.KernelIdeal.Fr Cert.Val.RC
open Idealize.ShloMosaic Idealize.ShloMosaic.TcCoe Idealize.ShloMosaic.ValueIdx Idealize.SL.Sem Idealize.ShloMosaic.StableHlo

variable {m : (ℓ : Loc nD τ sig) → Buf (Elt Ideal) ℓ}
variable {m' : (ℓ : Loc Cert.ReferenceIdeal.nD Cert.ReferenceIdeal.τ Cert.ReferenceIdeal.sig) → Buf (Elt Ideal) ℓ}
variable {c : Dev nD}

/-- The kernel program's result is the reference's. -/
theorem s29_result (H : Agree m m' c) : X29 m c (Proc.devRef .tc main_v243) = Y9 m' c r291 := by
  have e0 : X28 m c (Proc.devRef .tc ((![main_v53, main_v116, main_v179, main_v242] : Fin 4 → Ref sig .tc) 0))
      = Y8 m' c (Proc.devRef .tc ((![Cert.ReferenceIdeal.main_v65, Cert.ReferenceIdeal.main_v140, Cert.ReferenceIdeal.main_v215, Cert.ReferenceIdeal.main_v290] : Fin 4 → Ref Cert.ReferenceIdeal.sig .tc) 0)) := s28_v53 H
  have e1 : X28 m c (Proc.devRef .tc ((![main_v53, main_v116, main_v179, main_v242] : Fin 4 → Ref sig .tc) 1))
      = Y8 m' c (Proc.devRef .tc ((![Cert.ReferenceIdeal.main_v65, Cert.ReferenceIdeal.main_v140, Cert.ReferenceIdeal.main_v215, Cert.ReferenceIdeal.main_v290] : Fin 4 → Ref Cert.ReferenceIdeal.sig .tc) 1)) := s28_v116 H
  have e2 : X28 m c (Proc.devRef .tc ((![main_v53, main_v116, main_v179, main_v242] : Fin 4 → Ref sig .tc) 2))
      = Y8 m' c (Proc.devRef .tc ((![Cert.ReferenceIdeal.main_v65, Cert.ReferenceIdeal.main_v140, Cert.ReferenceIdeal.main_v215, Cert.ReferenceIdeal.main_v290] : Fin 4 → Ref Cert.ReferenceIdeal.sig .tc) 2)) := s28_v179 H
  have e3 : X28 m c (Proc.devRef .tc ((![main_v53, main_v116, main_v179, main_v242] : Fin 4 → Ref sig .tc) 3))
      = Y8 m' c (Proc.devRef .tc ((![Cert.ReferenceIdeal.main_v65, Cert.ReferenceIdeal.main_v140, Cert.ReferenceIdeal.main_v215, Cert.ReferenceIdeal.main_v290] : Fin 4 → Ref Cert.ReferenceIdeal.sig .tc) 3)) := s28_v242 H
  unfold X29 Y9
  after_results_simp
  rw [e0, e1, e2, e3]
  all_goals rfl

end Cert.Val.Sim

end
-- ==== Proof.Val.RefJoin.lean ====
/-
  The reference's 350 operations are its nine chunks one after the other, so the fold of all of them over the launch
  contents is the last boundary's contents Y9.
-/
import proofs.«109328_j13039520711153_1_alg».proof.Proof.RefOps
import proofs.«109328_j13039520711153_1_alg».proof.Proof.Val.RefChain

noncomputable section

namespace Cert.Val.RC

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

set_option maxRecDepth 8192 in
set_option maxHeartbeats 4000000 in
/-- The operations are the nine chunks one after the other. -/
theorem ops_chunks : (ops : List (HloOp τ sig (Elt F))) = opsC0 ++ (opsC1 ++ (opsC2 ++ (opsC3 ++ (opsC4 ++ (opsC5 ++ (opsC6 ++ (opsC7 ++ opsC8))))))) := rfl

/-- The fold of all the operations is the last boundary's contents. -/
theorem after_ops (m : (ℓ : Loc nD τ sig) → Buf (Elt Ideal) ℓ) (c : Dev nD) : after (ops (F := Ideal)) (launchContents m c) = Y9 m c := by
  rw [ops_chunks]; simp only [after_append]; rfl

end Cert.Val.RC

end
-- ==== Proof.lean ====
/-
  The certificate of a four-layer graph network: a Pallas program of eight kernel regions (per layer an edge-message
  kernel, out = max(hsrc + (attr * scale + bias), 0) on blocks of 10000 edges, and a node kernel, the two-layer map
  max((eps h + agg) W1 + b1, 0) W2 + b2 on blocks of 5000 nodes) among host gathers, scatters and the virtual node's
  update, against its plain jnp reference.
  FRAMES. Each Pallas program (at the word level and at the exact reals) runs as 29 items — 21 stretches of host
  operations and 8 regions —: every region's body is run once at a generic grid point on whole staging buffers, its
  pipeline's proof data says what each block holds after the body, and the launch theorem for several regions chains the
  items; no item writes an argument array. The reference is a straight line of 350 host operations.
  VALUE. At the exact reals every region leaves one whole-array function of its input arrays (the message array, the
  node array); the reference computes the same arrays with a contraction over an axis of extent one, broadcasts and two
  contractions over 128; the host operations around them are the same on both sides. So, from memories that agree on the
  arguments, the two programs agree at every boundary, and their results — the four node arrays side by side — are equal.
  No law of the extended reals beyond the definitions is used, so the precondition is never opened.
-/
import proofs.«109328_j13039520711153_1_alg».proof.Defs
import proofs.«109328_j13039520711153_1_alg».proof.Proof.Gen.Kernel
import proofs.«109328_j13039520711153_1_alg».proof.Proof.Gen.KernelIdeal
import proofs.«109328_j13039520711153_1_alg».proof.Proof.Gen.ReferenceIdeal
import proofs.«109328_j13039520711153_1_alg».proof.Proof.Gen.Pre_finite_inputs
import proofs.«109328_j13039520711153_1_alg».proof.Proof.K.Frame
import proofs.«109328_j13039520711153_1_alg».proof.Proof.KI.Frame
import proofs.«109328_j13039520711153_1_alg».proof.Proof.Val.SimEnd
import proofs.«109328_j13039520711153_1_alg».proof.Proof.RefRun
import proofs.«109328_j13039520711153_1_alg».proof.Proof.Val.RefJoin
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-- The reference runs to the end, and no operation of its line writes an argument. -/
theorem frame_ri : Cert.frame_ReferenceIdeal := fun m ρ _ =>
  (θ_run Cert.ReferenceIdeal.defs _ _).mono (fun r h c => ⟨
    (h c Cert.ReferenceIdeal.main_arg0).trans (by rw [Cert.Val.RC.after_ops]; exact Cert.Val.RC.yK9_0 m c),
    (h c Cert.ReferenceIdeal.main_arg1).trans (by rw [Cert.Val.RC.after_ops]; exact Cert.Val.RC.yK9_1 m c),
    (h c Cert.ReferenceIdeal.main_arg2).trans (by rw [Cert.Val.RC.after_ops]; exact Cert.Val.RC.yK9_2 m c),
    (h c Cert.ReferenceIdeal.main_arg3).trans (by rw [Cert.Val.RC.after_ops]; exact Cert.Val.RC.yK9_3 m c),
    (h c Cert.ReferenceIdeal.main_arg4).trans (by rw [Cert.Val.RC.after_ops]; exact Cert.Val.RC.yK9_4 m c),
    (h c Cert.ReferenceIdeal.main_arg5).trans (by rw [Cert.Val.RC.after_ops]; exact Cert.Val.RC.yK9_5 m c),
    (h c Cert.ReferenceIdeal.main_arg6).trans (by rw [Cert.Val.RC.after_ops]; exact Cert.Val.RC.yK9_6 m c),
    (h c Cert.ReferenceIdeal.main_arg7).trans (by rw [Cert.Val.RC.after_ops]; exact Cert.Val.RC.yK9_7 m c),
    (h c Cert.ReferenceIdeal.main_arg8).trans (by rw [Cert.Val.RC.after_ops]; exact Cert.Val.RC.yK9_8 m c),
    (h c Cert.ReferenceIdeal.main_arg9).trans (by rw [Cert.Val.RC.after_ops]; exact Cert.Val.RC.yK9_9 m c),
    (h c Cert.ReferenceIdeal.main_arg10).trans (by rw [Cert.Val.RC.after_ops]; exact Cert.Val.RC.yK9_10 m c),
    (h c Cert.ReferenceIdeal.main_arg11).trans (by rw [Cert.Val.RC.after_ops]; exact Cert.Val.RC.yK9_11 m c),
    (h c Cert.ReferenceIdeal.main_arg12).trans (by rw [Cert.Val.RC.after_ops]; exact Cert.Val.RC.yK9_12 m c),
    (h c Cert.ReferenceIdeal.main_arg13).trans (by rw [Cert.Val.RC.after_ops]; exact Cert.Val.RC.yK9_13 m c),
    (h c Cert.ReferenceIdeal.main_arg14).trans (by rw [Cert.Val.RC.after_ops]; exact Cert.Val.RC.yK9_14 m c),
    (h c Cert.ReferenceIdeal.main_arg15).trans (by rw [Cert.Val.RC.after_ops]; exact Cert.Val.RC.yK9_15 m c)⟩)
    (Cert.ReferenceIdeal.ValueP.runP (F := Ideal) m ρ)

/-- From memories agreeing on the arguments both programs run, and end with equal results and unchanged arguments. -/
theorem algebraic : Cert.algebraic_KernelIdeal_ReferenceIdeal := by
  intro m ρ m' ρ' _ hag
  have H : ∀ c, Cert.Val.Sim.Agree m m' c := fun c => by
    obtain ⟨h0, h1, h2, h3, h4, h5, h6, h7, h8, h9, h10, h11, h12, h13, h14, h15⟩ := hag c
    exact ⟨h0, h1, h2, h3, h4, h5, h6, h7, h8, h9, h10, h11, h12, h13, h14, h15⟩
  refine ⟨fun c => Cert.KernelIdeal.Fr.X29 m c (Proc.devRef .tc Cert.KernelIdeal.main_v243), ?_, ?_⟩
  · exact (θ_run Cert.KernelIdeal.defs _ _).mono (fun r h c => ⟨h c _ (Cert.KernelIdeal.Fr.mem_uc Cert.KernelIdeal.main_v243 (by decide)),
      (h c _ (Cert.KernelIdeal.Fr.mem_uc Cert.KernelIdeal.main_arg0 (by decide))).trans (Cert.KernelIdeal.Fr.X29_arg0 m c),
      (h c _ (Cert.KernelIdeal.Fr.mem_uc Cert.KernelIdeal.main_arg1 (by decide))).trans (Cert.KernelIdeal.Fr.X29_arg1 m c),
      (h c _ (Cert.KernelIdeal.Fr.mem_uc Cert.KernelIdeal.main_arg2 (by decide))).trans (Cert.KernelIdeal.Fr.X29_arg2 m c),
      (h c _ (Cert.KernelIdeal.Fr.mem_uc Cert.KernelIdeal.main_arg3 (by decide))).trans (Cert.KernelIdeal.Fr.X29_arg3 m c),
      (h c _ (Cert.KernelIdeal.Fr.mem_uc Cert.KernelIdeal.main_arg4 (by decide))).trans (Cert.KernelIdeal.Fr.X29_arg4 m c),
      (h c _ (Cert.KernelIdeal.Fr.mem_uc Cert.KernelIdeal.main_arg5 (by decide))).trans (Cert.KernelIdeal.Fr.X29_arg5 m c),
      (h c _ (Cert.KernelIdeal.Fr.mem_uc Cert.KernelIdeal.main_arg6 (by decide))).trans (Cert.KernelIdeal.Fr.X29_arg6 m c),
      (h c _ (Cert.KernelIdeal.Fr.mem_uc Cert.KernelIdeal.main_arg7 (by decide))).trans (Cert.KernelIdeal.Fr.X29_arg7 m c),
      (h c _ (Cert.KernelIdeal.Fr.mem_uc Cert.KernelIdeal.main_arg8 (by decide))).trans (Cert.KernelIdeal.Fr.X29_arg8 m c),
      (h c _ (Cert.KernelIdeal.Fr.mem_uc Cert.KernelIdeal.main_arg9 (by decide))).trans (Cert.KernelIdeal.Fr.X29_arg9 m c),
      (h c _ (Cert.KernelIdeal.Fr.mem_uc Cert.KernelIdeal.main_arg10 (by decide))).trans (Cert.KernelIdeal.Fr.X29_arg10 m c),
      (h c _ (Cert.KernelIdeal.Fr.mem_uc Cert.KernelIdeal.main_arg11 (by decide))).trans (Cert.KernelIdeal.Fr.X29_arg11 m c),
      (h c _ (Cert.KernelIdeal.Fr.mem_uc Cert.KernelIdeal.main_arg12 (by decide))).trans (Cert.KernelIdeal.Fr.X29_arg12 m c),
      (h c _ (Cert.KernelIdeal.Fr.mem_uc Cert.KernelIdeal.main_arg13 (by decide))).trans (Cert.KernelIdeal.Fr.X29_arg13 m c),
      (h c _ (Cert.KernelIdeal.Fr.mem_uc Cert.KernelIdeal.main_arg14 (by decide))).trans (Cert.KernelIdeal.Fr.X29_arg14 m c),
      (h c _ (Cert.KernelIdeal.Fr.mem_uc Cert.KernelIdeal.main_arg15 (by decide))).trans (Cert.KernelIdeal.Fr.X29_arg15 m c)⟩)
      (Cert.KernelIdeal.Fr.run (F := Ideal) m ρ)
  · exact (θ_run Cert.ReferenceIdeal.defs _ _).mono (fun r h c => ⟨
      (h c Cert.ReferenceIdeal.main_v291).trans (by rw [Cert.Val.RC.after_ops]; exact (Cert.Val.Sim.s29_result (H c)).symm),
      (h c Cert.ReferenceIdeal.main_arg0).trans (by rw [Cert.Val.RC.after_ops]; exact Cert.Val.RC.yK9_0 m' c),
      (h c Cert.ReferenceIdeal.main_arg1).trans (by rw [Cert.Val.RC.after_ops]; exact Cert.Val.RC.yK9_1 m' c),
      (h c Cert.ReferenceIdeal.main_arg2).trans (by rw [Cert.Val.RC.after_ops]; exact Cert.Val.RC.yK9_2 m' c),
      (h c Cert.ReferenceIdeal.main_arg3).trans (by rw [Cert.Val.RC.after_ops]; exact Cert.Val.RC.yK9_3 m' c),
      (h c Cert.ReferenceIdeal.main_arg4).trans (by rw [Cert.Val.RC.after_ops]; exact Cert.Val.RC.yK9_4 m' c),
      (h c Cert.ReferenceIdeal.main_arg5).trans (by rw [Cert.Val.RC.after_ops]; exact Cert.Val.RC.yK9_5 m' c),
      (h c Cert.ReferenceIdeal.main_arg6).trans (by rw [Cert.Val.RC.after_ops]; exact Cert.Val.RC.yK9_6 m' c),
      (h c Cert.ReferenceIdeal.main_arg7).trans (by rw [Cert.Val.RC.after_ops]; exact Cert.Val.RC.yK9_7 m' c),
      (h c Cert.ReferenceIdeal.main_arg8).trans (by rw [Cert.Val.RC.after_ops]; exact Cert.Val.RC.yK9_8 m' c),
      (h c Cert.ReferenceIdeal.main_arg9).trans (by rw [Cert.Val.RC.after_ops]; exact Cert.Val.RC.yK9_9 m' c),
      (h c Cert.ReferenceIdeal.main_arg10).trans (by rw [Cert.Val.RC.after_ops]; exact Cert.Val.RC.yK9_10 m' c),
      (h c Cert.ReferenceIdeal.main_arg11).trans (by rw [Cert.Val.RC.after_ops]; exact Cert.Val.RC.yK9_11 m' c),
      (h c Cert.ReferenceIdeal.main_arg12).trans (by rw [Cert.Val.RC.after_ops]; exact Cert.Val.RC.yK9_12 m' c),
      (h c Cert.ReferenceIdeal.main_arg13).trans (by rw [Cert.Val.RC.after_ops]; exact Cert.Val.RC.yK9_13 m' c),
      (h c Cert.ReferenceIdeal.main_arg14).trans (by rw [Cert.Val.RC.after_ops]; exact Cert.Val.RC.yK9_14 m' c),
      (h c Cert.ReferenceIdeal.main_arg15).trans (by rw [Cert.Val.RC.after_ops]; exact Cert.Val.RC.yK9_15 m' c)⟩)
      (Cert.ReferenceIdeal.ValueP.runP (F := Ideal) m' ρ')

theorem claim : Cert.Claim := ⟨Cert.Kernel.Gen.facts, Cert.KernelIdeal.Gen.facts, Cert.ReferenceIdeal.Gen.facts, Cert.Pre_finite_inputs.Gen.facts,
  fun m ρ _ => Cert.Kernel.Fr.frame m ρ,
  fun m ρ _ => Cert.KernelIdeal.Fr.frame m ρ,
  frame_ri,
  trivial,
  algebraic⟩

end Cert.Proof

end
